-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v158)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v158) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v264) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x16 : Shape := ⟨2, ![50000, 16]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S3x3x64x64 : Shape := ⟨4, ![3, 3, 64, 64]⟩
abbrev S3x64 : Shape := ⟨2, ![3, 64]⟩
abbrev S64x4 : Shape := ⟨2, ![64, 4]⟩
abbrev S4 : Shape := ⟨1, ![4]⟩
abbrev S_ : Shape := ⟨0, ![]⟩

class Facts : Prop where
  bcast_S_S50000x16 : S_.BroadcastsInDim S50000x16 (![] : Fin 0 → Fin S50000x16.rank)
  reducesTo_S50000x16_S_d0_1 : S50000x16.ReducesTo [0, 1] S_
  h_S_ : 0 < S_.numel
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S3x3x64x64 : S_.BroadcastsInDim S3x3x64x64 (![] : Fin 0 → Fin S3x3x64x64.rank)
  reducesTo_S3x3x64x64_S_d0_1_2_3 : S3x3x64x64.ReducesTo [0, 1, 2, 3] S_
  bcast_S_S3x64 : S_.BroadcastsInDim S3x64 (![] : Fin 0 → Fin S3x64.rank)
  reducesTo_S3x64_S_d0_1 : S3x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_

variable [Facts]

def fn_part2 {F : FTy → Type} [FloatOps F] (main_arg9 : FVec F S64x4 .f32) (main_arg10 : FVec F S4 .f32) (main_v33 : IVec S_ 1) : IVec S_ 1 :=
  let main_v34 : FVec F S64x4 .f32 := Host.absf main_arg9
  let main_cst_12 : FVec F S_ .f32 := constant S_ .f32 0x7F800000#32
  let main_v35 : FVec F S64x4 .f32 := broadcastInDim S64x4 ![] bcast_S_S64x4 main_cst_12
  let main_v36 : IVec S64x4 1 := cmpf .olt main_v34 main_v35
  let main_c_13 : IVec S_ 1 := constantI S_ 1 1#1
  let main_v37 : IVec S_ 1 := (fun x v => Host.reduce IntOp.andi x v reducesTo_S64x4_S_d0_1 h_S_) main_v36 main_c_13
  let main_v38 : IVec S_ 1 := andi main_v33 main_v37
  let main_v39 : FVec F S4 .f32 := Host.absf main_arg10
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  main_v43

def fn_part1 {F : FTy → Type} [FloatOps F] (main_arg6 : FVec F S3x64 .f32) (main_arg7 : FVec F S3x64 .f32) (main_arg8 : FVec F S3x64 .f32) (main_arg9 : FVec F S64x4 .f32) (main_arg10 : FVec F S4 .f32) (main_v13 : IVec S_ 1) (main_v16 : IVec S3x3x64x64 1) : IVec S_ 1 :=
  let main_c_5 : IVec S_ 1 := constantI S_ 1 1#1
  let main_v17 : IVec S_ 1 := (fun x v => Host.reduce IntOp.andi x v reducesTo_S3x3x64x64_S_d0_1_2_3 h_S_) main_v16 main_c_5
  let main_v18 : IVec S_ 1 := andi main_v13 main_v17
  let main_v19 : FVec F S3x64 .f32 := Host.absf main_arg6
  let main_cst_6 : FVec F S_ .f32 := constant S_ .f32 0x7F800000#32
  let main_v20 : FVec F S3x64 .f32 := broadcastInDim S3x64 ![] bcast_S_S3x64 main_cst_6
  let main_v21 : IVec S3x64 1 := cmpf .olt main_v19 main_v20
  let main_c_7 : IVec S_ 1 := constantI S_ 1 1#1
  let main_v22 : IVec S_ 1 := (fun x v => Host.reduce IntOp.andi x v reducesTo_S3x64_S_d0_1 h_S_) main_v21 main_c_7
  let main_v23 : IVec S_ 1 := andi main_v18 main_v22
  let main_v24 : FVec F S3x64 .f32 := Host.absf main_arg7
  let main_cst_8 : FVec F S_ .f32 := constant S_ .f32 0x7F800000#32
  let main_v25 : FVec F S3x64 .f32 := broadcastInDim S3x64 ![] bcast_S_S3x64 main_cst_8
  let main_v26 : IVec S3x64 1 := cmpf .olt main_v24 main_v25
  let main_c_9 : IVec S_ 1 := constantI S_ 1 1#1
  let main_v27 : IVec S_ 1 := (fun x v => Host.reduce IntOp.andi x v reducesTo_S3x64_S_d0_1 h_S_) main_v26 main_c_9
  let main_v28 : IVec S_ 1 := andi main_v23 main_v27
  let main_v29 : FVec F S3x64 .f32 := Host.absf main_arg8
  let main_cst_10 : FVec F S_ .f32 := constant S_ .f32 0x7F800000#32
  let main_v30 : FVec F S3x64 .f32 := broadcastInDim S3x64 ![] bcast_S_S3x64 main_cst_10
  let main_v31 : IVec S3x64 1 := cmpf .olt main_v29 main_v30
  let main_c_11 : IVec S_ 1 := constantI S_ 1 1#1
  let main_v32 : IVec S_ 1 := (fun x v => Host.reduce IntOp.andi x v reducesTo_S3x64_S_d0_1 h_S_) main_v31 main_c_11
  let main_v33 : IVec S_ 1 := andi main_v28 main_v32
  fn_part2 (F := F) main_arg9 main_arg10 main_v33

def fn {F : FTy → Type} [FloatOps F] (main_arg0 : FVec F S50000x16 .f32) (main_arg1 : IVec S2x800000 32) (main_arg2 : IVec S50000 32) (main_arg3 : FVec F S16x64 .f32) (main_arg4 : FVec F S64 .f32) (main_arg5 : FVec F S3x3x64x64 .f32) (main_arg6 : FVec F S3x64 .f32) (main_arg7 : FVec F S3x64 .f32) (main_arg8 : FVec F S3x64 .f32) (main_arg9 : FVec F S64x4 .f32) (main_arg10 : FVec F S4 .f32) : IVec S_ 1 :=
  let main_v0 : FVec F S50000x16 .f32 := Host.absf main_arg0
  let main_cst : FVec F S_ .f32 := constant S_ .f32 0x7F800000#32
  let main_v1 : FVec F S50000x16 .f32 := broadcastInDim S50000x16 ![] bcast_S_S50000x16 main_cst
  let main_v2 : IVec S50000x16 1 := cmpf .olt main_v0 main_v1
  let main_c : IVec S_ 1 := constantI S_ 1 1#1
  let main_v3 : IVec S_ 1 := (fun x v => Host.reduce IntOp.andi x v reducesTo_S50000x16_S_d0_1 h_S_) main_v2 main_c
  let main_v4 : FVec F S16x64 .f32 := Host.absf main_arg3
  let main_cst_0 : FVec F S_ .f32 := constant S_ .f32 0x7F800000#32
  let main_v5 : FVec F S16x64 .f32 := broadcastInDim S16x64 ![] bcast_S_S16x64 main_cst_0
  let main_v6 : IVec S16x64 1 := cmpf .olt main_v4 main_v5
  let main_c_1 : IVec S_ 1 := constantI S_ 1 1#1
  let main_v7 : IVec S_ 1 := (fun x v => Host.reduce IntOp.andi x v reducesTo_S16x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S3x3x64x64 .f32 := Host.absf main_arg5
  let main_cst_4 : FVec F S_ .f32 := constant S_ .f32 0x7F800000#32
  let main_v15 : FVec F S3x3x64x64 .f32 := broadcastInDim S3x3x64x64 ![] bcast_S_S3x3x64x64 main_cst_4
  let main_v16 : IVec S3x3x64x64 1 := cmpf .olt main_v14 main_v15
  fn_part1 (F := F) main_arg6 main_arg7 main_arg8 main_arg9 main_arg10 main_v13 main_v16
-- ==== Kernel.lean ====
abbrev S50000x16 : Shape := ⟨2, ![50000, 16]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S3x3x64x64 : Shape := ⟨4, ![3, 3, 64, 64]⟩
abbrev S3x64 : Shape := ⟨2, ![3, 64]⟩
abbrev S64x4 : Shape := ⟨2, ![64, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1x64 : Shape := ⟨2, ![1, 64]⟩
abbrev S50000x64 : Shape := ⟨2, ![50000, 64]⟩
abbrev S5000x16 : Shape := ⟨2, ![5000, 16]⟩
abbrev S5000x64 : Shape := ⟨2, ![5000, 64]⟩
abbrev S800000x64 : Shape := ⟨2, ![800000, 64]⟩
abbrev S1x3x64x64 : Shape := ⟨4, ![1, 3, 64, 64]⟩
abbrev S3x64x64 : Shape := ⟨3, ![3, 64, 64]⟩
abbrev S1x64x64 : Shape := ⟨3, ![1, 64, 64]⟩
abbrev S64x64 : Shape := ⟨2, ![64, 64]⟩
abbrev S5000 : Shape := ⟨1, ![5000]⟩
abbrev S5000x1 : Shape := ⟨2, ![5000, 1]⟩
abbrev S1x4 : Shape := ⟨2, ![1, 4]⟩
abbrev S50000x4 : Shape := ⟨2, ![50000, 4]⟩
abbrev S5000x4 : Shape := ⟨2, ![5000, 4]⟩

abbrev nBuf : Space → Nat
  | .hbm => 203
  | .vmem => 48
  | .smem => 0
  | _ => 0

abbrev hbmTy0_0 (i : Nat) : BufTy := match i % 128 with
  | 0 => ⟨S50000x16, .f32⟩
  | 1 => ⟨S2x800000, .i32⟩
  | 2 => ⟨S50000, .i32⟩
  | 3 => ⟨S16x64, .f32⟩
  | 4 => ⟨S64, .f32⟩
  | 5 => ⟨S3x3x64x64, .f32⟩
  | 6 => ⟨S3x64, .f32⟩
  | 7 => ⟨S3x64, .f32⟩
  | 8 => ⟨S3x64, .f32⟩
  | 9 => ⟨S64x4, .f32⟩
  | 10 => ⟨S4, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S1x64, .f32⟩
  | 56 => ⟨S50000x64, .f32⟩
  | 57 => ⟨S800000x1, .f32⟩
  | 58 => ⟨S_, .i32⟩
  | 59 => ⟨S800000, .i32⟩
  | 60 => ⟨S800000, .i1⟩
  | 61 => ⟨S_, .i32⟩
  | 62 => ⟨S800000, .i32⟩
  | 63 => ⟨S800000, .i32⟩
  | 64 => ⟨S800000, .i32⟩
  | 65 => ⟨S800000x1, .i32⟩
  | 66 => ⟨S800000x64, .f32⟩
  | 67 => ⟨S800000x64, .f32⟩
  | 68 => ⟨S800000x64, .f32⟩
  | 69 => ⟨S_, .f32⟩
  | 70 => ⟨S50000x64, .f32⟩
  | 71 => ⟨S800000x1, .i32⟩
  | 72 => ⟨S50000x64, .f32⟩
  | 73 => ⟨S800000x1, .f32⟩
  | 74 => ⟨S_, .i32⟩
  | 75 => ⟨S800000, .i32⟩
  | 76 => ⟨S800000, .i1⟩
  | 77 => ⟨S_, .i32⟩
  | 78 => ⟨S800000, .i32⟩
  | 79 => ⟨S800000, .i32⟩
  | 80 => ⟨S800000, .i32⟩
  | 81 => ⟨S800000x1, .i32⟩
  | 82 => ⟨S800000x64, .f32⟩
  | 83 => ⟨S800000x64, .f32⟩
  | 84 => ⟨S800000x64, .f32⟩
  | 85 => ⟨S_, .f32⟩
  | 86 => ⟨S50000x64, .f32⟩
  | 87 => ⟨S800000x1, .i32⟩
  | 88 => ⟨S50000x64, .f32⟩
  | 89 => ⟨S_, .f32⟩
  | 90 => ⟨S50000x64, .f32⟩
  | 91 => ⟨S50000x64, .f32⟩
  | 92 => ⟨S50000x64, .f32⟩
  | 93 => ⟨S1x3x64x64, .f32⟩
  | 94 => ⟨S3x64x64, .f32⟩
  | 95 => ⟨S1x64, .f32⟩
  | 96 => ⟨S64, .f32⟩
  | 97 => ⟨S1x64, .f32⟩
  | 98 => ⟨S64, .f32⟩
  | 99 => ⟨S1x64, .f32⟩
  | 100 => ⟨S64, .f32⟩
  | 101 => ⟨S1x64, .f32⟩
  | 102 => ⟨S1x64, .f32⟩
  | 103 => ⟨S1x64, .f32⟩
  | 104 => ⟨S50000x64, .f32⟩
  | 105 => ⟨S800000x1, .f32⟩
  | 106 => ⟨S_, .i32⟩
  | 107 => ⟨S800000, .i32⟩
  | 108 => ⟨S800000, .i1⟩
  | 109 => ⟨S_, .i32⟩
  | 110 => ⟨S800000, .i32⟩
  | 111 => ⟨S800000, .i32⟩
  | 112 => ⟨S800000, .i32⟩
  | 113 => ⟨S800000x1, .i32⟩
  | 114 => ⟨S800000x64, .f32⟩
  | 115 => ⟨S800000x64, .f32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S800000x1, .f32⟩
  | 122 => ⟨S_, .i32⟩
  | 123 => ⟨S800000, .i32⟩
  | 124 => ⟨S800000, .i1⟩
  | 125 => ⟨S_, .i32⟩
  | 126 => ⟨S800000, .i32⟩
  | 127 => ⟨S800000, .i32⟩
  | _ => ⟨S50000x16, .f32⟩

abbrev hbmTy0_1 (i : Nat) : BufTy := match i % 128 with
  | 0 => ⟨S800000, .i32⟩
  | 1 => ⟨S800000x1, .i32⟩
  | 2 => ⟨S800000x64, .f32⟩
  | 3 => ⟨S800000x64, .f32⟩
  | 4 => ⟨S800000x64, .f32⟩
  | 5 => ⟨S_, .f32⟩
  | 6 => ⟨S50000x64, .f32⟩
  | 7 => ⟨S800000x1, .i32⟩
  | 8 => ⟨S50000x64, .f32⟩
  | 9 => ⟨S_, .f32⟩
  | 10 => ⟨S50000x64, .f32⟩
  | 11 => ⟨S50000x64, .f32⟩
  | 12 => ⟨S50000x64, .f32⟩
  | 13 => ⟨S1x3x64x64, .f32⟩
  | 14 => ⟨S3x64x64, .f32⟩
  | 15 => ⟨S1x64, .f32⟩
  | 16 => ⟨S64, .f32⟩
  | 17 => ⟨S1x64, .f32⟩
  | 18 => ⟨S64, .f32⟩
  | 19 => ⟨S1x64, .f32⟩
  | 20 => ⟨S64, .f32⟩
  | 21 => ⟨S1x64, .f32⟩
  | 22 => ⟨S1x64, .f32⟩
  | 23 => ⟨S1x64, .f32⟩
  | 24 => ⟨S50000x64, .f32⟩
  | 25 => ⟨S800000x1, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x64, .f32⟩
  | 35 => ⟨S800000x64, .f32⟩
  | 36 => ⟨S800000x64, .f32⟩
  | 37 => ⟨S_, .f32⟩
  | 38 => ⟨S50000x64, .f32⟩
  | 39 => ⟨S800000x1, .i32⟩
  | 40 => ⟨S50000x64, .f32⟩
  | 41 => ⟨S800000x1, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S800000x64, .f32⟩
  | 51 => ⟨S800000x64, .f32⟩
  | 52 => ⟨S800000x64, .f32⟩
  | 53 => ⟨S_, .f32⟩
  | 54 => ⟨S50000x64, .f32⟩
  | 55 => ⟨S800000x1, .i32⟩
  | 56 => ⟨S50000x64, .f32⟩
  | 57 => ⟨S_, .f32⟩
  | 58 => ⟨S50000x64, .f32⟩
  | 59 => ⟨S50000x64, .f32⟩
  | 60 => ⟨S50000x64, .f32⟩
  | 61 => ⟨S1x3x64x64, .f32⟩
  | 62 => ⟨S3x64x64, .f32⟩
  | 63 => ⟨S1x64, .f32⟩
  | 64 => ⟨S64, .f32⟩
  | 65 => ⟨S1x64, .f32⟩
  | 66 => ⟨S64, .f32⟩
  | 67 => ⟨S1x64, .f32⟩
  | 68 => ⟨S64, .f32⟩
  | 69 => ⟨S1x64, .f32⟩
  | 70 => ⟨S1x64, .f32⟩
  | 71 => ⟨S1x64, .f32⟩
  | 72 => ⟨S50000x64, .f32⟩
  | 73 => ⟨S1x4, .f32⟩
  | 74 => ⟨S50000x4, .f32⟩
  | _ => ⟨S50000x16, .f32⟩

abbrev hbmTy (i : Nat) : BufTy := match i / 128 with
  | 0 => hbmTy0_0 i
  | 1 => hbmTy0_1 i
  | _ => ⟨S50000x16, .f32⟩

abbrev bufTy : (tb : Table) → Fin (tcTables nBuf tb) → BufTy
  | .hbm, ⟨i, _⟩ => hbmTy i
  | .local _ .vmem, ⟨0, _⟩ => ⟨S5000x16, .f32⟩
  | .local _ .vmem, ⟨1, _⟩ => ⟨S5000x16, .f32⟩
  | .local _ .vmem, ⟨2, _⟩ => ⟨S16x64, .f32⟩
  | .local _ .vmem, ⟨3, _⟩ => ⟨S1x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S3x64x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S5000x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S3x64x64, .f32⟩
  | .local _ .vmem, ⟨25, _⟩ => ⟨S1x64, .f32⟩
  | .local _ .vmem, ⟨26, _⟩ => ⟨S1x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S3x64x64, .f32⟩
  | .local _ .vmem, ⟨37, _⟩ => ⟨S1x64, .f32⟩
  | .local _ .vmem, ⟨38, _⟩ => ⟨S1x64, .f32⟩
  | .local _ .vmem, ⟨39, _⟩ => ⟨S1x64, .f32⟩
  | .local _ .vmem, ⟨40, _⟩ => ⟨S5000x64, .f32⟩
  | .local _ .vmem, ⟨41, _⟩ => ⟨S5000x64, .f32⟩
  | .local _ .vmem, ⟨42, _⟩ => ⟨S5000x64, .f32⟩
  | .local _ .vmem, ⟨43, _⟩ => ⟨S5000x64, .f32⟩
  | .local _ .vmem, ⟨44, _⟩ => ⟨S64x4, .f32⟩
  | .local _ .vmem, ⟨45, _⟩ => ⟨S1x4, .f32⟩
  | .local _ .vmem, ⟨46, _⟩ => ⟨S5000x4, .f32⟩
  | .local _ .vmem, ⟨47, _⟩ => ⟨S5000x4, .f32⟩
  | _, _ => ⟨S50000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_c_9 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_cst_10 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_c_11 : Ref sig .tc := ⟨.hbm, 74, rfl⟩
abbrev main_v48 : Ref sig .tc := ⟨.hbm, 75, rfl⟩
abbrev main_v49 : Ref sig .tc := ⟨.hbm, 76, rfl⟩
abbrev main_c_12 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_cst_13 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_cst_14 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_c_15 : Ref sig .tc := ⟨.hbm, 106, rfl⟩
abbrev main_v76 : Ref sig .tc := ⟨.hbm, 107, rfl⟩
abbrev main_v77 : Ref sig .tc := ⟨.hbm, 108, rfl⟩
abbrev main_c_16 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_cst_17 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_c_18 : Ref sig .tc := ⟨.hbm, 122, rfl⟩
abbrev main_v89 : Ref sig .tc := ⟨.hbm, 123, rfl⟩
abbrev main_v90 : Ref sig .tc := ⟨.hbm, 124, rfl⟩
abbrev main_c_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_cst_21 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_c_22 : Ref sig .tc := ⟨.hbm, 154, rfl⟩
abbrev main_v117 : Ref sig .tc := ⟨.hbm, 155, rfl⟩
abbrev main_v118 : Ref sig .tc := ⟨.hbm, 156, rfl⟩
abbrev main_c_23 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_cst_24 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_c_25 : Ref sig .tc := ⟨.hbm, 170, rfl⟩
abbrev main_v130 : Ref sig .tc := ⟨.hbm, 171, rfl⟩
abbrev main_v131 : Ref sig .tc := ⟨.hbm, 172, rfl⟩
abbrev main_c_26 : Ref sig .tc := ⟨.hbm, 173, rfl⟩
abbrev main_v132 : Ref sig .tc := ⟨.hbm, 174, rfl⟩
abbrev main_v133 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_cst_27 : Ref sig .tc := ⟨.hbm, 181, rfl⟩
abbrev main_v139 : Ref sig .tc := ⟨.hbm, 182, rfl⟩
abbrev main_v140 : Ref sig .tc := ⟨.hbm, 183, rfl⟩
abbrev main_v141 : Ref sig .tc := ⟨.hbm, 184, rfl⟩
abbrev main_cst_28 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg6_0 : Ref sig .tc := ⟨.vmem, 15, rfl⟩
abbrev cc1_stg7_0 : Ref sig .tc := ⟨.vmem, 16, rfl⟩
abbrev cc1_stg7_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg7_1 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem4_0 : DmaSem sig := 13
abbrev cc1_sem5_0 : DmaSem sig := 14
abbrev cc1_sem6_0 : DmaSem sig := 15
abbrev cc1_sem7_0 : DmaSem sig := 16
abbrev cc1_sem7_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem7_1 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S3x64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S3x64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S3x64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x64 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x64 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 2 → Memref sig .tc .vmem S5000x64 .f32 := fun | 0 => Memref.whole cc3_stg7_0 | 1 => Memref.whole cc3_stg7_1 | ⟨_ + 2, h⟩ => absurd h (Nat.not_lt.2 (Nat.le_add_left _ _))
abbrev sem3_7 : Fin 2 → DmaSem sig := fun | 0 => cc3_sem7_0 | 1 => cc3_sem7_1 | ⟨_ + 2, h⟩ => absurd h (Nat.not_lt.2 (Nat.le_add_left _ _))
abbrev reads3_7 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x4 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x4 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S5000x4 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S64_S1x64 : S64.ShapeCasts S1x64
  inb_S5000x16_S5000x16_0_0 : ∀ a, (![0, 0] : Fin 2 → Nat) a + S5000x16.size a ≤ S5000x16.size a
  h_S5000x16 : 0 < S5000x16.numel
  bitsLt_bf16_f32 : FTy.bits .bf16 < FTy.bits .f32
  inb_S16x64_S16x64_0_0 : ∀ a, (![0, 0] : Fin 2 → Nat) a + S16x64.size a ≤ S16x64.size a
  h_S16x64 : 0 < S16x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x3x64x64_S1x3x64x64_0_0_0_0 : S3x3x64x64.Slices ![0, 0, 0, 0] S1x3x64x64
  shapeCasts_S1x3x64x64_S3x64x64 : S1x3x64x64.ShapeCasts S3x64x64
  slices_S3x64_S1x64_0_0 : S3x64.Slices ![0, 0] S1x64
  shapeCasts_S1x64_S64 : S1x64.ShapeCasts S64
  shapeCasts_S5000x64_S5000x64 : S5000x64.ShapeCasts S5000x64
  inb_S3x64x64_S1x64x64_0_0_0 : ∀ a, (![0, 0, 0] : Fin 3 → Nat) a + S1x64x64.size a ≤ S3x64x64.size a
  h_S1x64x64 : 0 < S1x64x64.numel
  shapeCasts_S1x64x64_S64x64 : S1x64x64.ShapeCasts S64x64
  inb_S3x64x64_S1x64x64_1_0_0 : ∀ a, (![1, 0, 0] : Fin 3 → Nat) a + S1x64x64.size a ≤ S3x64x64.size a
  inb_S3x64x64_S1x64x64_2_0_0 : ∀ a, (![2, 0, 0] : Fin 3 → Nat) a + S1x64x64.size a ≤ S3x64x64.size a
  reduces_S5000x64_S5000 : S5000x64.Reduces [1] S5000
  shapeCasts_S5000_S5000x1 : S5000.ShapeCasts S5000x1
  broadcasts_S5000x1_S5000x64 : S5000x1.Broadcasts S5000x64
  slices_S3x3x64x64_S1x3x64x64_1_0_0_0 : S3x3x64x64.Slices ![1, 0, 0, 0] S1x3x64x64
  slices_S3x64_S1x64_1_0 : S3x64.Slices ![1, 0] S1x64
  slices_S3x3x64x64_S1x3x64x64_2_0_0_0 : S3x3x64x64.Slices ![2, 0, 0, 0] S1x3x64x64
  slices_S3x64_S1x64_2_0 : S3x64.Slices ![2, 0] S1x64
  shapeCasts_S4_S1x4 : S4.ShapeCasts S1x4
  inb_S64x4_S64x4_0_0 : ∀ a, (![0, 0] : Fin 2 → Nat) a + S64x4.size a ≤ S64x4.size a
  h_S64x4 : 0 < S64x4.numel
  inb_S1x4_S1x4_0_0 : ∀ a, (![0, 0] : Fin 2 → Nat) a + S1x4.size a ≤ S1x4.size a
  h_S1x4 : 0 < S1x4.numel
  shapeCasts_S1x4_S1x4 : S1x4.ShapeCasts S1x4
  broadcasts_S1x4_S5000x4 : S1x4.Broadcasts S5000x4
  inb_S5000x4_S5000x4_0_0 : ∀ a, (![0, 0] : Fin 2 → Nat) a + S5000x4.size a ≤ S5000x4.size a
  h_S5000x4 : 0 < S5000x4.numel
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S5000x16_S16x64_S5000x64_1_0_0_1_n_n_wf : DotDims.WF S5000x16 S16x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x64_S5000x64_1_0_0_1_n_n_wf : DotDims.WF S5000x64 S64x64 S5000x64 [1] [0] [0] [1] [] []
  dot_S5000x64_S64x4_S5000x4_1_0_0_1_n_n_wf : DotDims.WF S5000x64 S64x4 S5000x4 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x16.size a ≤ S50000x16.size a
  hwx0_0 : ∀ i : grid0.Coords, EltTy.bits .f32 = 32 ∨ (Rect.block (s := S50000x16) S5000x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x64.size a ≤ S16x64.size a
  hwx0_1 : ∀ i : grid0.Coords, EltTy.bits .f32 = 32 ∨ (Rect.block (s := S16x64) S16x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x64.size a ≤ S50000x64.size a
  hwx0_3 : ∀ i : grid0.Coords, EltTy.bits .f32 = 32 ∨ (Rect.block (s := S50000x64) S5000x64.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S50000x64.size a
  hwx1_1 : ∀ i : grid1.Coords, EltTy.bits .f32 = 32 ∨ (Rect.block (s := S50000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S3x64x64.size a ≤ S3x64x64.size a
  hwx1_3 : ∀ i : grid1.Coords, EltTy.bits .f32 = 32 ∨ (Rect.block (s := S3x64x64) S3x64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x64.size a ≤ S1x64.size a
  hwx1_6 : ∀ i : grid1.Coords, EltTy.bits .f32 = 32 ∨ (Rect.block (s := S1x64) S1x64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x64.size a ≤ S50000x64.size a
  hwx1_7 : ∀ i : grid1.Coords, EltTy.bits .f32 = 32 ∨ (Rect.block (s := S50000x64) S5000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S50000x64.size a
  hwx2_2 : ∀ i : grid2.Coords, EltTy.bits .f32 = 32 ∨ (Rect.block (s := S50000x64) S5000x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S3x64x64.size a ≤ S3x64x64.size a
  hwx2_3 : ∀ i : grid2.Coords, EltTy.bits .f32 = 32 ∨ (Rect.block (s := S3x64x64) S3x64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S50000x64.size a
  hwx3_1 : ∀ i : grid3.Coords, EltTy.bits .f32 = 32 ∨ (Rect.block (s := S50000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S3x64x64.size a ≤ S3x64x64.size a
  hwx3_3 : ∀ i : grid3.Coords, EltTy.bits .f32 = 32 ∨ (Rect.block (s := S3x64x64) S3x64x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S1x64.size a ≤ S1x64.size a
  hwx3_5 : ∀ i : grid3.Coords, EltTy.bits .f32 = 32 ∨ (Rect.block (s := S1x64) S1x64.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S1x64.size a ≤ S1x64.size a
  hwx3_6 : ∀ i : grid3.Coords, EltTy.bits .f32 = 32 ∨ (Rect.block (s := S1x64) S1x64.size (cc3_transform_6 i) (hinb3_6 i)).WholeWords (EltTy.packing .f32)
  hstage3_7 : ∀ j, (stage3_7 j).IsWhole
  nbuf3_7 : grid3.bufCount reads3_7 false = 2
  hreads3_7 : ∀ i i' : grid3.Coords, (∀ a, reads3_7 a = true → i a = i' a) → cc3_transform_7 i = cc3_transform_7 i'
  hinb3_7 : ∀ (i : grid3.Coords) a, (cc3_transform_7 i a + 1) * S5000x64.size a ≤ S50000x64.size a
  hwx3_7 : ∀ i : grid3.Coords, EltTy.bits .f32 = 32 ∨ (Rect.block (s := S50000x64) S5000x64.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x4.size a ≤ S64x4.size a
  hwx4_1 : ∀ i : grid4.Coords, EltTy.bits .f32 = 32 ∨ (Rect.block (s := S64x4) S64x4.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x4.size a ≤ S1x4.size a
  hwx4_2 : ∀ i : grid4.Coords, EltTy.bits .f32 = 32 ∨ (Rect.block (s := S1x4) S1x4.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S5000x4.size a ≤ S50000x4.size a
  hwx4_3 : ∀ i : grid4.Coords, EltTy.bits .f32 = 32 ∨ (Rect.block (s := S50000x4) S5000x4.size (cc4_transform_3 i) (hinb4_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S5000x16_S16x64_S5000x64_1_0_0_1_n_n : DotDims S5000x16 S16x64 S5000x64 where
  lhsContracting := [1]
  rhsContracting := [0]
  lhsNonContracting := [0]
  rhsNonContracting := [1]
  lhsBatch := []
  rhsBatch := []
  wf := dot_S5000x16_S16x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x4_S5000x4_1_0_0_1_n_n : DotDims S5000x64 S64x4 S5000x4 where
  lhsContracting := [1]
  rhsContracting := [0]
  lhsNonContracting := [0]
  rhsNonContracting := [1]
  lhsBatch := []
  rhsBatch := []
  wf := dot_S5000x64_S64x4_S5000x4_1_0_0_1_n_n_wf

abbrev win0_0 : Pipeline.Window sig grid0 :=
  Pipeline.Window.ofSpec (Memref.whole main_arg0) S5000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S16x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v33) S5000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v62) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v64) S3x64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v71) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v72) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v73) S1x64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v74) S5000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v74) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v87) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v103) S5000x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v105) S3x64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v112) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v113) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v114) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v115) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v115) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v128) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v144) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v146) S3x64x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v153) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v154) S1x64.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_v155) S1x64.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_v156) S5000x64.size cc3_transform_7 reads3_7 true false 2 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v156) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg9) S64x4.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v157) S1x4.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v158) S5000x4.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S50000x16 : Shape := ⟨2, ![50000, 16]⟩
abbrev S2x800000 : Shape := ⟨2, ![2, 800000]⟩
abbrev S50000 : Shape := ⟨1, ![50000]⟩
abbrev S16x64 : Shape := ⟨2, ![16, 64]⟩
abbrev S64 : Shape := ⟨1, ![64]⟩
abbrev S3x3x64x64 : Shape := ⟨4, ![3, 3, 64, 64]⟩
abbrev S3x64 : Shape := ⟨2, ![3, 64]⟩
abbrev S64x4 : Shape := ⟨2, ![64, 4]⟩
abbrev S4 : Shape := ⟨1, ![4]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x64 : Shape := ⟨2, ![50000, 64]⟩
abbrev S1x64 : Shape := ⟨2, ![1, 64]⟩
abbrev S1x1x64x64 : Shape := ⟨4, ![1, 1, 64, 64]⟩
abbrev S64x64 : Shape := ⟨2, ![64, 64]⟩
abbrev S800000x64 : Shape := ⟨2, ![800000, 64]⟩
abbrev S50000x1 : Shape := ⟨2, ![50000, 1]⟩
abbrev S50000x4 : Shape := ⟨2, ![50000, 4]⟩
abbrev S1x4 : Shape := ⟨2, ![1, 4]⟩

abbrev nBuf : Space → Nat
  | .hbm => 330
  | .vmem => 0
  | .smem => 0
  | _ => 0

abbrev hbmTy0_0 (i : Nat) : BufTy := match i % 128 with
  | 0 => ⟨S50000x16, .f32⟩
  | 1 => ⟨S2x800000, .i32⟩
  | 2 => ⟨S50000, .i32⟩
  | 3 => ⟨S16x64, .f32⟩
  | 4 => ⟨S64, .f32⟩
  | 5 => ⟨S3x3x64x64, .f32⟩
  | 6 => ⟨S3x64, .f32⟩
  | 7 => ⟨S3x64, .f32⟩
  | 8 => ⟨S3x64, .f32⟩
  | 9 => ⟨S64x4, .f32⟩
  | 10 => ⟨S4, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .i1⟩
  | 24 => ⟨S_, .f32⟩
  | 25 => ⟨S50000, .f32⟩
  | 26 => ⟨S50000, .f32⟩
  | 27 => ⟨S50000, .f32⟩
  | 28 => ⟨S_, .f32⟩
  | 29 => ⟨S50000, .f32⟩
  | 30 => ⟨S50000, .f32⟩
  | 31 => ⟨S_, .f32⟩
  | 32 => ⟨S_, .f32⟩
  | 33 => ⟨S50000, .f32⟩
  | 34 => ⟨S50000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000, .f32⟩
  | 54 => ⟨S800000, .f32⟩
  | 55 => ⟨S50000x64, .f32⟩
  | 56 => ⟨S1x64, .f32⟩
  | 57 => ⟨S50000x64, .f32⟩
  | 58 => ⟨S50000x64, .f32⟩
  | 59 => ⟨S1x1x64x64, .f32⟩
  | 60 => ⟨S64x64, .f32⟩
  | 61 => ⟨S50000x64, .f32⟩
  | 62 => ⟨S800000x1, .f32⟩
  | 63 => ⟨S_, .i32⟩
  | 64 => ⟨S800000, .i32⟩
  | 65 => ⟨S800000, .i1⟩
  | 66 => ⟨S_, .i32⟩
  | 67 => ⟨S800000, .i32⟩
  | 68 => ⟨S800000, .i32⟩
  | 69 => ⟨S800000, .i32⟩
  | 70 => ⟨S800000x1, .i32⟩
  | 71 => ⟨S800000x64, .f32⟩
  | 72 => ⟨S800000x64, .f32⟩
  | 73 => ⟨S800000x64, .f32⟩
  | 74 => ⟨S_, .f32⟩
  | 75 => ⟨S50000x64, .f32⟩
  | 76 => ⟨S800000x1, .i32⟩
  | 77 => ⟨S50000x64, .f32⟩
  | 78 => ⟨S1x1x64x64, .f32⟩
  | 79 => ⟨S64x64, .f32⟩
  | 80 => ⟨S50000x64, .f32⟩
  | 81 => ⟨S50000x64, .f32⟩
  | 82 => ⟨S800000x1, .f32⟩
  | 83 => ⟨S_, .i32⟩
  | 84 => ⟨S800000, .i32⟩
  | 85 => ⟨S800000, .i1⟩
  | 86 => ⟨S_, .i32⟩
  | 87 => ⟨S800000, .i32⟩
  | 88 => ⟨S800000, .i32⟩
  | 89 => ⟨S800000, .i32⟩
  | 90 => ⟨S800000x1, .i32⟩
  | 91 => ⟨S800000x64, .f32⟩
  | 92 => ⟨S800000x64, .f32⟩
  | 93 => ⟨S800000x64, .f32⟩
  | 94 => ⟨S_, .f32⟩
  | 95 => ⟨S50000x64, .f32⟩
  | 96 => ⟨S800000x1, .i32⟩
  | 97 => ⟨S50000x64, .f32⟩
  | 98 => ⟨S_, .f32⟩
  | 99 => ⟨S50000x64, .f32⟩
  | 100 => ⟨S50000x64, .f32⟩
  | 101 => ⟨S50000x64, .f32⟩
  | 102 => ⟨S1x1x64x64, .f32⟩
  | 103 => ⟨S64x64, .f32⟩
  | 104 => ⟨S50000x64, .f32⟩
  | 105 => ⟨S50000x64, .f32⟩
  | 106 => ⟨S1x64, .f32⟩
  | 107 => ⟨S64, .f32⟩
  | 108 => ⟨S1x64, .f32⟩
  | 109 => ⟨S50000x64, .f32⟩
  | 110 => ⟨S50000x64, .f32⟩
  | 111 => ⟨S_, .f32⟩
  | 112 => ⟨S50000x64, .f32⟩
  | 113 => ⟨S50000x64, .f32⟩
  | 114 => ⟨S50000x64, .f32⟩
  | 115 => ⟨S1x64, .f32⟩
  | 116 => ⟨S64, .f32⟩
  | 117 => ⟨S1x64, .f32⟩
  | 118 => ⟨S64, .f32⟩
  | 119 => ⟨S_, .f32⟩
  | 120 => ⟨S50000, .f32⟩
  | 121 => ⟨S50000x1, .f32⟩
  | 122 => ⟨S_, .f32⟩
  | 123 => ⟨S50000x1, .f32⟩
  | 124 => ⟨S50000x1, .f32⟩
  | 125 => ⟨S50000x64, .f32⟩
  | 126 => ⟨S50000x64, .f32⟩
  | 127 => ⟨S50000x64, .f32⟩
  | _ => ⟨S50000x16, .f32⟩

abbrev hbmTy0_1 (i : Nat) : BufTy := match i % 128 with
  | 0 => ⟨S_, .f32⟩
  | 1 => ⟨S50000, .f32⟩
  | 2 => ⟨S50000x1, .f32⟩
  | 3 => ⟨S_, .f32⟩
  | 4 => ⟨S50000x1, .f32⟩
  | 5 => ⟨S50000x1, .f32⟩
  | 6 => ⟨S50000x64, .f32⟩
  | 7 => ⟨S50000x64, .f32⟩
  | 8 => ⟨S_, .f32⟩
  | 9 => ⟨S50000x1, .f32⟩
  | 10 => ⟨S50000x1, .f32⟩
  | 11 => ⟨S50000x1, .f32⟩
  | 12 => ⟨S50000x64, .f32⟩
  | 13 => ⟨S50000x64, .f32⟩
  | 14 => ⟨S1x64, .f32⟩
  | 15 => ⟨S50000x64, .f32⟩
  | 16 => ⟨S50000x64, .f32⟩
  | 17 => ⟨S1x64, .f32⟩
  | 18 => ⟨S50000x64, .f32⟩
  | 19 => ⟨S50000x64, .f32⟩
  | 20 => ⟨S1x1x64x64, .f32⟩
  | 21 => ⟨S64x64, .f32⟩
  | 22 => ⟨S50000x64, .f32⟩
  | 23 => ⟨S800000x1, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x64, .f32⟩
  | 33 => ⟨S800000x64, .f32⟩
  | 34 => ⟨S800000x64, .f32⟩
  | 35 => ⟨S_, .f32⟩
  | 36 => ⟨S50000x64, .f32⟩
  | 37 => ⟨S800000x1, .i32⟩
  | 38 => ⟨S50000x64, .f32⟩
  | 39 => ⟨S1x1x64x64, .f32⟩
  | 40 => ⟨S64x64, .f32⟩
  | 41 => ⟨S50000x64, .f32⟩
  | 42 => ⟨S50000x64, .f32⟩
  | 43 => ⟨S800000x1, .f32⟩
  | 44 => ⟨S_, .i32⟩
  | 45 => ⟨S800000, .i32⟩
  | 46 => ⟨S800000, .i1⟩
  | 47 => ⟨S_, .i32⟩
  | 48 => ⟨S800000, .i32⟩
  | 49 => ⟨S800000, .i32⟩
  | 50 => ⟨S800000, .i32⟩
  | 51 => ⟨S800000x1, .i32⟩
  | 52 => ⟨S800000x64, .f32⟩
  | 53 => ⟨S800000x64, .f32⟩
  | 54 => ⟨S800000x64, .f32⟩
  | 55 => ⟨S_, .f32⟩
  | 56 => ⟨S50000x64, .f32⟩
  | 57 => ⟨S800000x1, .i32⟩
  | 58 => ⟨S50000x64, .f32⟩
  | 59 => ⟨S_, .f32⟩
  | 60 => ⟨S50000x64, .f32⟩
  | 61 => ⟨S50000x64, .f32⟩
  | 62 => ⟨S50000x64, .f32⟩
  | 63 => ⟨S1x1x64x64, .f32⟩
  | 64 => ⟨S64x64, .f32⟩
  | 65 => ⟨S50000x64, .f32⟩
  | 66 => ⟨S50000x64, .f32⟩
  | 67 => ⟨S1x64, .f32⟩
  | 68 => ⟨S64, .f32⟩
  | 69 => ⟨S1x64, .f32⟩
  | 70 => ⟨S50000x64, .f32⟩
  | 71 => ⟨S50000x64, .f32⟩
  | 72 => ⟨S_, .f32⟩
  | 73 => ⟨S50000x64, .f32⟩
  | 74 => ⟨S50000x64, .f32⟩
  | 75 => ⟨S50000x64, .f32⟩
  | 76 => ⟨S1x64, .f32⟩
  | 77 => ⟨S64, .f32⟩
  | 78 => ⟨S1x64, .f32⟩
  | 79 => ⟨S64, .f32⟩
  | 80 => ⟨S_, .f32⟩
  | 81 => ⟨S50000, .f32⟩
  | 82 => ⟨S50000x1, .f32⟩
  | 83 => ⟨S_, .f32⟩
  | 84 => ⟨S50000x1, .f32⟩
  | 85 => ⟨S50000x1, .f32⟩
  | 86 => ⟨S50000x64, .f32⟩
  | 87 => ⟨S50000x64, .f32⟩
  | 88 => ⟨S50000x64, .f32⟩
  | 89 => ⟨S_, .f32⟩
  | 90 => ⟨S50000, .f32⟩
  | 91 => ⟨S50000x1, .f32⟩
  | 92 => ⟨S_, .f32⟩
  | 93 => ⟨S50000x1, .f32⟩
  | 94 => ⟨S50000x1, .f32⟩
  | 95 => ⟨S50000x64, .f32⟩
  | 96 => ⟨S50000x64, .f32⟩
  | 97 => ⟨S_, .f32⟩
  | 98 => ⟨S50000x1, .f32⟩
  | 99 => ⟨S50000x1, .f32⟩
  | 100 => ⟨S50000x1, .f32⟩
  | 101 => ⟨S50000x64, .f32⟩
  | 102 => ⟨S50000x64, .f32⟩
  | 103 => ⟨S1x64, .f32⟩
  | 104 => ⟨S50000x64, .f32⟩
  | 105 => ⟨S50000x64, .f32⟩
  | 106 => ⟨S1x64, .f32⟩
  | 107 => ⟨S50000x64, .f32⟩
  | 108 => ⟨S50000x64, .f32⟩
  | 109 => ⟨S1x1x64x64, .f32⟩
  | 110 => ⟨S64x64, .f32⟩
  | 111 => ⟨S50000x64, .f32⟩
  | 112 => ⟨S800000x1, .f32⟩
  | 113 => ⟨S_, .i32⟩
  | 114 => ⟨S800000, .i32⟩
  | 115 => ⟨S800000, .i1⟩
  | 116 => ⟨S_, .i32⟩
  | 117 => ⟨S800000, .i32⟩
  | 118 => ⟨S800000, .i32⟩
  | 119 => ⟨S800000, .i32⟩
  | 120 => ⟨S800000x1, .i32⟩
  | 121 => ⟨S800000x64, .f32⟩
  | 122 => ⟨S800000x64, .f32⟩
  | 123 => ⟨S800000x64, .f32⟩
  | 124 => ⟨S_, .f32⟩
  | 125 => ⟨S50000x64, .f32⟩
  | 126 => ⟨S800000x1, .i32⟩
  | 127 => ⟨S50000x64, .f32⟩
  | _ => ⟨S50000x16, .f32⟩

abbrev hbmTy0_2 (i : Nat) : BufTy := match i % 128 with
  | 0 => ⟨S1x1x64x64, .f32⟩
  | 1 => ⟨S64x64, .f32⟩
  | 2 => ⟨S50000x64, .f32⟩
  | 3 => ⟨S50000x64, .f32⟩
  | 4 => ⟨S800000x1, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000x64, .f32⟩
  | 14 => ⟨S800000x64, .f32⟩
  | 15 => ⟨S800000x64, .f32⟩
  | 16 => ⟨S_, .f32⟩
  | 17 => ⟨S50000x64, .f32⟩
  | 18 => ⟨S800000x1, .i32⟩
  | 19 => ⟨S50000x64, .f32⟩
  | 20 => ⟨S_, .f32⟩
  | 21 => ⟨S50000x64, .f32⟩
  | 22 => ⟨S50000x64, .f32⟩
  | 23 => ⟨S50000x64, .f32⟩
  | 24 => ⟨S1x1x64x64, .f32⟩
  | 25 => ⟨S64x64, .f32⟩
  | 26 => ⟨S50000x64, .f32⟩
  | 27 => ⟨S50000x64, .f32⟩
  | 28 => ⟨S1x64, .f32⟩
  | 29 => ⟨S64, .f32⟩
  | 30 => ⟨S1x64, .f32⟩
  | 31 => ⟨S50000x64, .f32⟩
  | 32 => ⟨S50000x64, .f32⟩
  | 33 => ⟨S_, .f32⟩
  | 34 => ⟨S50000x64, .f32⟩
  | 35 => ⟨S50000x64, .f32⟩
  | 36 => ⟨S50000x64, .f32⟩
  | 37 => ⟨S1x64, .f32⟩
  | 38 => ⟨S64, .f32⟩
  | 39 => ⟨S1x64, .f32⟩
  | 40 => ⟨S64, .f32⟩
  | 41 => ⟨S_, .f32⟩
  | 42 => ⟨S50000, .f32⟩
  | 43 => ⟨S50000x1, .f32⟩
  | 44 => ⟨S_, .f32⟩
  | 45 => ⟨S50000x1, .f32⟩
  | 46 => ⟨S50000x1, .f32⟩
  | 47 => ⟨S50000x64, .f32⟩
  | 48 => ⟨S50000x64, .f32⟩
  | 49 => ⟨S50000x64, .f32⟩
  | 50 => ⟨S_, .f32⟩
  | 51 => ⟨S50000, .f32⟩
  | 52 => ⟨S50000x1, .f32⟩
  | 53 => ⟨S_, .f32⟩
  | 54 => ⟨S50000x1, .f32⟩
  | 55 => ⟨S50000x1, .f32⟩
  | 56 => ⟨S50000x64, .f32⟩
  | 57 => ⟨S50000x64, .f32⟩
  | 58 => ⟨S_, .f32⟩
  | 59 => ⟨S50000x1, .f32⟩
  | 60 => ⟨S50000x1, .f32⟩
  | 61 => ⟨S50000x1, .f32⟩
  | 62 => ⟨S50000x64, .f32⟩
  | 63 => ⟨S50000x64, .f32⟩
  | 64 => ⟨S1x64, .f32⟩
  | 65 => ⟨S50000x64, .f32⟩
  | 66 => ⟨S50000x64, .f32⟩
  | 67 => ⟨S1x64, .f32⟩
  | 68 => ⟨S50000x64, .f32⟩
  | 69 => ⟨S50000x64, .f32⟩
  | 70 => ⟨S50000x4, .f32⟩
  | 71 => ⟨S1x4, .f32⟩
  | 72 => ⟨S50000x4, .f32⟩
  | 73 => ⟨S50000x4, .f32⟩
  | _ => ⟨S50000x16, .f32⟩

abbrev hbmTy (i : Nat) : BufTy := match i / 128 with
  | 0 => hbmTy0_0 i
  | 1 => hbmTy0_1 i
  | 2 => hbmTy0_2 i
  | _ => ⟨S50000x16, .f32⟩

abbrev bufTy : (tb : Table) → Fin (tcTables nBuf tb) → BufTy
  | .hbm, ⟨i, _⟩ => hbmTy i
  | _, _ => ⟨S50000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_3 : Ref sig .tc := ⟨.hbm, 28, rfl⟩
abbrev main_v13 : Ref sig .tc := ⟨.hbm, 29, rfl⟩
abbrev main_v14 : Ref sig .tc := ⟨.hbm, 30, rfl⟩
abbrev main_cst_4 : Ref sig .tc := ⟨.hbm, 31, rfl⟩
abbrev main_call0_v0 : Ref sig .tc := ⟨.hbm, 32, rfl⟩
abbrev main_call0_v1 : Ref sig .tc := ⟨.hbm, 33, rfl⟩
abbrev main_v15 : Ref sig .tc := ⟨.hbm, 34, rfl⟩
abbrev main_c : Ref sig .tc := ⟨.hbm, 35, rfl⟩
abbrev main_v16 : Ref sig .tc := ⟨.hbm, 36, rfl⟩
abbrev main_v17 : Ref sig .tc := ⟨.hbm, 37, rfl⟩
abbrev main_c_5 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_c_6 : Ref sig .tc := ⟨.hbm, 45, rfl⟩
abbrev main_v24 : Ref sig .tc := ⟨.hbm, 46, rfl⟩
abbrev main_v25 : Ref sig .tc := ⟨.hbm, 47, rfl⟩
abbrev main_c_7 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_8 : Ref sig .tc := ⟨.hbm, 63, rfl⟩
abbrev main_v40 : Ref sig .tc := ⟨.hbm, 64, rfl⟩
abbrev main_v41 : Ref sig .tc := ⟨.hbm, 65, rfl⟩
abbrev main_c_9 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_c_11 : Ref sig .tc := ⟨.hbm, 83, rfl⟩
abbrev main_v57 : Ref sig .tc := ⟨.hbm, 84, rfl⟩
abbrev main_v58 : Ref sig .tc := ⟨.hbm, 85, rfl⟩
abbrev main_c_12 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_13 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_14 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_call1_cst : Ref sig .tc := ⟨.hbm, 111, rfl⟩
abbrev main_call1_v0 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_15 : Ref sig .tc := ⟨.hbm, 119, rfl⟩
abbrev main_v87 : Ref sig .tc := ⟨.hbm, 120, rfl⟩
abbrev main_v88 : Ref sig .tc := ⟨.hbm, 121, rfl⟩
abbrev main_cst_16 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_cst_17 : Ref sig .tc := ⟨.hbm, 128, rfl⟩
abbrev main_v94 : Ref sig .tc := ⟨.hbm, 129, rfl⟩
abbrev main_v95 : Ref sig .tc := ⟨.hbm, 130, rfl⟩
abbrev main_cst_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_cst_19 : Ref sig .tc := ⟨.hbm, 136, rfl⟩
abbrev main_v100 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_c_20 : Ref sig .tc := ⟨.hbm, 152, rfl⟩
abbrev main_v115 : Ref sig .tc := ⟨.hbm, 153, rfl⟩
abbrev main_v116 : Ref sig .tc := ⟨.hbm, 154, rfl⟩
abbrev main_c_21 : Ref sig .tc := ⟨.hbm, 155, rfl⟩
abbrev main_v117 : Ref sig .tc := ⟨.hbm, 156, rfl⟩
abbrev main_v118 : Ref sig .tc := ⟨.hbm, 157, rfl⟩
abbrev main_v119 : Ref sig .tc := ⟨.hbm, 158, rfl⟩
abbrev main_v120 : Ref sig .tc := ⟨.hbm, 159, rfl⟩
abbrev main_v121 : Ref sig .tc := ⟨.hbm, 160, rfl⟩
abbrev main_v122 : Ref sig .tc := ⟨.hbm, 161, rfl⟩
abbrev main_v123 : Ref sig .tc := ⟨.hbm, 162, rfl⟩
abbrev main_cst_22 : Ref sig .tc := ⟨.hbm, 163, rfl⟩
abbrev main_v124 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_v128 : Ref sig .tc := ⟨.hbm, 168, rfl⟩
abbrev main_v129 : Ref sig .tc := ⟨.hbm, 169, rfl⟩
abbrev main_v130 : Ref sig .tc := ⟨.hbm, 170, rfl⟩
abbrev main_v131 : Ref sig .tc := ⟨.hbm, 171, rfl⟩
abbrev main_c_23 : Ref sig .tc := ⟨.hbm, 172, rfl⟩
abbrev main_v132 : Ref sig .tc := ⟨.hbm, 173, rfl⟩
abbrev main_v133 : Ref sig .tc := ⟨.hbm, 174, rfl⟩
abbrev main_c_24 : Ref sig .tc := ⟨.hbm, 175, rfl⟩
abbrev main_v134 : Ref sig .tc := ⟨.hbm, 176, rfl⟩
abbrev main_v135 : Ref sig .tc := ⟨.hbm, 177, rfl⟩
abbrev main_v136 : Ref sig .tc := ⟨.hbm, 178, rfl⟩
abbrev main_v137 : Ref sig .tc := ⟨.hbm, 179, rfl⟩
abbrev main_v138 : Ref sig .tc := ⟨.hbm, 180, rfl⟩
abbrev main_v139 : Ref sig .tc := ⟨.hbm, 181, rfl⟩
abbrev main_v140 : Ref sig .tc := ⟨.hbm, 182, rfl⟩
abbrev main_cst_25 : Ref sig .tc := ⟨.hbm, 183, rfl⟩
abbrev main_v141 : Ref sig .tc := ⟨.hbm, 184, rfl⟩
abbrev main_v142 : Ref sig .tc := ⟨.hbm, 185, rfl⟩
abbrev main_v143 : Ref sig .tc := ⟨.hbm, 186, rfl⟩
abbrev main_cst_26 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_v147 : Ref sig .tc := ⟨.hbm, 191, rfl⟩
abbrev main_v148 : Ref sig .tc := ⟨.hbm, 192, rfl⟩
abbrev main_v149 : Ref sig .tc := ⟨.hbm, 193, rfl⟩
abbrev main_v150 : Ref sig .tc := ⟨.hbm, 194, rfl⟩
abbrev main_v151 : Ref sig .tc := ⟨.hbm, 195, rfl⟩
abbrev main_v152 : Ref sig .tc := ⟨.hbm, 196, rfl⟩
abbrev main_v153 : Ref sig .tc := ⟨.hbm, 197, rfl⟩
abbrev main_v154 : Ref sig .tc := ⟨.hbm, 198, rfl⟩
abbrev main_v155 : Ref sig .tc := ⟨.hbm, 199, rfl⟩
abbrev main_call2_cst : Ref sig .tc := ⟨.hbm, 200, rfl⟩
abbrev main_call2_v0 : Ref sig .tc := ⟨.hbm, 201, rfl⟩
abbrev main_v156 : Ref sig .tc := ⟨.hbm, 202, rfl⟩
abbrev main_v157 : Ref sig .tc := ⟨.hbm, 203, rfl⟩
abbrev main_v158 : Ref sig .tc := ⟨.hbm, 204, rfl⟩
abbrev main_v159 : Ref sig .tc := ⟨.hbm, 205, rfl⟩
abbrev main_v160 : Ref sig .tc := ⟨.hbm, 206, rfl⟩
abbrev main_v161 : Ref sig .tc := ⟨.hbm, 207, rfl⟩
abbrev main_cst_27 : Ref sig .tc := ⟨.hbm, 208, rfl⟩
abbrev main_v162 : Ref sig .tc := ⟨.hbm, 209, rfl⟩
abbrev main_v163 : Ref sig .tc := ⟨.hbm, 210, rfl⟩
abbrev main_cst_28 : Ref sig .tc := ⟨.hbm, 211, rfl⟩
abbrev main_v164 : Ref sig .tc := ⟨.hbm, 212, rfl⟩
abbrev main_v165 : Ref sig .tc := ⟨.hbm, 213, rfl⟩
abbrev main_v166 : Ref sig .tc := ⟨.hbm, 214, rfl⟩
abbrev main_v167 : Ref sig .tc := ⟨.hbm, 215, rfl⟩
abbrev main_v168 : Ref sig .tc := ⟨.hbm, 216, rfl⟩
abbrev main_cst_29 : Ref sig .tc := ⟨.hbm, 217, rfl⟩
abbrev main_v169 : Ref sig .tc := ⟨.hbm, 218, rfl⟩
abbrev main_v170 : Ref sig .tc := ⟨.hbm, 219, rfl⟩
abbrev main_cst_30 : Ref sig .tc := ⟨.hbm, 220, rfl⟩
abbrev main_v171 : Ref sig .tc := ⟨.hbm, 221, rfl⟩
abbrev main_v172 : Ref sig .tc := ⟨.hbm, 222, rfl⟩
abbrev main_v173 : Ref sig .tc := ⟨.hbm, 223, rfl⟩
abbrev main_v174 : Ref sig .tc := ⟨.hbm, 224, rfl⟩
abbrev main_cst_31 : Ref sig .tc := ⟨.hbm, 225, rfl⟩
abbrev main_v175 : Ref sig .tc := ⟨.hbm, 226, rfl⟩
abbrev main_v176 : Ref sig .tc := ⟨.hbm, 227, rfl⟩
abbrev main_v177 : Ref sig .tc := ⟨.hbm, 228, rfl⟩
abbrev main_v178 : Ref sig .tc := ⟨.hbm, 229, rfl⟩
abbrev main_v179 : Ref sig .tc := ⟨.hbm, 230, rfl⟩
abbrev main_v180 : Ref sig .tc := ⟨.hbm, 231, rfl⟩
abbrev main_v181 : Ref sig .tc := ⟨.hbm, 232, rfl⟩
abbrev main_v182 : Ref sig .tc := ⟨.hbm, 233, rfl⟩
abbrev main_v183 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_v187 : Ref sig .tc := ⟨.hbm, 238, rfl⟩
abbrev main_v188 : Ref sig .tc := ⟨.hbm, 239, rfl⟩
abbrev main_v189 : Ref sig .tc := ⟨.hbm, 240, rfl⟩
abbrev main_c_32 : Ref sig .tc := ⟨.hbm, 241, rfl⟩
abbrev main_v190 : Ref sig .tc := ⟨.hbm, 242, rfl⟩
abbrev main_v191 : Ref sig .tc := ⟨.hbm, 243, rfl⟩
abbrev main_c_33 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩
abbrev main_cst_34 : Ref sig .tc := ⟨.hbm, 252, rfl⟩
abbrev main_v199 : Ref sig .tc := ⟨.hbm, 253, rfl⟩
abbrev main_v200 : Ref sig .tc := ⟨.hbm, 254, rfl⟩
abbrev main_v201 : Ref sig .tc := ⟨.hbm, 255, rfl⟩
abbrev main_v202 : Ref sig .tc := ⟨.hbm, 256, rfl⟩
abbrev main_v203 : Ref sig .tc := ⟨.hbm, 257, rfl⟩
abbrev main_v204 : Ref sig .tc := ⟨.hbm, 258, rfl⟩
abbrev main_v205 : Ref sig .tc := ⟨.hbm, 259, rfl⟩
abbrev main_v206 : Ref sig .tc := ⟨.hbm, 260, rfl⟩
abbrev main_c_35 : Ref sig .tc := ⟨.hbm, 261, rfl⟩
abbrev main_v207 : Ref sig .tc := ⟨.hbm, 262, rfl⟩
abbrev main_v208 : Ref sig .tc := ⟨.hbm, 263, rfl⟩
abbrev main_c_36 : Ref sig .tc := ⟨.hbm, 264, rfl⟩
abbrev main_v209 : Ref sig .tc := ⟨.hbm, 265, rfl⟩
abbrev main_v210 : Ref sig .tc := ⟨.hbm, 266, rfl⟩
abbrev main_v211 : Ref sig .tc := ⟨.hbm, 267, rfl⟩
abbrev main_v212 : Ref sig .tc := ⟨.hbm, 268, rfl⟩
abbrev main_v213 : Ref sig .tc := ⟨.hbm, 269, rfl⟩
abbrev main_v214 : Ref sig .tc := ⟨.hbm, 270, rfl⟩
abbrev main_v215 : Ref sig .tc := ⟨.hbm, 271, rfl⟩
abbrev main_cst_37 : Ref sig .tc := ⟨.hbm, 272, rfl⟩
abbrev main_v216 : Ref sig .tc := ⟨.hbm, 273, rfl⟩
abbrev main_v217 : Ref sig .tc := ⟨.hbm, 274, rfl⟩
abbrev main_v218 : Ref sig .tc := ⟨.hbm, 275, rfl⟩
abbrev main_cst_38 : Ref sig .tc := ⟨.hbm, 276, rfl⟩
abbrev main_v219 : Ref sig .tc := ⟨.hbm, 277, rfl⟩
abbrev main_v220 : Ref sig .tc := ⟨.hbm, 278, rfl⟩
abbrev main_v221 : Ref sig .tc := ⟨.hbm, 279, rfl⟩
abbrev main_v222 : Ref sig .tc := ⟨.hbm, 280, rfl⟩
abbrev main_v223 : Ref sig .tc := ⟨.hbm, 281, rfl⟩
abbrev main_v224 : Ref sig .tc := ⟨.hbm, 282, rfl⟩
abbrev main_v225 : Ref sig .tc := ⟨.hbm, 283, rfl⟩
abbrev main_v226 : Ref sig .tc := ⟨.hbm, 284, rfl⟩
abbrev main_v227 : Ref sig .tc := ⟨.hbm, 285, rfl⟩
abbrev main_v228 : Ref sig .tc := ⟨.hbm, 286, rfl⟩
abbrev main_v229 : Ref sig .tc := ⟨.hbm, 287, rfl⟩
abbrev main_v230 : Ref sig .tc := ⟨.hbm, 288, rfl⟩
abbrev main_call3_cst : Ref sig .tc := ⟨.hbm, 289, rfl⟩
abbrev main_call3_v0 : Ref sig .tc := ⟨.hbm, 290, rfl⟩
abbrev main_v231 : Ref sig .tc := ⟨.hbm, 291, rfl⟩
abbrev main_v232 : Ref sig .tc := ⟨.hbm, 292, rfl⟩
abbrev main_v233 : Ref sig .tc := ⟨.hbm, 293, rfl⟩
abbrev main_v234 : Ref sig .tc := ⟨.hbm, 294, rfl⟩
abbrev main_v235 : Ref sig .tc := ⟨.hbm, 295, rfl⟩
abbrev main_v236 : Ref sig .tc := ⟨.hbm, 296, rfl⟩
abbrev main_cst_39 : Ref sig .tc := ⟨.hbm, 297, rfl⟩
abbrev main_v237 : Ref sig .tc := ⟨.hbm, 298, rfl⟩
abbrev main_v238 : Ref sig .tc := ⟨.hbm, 299, rfl⟩
abbrev main_cst_40 : Ref sig .tc := ⟨.hbm, 300, rfl⟩
abbrev main_v239 : Ref sig .tc := ⟨.hbm, 301, rfl⟩
abbrev main_v240 : Ref sig .tc := ⟨.hbm, 302, rfl⟩
abbrev main_v241 : Ref sig .tc := ⟨.hbm, 303, rfl⟩
abbrev main_v242 : Ref sig .tc := ⟨.hbm, 304, rfl⟩
abbrev main_v243 : Ref sig .tc := ⟨.hbm, 305, rfl⟩
abbrev main_cst_41 : Ref sig .tc := ⟨.hbm, 306, rfl⟩
abbrev main_v244 : Ref sig .tc := ⟨.hbm, 307, rfl⟩
abbrev main_v245 : Ref sig .tc := ⟨.hbm, 308, rfl⟩
abbrev main_cst_42 : Ref sig .tc := ⟨.hbm, 309, rfl⟩
abbrev main_v246 : Ref sig .tc := ⟨.hbm, 310, rfl⟩
abbrev main_v247 : Ref sig .tc := ⟨.hbm, 311, rfl⟩
abbrev main_v248 : Ref sig .tc := ⟨.hbm, 312, rfl⟩
abbrev main_v249 : Ref sig .tc := ⟨.hbm, 313, rfl⟩
abbrev main_cst_43 : Ref sig .tc := ⟨.hbm, 314, rfl⟩
abbrev main_v250 : Ref sig .tc := ⟨.hbm, 315, rfl⟩
abbrev main_v251 : Ref sig .tc := ⟨.hbm, 316, rfl⟩
abbrev main_v252 : Ref sig .tc := ⟨.hbm, 317, rfl⟩
abbrev main_v253 : Ref sig .tc := ⟨.hbm, 318, rfl⟩
abbrev main_v254 : Ref sig .tc := ⟨.hbm, 319, rfl⟩
abbrev main_v255 : Ref sig .tc := ⟨.hbm, 320, rfl⟩
abbrev main_v256 : Ref sig .tc := ⟨.hbm, 321, rfl⟩
abbrev main_v257 : Ref sig .tc := ⟨.hbm, 322, rfl⟩
abbrev main_v258 : Ref sig .tc := ⟨.hbm, 323, rfl⟩
abbrev main_v259 : Ref sig .tc := ⟨.hbm, 324, rfl⟩
abbrev main_v260 : Ref sig .tc := ⟨.hbm, 325, rfl⟩
abbrev main_v261 : Ref sig .tc := ⟨.hbm, 326, rfl⟩
abbrev main_v262 : Ref sig .tc := ⟨.hbm, 327, rfl⟩
abbrev main_v263 : Ref sig .tc := ⟨.hbm, 328, rfl⟩
abbrev main_v264 : Ref sig .tc := ⟨.hbm, 329, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  slices_S3x3x64x64_S1x1x64x64_0_0_0_0 : S3x3x64x64.Slices ![0, 0, 0, 0] S1x1x64x64
  shapeCasts_S1x1x64x64_S64x64 : S1x1x64x64.ShapeCasts S64x64
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  slices_S3x3x64x64_S1x1x64x64_0_1_0_0 : S3x3x64x64.Slices ![0, 1, 0, 0] S1x1x64x64
  slices_S3x3x64x64_S1x1x64x64_0_2_0_0 : S3x3x64x64.Slices ![0, 2, 0, 0] S1x1x64x64
  slices_S3x64_S1x64_0_0 : S3x64.Slices ![0, 0] S1x64
  shapeCasts_S1x64_S64 : S1x64.ShapeCasts S64
  reducesTo_S50000x64_S50000_d1 : S50000x64.ReducesTo [1] S50000
  h_S_ : 0 < S_.numel
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x64_0_1 : S50000x1.BroadcastsInDim S50000x64 (![0, 1] : Fin 2 → Fin S50000x64.rank)
  slices_S3x3x64x64_S1x1x64x64_1_0_0_0 : S3x3x64x64.Slices ![1, 0, 0, 0] S1x1x64x64
  slices_S3x3x64x64_S1x1x64x64_1_1_0_0 : S3x3x64x64.Slices ![1, 1, 0, 0] S1x1x64x64
  slices_S3x3x64x64_S1x1x64x64_1_2_0_0 : S3x3x64x64.Slices ![1, 2, 0, 0] S1x1x64x64
  slices_S3x64_S1x64_1_0 : S3x64.Slices ![1, 0] S1x64
  slices_S3x3x64x64_S1x1x64x64_2_0_0_0 : S3x3x64x64.Slices ![2, 0, 0, 0] S1x1x64x64
  slices_S3x3x64x64_S1x1x64x64_2_1_0_0 : S3x3x64x64.Slices ![2, 1, 0, 0] S1x1x64x64
  slices_S3x3x64x64_S1x1x64x64_2_2_0_0 : S3x3x64x64.Slices ![2, 2, 0, 0] S1x1x64x64
  slices_S3x64_S1x64_2_0 : S3x64.Slices ![2, 0] S1x64
  bcast_S4_S1x4_1 : S4.BroadcastsInDim S1x4 (![1] : Fin 1 → Fin S1x4.rank)
  bcast_S1x4_S50000x4_0_1 : S1x4.BroadcastsInDim S50000x4 (![0, 1] : Fin 2 → Fin S50000x4.rank)
  scatter_S50000_S800000x1_S800000_n_0_0_1_wf : ScatterDims.WF S50000 S800000x1 S800000 [] [0] [0] 1
  gather_S50000_S800000x1_S800000_n_0_n_n_0_1_1_wf : GatherDims.WF S50000 S800000x1 S800000 [] [0] [] [0] [] 1 ![1]
  dot_S50000x16_S16x64_S50000x64_1_0_0_1_n_n_wf : DotDims.WF S50000x16 S16x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x4_S50000x4_1_0_0_1_n_n_wf : DotDims.WF S50000x64 S64x4 S50000x4 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def dot_S50000x16_S16x64_S50000x64_1_0_0_1_n_n : DotDims S50000x16 S16x64 S50000x64 where
  lhsContracting := [1]
  rhsContracting := [0]
  lhsNonContracting := [0]
  rhsNonContracting := [1]
  lhsBatch := []
  rhsBatch := []
  wf := dot_S50000x16_S16x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x4_S50000x4_1_0_0_1_n_n : DotDims S50000x64 S64x4 S50000x4 where
  lhsContracting := [1]
  rhsContracting := [0]
  lhsNonContracting := [0]
  rhsNonContracting := [1]
  lhsBatch := []
  rhsBatch := []
  wf := dot_S50000x64_S64x4_S50000x4_1_0_0_1_n_n_wf

class Facts : Prop extends Facts₀ where

variable [Facts]
-- ==== Proof.KernelRun.lean ====
/-
  The idealized kernel's run with its result named.

  @main is five pallas_calls among stretches of host operations. Every weakly fair execution from a memory with
  zero counters terminates without a fault; at the end the eleven argument arrays hold what they held at launch, and
  the result array holds the last boundary's contents: the launch memory carried through each host stretch (its
  operations applied in order) and each region (its output array at what the grid's write-backs leave, every other
  buffer as the region found it).
-/
import proofs.«120199_j53815940218921_1_alg».proof.Proof.Gen.KernelIdeal.Frame

set_option maxRecDepth 16384

noncomputable section

namespace Cert.KernelIdeal.Net

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- Every weakly fair execution of @main terminates, nothing faulting; the result array ends at the contents the
    last segment boundary gives it, and each argument array as launched. -/
theorem run_result : θ_run defs (onTc (τ := τ) (main (F := F))) ⟨m, fun _ => 0, ρ⟩ (fun r => ∀ c : Dev nD,
      r.2.mem ((c.tc : Thread nD τ).loc main_v158) = W12 m ρ c (Proc.devRef .tc main_v158)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v158 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Net

end
-- ==== Proof.Glue.lean ====
/-
  The graph side of the network, shared by both programs: everything computed from the edge list alone, and the
  propagation `h ↦ L̂ h` built on it.

  An edge list is two rows of 800000 node numbers, sources and destinations. A node's degree is the number of edges
  leaving it (a scatter-add of ones at the sources); `dinv` is `1/sqrt(max(deg, 1))` where the degree is positive and
  zero elsewhere; an edge's weight is `-dinv[src] · dinv[dst]`. Propagation gathers the rows of `h` at the sources,
  scales each by its edge's weight and scatter-adds them at the destinations. A gather's index is taken modulo the
  wrap `i < 0 ? i + 50000 : i`, as the host lowers it. The second Chebyshev term is `2 · L̂ h₁ − h₀`.
  Neither program's proof ever opens these: both sides apply the same functions to the same arrays.
-/
import proofs.«120199_j53815940218921_1_alg».proof.Proof.Gen.KernelIdeal
import Idealize.ShloMosaic.PureOps.Ideal

noncomputable section

namespace Cert.KernelIdeal.Glue

open Cert.KernelIdeal Cert.KernelIdeal.Gen Idealize.ShloMosaic

variable {F : FTy → Type} [FloatOps F]

/-- The edges' source nodes: row 0 of the edge list. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- The edges' destination nodes: row 1 of the edge list. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- Node numbers as a gather's index column, a negative one wrapped by the number of nodes. -/
def wrapCol (i : (⟨S800000, .i32⟩ : BufTy).Contents (Elt F)) : (⟨S800000x1, .i32⟩ : BufTy).Contents (Elt F) :=
  broadcastInDim S800000x1 ![0] bcast_S800000_S800000x1_0
    (select (cmpi .slt i (broadcastInDim S800000 ![] bcast_S_S800000 (constantI S_ 32 0#32)))
      (addi i (broadcastInDim S800000 ![] bcast_S_S800000 (constantI S_ 32 50000#32))) i)

/-- Each node's out-degree: ones scatter-added at the sources. -/
def deg (e : (⟨S2x800000, .i32⟩ : BufTy).Contents (Elt F)) : (⟨S50000, .f32⟩ : BufTy).Contents (Elt F) :=
  Host.scatterAdd scatter_S50000_S800000x1_S800000_n_0_0_1
    (broadcastInDim S50000 ![] bcast_S_S50000 (constant S_ .f32 0x00000000#32))
    (broadcastInDim S800000x1 ![0] bcast_S800000_S800000x1_0 (src e))
    (broadcastInDim S800000 ![] bcast_S_S800000 (constant S_ .f32 0x3F800000#32))

/-- Whether each node has an outgoing edge: its degree compared with zero. -/
def hasEdge (e : (⟨S2x800000, .i32⟩ : BufTy).Contents (Elt F)) : (⟨S50000, .i1⟩ : BufTy).Contents (Elt F) :=
  cmpf .ogt (deg e) (broadcastInDim S50000 ![] bcast_S_S50000 (constant S_ .f32 0x00000000#32))

/-- `1 / sqrt(max(deg, 1))` at every node. -/
def invRoot (e : (⟨S2x800000, .i32⟩ : BufTy).Contents (Elt F)) : (⟨S50000, .f32⟩ : BufTy).Contents (Elt F) :=
  Host.divf (broadcastInDim S50000 ![] bcast_S_S50000 (constant S_ .f32 0x3F800000#32))
    (Host.sqrt (maximumf (deg e) (broadcastInDim S50000 ![] bcast_S_S50000 (constant S_ .f32 0x3F800000#32))))

/-- The scalar zero a node without edges falls back on. -/
def zeroScalar : (⟨S_, .f32⟩ : BufTy).Contents (Elt F) := constant S_ .f32 0x00000000#32

/-- `1 / sqrt(max(deg, 1))` where the degree is positive, zero elsewhere. -/
def dinv (e : (⟨S2x800000, .i32⟩ : BufTy).Contents (Elt F)) : (⟨S50000, .f32⟩ : BufTy).Contents (Elt F) :=
  select (hasEdge e) (invRoot e) (broadcastInDim S50000 ![] bcast_S_S50000 (id (zeroScalar (F := F))))

/-- An edge's weight: `-dinv[src] · dinv[dst]`. -/
def edgeW (e : (⟨S2x800000, .i32⟩ : BufTy).Contents (Elt F)) : (⟨S800000, .f32⟩ : BufTy).Contents (Elt F) :=
  mulf (Host.negf (Host.gather gather_S50000_S800000x1_S800000_n_0_n_n_0_1_1 (dinv e) (wrapCol (src e))))
    (Host.gather gather_S50000_S800000x1_S800000_n_0_n_n_0_1_1 (dinv e) (wrapCol (dst e)))

/-- Propagation: the rows of `h` at the sources, each scaled by its edge's weight, summed at the destinations. -/
def prop (e : (⟨S2x800000, .i32⟩ : BufTy).Contents (Elt F)) (h : (⟨S50000x64, .f32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32))
    (broadcastInDim S800000x1 ![0] bcast_S800000_S800000x1_0 (dst e))
    (mulf (broadcastInDim S800000x64 ![0, 1] bcast_S800000x1_S800000x64_0_1
        (broadcastInDim S800000x1 ![0] bcast_S800000_S800000x1_0 (edgeW e)))
      (Host.gather gather_S50000x64_S800000x1_S800000x64_1_0_n_n_0_1_164 h (wrapCol (src e))))

/-- The second Chebyshev term from the first two: `2 · L̂ h₁ − h₀`. -/
def cheb2 (e : (⟨S2x800000, .i32⟩ : BufTy).Contents (Elt F)) (h0 h1 : (⟨S50000x64, .f32⟩ : BufTy).Contents (Elt F)) :
    (⟨S50000x64, .f32⟩ : BufTy).Contents (Elt F) :=
  subf (mulf (broadcastInDim S50000x64 ![] bcast_S_S50000x64 (constant S_ .f32 0x40000000#32)) (prop e h1)) h0

end Cert.KernelIdeal.Glue

end
-- ==== Proof.FoldBase.lean ====
/-
  What every later segment of the idealized kernel's @main reads and none writes.

  The edges' endpoints, the edges' weights and the argument arrays 5 to 10 are fixed once the three opening host
  stretches have run: each later stretch and each region leaves them alone. So at every region's exit they still
  hold the graph functions of the edge list, and the arguments their launch contents. The opening is read one
  stretch at a time — the endpoints, the degree test and the reciprocal root; then the selection between them
  (`dinv`); then the weights — each stretch evaluated over the previous boundary's contents as named leaves.
-/
import proofs.«120199_j53815940218921_1_alg».proof.Proof.Gen.KernelIdeal.Frame
import proofs.«120199_j53815940218921_1_alg».proof.Proof.Glue
import Idealize.ShloMosaic.Lib.StableHlo.Run

set_option maxRecDepth 16384

noncomputable section

namespace Cert.KernelIdeal.Net

open Cert.KernelIdeal Cert.KernelIdeal.Gen
open Idealize.ShloMosaic Idealize.ShloMosaic.TcCoe Idealize.ShloMosaic.StableHlo Idealize.SL.Sem

/-- A buffer no operation of a host stretch writes holds after the stretch what it held before. -/
macro "host_keeps " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-- A value carried along a type equality and back is itself. -/
theorem cast_cast_cancel {α β : Sort _} (h : α = β) (h' : β = α) (a : α) : cast h' (cast h a) = a := by
  subst h; rfl

/-- A value carried along a type equality is the value it is heterogeneously equal to. -/
theorem cast_eq_of_heq {α β : Sort _} (h : α = β) (a : α) (b : β) (hab : HEq a b) : cast h a = b :=
  eq_of_heq ((cast_heq h a).trans hab)

variable (m : (ℓ : Loc nD τ sig) → Buf (Elt Ideal) ℓ) (ρ : Dev nD → PrngReg) (c : Dev nD)

/-- After the first stretch: the endpoints, whether each node has an outgoing edge, the reciprocal root of its
    clamped degree, and the zero the selection falls back on. -/
structure Held1 (X : Valuation τ sig (Elt Ideal)) : Prop where
  src : X (Proc.devRef .tc main_v1) = Glue.src (m ((c : Thread nD τ).loc main_arg1))
  dst : X (Proc.devRef .tc main_v3) = Glue.dst (m ((c : Thread nD τ).loc main_arg1))
  pos : X (Proc.devRef .tc main_v9) = Glue.hasEdge (m ((c : Thread nD τ).loc main_arg1))
  inv : X (Proc.devRef .tc main_v14) = Glue.invRoot (m ((c : Thread nD τ).loc main_arg1))
  zero : X (Proc.devRef .tc main_cst_4) = Glue.zeroScalar (F := Ideal)
  a5 : X (Proc.devRef .tc main_arg5) = m ((c : Thread nD τ).loc main_arg5)
  a6 : X (Proc.devRef .tc main_arg6) = m ((c : Thread nD τ).loc main_arg6)
  a7 : X (Proc.devRef .tc main_arg7) = m ((c : Thread nD τ).loc main_arg7)
  a8 : X (Proc.devRef .tc main_arg8) = m ((c : Thread nD τ).loc main_arg8)
  a9 : X (Proc.devRef .tc main_arg9) = m ((c : Thread nD τ).loc main_arg9)
  a10 : X (Proc.devRef .tc main_arg10) = m ((c : Thread nD τ).loc main_arg10)

/-- After the second stretch: the endpoints and `dinv`. -/
structure Held2 (X : Valuation τ sig (Elt Ideal)) : Prop where
  src : X (Proc.devRef .tc main_v1) = Glue.src (m ((c : Thread nD τ).loc main_arg1))
  dst : X (Proc.devRef .tc main_v3) = Glue.dst (m ((c : Thread nD τ).loc main_arg1))
  dinv : X (Proc.devRef .tc main_v15) = Glue.dinv (m ((c : Thread nD τ).loc main_arg1))
  a5 : X (Proc.devRef .tc main_arg5) = m ((c : Thread nD τ).loc main_arg5)
  a6 : X (Proc.devRef .tc main_arg6) = m ((c : Thread nD τ).loc main_arg6)
  a7 : X (Proc.devRef .tc main_arg7) = m ((c : Thread nD τ).loc main_arg7)
  a8 : X (Proc.devRef .tc main_arg8) = m ((c : Thread nD τ).loc main_arg8)
  a9 : X (Proc.devRef .tc main_arg9) = m ((c : Thread nD τ).loc main_arg9)
  a10 : X (Proc.devRef .tc main_arg10) = m ((c : Thread nD τ).loc main_arg10)

/-- From region 0's entry on: the endpoints, the weights, and the argument arrays 5 to 10. -/
structure Held (X : Valuation τ sig (Elt Ideal)) : Prop where
  src : X (Proc.devRef .tc main_v1) = Glue.src (m ((c : Thread nD τ).loc main_arg1))
  dst : X (Proc.devRef .tc main_v3) = Glue.dst (m ((c : Thread nD τ).loc main_arg1))
  w : X (Proc.devRef .tc main_v31) = Glue.edgeW (m ((c : Thread nD τ).loc main_arg1))
  a5 : X (Proc.devRef .tc main_arg5) = m ((c : Thread nD τ).loc main_arg5)
  a6 : X (Proc.devRef .tc main_arg6) = m ((c : Thread nD τ).loc main_arg6)
  a7 : X (Proc.devRef .tc main_arg7) = m ((c : Thread nD τ).loc main_arg7)
  a8 : X (Proc.devRef .tc main_arg8) = m ((c : Thread nD τ).loc main_arg8)
  a9 : X (Proc.devRef .tc main_arg9) = m ((c : Thread nD τ).loc main_arg9)
  a10 : X (Proc.devRef .tc main_arg10) = m ((c : Thread nD τ).loc main_arg10)

theorem held1 : Held1 m c (W1 m ρ c) where
  src := by
    show StableHlo.after hostOps0 (W0 m ρ c) (Proc.devRef .tc main_v1) = _
    after_results_simp
    rfl
  dst := by
    show StableHlo.after hostOps0 (W0 m ρ c) (Proc.devRef .tc main_v3) = _
    after_results_simp
    rfl
  pos := by
    show StableHlo.after hostOps0 (W0 m ρ c) (Proc.devRef .tc main_v9) = _
    after_results_simp
    rfl
  inv := by
    show StableHlo.after hostOps0 (W0 m ρ c) (Proc.devRef .tc main_v14) = _
    after_results_simp
    rfl
  zero := by
    show StableHlo.after hostOps0 (W0 m ρ c) (Proc.devRef .tc main_cst_4) = _
    after_results_simp
    rfl
  a5 := by
    refine Eq.trans (b := W0 m ρ c (Proc.devRef .tc main_arg5)) ?_ rfl
    host_keeps hostOps0
  a6 := by
    refine Eq.trans (b := W0 m ρ c (Proc.devRef .tc main_arg6)) ?_ rfl
    host_keeps hostOps0
  a7 := by
    refine Eq.trans (b := W0 m ρ c (Proc.devRef .tc main_arg7)) ?_ rfl
    host_keeps hostOps0
  a8 := by
    refine Eq.trans (b := W0 m ρ c (Proc.devRef .tc main_arg8)) ?_ rfl
    host_keeps hostOps0
  a9 := by
    refine Eq.trans (b := W0 m ρ c (Proc.devRef .tc main_arg9)) ?_ rfl
    host_keeps hostOps0
  a10 := by
    refine Eq.trans (b := W0 m ρ c (Proc.devRef .tc main_arg10)) ?_ rfl
    host_keeps hostOps0

theorem held2 : Held2 m c (W2 m ρ c) := by
  have h := held1 m ρ c
  refine ⟨Eq.trans ?_ h.src, Eq.trans ?_ h.dst, ?_, Eq.trans ?_ h.a5, Eq.trans ?_ h.a6, Eq.trans ?_ h.a7, Eq.trans ?_ h.a8, Eq.trans ?_ h.a9, Eq.trans ?_ h.a10⟩
  case refine_3 =>
    show StableHlo.after hostOps0_1 (W1 m ρ c) (Proc.devRef .tc main_v15) = _
    generalize hX : W1 m ρ c = X
    after_results_simp
    subst hX
    rw [h.pos, h.inv, h.zero]
    unfold Glue.dinv
    dsimp only [TRef.toBuf, TRef.ofBuf]
    refine cast_eq_of_heq _ _ _ (heq_of_eq ?_)
    rw [cast_cast_cancel, cast_cast_cancel, cast_eq_of_heq _ _ (Glue.hasEdge (m ((c : Thread nD τ).loc main_arg1))) HEq.rfl,
      cast_eq_of_heq _ _ (Glue.invRoot (m ((c : Thread nD τ).loc main_arg1))) HEq.rfl, cast_eq_of_heq _ _ (Glue.zeroScalar (F := Ideal)) HEq.rfl]
  all_goals host_keeps hostOps0_1

theorem held3 : Held m c (W3 m ρ c) := by
  have h := held2 m ρ c
  refine ⟨Eq.trans ?_ h.src, Eq.trans ?_ h.dst, ?_, Eq.trans ?_ h.a5, Eq.trans ?_ h.a6, Eq.trans ?_ h.a7, Eq.trans ?_ h.a8, Eq.trans ?_ h.a9, Eq.trans ?_ h.a10⟩
  case refine_3 =>
    show StableHlo.after hostOps0_2 (W2 m ρ c) (Proc.devRef .tc main_v31) = _
    generalize hX : W2 m ρ c = X
    after_results_simp
    subst hX
    rw [h.dinv, h.src, h.dst]
    unfold Glue.edgeW Glue.wrapCol
    rfl
  all_goals host_keeps hostOps0_2

/-- At region 0's exit: the region writes only its own output array. -/
theorem held4 : Held m c (W4 m ρ c) := by
  have h := held3 m ρ c
  exact ⟨(W4_of_ne m ρ c main_v1 (by decide)).trans h.src,
    (W4_of_ne m ρ c main_v3 (by decide)).trans h.dst,
    (W4_of_ne m ρ c main_v31 (by decide)).trans h.w,
    (W4_of_ne m ρ c main_arg5 (by decide)).trans h.a5,
    (W4_of_ne m ρ c main_arg6 (by decide)).trans h.a6,
    (W4_of_ne m ρ c main_arg7 (by decide)).trans h.a7,
    (W4_of_ne m ρ c main_arg8 (by decide)).trans h.a8,
    (W4_of_ne m ρ c main_arg9 (by decide)).trans h.a9,
    (W4_of_ne m ρ c main_arg10 (by decide)).trans h.a10⟩

/-- The same at the next region's exit: neither the host stretch before that region nor the region writes them. -/
theorem held6 : Held m c (W6 m ρ c) := by
  have h := held4 m ρ c
  refine ⟨((W6_of_ne m ρ c main_v1 (by decide)).trans ?_).trans h.src,
    ((W6_of_ne m ρ c main_v3 (by decide)).trans ?_).trans h.dst,
    ((W6_of_ne m ρ c main_v31 (by decide)).trans ?_).trans h.w,
    ((W6_of_ne m ρ c main_arg5 (by decide)).trans ?_).trans h.a5,
    ((W6_of_ne m ρ c main_arg6 (by decide)).trans ?_).trans h.a6,
    ((W6_of_ne m ρ c main_arg7 (by decide)).trans ?_).trans h.a7,
    ((W6_of_ne m ρ c main_arg8 (by decide)).trans ?_).trans h.a8,
    ((W6_of_ne m ρ c main_arg9 (by decide)).trans ?_).trans h.a9,
    ((W6_of_ne m ρ c main_arg10 (by decide)).trans ?_).trans h.a10⟩
  all_goals host_keeps hostOps1

/-- The same at the next region's exit: neither the host stretch before that region nor the region writes them. -/
theorem held8 : Held m c (W8 m ρ c) := by
  have h := held6 m ρ c
  refine ⟨((W8_of_ne m ρ c main_v1 (by decide)).trans ?_).trans h.src,
    ((W8_of_ne m ρ c main_v3 (by decide)).trans ?_).trans h.dst,
    ((W8_of_ne m ρ c main_v31 (by decide)).trans ?_).trans h.w,
    ((W8_of_ne m ρ c main_arg5 (by decide)).trans ?_).trans h.a5,
    ((W8_of_ne m ρ c main_arg6 (by decide)).trans ?_).trans h.a6,
    ((W8_of_ne m ρ c main_arg7 (by decide)).trans ?_).trans h.a7,
    ((W8_of_ne m ρ c main_arg8 (by decide)).trans ?_).trans h.a8,
    ((W8_of_ne m ρ c main_arg9 (by decide)).trans ?_).trans h.a9,
    ((W8_of_ne m ρ c main_arg10 (by decide)).trans ?_).trans h.a10⟩
  all_goals host_keeps hostOps2

/-- The same at the next region's exit: neither the host stretch before that region nor the region writes them. -/
theorem held10 : Held m c (W10 m ρ c) := by
  have h := held8 m ρ c
  refine ⟨((W10_of_ne m ρ c main_v1 (by decide)).trans ?_).trans h.src,
    ((W10_of_ne m ρ c main_v3 (by decide)).trans ?_).trans h.dst,
    ((W10_of_ne m ρ c main_v31 (by decide)).trans ?_).trans h.w,
    ((W10_of_ne m ρ c main_arg5 (by decide)).trans ?_).trans h.a5,
    ((W10_of_ne m ρ c main_arg6 (by decide)).trans ?_).trans h.a6,
    ((W10_of_ne m ρ c main_arg7 (by decide)).trans ?_).trans h.a7,
    ((W10_of_ne m ρ c main_arg8 (by decide)).trans ?_).trans h.a8,
    ((W10_of_ne m ρ c main_arg9 (by decide)).trans ?_).trans h.a9,
    ((W10_of_ne m ρ c main_arg10 (by decide)).trans ?_).trans h.a10⟩
  all_goals host_keeps hostOps3

end Cert.KernelIdeal.Net

end
-- ==== Proof.FoldEnds.lean ====
/-
  What the first and the last region find in their input windows.

  Region 0 reads the node features and the input weight as launched — no opening stretch writes an argument — and
  the input bias stood up as a 1×64 row: at (0, j) the bias at j. Region 4 reads the last layer's output as region 3
  left it, the output weight as launched, and the output bias as a 1×4 row.
-/
import proofs.«120199_j53815940218921_1_alg».proof.Proof.FoldBase
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- An argument array none of the three opening stretches writes reaches region 0 as launched. -/
theorem in_x : V3 m ρ c main_arg0 = m ((c : Thread nD τ).loc main_arg0) := by
  refine Eq.trans (b := W2 m ρ c (Proc.devRef .tc main_arg0)) ?_ (Eq.trans (b := W1 m ρ c (Proc.devRef .tc main_arg0)) ?_ (Eq.trans (b := W0 m ρ c (Proc.devRef .tc main_arg0)) ?_ rfl))
  · host_keeps hostOps0_2
  · host_keeps hostOps0_1
  · host_keeps hostOps0

theorem in_w : V3 m ρ c main_arg3 = m ((c : Thread nD τ).loc main_arg3) := by
  refine Eq.trans (b := W2 m ρ c (Proc.devRef .tc main_arg3)) ?_ (Eq.trans (b := W1 m ρ c (Proc.devRef .tc main_arg3)) ?_ (Eq.trans (b := W0 m ρ c (Proc.devRef .tc main_arg3)) ?_ rfl))
  · host_keeps hostOps0_2
  · host_keeps hostOps0_1
  · host_keeps hostOps0

theorem arg4_at2 : W2 m ρ c (Proc.devRef .tc main_arg4) = m ((c : Thread nD τ).loc main_arg4) := by
  refine Eq.trans (b := W1 m ρ c (Proc.devRef .tc main_arg4)) ?_ (Eq.trans (b := W0 m ρ c (Proc.devRef .tc main_arg4)) ?_ rfl)
  · host_keeps hostOps0_1
  · host_keeps hostOps0

/-- The input bias as region 0 reads it. -/
theorem in_b (j : Fin 64) : (V3 m ρ c main_v32 : S1x64.Idx → EReal) (ix2 (0 : Fin 1) j) = (m ((c : Thread nD τ).loc main_arg4) : S64.Idx → EReal) (ix1 j) := by
  have e : (V3 m ρ c main_v32 : S1x64.Idx → EReal) = shapeCast S1x64 (m ((c : Thread nD τ).loc main_arg4) : S64.Idx → EReal) shapeCasts_S64_S1x64 := by
    show StableHlo.after hostOps0_2 (W2 m ρ c) (Proc.devRef .tc main_v32) = _
    generalize hX : W2 m ρ c = X
    after_results_simp
    subst hX
    rw [arg4_at2 m ρ c]
    rfl
  rw [e]
  exact shapeCast_apply _ shapeCasts_S64_S1x64 (ix2 (0 : Fin 1) j) (ix1 j)
    (by rewrite [Shape.rowMajor_val_one, Shape.rowMajor_val_two]; show j.val = 0 * 64 + j.val; omega)

/-- The last layer's output reaches region 4 as region 3 left it. -/
theorem out_h : V11 m ρ c main_v156 = W10 m ρ c (Proc.devRef .tc main_v156) := by
  host_keeps hostOps4

theorem out_w : V11 m ρ c main_arg9 = m ((c : Thread nD τ).loc main_arg9) := by
  refine Eq.trans (b := W10 m ρ c (Proc.devRef .tc main_arg9)) ?_ (held10 m ρ c).a9
  host_keeps hostOps4

/-- The output bias as region 4 reads it. -/
theorem out_b (j : Fin 4) : (V11 m ρ c main_v157 : S1x4.Idx → EReal) (ix2 (0 : Fin 1) j) = (m ((c : Thread nD τ).loc main_arg10) : S4.Idx → EReal) (ix1 j) := by
  have e : (V11 m ρ c main_v157 : S1x4.Idx → EReal) = shapeCast S1x4 (m ((c : Thread nD τ).loc main_arg10) : S4.Idx → EReal) shapeCasts_S4_S1x4 := by
    show StableHlo.after hostOps4 (W10 m ρ c) (Proc.devRef .tc main_v157) = _
    after_results_simp
    rw [(held10 m ρ c).a10]
    rfl
  rw [e]
  exact shapeCast_apply _ shapeCasts_S4_S1x4 (ix2 (0 : Fin 1) j) (ix1 j)
    (by rewrite [Shape.rowMajor_val_one, Shape.rowMajor_val_two]; show j.val = 0 * 4 + j.val; omega)

end Cert.KernelIdeal.Net

end
-- ==== Proof.FoldStretch1.lean ====
/-
  What region 1 (Chebyshev layer 0) finds in its input windows.

  The host stretch before the region propagates the previous layer's output `h` twice over the graph — `L̂ h`, then
  `2 · L̂ (L̂ h) − h` —, and cuts row 0 out of the layer-indexed weights, bias, gain and shift. It leaves `h`
  itself alone. Read at an index, the 3×64×64 weight block at (k, a, b) is the argument at (0, k, a, b), and each
  1×64 row at (0, j) is its argument at (0, j).
-/
import proofs.«120199_j53815940218921_1_alg».proof.Proof.FoldBase
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The previous layer's output reaches the region untouched. -/
theorem tx0_1 : V5 m ρ c main_v33 = W4 m ρ c (Proc.devRef .tc main_v33) := by
  host_keeps hostOps1

/-- The first propagated term. -/
theorem tx1_1 : V5 m ρ c main_v46 = Glue.prop (m ((c : Thread nD τ).loc main_arg1)) (W4 m ρ c (Proc.devRef .tc main_v33)) := by
  have h := held4 m ρ c
  show StableHlo.after hostOps1 (W4 m ρ c) (Proc.devRef .tc main_v46) = _
  after_results_simp
  rw [h.w, h.src, h.dst]
  rfl

/-- The second propagated term. -/
theorem tx2_1 : V5 m ρ c main_v62
    = Glue.cheb2 (m ((c : Thread nD τ).loc main_arg1)) (W4 m ρ c (Proc.devRef .tc main_v33)) (Glue.prop (m ((c : Thread nD τ).loc main_arg1)) (W4 m ρ c (Proc.devRef .tc main_v33))) := by
  have h := held4 m ρ c
  show StableHlo.after hostOps1 (W4 m ρ c) (Proc.devRef .tc main_v62) = _
  after_results_simp
  rw [h.w, h.src, h.dst]
  rfl

/-- The layer's three 64×64 weights, stacked. -/
theorem weights_1 (k : Fin 3) (a b : Fin 64) :
    (V5 m ρ c main_v64 : S3x64x64.Idx → EReal) (ix3 k a b) = (m ((c : Thread nD τ).loc main_arg5) : S3x3x64x64.Idx → EReal) (ix4 (0 : Fin 3) k a b) := by
  have h := held4 m ρ c
  have e : (V5 m ρ c main_v64 : S3x64x64.Idx → EReal)
      = shapeCast S3x64x64 (extractStridedSlice S1x3x64x64 ![0, 0, 0, 0] (m ((c : Thread nD τ).loc main_arg5) : S3x3x64x64.Idx → EReal) slices_S3x3x64x64_S1x3x64x64_0_0_0_0) shapeCasts_S1x3x64x64_S3x64x64 := by
    show StableHlo.after hostOps1 (W4 m ρ c) (Proc.devRef .tc main_v64) = _
    after_results_simp
    rw [h.a5]
    rfl
  rw [e]
  refine (shapeCast_apply _ shapeCasts_S1x3x64x64_S3x64x64 (ix3 k a b) (ix4 (0 : Fin 1) k a b)
    (by rewrite [Shape.rowMajor_val_four, Shape.rowMajor_val_three]; show ((0 * 3 + k.val) * 64 + a.val) * 64 + b.val = (k.val * 64 + a.val) * 64 + b.val; omega)).trans ?_
  exact extractStridedSlice_apply ![0, 0, 0, 0] _ slices_S3x3x64x64_S1x3x64x64_0_0_0_0 (ix4 (0 : Fin 1) k a b) (ix4 (0 : Fin 3) k a b) (fun d => match d with
    | ⟨0, _⟩ => by show 0 = 0 + 0; omega
    | ⟨1, _⟩ => by show k.val = 0 + k.val; omega
    | ⟨2, _⟩ => by show a.val = 0 + a.val; omega
    | ⟨3, _⟩ => by show b.val = 0 + b.val; omega)

/-- A layer-indexed 3×64 argument's row 0, cut out, flattened and stood up again as a 1×64 row, at (0, j). -/
theorem row_at_1 (x : S3x64.Idx → EReal) (j : Fin 64) :
    shapeCast S1x64 (shapeCast S64 (extractStridedSlice S1x64 ![0, 0] x slices_S3x64_S1x64_0_0) shapeCasts_S1x64_S64) shapeCasts_S64_S1x64 (ix2 (0 : Fin 1) j)
      = x (ix2 (0 : Fin 3) j) := by
  refine (shapeCast_apply _ shapeCasts_S64_S1x64 (ix2 (0 : Fin 1) j) (ix1 j)
    (by rewrite [Shape.rowMajor_val_one, Shape.rowMajor_val_two]; show j.val = 0 * 64 + j.val; omega)).trans ?_
  refine (shapeCast_apply _ shapeCasts_S1x64_S64 (ix1 j) (ix2 (0 : Fin 1) j)
    (by rewrite [Shape.rowMajor_val_two, Shape.rowMajor_val_one]; show 0 * 64 + j.val = j.val; omega)).trans ?_
  exact extractStridedSlice_apply ![0, 0] x slices_S3x64_S1x64_0_0 (ix2 (0 : Fin 1) j) (ix2 (0 : Fin 3) j) (fun d => match d with
    | ⟨0, _⟩ => by show 0 = 0 + 0; omega
    | ⟨1, _⟩ => by show j.val = 0 + j.val; omega)

/-- The layer's bias row. -/
theorem bias_1 (j : Fin 64) :
    (V5 m ρ c main_v71 : S1x64.Idx → EReal) (ix2 (0 : Fin 1) j) = (m ((c : Thread nD τ).loc main_arg6) : S3x64.Idx → EReal) (ix2 (0 : Fin 3) j) := by
  have h := held4 m ρ c
  have e : (V5 m ρ c main_v71 : S1x64.Idx → EReal)
      = shapeCast S1x64 (shapeCast S64 (extractStridedSlice S1x64 ![0, 0] (m ((c : Thread nD τ).loc main_arg6) : S3x64.Idx → EReal) slices_S3x64_S1x64_0_0) shapeCasts_S1x64_S64) shapeCasts_S64_S1x64 := by
    show StableHlo.after hostOps1 (W4 m ρ c) (Proc.devRef .tc main_v71) = _
    after_results_simp
    rw [h.a6]
    rfl
  rw [e]
  exact row_at_1 (m ((c : Thread nD τ).loc main_arg6)) j

/-- The layer's gain row. -/
theorem gain_1 (j : Fin 64) :
    (V5 m ρ c main_v72 : S1x64.Idx → EReal) (ix2 (0 : Fin 1) j) = (m ((c : Thread nD τ).loc main_arg7) : S3x64.Idx → EReal) (ix2 (0 : Fin 3) j) := by
  have h := held4 m ρ c
  have e : (V5 m ρ c main_v72 : S1x64.Idx → EReal)
      = shapeCast S1x64 (shapeCast S64 (extractStridedSlice S1x64 ![0, 0] (m ((c : Thread nD τ).loc main_arg7) : S3x64.Idx → EReal) slices_S3x64_S1x64_0_0) shapeCasts_S1x64_S64) shapeCasts_S64_S1x64 := by
    show StableHlo.after hostOps1 (W4 m ρ c) (Proc.devRef .tc main_v72) = _
    after_results_simp
    rw [h.a7]
    rfl
  rw [e]
  exact row_at_1 (m ((c : Thread nD τ).loc main_arg7)) j

/-- The layer's shift row. -/
theorem shift_1 (j : Fin 64) :
    (V5 m ρ c main_v73 : S1x64.Idx → EReal) (ix2 (0 : Fin 1) j) = (m ((c : Thread nD τ).loc main_arg8) : S3x64.Idx → EReal) (ix2 (0 : Fin 3) j) := by
  have h := held4 m ρ c
  have e : (V5 m ρ c main_v73 : S1x64.Idx → EReal)
      = shapeCast S1x64 (shapeCast S64 (extractStridedSlice S1x64 ![0, 0] (m ((c : Thread nD τ).loc main_arg8) : S3x64.Idx → EReal) slices_S3x64_S1x64_0_0) shapeCasts_S1x64_S64) shapeCasts_S64_S1x64 := by
    show StableHlo.after hostOps1 (W4 m ρ c) (Proc.devRef .tc main_v73) = _
    after_results_simp
    rw [h.a8]
    rfl
  rw [e]
  exact row_at_1 (m ((c : Thread nD τ).loc main_arg8)) j

end Cert.KernelIdeal.Net

end
-- ==== Proof.FoldStretch2.lean ====
/-
  What region 2 (Chebyshev layer 1) finds in its input windows.

  The host stretch before the region propagates the previous layer's output `h` twice over the graph — `L̂ h`, then
  `2 · L̂ (L̂ h) − h` —, and cuts row 1 out of the layer-indexed weights, bias, gain and shift. It leaves `h`
  itself alone. Read at an index, the 3×64×64 weight block at (k, a, b) is the argument at (1, k, a, b), and each
  1×64 row at (0, j) is its argument at (1, j).
-/
import proofs.«120199_j53815940218921_1_alg».proof.Proof.FoldBase
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The previous layer's output reaches the region untouched. -/
theorem tx0_2 : V7 m ρ c main_v74 = W6 m ρ c (Proc.devRef .tc main_v74) := by
  host_keeps hostOps2

/-- The first propagated term. -/
theorem tx1_2 : V7 m ρ c main_v87 = Glue.prop (m ((c : Thread nD τ).loc main_arg1)) (W6 m ρ c (Proc.devRef .tc main_v74)) := by
  have h := held6 m ρ c
  show StableHlo.after hostOps2 (W6 m ρ c) (Proc.devRef .tc main_v87) = _
  after_results_simp
  rw [h.w, h.src, h.dst]
  rfl

/-- The second propagated term. -/
theorem tx2_2 : V7 m ρ c main_v103
    = Glue.cheb2 (m ((c : Thread nD τ).loc main_arg1)) (W6 m ρ c (Proc.devRef .tc main_v74)) (Glue.prop (m ((c : Thread nD τ).loc main_arg1)) (W6 m ρ c (Proc.devRef .tc main_v74))) := by
  have h := held6 m ρ c
  show StableHlo.after hostOps2 (W6 m ρ c) (Proc.devRef .tc main_v103) = _
  after_results_simp
  rw [h.w, h.src, h.dst]
  rfl

/-- The layer's three 64×64 weights, stacked. -/
theorem weights_2 (k : Fin 3) (a b : Fin 64) :
    (V7 m ρ c main_v105 : S3x64x64.Idx → EReal) (ix3 k a b) = (m ((c : Thread nD τ).loc main_arg5) : S3x3x64x64.Idx → EReal) (ix4 (1 : Fin 3) k a b) := by
  have h := held6 m ρ c
  have e : (V7 m ρ c main_v105 : S3x64x64.Idx → EReal)
      = shapeCast S3x64x64 (extractStridedSlice S1x3x64x64 ![1, 0, 0, 0] (m ((c : Thread nD τ).loc main_arg5) : S3x3x64x64.Idx → EReal) slices_S3x3x64x64_S1x3x64x64_1_0_0_0) shapeCasts_S1x3x64x64_S3x64x64 := by
    show StableHlo.after hostOps2 (W6 m ρ c) (Proc.devRef .tc main_v105) = _
    after_results_simp
    rw [h.a5]
    rfl
  rw [e]
  refine (shapeCast_apply _ shapeCasts_S1x3x64x64_S3x64x64 (ix3 k a b) (ix4 (0 : Fin 1) k a b)
    (by rewrite [Shape.rowMajor_val_four, Shape.rowMajor_val_three]; show ((0 * 3 + k.val) * 64 + a.val) * 64 + b.val = (k.val * 64 + a.val) * 64 + b.val; omega)).trans ?_
  exact extractStridedSlice_apply ![1, 0, 0, 0] _ slices_S3x3x64x64_S1x3x64x64_1_0_0_0 (ix4 (0 : Fin 1) k a b) (ix4 (1 : Fin 3) k a b) (fun d => match d with
    | ⟨0, _⟩ => by show 1 = 1 + 0; omega
    | ⟨1, _⟩ => by show k.val = 0 + k.val; omega
    | ⟨2, _⟩ => by show a.val = 0 + a.val; omega
    | ⟨3, _⟩ => by show b.val = 0 + b.val; omega)

/-- A layer-indexed 3×64 argument's row 1, cut out, flattened and stood up again as a 1×64 row, at (0, j). -/
theorem row_at_2 (x : S3x64.Idx → EReal) (j : Fin 64) :
    shapeCast S1x64 (shapeCast S64 (extractStridedSlice S1x64 ![1, 0] x slices_S3x64_S1x64_1_0) shapeCasts_S1x64_S64) shapeCasts_S64_S1x64 (ix2 (0 : Fin 1) j)
      = x (ix2 (1 : Fin 3) j) := by
  refine (shapeCast_apply _ shapeCasts_S64_S1x64 (ix2 (0 : Fin 1) j) (ix1 j)
    (by rewrite [Shape.rowMajor_val_one, Shape.rowMajor_val_two]; show j.val = 0 * 64 + j.val; omega)).trans ?_
  refine (shapeCast_apply _ shapeCasts_S1x64_S64 (ix1 j) (ix2 (0 : Fin 1) j)
    (by rewrite [Shape.rowMajor_val_two, Shape.rowMajor_val_one]; show 0 * 64 + j.val = j.val; omega)).trans ?_
  exact extractStridedSlice_apply ![1, 0] x slices_S3x64_S1x64_1_0 (ix2 (0 : Fin 1) j) (ix2 (1 : Fin 3) j) (fun d => match d with
    | ⟨0, _⟩ => by show 1 = 1 + 0; omega
    | ⟨1, _⟩ => by show j.val = 0 + j.val; omega)

/-- The layer's bias row. -/
theorem bias_2 (j : Fin 64) :
    (V7 m ρ c main_v112 : S1x64.Idx → EReal) (ix2 (0 : Fin 1) j) = (m ((c : Thread nD τ).loc main_arg6) : S3x64.Idx → EReal) (ix2 (1 : Fin 3) j) := by
  have h := held6 m ρ c
  have e : (V7 m ρ c main_v112 : S1x64.Idx → EReal)
      = shapeCast S1x64 (shapeCast S64 (extractStridedSlice S1x64 ![1, 0] (m ((c : Thread nD τ).loc main_arg6) : S3x64.Idx → EReal) slices_S3x64_S1x64_1_0) shapeCasts_S1x64_S64) shapeCasts_S64_S1x64 := by
    show StableHlo.after hostOps2 (W6 m ρ c) (Proc.devRef .tc main_v112) = _
    after_results_simp
    rw [h.a6]
    rfl
  rw [e]
  exact row_at_2 (m ((c : Thread nD τ).loc main_arg6)) j

/-- The layer's gain row. -/
theorem gain_2 (j : Fin 64) :
    (V7 m ρ c main_v113 : S1x64.Idx → EReal) (ix2 (0 : Fin 1) j) = (m ((c : Thread nD τ).loc main_arg7) : S3x64.Idx → EReal) (ix2 (1 : Fin 3) j) := by
  have h := held6 m ρ c
  have e : (V7 m ρ c main_v113 : S1x64.Idx → EReal)
      = shapeCast S1x64 (shapeCast S64 (extractStridedSlice S1x64 ![1, 0] (m ((c : Thread nD τ).loc main_arg7) : S3x64.Idx → EReal) slices_S3x64_S1x64_1_0) shapeCasts_S1x64_S64) shapeCasts_S64_S1x64 := by
    show StableHlo.after hostOps2 (W6 m ρ c) (Proc.devRef .tc main_v113) = _
    after_results_simp
    rw [h.a7]
    rfl
  rw [e]
  exact row_at_2 (m ((c : Thread nD τ).loc main_arg7)) j

/-- The layer's shift row. -/
theorem shift_2 (j : Fin 64) :
    (V7 m ρ c main_v114 : S1x64.Idx → EReal) (ix2 (0 : Fin 1) j) = (m ((c : Thread nD τ).loc main_arg8) : S3x64.Idx → EReal) (ix2 (1 : Fin 3) j) := by
  have h := held6 m ρ c
  have e : (V7 m ρ c main_v114 : S1x64.Idx → EReal)
      = shapeCast S1x64 (shapeCast S64 (extractStridedSlice S1x64 ![1, 0] (m ((c : Thread nD τ).loc main_arg8) : S3x64.Idx → EReal) slices_S3x64_S1x64_1_0) shapeCasts_S1x64_S64) shapeCasts_S64_S1x64 := by
    show StableHlo.after hostOps2 (W6 m ρ c) (Proc.devRef .tc main_v114) = _
    after_results_simp
    rw [h.a8]
    rfl
  rw [e]
  exact row_at_2 (m ((c : Thread nD τ).loc main_arg8)) j

end Cert.KernelIdeal.Net

end
-- ==== Proof.FoldStretch3.lean ====
/-
  What region 3 (Chebyshev layer 2) finds in its input windows.

  The host stretch before the region propagates the previous layer's output `h` twice over the graph — `L̂ h`, then
  `2 · L̂ (L̂ h) − h` —, and cuts row 2 out of the layer-indexed weights, bias, gain and shift. It leaves `h`
  itself alone. Read at an index, the 3×64×64 weight block at (k, a, b) is the argument at (2, k, a, b), and each
  1×64 row at (0, j) is its argument at (2, j).
-/
import proofs.«120199_j53815940218921_1_alg».proof.Proof.FoldBase
import Idealize.ShloMosaic.Lib.Pipeline.Value
import Idealize.ShloMosaic.Lib.ValueIdx

set_option maxRecDepth 16384

noncomputable section

namespace Cert.KernelIdeal.Net

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- The previous layer's output reaches the region untouched. -/
theorem tx0_3 : V9 m ρ c main_v115 = W8 m ρ c (Proc.devRef .tc main_v115) := by
  host_keeps hostOps3

/-- The first propagated term. -/
theorem tx1_3 : V9 m ρ c main_v128 = Glue.prop (m ((c : Thread nD τ).loc main_arg1)) (W8 m ρ c (Proc.devRef .tc main_v115)) := by
  have h := held8 m ρ c
  show StableHlo.after hostOps3 (W8 m ρ c) (Proc.devRef .tc main_v128) = _
  after_results_simp
  rw [h.w, h.src, h.dst]
  rfl

/-- The second propagated term. -/
theorem tx2_3 : V9 m ρ c main_v144
    = Glue.cheb2 (m ((c : Thread nD τ).loc main_arg1)) (W8 m ρ c (Proc.devRef .tc main_v115)) (Glue.prop (m ((c : Thread nD τ).loc main_arg1)) (W8 m ρ c (Proc.devRef .tc main_v115))) := by
  have h := held8 m ρ c
  show StableHlo.after hostOps3 (W8 m ρ c) (Proc.devRef .tc main_v144) = _
  after_results_simp
  rw [h.w, h.src, h.dst]
  rfl

/-- The layer's three 64×64 weights, stacked. -/
theorem weights_3 (k : Fin 3) (a b : Fin 64) :
    (V9 m ρ c main_v146 : S3x64x64.Idx → EReal) (ix3 k a b) = (m ((c : Thread nD τ).loc main_arg5) : S3x3x64x64.Idx → EReal) (ix4 (2 : Fin 3) k a b) := by
  have h := held8 m ρ c
  have e : (V9 m ρ c main_v146 : S3x64x64.Idx → EReal)
      = shapeCast S3x64x64 (extractStridedSlice S1x3x64x64 ![2, 0, 0, 0] (m ((c : Thread nD τ).loc main_arg5) : S3x3x64x64.Idx → EReal) slices_S3x3x64x64_S1x3x64x64_2_0_0_0) shapeCasts_S1x3x64x64_S3x64x64 := by
    show StableHlo.after hostOps3 (W8 m ρ c) (Proc.devRef .tc main_v146) = _
    after_results_simp
    rw [h.a5]
    rfl
  rw [e]
  refine (shapeCast_apply _ shapeCasts_S1x3x64x64_S3x64x64 (ix3 k a b) (ix4 (0 : Fin 1) k a b)
    (by rewrite [Shape.rowMajor_val_four, Shape.rowMajor_val_three]; show ((0 * 3 + k.val) * 64 + a.val) * 64 + b.val = (k.val * 64 + a.val) * 64 + b.val; omega)).trans ?_
  exact extractStridedSlice_apply ![2, 0, 0, 0] _ slices_S3x3x64x64_S1x3x64x64_2_0_0_0 (ix4 (0 : Fin 1) k a b) (ix4 (2 : Fin 3) k a b) (fun d => match d with
    | ⟨0, _⟩ => by show 2 = 2 + 0; omega
    | ⟨1, _⟩ => by show k.val = 0 + k.val; omega
    | ⟨2, _⟩ => by show a.val = 0 + a.val; omega
    | ⟨3, _⟩ => by show b.val = 0 + b.val; omega)

/-- A layer-indexed 3×64 argument's row 2, cut out, flattened and stood up again as a 1×64 row, at (0, j). -/
theorem row_at_3 (x : S3x64.Idx → EReal) (j : Fin 64) :
    shapeCast S1x64 (shapeCast S64 (extractStridedSlice S1x64 ![2, 0] x slices_S3x64_S1x64_2_0) shapeCasts_S1x64_S64) shapeCasts_S64_S1x64 (ix2 (0 : Fin 1) j)
      = x (ix2 (2 : Fin 3) j) := by
  refine (shapeCast_apply _ shapeCasts_S64_S1x64 (ix2 (0 : Fin 1) j) (ix1 j)
    (by rewrite [Shape.rowMajor_val_one, Shape.rowMajor_val_two]; show j.val = 0 * 64 + j.val; omega)).trans ?_
  refine (shapeCast_apply _ shapeCasts_S1x64_S64 (ix1 j) (ix2 (0 : Fin 1) j)
    (by rewrite [Shape.rowMajor_val_two, Shape.rowMajor_val_one]; show 0 * 64 + j.val = j.val; omega)).trans ?_
  exact extractStridedSlice_apply ![2, 0] x slices_S3x64_S1x64_2_0 (ix2 (0 : Fin 1) j) (ix2 (2 : Fin 3) j) (fun d => match d with
    | ⟨0, _⟩ => by show 2 = 2 + 0; omega
    | ⟨1, _⟩ => by show j.val = 0 + j.val; omega)

/-- The layer's bias row. -/
theorem bias_3 (j : Fin 64) :
    (V9 m ρ c main_v153 : S1x64.Idx → EReal) (ix2 (0 : Fin 1) j) = (m ((c : Thread nD τ).loc main_arg6) : S3x64.Idx → EReal) (ix2 (2 : Fin 3) j) := by
  have h := held8 m ρ c
  have e : (V9 m ρ c main_v153 : S1x64.Idx → EReal)
      = shapeCast S1x64 (shapeCast S64 (extractStridedSlice S1x64 ![2, 0] (m ((c : Thread nD τ).loc main_arg6) : S3x64.Idx → EReal) slices_S3x64_S1x64_2_0) shapeCasts_S1x64_S64) shapeCasts_S64_S1x64 := by
    show StableHlo.after hostOps3 (W8 m ρ c) (Proc.devRef .tc main_v153) = _
    after_results_simp
    rw [h.a6]
    rfl
  rw [e]
  exact row_at_3 (m ((c : Thread nD τ).loc main_arg6)) j

/-- The layer's gain row. -/
theorem gain_3 (j : Fin 64) :
    (V9 m ρ c main_v154 : S1x64.Idx → EReal) (ix2 (0 : Fin 1) j) = (m ((c : Thread nD τ).loc main_arg7) : S3x64.Idx → EReal) (ix2 (2 : Fin 3) j) := by
  have h := held8 m ρ c
  have e : (V9 m ρ c main_v154 : S1x64.Idx → EReal)
      = shapeCast S1x64 (shapeCast S64 (extractStridedSlice S1x64 ![2, 0] (m ((c : Thread nD τ).loc main_arg7) : S3x64.Idx → EReal) slices_S3x64_S1x64_2_0) shapeCasts_S1x64_S64) shapeCasts_S64_S1x64 := by
    show StableHlo.after hostOps3 (W8 m ρ c) (Proc.devRef .tc main_v154) = _
    after_results_simp
    rw [h.a7]
    rfl
  rw [e]
  exact row_at_3 (m ((c : Thread nD τ).loc main_arg7)) j

/-- The layer's shift row. -/
theorem shift_3 (j : Fin 64) :
    (V9 m ρ c main_v155 : S1x64.Idx → EReal) (ix2 (0 : Fin 1) j) = (m ((c : Thread nD τ).loc main_arg8) : S3x64.Idx → EReal) (ix2 (2 : Fin 3) j) := by
  have h := held8 m ρ c
  have e : (V9 m ρ c main_v155 : S1x64.Idx → EReal)
      = shapeCast S1x64 (shapeCast S64 (extractStridedSlice S1x64 ![2, 0] (m ((c : Thread nD τ).loc main_arg8) : S3x64.Idx → EReal) slices_S3x64_S1x64_2_0) shapeCasts_S1x64_S64) shapeCasts_S64_S1x64 := by
    show StableHlo.after hostOps3 (W8 m ρ c) (Proc.devRef .tc main_v155) = _
    after_results_simp
    rw [h.a8]
    rfl
  rw [e]
  exact row_at_3 (m ((c : Thread nD τ).loc main_arg8)) j

end Cert.KernelIdeal.Net

end
-- ==== Proof.Spec.lean ====
/-
  The network both programs compute, written once as scalar formulas on the extended reals.

  A node is a row `r` of 50000, a channel a column `j`. The input and output projections are dense layers
  `Σ_a x[r,a]·W[a,j] + b[j]`. A Chebyshev layer `i` takes the three propagated feature arrays `t0, t1, t2`
  (`t0` is also the residual), forms `max(t0·W[i,0] + t1·W[i,1] + t2·W[i,2] + cb[i], 0) + t0` row by row, and
  normalises each row: subtract the row mean, multiply by `rsqrt(row variance + eps)`, scale by `g[i]`, shift by `b[i]`.
  Mean and variance are a row sum divided by the float 64; `eps` and 64 stay as their float words, which both
  programs share, so neither is ever evaluated.
-/
import Idealize.ShloMosaic.PureOps.Ideal
import Idealize.ShloMosaic.PureOps.Ideal.Laws
import Idealize.ShloMosaic.Lib.ValueIdx

noncomputable section

namespace Cert.Cheb

open Idealize.ShloMosaic Idealize.ShloMosaic.ValueIdx

/-- The input projection at node `r`, channel `j`: sixteen input features against a 16×64 weight, plus the bias. -/
def denseIn (x : FVec Ideal ⟨2, ![50000, 16]⟩ .f32) (W : FVec Ideal ⟨2, ![16, 64]⟩ .f32) (b : FVec Ideal ⟨1, ![64]⟩ .f32)
    (r : Fin 50000) (j : Fin 64) : EReal :=
  (∑ a : Fin 16, x (ix2 r a) * W (ix2 a j)) + b (ix1 j)

/-- The output projection at node `r`, class `j`: sixty-four hidden features against a 64×4 weight, plus the bias. -/
def denseOut (h : FVec Ideal ⟨2, ![50000, 64]⟩ .f32) (W : FVec Ideal ⟨2, ![64, 4]⟩ .f32) (b : FVec Ideal ⟨1, ![4]⟩ .f32)
    (r : Fin 50000) (j : Fin 4) : EReal :=
  (∑ a : Fin 64, h (ix2 r a) * W (ix2 a j)) + b (ix1 j)

/-- Layer `i` before normalisation, at node `r`, channel `j`: the three Chebyshev terms against their 64×64 weights,
    summed left to right, plus the bias, clamped below at zero, plus the residual `t0`. -/
def combine (i : Fin 3) (t0 t1 t2 : FVec Ideal ⟨2, ![50000, 64]⟩ .f32) (cW : FVec Ideal ⟨4, ![3, 3, 64, 64]⟩ .f32)
    (cb : FVec Ideal ⟨2, ![3, 64]⟩ .f32) (r : Fin 50000) (j : Fin 64) : EReal :=
  max ((((∑ a : Fin 64, t0 (ix2 r a) * cW (ix4 i 0 a j)) + (∑ a : Fin 64, t1 (ix2 r a) * cW (ix4 i 1 a j)))
      + (∑ a : Fin 64, t2 (ix2 r a) * cW (ix4 i 2 a j))) + cb (ix2 i j)) (Ideal.ofBits .f32 0x00000000#32)
    + t0 (ix2 r j)

/-- A row of 64 values averaged: their sum divided by the float 64. -/
def rowMean (f : Fin 64 → EReal) : EReal := Ideal.div (∑ j : Fin 64, f j) (Ideal.ofBits .f32 0x42800000#32)

/-- A row centred on its mean. -/
def centred (f : Fin 64 → EReal) (j : Fin 64) : EReal := f j - rowMean f

/-- A row's variance: the mean of the squares of the centred row. -/
def rowVar (f : Fin 64 → EReal) : EReal := rowMean fun j => centred f j * centred f j

/-- A row normalised, scaled by `g` and shifted by `b`. -/
def normRow (f g b : Fin 64 → EReal) (j : Fin 64) : EReal :=
  centred f j * Ideal.rsqrt (rowVar f + Ideal.ofBits .f32 0x3727C5AC#32) * g j + b j

/-- Layer `i` at node `r`, channel `j`. -/
def layer (i : Fin 3) (t0 t1 t2 : FVec Ideal ⟨2, ![50000, 64]⟩ .f32) (cW : FVec Ideal ⟨4, ![3, 3, 64, 64]⟩ .f32)
    (cb lg lb : FVec Ideal ⟨2, ![3, 64]⟩ .f32) (r : Fin 50000) (j : Fin 64) : EReal :=
  normRow (combine i t0 t1 t2 cW cb r) (fun j' => lg (ix2 i j')) (fun j' => lb (ix2 i j')) j

/-- The three maps as whole arrays, read at an array index. -/
def denseInA (x : FVec Ideal ⟨2, ![50000, 16]⟩ .f32) (W : FVec Ideal ⟨2, ![16, 64]⟩ .f32) (b : FVec Ideal ⟨1, ![64]⟩ .f32) :
    FVec Ideal ⟨2, ![50000, 64]⟩ .f32 := fun y => denseIn x W b (y 0) (y 1)

def denseOutA (h : FVec Ideal ⟨2, ![50000, 64]⟩ .f32) (W : FVec Ideal ⟨2, ![64, 4]⟩ .f32) (b : FVec Ideal ⟨1, ![4]⟩ .f32) :
    FVec Ideal ⟨2, ![50000, 4]⟩ .f32 := fun y => denseOut h W b (y 0) (y 1)

def layerA (i : Fin 3) (t0 t1 t2 : FVec Ideal ⟨2, ![50000, 64]⟩ .f32) (cW : FVec Ideal ⟨4, ![3, 3, 64, 64]⟩ .f32)
    (cb lg lb : FVec Ideal ⟨2, ![3, 64]⟩ .f32) : FVec Ideal ⟨2, ![50000, 64]⟩ .f32 :=
  fun y => layer i t0 t1 t2 cW cb lg lb (y 0) (y 1)

theorem denseInA_ix2 (x : FVec Ideal ⟨2, ![50000, 16]⟩ .f32) (W : FVec Ideal ⟨2, ![16, 64]⟩ .f32) (b : FVec Ideal ⟨1, ![64]⟩ .f32)
    (r : Fin 50000) (j : Fin 64) : denseInA x W b (ix2 r j) = denseIn x W b r j := rfl

theorem denseOutA_ix2 (h : FVec Ideal ⟨2, ![50000, 64]⟩ .f32) (W : FVec Ideal ⟨2, ![64, 4]⟩ .f32) (b : FVec Ideal ⟨1, ![4]⟩ .f32)
    (r : Fin 50000) (j : Fin 4) : denseOutA h W b (ix2 r j) = denseOut h W b r j := rfl

theorem layerA_ix2 (i : Fin 3) (t0 t1 t2 : FVec Ideal ⟨2, ![50000, 64]⟩ .f32) (cW : FVec Ideal ⟨4, ![3, 3, 64, 64]⟩ .f32)
    (cb lg lb : FVec Ideal ⟨2, ![3, 64]⟩ .f32) (r : Fin 50000) (j : Fin 64) :
    layerA i t0 t1 t2 cW cb lg lb (ix2 r j) = layer i t0 t1 t2 cW cb lg lb r j := rfl

end Cert.Cheb

end
-- ==== Proof.DenseValue0.lean ====
/-
  The input projection as a whole array.

  The first pallas_call walks the 50000 nodes in ten blocks of 5000 rows. At each grid point its body multiplies the
  block of `x` (5000×16) by the whole weight (16×64) and adds the bias row; a change of float format is the identity
  on the extended reals, and a product accumulated into zero is the plain sum over the sixteen input features. Block
  `t` of every row-blocked window sits at rows 5000·t … 5000·t + 4999, so what point `t` writes back is block `t` of
  ONE function of the whole arrays, and the ten blocks cover the output: the output array ends holding that function.
-/
import proofs.«120199_j53815940218921_1_alg».proof.Proof.Gen.KernelIdeal.Frame
import proofs.«120199_j53815940218921_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseIn

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at a row `p` of the block and a channel `q` -/

theorem lhs0 (i : S5000x64.Idx) (k : dot_S5000x16_S16x64_S5000x64_1_0_0_1_n_n.contr.Idx) :
    (dot_S5000x16_S16x64_S5000x64_1_0_0_1_n_n.lhsIdx i k 0).val = (i 0).val := by
  unfold DotDims.lhsIdx
  rw [dif_neg (show ¬(0 : Fin S5000x16.rank) ∈ dot_S5000x16_S16x64_S5000x64_1_0_0_1_n_n.lhsBatch by decide), dif_pos (show (0 : Fin S5000x16.rank) ∈ dot_S5000x16_S16x64_S5000x64_1_0_0_1_n_n.lhsNonContracting by decide)]
  rfl

theorem rhs1 (i : S5000x64.Idx) (k : dot_S5000x16_S16x64_S5000x64_1_0_0_1_n_n.contr.Idx) :
    (dot_S5000x16_S16x64_S5000x64_1_0_0_1_n_n.rhsIdx i k 1).val = (i 1).val := by
  unfold DotDims.rhsIdx
  rw [dif_neg (show ¬(1 : Fin S16x64.rank) ∈ dot_S5000x16_S16x64_S5000x64_1_0_0_1_n_n.rhsBatch by decide), dif_pos (show (1 : Fin S16x64.rank) ∈ dot_S5000x16_S16x64_S5000x64_1_0_0_1_n_n.rhsNonContracting by decide)]
  rfl

/-- The product of a block of rows with the weight, accumulated into zero, at (p, q): the sum over the sixteen
    input features. -/
theorem matmul_at (x0 : FVec Ideal S5000x16 .bf16) (x1 : FVec Ideal S16x64 .bf16) (p : Fin 5000) (q : Fin 64) :
    matmul dot_S5000x16_S16x64_S5000x64_1_0_0_1_n_n none x0 x1 (constant S5000x64 .f32 0x00000000#32) (ix2 p q)
      = ∑ a : Fin 16, x0 (ix2 p a) * x1 (ix2 a q) := by
  show FloatOps.matmul dot_S5000x16_S16x64_S5000x64_1_0_0_1_n_n none x0 x1 (constant S5000x64 .f32 0x00000000#32) (ix2 p q) = _
  rw [Ideal.matmul_constant_zero_apply, ← Equiv.sum_comp (contrEquiv1 dot_S5000x16_S16x64_S5000x64_1_0_0_1_n_n 16 rfl rfl).symm]
  refine Finset.sum_congr rfl fun k _ => ?_
  have hk := contrEquiv1_symm_val dot_S5000x16_S16x64_S5000x64_1_0_0_1_n_n 16 rfl rfl k
  have el : dot_S5000x16_S16x64_S5000x64_1_0_0_1_n_n.lhsIdx (ix2 p q) ((contrEquiv1 dot_S5000x16_S16x64_S5000x64_1_0_0_1_n_n 16 rfl rfl).symm k) = ix2 p k := funext fun a => Fin.ext (by
    match a with
    | ⟨0, _⟩ => exact lhs0 _ _
    | ⟨1, _⟩ => exact (dot_S5000x16_S16x64_S5000x64_1_0_0_1_n_n.lhsIdx_val_of_single rfl _ _).trans hk)
  have er : dot_S5000x16_S16x64_S5000x64_1_0_0_1_n_n.rhsIdx (ix2 p q) ((contrEquiv1 dot_S5000x16_S16x64_S5000x64_1_0_0_1_n_n 16 rfl rfl).symm k) = ix2 k q := funext fun a => Fin.ext (by
    match a with
    | ⟨0, _⟩ => exact (dot_S5000x16_S16x64_S5000x64_1_0_0_1_n_n.rhsIdx_val_of_single rfl _ _).trans hk
    | ⟨1, _⟩ => exact rhs1 _ _)
  rw [el, er]

/-- The bias row spread over the block, at (p, q): the row's entry at channel `q`. -/
theorem bias_at (x2 : Vec Ideal S1x64 .f32) (p : Fin 5000) (q : Fin 64) :
    broadcastTo S5000x64 (shapeCast S1x64 x2 shapeCasts_S1x64_S1x64) broadcasts_S1x64_S5000x64 (ix2 p q) = x2 (ix2 (0 : Fin 1) q) := by
  rw [shapeCast_self]
  refine broadcastTo_apply x2 broadcasts_S1x64_S5000x64 (ix2 p q) (ix2 (0 : Fin 1) q) fun a => ?_
  match a with
  | ⟨0, _⟩ => rfl
  | ⟨1, _⟩ => rfl

/-- The stored value at (p, q): the sixteen products summed, plus the bias. -/
theorem pay_at (x0 : Vec Ideal S5000x16 .f32) (x1 : Vec Ideal S16x64 .f32) (x2 : Vec Ideal S1x64 .f32) (p : Fin 5000) (q : Fin 64) :
    k0_pay1 (F := Ideal) x0 x1 x2 (ix2 p q) = (∑ a : Fin 16, x0 (ix2 p a) * x1 (ix2 a q)) + x2 (ix2 (0 : Fin 1) q) := by
  unfold k0_pay1
  rw [addf_apply, matmul_at, bias_at]
  rfl

/-! ## From the ten blocks to the array -/

section Array

variable (V : (c : Dev nD) → (b : Ref sig .tc) → Buf (Elt Ideal) ((c : Thread nD τ).loc b))

theorem off_zero2 : (![0, 0] : Fin 2 → Nat) = fun _ => 0 := funext fun a => by fin_cases a <;> rfl

/-- The projection of the arrays as the region finds them: `x`, the weight, and the bias row read along its
    single row. -/
abbrev projected (c : Dev nD) : S50000x64.Idx → EReal :=
  Cert.Cheb.denseInA (V c main_arg0) (V c main_arg3) (fun j => (V c main_v32 : S1x64.Idx → EReal) (ix2 (0 : Fin 1) (j 0)))

/-- Where each window's block sits at grid point `t`: the rows of `x` move with the output's rows, the weight and
    the bias are taken whole, and the output's row block is one of the ten. -/
theorem block_places : ∀ t : Fin cfg0.N,
    win0_0.index t (0 : Fin 2) = win0_3.index t (0 : Fin 2) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 9 :=
  (by decide +kernel : ∀ t : Fin grid0.N, _)

/-- Every one of the ten row blocks is some grid point's. -/
theorem block_onto : ∀ q0 : Fin 10, ∃ t : Fin cfg0.N, win0_3.index t = ![q0.val, 0] :=
  (by decide +kernel : ∀ q0 : Fin 10, ∃ t : Fin grid0.N, win0_3.index t = ![q0.val, 0])

/-- What grid point `t` writes back is block `t` of the projection. -/
theorem flushed_eq (c : Dev nD) (t : Fin cfg0.N) :
    (dat0 V c).flushed 3 t = ((cfg0.win 3).blk t).view.read (Elt Ideal) (projected V c) := by
  show (cfg0.win 3).cut (grid0.coords t) ((dat0 V c).after 3 t) = _
  rw [after0_3]
  unfold out0_3
  rw [View.canon_unit_zero off_zero2]
  simp only [View.ld_unit_zero (S := S5000x16) off_zero2, View.ld_unit_zero (S := S16x64) off_zero2, View.ld_unit_zero (S := S1x64) off_zero2]
  obtain ⟨e00, e01, e10, e11, e20, e21, e31, e30⟩ := block_places t
  funext j
  obtain ⟨p, q, rfl⟩ : ∃ (p : Fin 5000) (q : Fin 64), j = ix2 p q := ⟨j 0, j 1, eq_ix2 j⟩
  refine (pay_at (iblk0 V c 0 t) (iblk0 V c 1 t) (iblk0 V c 2 t) p q).trans ?_
  show _ = Cert.Cheb.denseIn (V c main_arg0) (V c main_arg3) (fun j => (V c main_v32 : S1x64.Idx → EReal) (ix2 (0 : Fin 1) (j 0)))
    ((((cfg0.win 3).blk t).view.emb (ix2 p q)) 0) ((((cfg0.win 3).blk t).view.emb (ix2 p q)) 1)
  unfold Cert.Cheb.denseIn
  have hx : ∀ a : Fin 16, iblk0 V c 0 t (ix2 p a)
      = (V c main_arg0 : S50000x16.Idx → EReal) (ix2 ((((cfg0.win 3).blk t).view.emb (ix2 p q)) 0) a) := fun a => by
    show (V c main_arg0 : S50000x16.Idx → EReal) (((cfg0.win 0).blk t).view.emb (ix2 p a)) = _
    refine congrArg _ (funext fun d => Fin.ext ?_)
    match d with
    | ⟨0, _⟩ => show win0_0.index t (0 : Fin 2) * 5000 + 1 * p.val = win0_3.index t (0 : Fin 2) * 5000 + 1 * p.val; omega
    | ⟨1, _⟩ => show win0_0.index t (1 : Fin 2) * 16 + 1 * a.val = a.val; omega
  have hw : ∀ a : Fin 16, iblk0 V c 1 t (ix2 a q)
      = (V c main_arg3 : S16x64.Idx → EReal) (ix2 a ((((cfg0.win 3).blk t).view.emb (ix2 p q)) 1)) := fun a => by
    show (V c main_arg3 : S16x64.Idx → EReal) (((cfg0.win 1).blk t).view.emb (ix2 a q)) = _
    refine congrArg _ (funext fun d => Fin.ext ?_)
    match d with
    | ⟨0, _⟩ => show win0_1.index t (0 : Fin 2) * 16 + 1 * a.val = a.val; omega
    | ⟨1, _⟩ => show win0_1.index t (1 : Fin 2) * 64 + 1 * q.val = win0_3.index t (1 : Fin 2) * 64 + 1 * q.val; omega
  have hb : iblk0 V c 2 t (ix2 (0 : Fin 1) q)
      = (V c main_v32 : S1x64.Idx → EReal) (ix2 (0 : Fin 1) ((ix1 ((((cfg0.win 3).blk t).view.emb (ix2 p q)) 1) : (⟨1, ![64]⟩ : Shape).Idx) 0)) := by
    show (V c main_v32 : S1x64.Idx → EReal) (((cfg0.win 2).blk t).view.emb (ix2 (0 : Fin 1) q)) = _
    refine congrArg _ (funext fun d => Fin.ext ?_)
    match d with
    | ⟨0, _⟩ => show win0_2.index t (0 : Fin 2) * 1 + 1 * 0 = 0; omega
    | ⟨1, _⟩ => show win0_2.index t (1 : Fin 2) * 64 + 1 * q.val = win0_3.index t (1 : Fin 2) * 64 + 1 * q.val; omega
  rw [hb]
  exact congrArg (· + _) (Finset.sum_congr rfl fun a _ => by rw [hx a, hw a])

/-- An array index is in point `t`'s output block iff its row is among the block's 5000 rows. -/
theorem mem_block (t : Fin cfg0.N) (i : S50000x64.Idx) :
    i ∈ ((cfg0.win 3).blk t).view.set ↔ ∀ a : Fin 2, win0_3.index t a * S5000x64.size a ≤ (i a).val ∧ (i a).val < win0_3.index t a * S5000x64.size a + S5000x64.size a := by
  show i ∈ ((View.whole main_v33).slice (win0_3.rect t)).set ↔ _
  rw [View.set_slice_whole, Rect.mem_set_unit]
  exact Iff.rfl

/-- The output array after the region: the projection of the arrays the region found. -/
theorem final (c : Dev nD) : (dat0 V c).arrAt 3 cfg0.N = projected V c :=
  (dat0 V c).arrAt_eq_of_cover 3 (projected V c) (fun t _ => flushed_eq V c t) fun i => by
    have hi0 : (i 0).val < 50000 := (i 0).isLt
    have hi1 : (i 1).val < 64 := (i 1).isLt
    obtain ⟨t, ht⟩ := block_onto ⟨(i 0).val / 5000, by omega⟩
    have q0 : win0_3.index t (0 : Fin 2) = (i 0).val / 5000 := congrFun ht 0
    have q1 : win0_3.index t (1 : Fin 2) = 0 := congrFun ht 1
    refine ⟨t, flush0_3 t, ?_⟩
    rw [mem_block]
    intro a
    match a with
    | ⟨0, _⟩ => show win0_3.index t (0 : Fin 2) * 5000 ≤ (i 0).val ∧ (i 0).val < win0_3.index t (0 : Fin 2) * 5000 + 5000; omega
    | ⟨1, _⟩ => show win0_3.index t (1 : Fin 2) * 64 ≤ (i 1).val ∧ (i 1).val < win0_3.index t (1 : Fin 2) * 64 + 64; omega

end Array

end Cert.KernelIdeal.DenseIn

end
-- ==== Proof.DenseValue4.lean ====
/-
  The output projection as a whole array.

  The last pallas_call walks the 50000 nodes in ten blocks of 5000 rows. At each grid point its body multiplies the
  block of hidden features (5000×64) by the whole weight (64×4) and adds the bias row; a change of float format is the
  identity on the extended reals, and a product accumulated into zero is the plain sum over the sixty-four hidden
  features. Block `t` of every row-blocked window sits at rows 5000·t … 5000·t + 4999, so what point `t` writes back is
  block `t` of ONE function of the whole arrays, and the ten blocks cover the output: the output array ends holding
  that function.
-/
import proofs.«120199_j53815940218921_1_alg».proof.Proof.Gen.KernelIdeal.Frame
import proofs.«120199_j53815940218921_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.DenseOut

open Cert.KernelIdeal Cert.KernelIdeal.Gen
open Idealize.ShloMosaic Idealize.ShloMosaic.TcCoe Idealize.ShloMosaic.ValueIdx Idealize.SL.Sem
open Idealize.ShloMosaic.Pipeline (Dat Cfg Window)

/-! ## The body's arithmetic at a row `p` of the block and a channel `q` -/

theorem lhs0 (i : S5000x4.Idx) (k : dot_S5000x64_S64x4_S5000x4_1_0_0_1_n_n.contr.Idx) :
    (dot_S5000x64_S64x4_S5000x4_1_0_0_1_n_n.lhsIdx i k 0).val = (i 0).val := by
  unfold DotDims.lhsIdx
  rw [dif_neg (show ¬(0 : Fin S5000x64.rank) ∈ dot_S5000x64_S64x4_S5000x4_1_0_0_1_n_n.lhsBatch by decide), dif_pos (show (0 : Fin S5000x64.rank) ∈ dot_S5000x64_S64x4_S5000x4_1_0_0_1_n_n.lhsNonContracting by decide)]
  rfl

theorem rhs1 (i : S5000x4.Idx) (k : dot_S5000x64_S64x4_S5000x4_1_0_0_1_n_n.contr.Idx) :
    (dot_S5000x64_S64x4_S5000x4_1_0_0_1_n_n.rhsIdx i k 1).val = (i 1).val := by
  unfold DotDims.rhsIdx
  rw [dif_neg (show ¬(1 : Fin S64x4.rank) ∈ dot_S5000x64_S64x4_S5000x4_1_0_0_1_n_n.rhsBatch by decide), dif_pos (show (1 : Fin S64x4.rank) ∈ dot_S5000x64_S64x4_S5000x4_1_0_0_1_n_n.rhsNonContracting by decide)]
  rfl

/-- The product of a block of rows with the weight, accumulated into zero, at (p, q): the sum over the sixty-four
    hidden features. -/
theorem matmul_at (x0 : FVec Ideal S5000x64 .bf16) (x1 : FVec Ideal S64x4 .bf16) (p : Fin 5000) (q : Fin 4) :
    matmul dot_S5000x64_S64x4_S5000x4_1_0_0_1_n_n none x0 x1 (constant S5000x4 .f32 0x00000000#32) (ix2 p q)
      = ∑ a : Fin 64, x0 (ix2 p a) * x1 (ix2 a q) := by
  show FloatOps.matmul dot_S5000x64_S64x4_S5000x4_1_0_0_1_n_n none x0 x1 (constant S5000x4 .f32 0x00000000#32) (ix2 p q) = _
  rw [Ideal.matmul_constant_zero_apply, ← Equiv.sum_comp (contrEquiv1 dot_S5000x64_S64x4_S5000x4_1_0_0_1_n_n 64 rfl rfl).symm]
  refine Finset.sum_congr rfl fun k _ => ?_
  have hk := contrEquiv1_symm_val dot_S5000x64_S64x4_S5000x4_1_0_0_1_n_n 64 rfl rfl k
  have el : dot_S5000x64_S64x4_S5000x4_1_0_0_1_n_n.lhsIdx (ix2 p q) ((contrEquiv1 dot_S5000x64_S64x4_S5000x4_1_0_0_1_n_n 64 rfl rfl).symm k) = ix2 p k := funext fun a => Fin.ext (by
    match a with
    | ⟨0, _⟩ => exact lhs0 _ _
    | ⟨1, _⟩ => exact (dot_S5000x64_S64x4_S5000x4_1_0_0_1_n_n.lhsIdx_val_of_single rfl _ _).trans hk)
  have er : dot_S5000x64_S64x4_S5000x4_1_0_0_1_n_n.rhsIdx (ix2 p q) ((contrEquiv1 dot_S5000x64_S64x4_S5000x4_1_0_0_1_n_n 64 rfl rfl).symm k) = ix2 k q := funext fun a => Fin.ext (by
    match a with
    | ⟨0, _⟩ => exact (dot_S5000x64_S64x4_S5000x4_1_0_0_1_n_n.rhsIdx_val_of_single rfl _ _).trans hk
    | ⟨1, _⟩ => exact rhs1 _ _)
  rw [el, er]

/-- The bias row spread over the block, at (p, q): the row's entry at channel `q`. -/
theorem bias_at (x2 : Vec Ideal S1x4 .f32) (p : Fin 5000) (q : Fin 4) :
    broadcastTo S5000x4 (shapeCast S1x4 x2 shapeCasts_S1x4_S1x4) broadcasts_S1x4_S5000x4 (ix2 p q) = x2 (ix2 (0 : Fin 1) q) := by
  rw [shapeCast_self]
  refine broadcastTo_apply x2 broadcasts_S1x4_S5000x4 (ix2 p q) (ix2 (0 : Fin 1) q) fun a => ?_
  match a with
  | ⟨0, _⟩ => rfl
  | ⟨1, _⟩ => rfl

/-- The stored value at (p, q): the sixty-four products summed, plus the bias. -/
theorem pay_at (x0 : Vec Ideal S5000x64 .f32) (x1 : Vec Ideal S64x4 .f32) (x2 : Vec Ideal S1x4 .f32) (p : Fin 5000) (q : Fin 4) :
    k4_pay1 (F := Ideal) x0 x1 x2 (ix2 p q) = (∑ a : Fin 64, x0 (ix2 p a) * x1 (ix2 a q)) + x2 (ix2 (0 : Fin 1) q) := by
  unfold k4_pay1
  rw [shapeCast_self x0 shapeCasts_S5000x64_S5000x64, addf_apply, matmul_at, bias_at]
  rfl

/-! ## From the ten blocks to the array -/

section Array

variable (V : (c : Dev nD) → (b : Ref sig .tc) → Buf (Elt Ideal) ((c : Thread nD τ).loc b))

theorem off_zero2 : (![0, 0] : Fin 2 → Nat) = fun _ => 0 := funext fun a => by fin_cases a <;> rfl

/-- The projection of the arrays as the region finds them: the hidden features, the weight, and the bias row read along its
    single row. -/
abbrev projected (c : Dev nD) : S50000x4.Idx → EReal :=
  Cert.Cheb.denseOutA (V c main_v156) (V c main_arg9) (fun j => (V c main_v157 : S1x4.Idx → EReal) (ix2 (0 : Fin 1) (j 0)))

/-- Where each window's block sits at grid point `t`: the rows of the hidden features move with the output's rows, the weight and
    the bias are taken whole, and the output's row block is one of the ten. -/
theorem block_places : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (1 : Fin 2) = 0 ∧ win4_3.index t (0 : Fin 2) ≤ 9 :=
  (by decide +kernel : ∀ t : Fin grid4.N, _)

/-- Every one of the ten row blocks is some grid point's. -/
theorem block_onto : ∀ q0 : Fin 10, ∃ t : Fin cfg4.N, win4_3.index t = ![q0.val, 0] :=
  (by decide +kernel : ∀ q0 : Fin 10, ∃ t : Fin grid4.N, win4_3.index t = ![q0.val, 0])

/-- What grid point `t` writes back is block `t` of the projection. -/
theorem flushed_eq (c : Dev nD) (t : Fin cfg4.N) :
    (dat4 V c).flushed 3 t = ((cfg4.win 3).blk t).view.read (Elt Ideal) (projected V c) := by
  show (cfg4.win 3).cut (grid4.coords t) ((dat4 V c).after 3 t) = _
  rw [after4_3]
  unfold out4_3
  rw [View.canon_unit_zero off_zero2]
  simp only [View.ld_unit_zero (S := S5000x64) off_zero2, View.ld_unit_zero (S := S64x4) off_zero2, View.ld_unit_zero (S := S1x4) off_zero2]
  obtain ⟨e00, e01, e10, e11, e20, e21, e31, e30⟩ := block_places t
  funext j
  obtain ⟨p, q, rfl⟩ : ∃ (p : Fin 5000) (q : Fin 4), j = ix2 p q := ⟨j 0, j 1, eq_ix2 j⟩
  refine (pay_at (iblk4 V c 0 t) (iblk4 V c 1 t) (iblk4 V c 2 t) p q).trans ?_
  show _ = Cert.Cheb.denseOut (V c main_v156) (V c main_arg9) (fun j => (V c main_v157 : S1x4.Idx → EReal) (ix2 (0 : Fin 1) (j 0)))
    ((((cfg4.win 3).blk t).view.emb (ix2 p q)) 0) ((((cfg4.win 3).blk t).view.emb (ix2 p q)) 1)
  unfold Cert.Cheb.denseOut
  have hx : ∀ a : Fin 64, iblk4 V c 0 t (ix2 p a)
      = (V c main_v156 : S50000x64.Idx → EReal) (ix2 ((((cfg4.win 3).blk t).view.emb (ix2 p q)) 0) a) := fun a => by
    show (V c main_v156 : S50000x64.Idx → EReal) (((cfg4.win 0).blk t).view.emb (ix2 p a)) = _
    refine congrArg _ (funext fun d => Fin.ext ?_)
    match d with
    | ⟨0, _⟩ => show win4_0.index t (0 : Fin 2) * 5000 + 1 * p.val = win4_3.index t (0 : Fin 2) * 5000 + 1 * p.val; omega
    | ⟨1, _⟩ => show win4_0.index t (1 : Fin 2) * 64 + 1 * a.val = a.val; omega
  have hw : ∀ a : Fin 64, iblk4 V c 1 t (ix2 a q)
      = (V c main_arg9 : S64x4.Idx → EReal) (ix2 a ((((cfg4.win 3).blk t).view.emb (ix2 p q)) 1)) := fun a => by
    show (V c main_arg9 : S64x4.Idx → EReal) (((cfg4.win 1).blk t).view.emb (ix2 a q)) = _
    refine congrArg _ (funext fun d => Fin.ext ?_)
    match d with
    | ⟨0, _⟩ => show win4_1.index t (0 : Fin 2) * 64 + 1 * a.val = a.val; omega
    | ⟨1, _⟩ => show win4_1.index t (1 : Fin 2) * 4 + 1 * q.val = win4_3.index t (1 : Fin 2) * 4 + 1 * q.val; omega
  have hb : iblk4 V c 2 t (ix2 (0 : Fin 1) q)
      = (V c main_v157 : S1x4.Idx → EReal) (ix2 (0 : Fin 1) ((ix1 ((((cfg4.win 3).blk t).view.emb (ix2 p q)) 1) : (⟨1, ![4]⟩ : Shape).Idx) 0)) := by
    show (V c main_v157 : S1x4.Idx → EReal) (((cfg4.win 2).blk t).view.emb (ix2 (0 : Fin 1) q)) = _
    refine congrArg _ (funext fun d => Fin.ext ?_)
    match d with
    | ⟨0, _⟩ => show win4_2.index t (0 : Fin 2) * 1 + 1 * 0 = 0; omega
    | ⟨1, _⟩ => show win4_2.index t (1 : Fin 2) * 4 + 1 * q.val = win4_3.index t (1 : Fin 2) * 4 + 1 * q.val; omega
  rw [hb]
  exact congrArg (· + _) (Finset.sum_congr rfl fun a _ => by rw [hx a, hw a])

/-- An array index is in point `t`'s output block iff its row is among the block's 5000 rows. -/
theorem mem_block (t : Fin cfg4.N) (i : S50000x4.Idx) :
    i ∈ ((cfg4.win 3).blk t).view.set ↔ ∀ a : Fin 2, win4_3.index t a * S5000x4.size a ≤ (i a).val ∧ (i a).val < win4_3.index t a * S5000x4.size a + S5000x4.size a := by
  show i ∈ ((View.whole main_v158).slice (win4_3.rect t)).set ↔ _
  rw [View.set_slice_whole, Rect.mem_set_unit]
  exact Iff.rfl

/-- The output array after the region: the projection of the arrays the region found. -/
theorem final (c : Dev nD) : (dat4 V c).arrAt 3 cfg4.N = projected V c :=
  (dat4 V c).arrAt_eq_of_cover 3 (projected V c) (fun t _ => flushed_eq V c t) fun i => by
    have hi0 : (i 0).val < 50000 := (i 0).isLt
    have hi1 : (i 1).val < 4 := (i 1).isLt
    obtain ⟨t, ht⟩ := block_onto ⟨(i 0).val / 5000, by omega⟩
    have q0 : win4_3.index t (0 : Fin 2) = (i 0).val / 5000 := congrFun ht 0
    have q1 : win4_3.index t (1 : Fin 2) = 0 := congrFun ht 1
    refine ⟨t, flush4_3 t, ?_⟩
    rw [mem_block]
    intro a
    match a with
    | ⟨0, _⟩ => show win4_3.index t (0 : Fin 2) * 5000 ≤ (i 0).val ∧ (i 0).val < win4_3.index t (0 : Fin 2) * 5000 + 5000; omega
    | ⟨1, _⟩ => show win4_3.index t (1 : Fin 2) * 4 ≤ (i 1).val ∧ (i 1).val < win4_3.index t (1 : Fin 2) * 4 + 4; omega

end Array

end Cert.KernelIdeal.DenseOut

end
-- ==== Proof.CombineValue1.lean ====
/-
  The first Chebyshev-combine region as one function of whole arrays.

  The region runs over ten grid points; point `t` holds rows `5000·t … 5000·t + 4999` of the three feature arrays
  (main_v33, main_v46, main_v62), the whole `[3, 64, 64]` weight array (main_v64) and the `[1, 64]` bias, gain and shift rows
  (main_v71, main_v72, main_v73), and writes the same rows of the output (main_v74). For each row the body forms
  `max(t0·W0 + t1·W1 + t2·W2 + bias, 0) + t0` over the 64 channels, subtracts the row's mean, multiplies by
  `rsqrt(variance + eps)`, scales by the gain and shifts by the shift. Read at row `p`, channel `q` of a block this is
  `Cert.Cheb.normRow` of the block's row (`out_at`); with each input block read as rows of its array it is
  `Cert.Cheb.layerA` at row `5000·t + p` (`flushed_eq`); row `r` lies in the block of point `r / 5000` (`cover`), so the
  output array ends as `Cert.Cheb.layerA` of the three feature arrays (`final`). Every step is a rewriting: the order of
  the additions and multiplications is the specification's, and no float word is evaluated except the zero the
  products are accumulated from.
-/
import proofs.«120199_j53815940218921_1_alg».proof.Proof.Gen.KernelIdeal.Frame
import proofs.«120199_j53815940218921_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine1

open Cert.KernelIdeal Cert.KernelIdeal.Gen Idealize.ShloMosaic Idealize.ShloMosaic.ValueIdx Idealize.ShloMosaic.TcCoe
open Idealize.ShloMosaic.Pipeline (Dat)

/-! ## The operations that are not pointwise, each read at an index given by coordinates -/

/-- A vector of `a` entries cast to a column `[a, 1]` reads, at `(p, z)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast along the rows to `[a, b]` reads, at `(p, q)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index. -/
theorem rsqrt_apply {s : Shape} {φ : FTy} (x : FVec Ideal s φ) (i : s.Idx) :
    Idealize.ShloMosaic.rsqrt x i = Ideal.rsqrt (x i) := rfl

/-- The sum over the 64 channels of a block's row: the lane reduction into its neutral word, read at row `p`. -/
theorem rowSum_apply (src : FVec Ideal S5000x64 .f32) (acc : BitVec FTy.f32.bits) (hφ : FKind.Formats .f32)
    (hacc : acc = FKind.add.neutral .f32 hφ) (p : Fin 5000) :
    multiReduction (F := Ideal) .add [1] S5000 src acc reduces_S5000x64_S5000 hφ hacc (ix1 p)
      = ∑ k : Fin 64, src (ix2 p k) := by
  refine (Ideal.multiReduction_add_single src acc reduces_S5000x64_S5000 hφ hacc (ix1 p)).trans ?_
  refine Finset.sum_congr rfl fun k _ => congrArg src (funext fun ax => Fin.ext ?_)
  match ax with
  | ⟨0, _⟩ => rfl
  | ⟨1, _⟩ => rfl

/-- A block of 5000 rows against a 64×64 weight, accumulated from zero: at `(p, q)` the sum over the 64 input
    channels `a` of the row's entry at `a` times the weight at `(a, q)`. Rounding the operands to a narrower format
    is the identity on the extended reals, so it is stated for operands of any formats. -/
theorem matmul_at {φ₁ φ₂ : FTy} (x : FVec Ideal S5000x64 φ₁) (w : FVec Ideal S64x64 φ₂) (p : Fin 5000) (q : Fin 64) :
    FloatOps.matmul dot_S5000x64_S64x64_S5000x64_1_0_0_1_n_n none x w (constant (F := Ideal) S5000x64 .f32 0x00000000#32) (ix2 p q)
      = ∑ a : Fin 64, x (ix2 p a) * w (ix2 a q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (dot_S5000x64_S64x64_S5000x64_1_0_0_1_n_n.rhsIdx_val_of_single rfl (ix2 p q) _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]

/-! ## The body's four payloads, each read at row `p`, channel `q` of the block -/

/-- Before normalisation: the three Chebyshev terms against their weights, summed left to right, plus the bias,
    clamped below at zero, plus the residual (the first term's input). -/
theorem pay2_at (v0 v2 v4 : Vec Ideal S5000x64 .f32) (v6 v9 v12 : Vec Ideal S1x64x64 .f32) (v23 : Vec Ideal S1x64 .f32)
    (p : Fin 5000) (q : Fin 64) :
    k1_pay2 (F := Ideal) v0 v2 v4 v6 v9 v12 v23 (ix2 p q)
      = max ((((∑ a : Fin 64, v0 (ix2 p a) * v6 (ix3 (0 : Fin 1) a q)) + (∑ a : Fin 64, v2 (ix2 p a) * v9 (ix3 (0 : Fin 1) a q)))
          + (∑ a : Fin 64, v4 (ix2 p a) * v12 (ix3 (0 : Fin 1) a q))) + v23 (ix2 (0 : Fin 1) q)) (Ideal.ofBits .f32 0x00000000#32)
        + v0 (ix2 p q) := by
  unfold k1_pay2
  simp only [addf_apply, maximumf_apply, broadcast_apply, matmul, matmul_at, truncf_apply, shapeCast_self,
    shapeCast_1ab_ab_apply, broadcastTo_1b_ab_apply]
  rfl

/-- The row's mean: the sum of the 64 channels of the row before normalisation, divided by the float 64. -/
theorem pay3_at (v0 v2 v4 : Vec Ideal S5000x64 .f32) (v6 v9 v12 : Vec Ideal S1x64x64 .f32) (v23 : Vec Ideal S1x64 .f32)
    (p : Fin 5000) (z : Fin 1) :
    k1_pay3 (F := Ideal) v0 v2 v4 v6 v9 v12 v23 (ix2 p z)
      = Ideal.div (∑ k : Fin 64, k1_pay2 (F := Ideal) v0 v2 v4 v6 v9 v12 v23 (ix2 p k)) (Ideal.ofBits .f32 0x42800000#32) := by
  unfold k1_pay3
  simp only [divf_apply, broadcast_apply, shapeCast_a_a1_apply]
  exact congrArg (fun s => Ideal.div s (Ideal.ofBits .f32 0x42800000#32)) (rowSum_apply _ _ _ _ p)

/-- The row centred on its mean. -/
theorem pay4_at (v0 v2 v4 : Vec Ideal S5000x64 .f32) (v6 v9 v12 : Vec Ideal S1x64x64 .f32) (v23 : Vec Ideal S1x64 .f32)
    (p : Fin 5000) (q : Fin 64) :
    k1_pay4 (F := Ideal) v0 v2 v4 v6 v9 v12 v23 (ix2 p q)
      = k1_pay2 (F := Ideal) v0 v2 v4 v6 v9 v12 v23 (ix2 p q) - k1_pay3 (F := Ideal) v0 v2 v4 v6 v9 v12 v23 (ix2 p (0 : Fin 1)) := by
  unfold k1_pay4
  simp only [subf_apply, broadcastTo_a1_ab_apply]

/-- The stored value from the three before it (`f` the row before normalisation, `μ` its mean as a column, `d` the
    centred row): `(f - μ) · rsqrt(Σ d² / 64 + eps) · gain + shift`. -/
theorem pay1_at (f : FVec Ideal S5000x64 .f32) (μ : FVec Ideal S5000x1 .f32) (d : FVec Ideal S5000x64 .f32)
    (g b : Vec Ideal S1x64 .f32) (p : Fin 5000) (q : Fin 64) :
    k1_pay1 (F := Ideal) f μ d g b (ix2 p q)
      = (f (ix2 p q) - μ (ix2 p (0 : Fin 1)))
          * Ideal.rsqrt (Ideal.div (∑ k : Fin 64, d (ix2 p k) * d (ix2 p k)) (Ideal.ofBits .f32 0x42800000#32)
              + Ideal.ofBits .f32 0x3727C5AC#32)
          * g (ix2 (0 : Fin 1) q) + b (ix2 (0 : Fin 1) q) := by
  unfold k1_pay1
  simp only [addf_apply, mulf_apply, subf_apply, divf_apply, broadcast_apply, shapeCast_self, shapeCast_a_a1_apply,
    broadcastTo_a1_ab_apply, broadcastTo_1b_ab_apply, rsqrt_apply]
  exact congrArg (fun s => (f (ix2 p q) - μ (ix2 p (0 : Fin 1)))
      * Ideal.rsqrt (Ideal.div s (Ideal.ofBits .f32 0x42800000#32) + Ideal.ofBits .f32 0x3727C5AC#32)
      * g (ix2 (0 : Fin 1) q) + b (ix2 (0 : Fin 1) q)) (rowSum_apply (mulf d d) _ _ _ p)

/-! ## The body's output block at row `p`, channel `q`, from the input blocks -/

theorem zero_offsets : (![0, 0] : Fin 2 → Nat) = fun _ => 0 := funext fun a => by fin_cases a <;> rfl

/-- Slab `k` of the `[3, 64, 64]` weight block, loaded as a `[1, 64, 64]` vector from offsets `(k, 0, 0)`, reads
    the block at `(k, a, b)`. -/
theorem ld_slab (X : Vec Ideal S3x64x64 .f32) (off : Fin 3 → Nat) (inb : ∀ a, off a + S1x64x64.size a ≤ S3x64x64.size a)
    (k : Fin 3) (h0 : off 0 = k.val) (h1 : off 1 = 0) (h2 : off 2 = 0) (u : Fin 1) (a b : Fin 64) :
    View.ld X (Rect.unit (s := S3x64x64) off S1x64x64.size inb) (ix3 u a b) = X (ix3 k a b) := by
  refine congrArg X (funext fun ax => Fin.ext ?_)
  match ax with
  | ⟨0, _⟩ => show off 0 + 1 * u.val = k.val; omega
  | ⟨1, _⟩ => show off 1 + 1 * a.val = a.val; omega
  | ⟨2, _⟩ => show off 2 + 1 * b.val = b.val; omega

/-- Row `p` of a block before normalisation, channel by channel, from the three feature blocks `x0 x1 x2`, the
    weight block `x3` and the bias row `x4`. -/
def blockRow (x0 x1 x2 : Vec Ideal S5000x64 .f32) (x3 : Vec Ideal S3x64x64 .f32) (x4 : Vec Ideal S1x64 .f32)
    (p : Fin 5000) (j : Fin 64) : EReal :=
  max ((((∑ a : Fin 64, x0 (ix2 p a) * x3 (ix3 (0 : Fin 3) a j)) + (∑ a : Fin 64, x1 (ix2 p a) * x3 (ix3 (1 : Fin 3) a j)))
      + (∑ a : Fin 64, x2 (ix2 p a) * x3 (ix3 (2 : Fin 3) a j))) + x4 (ix2 (0 : Fin 1) j)) (Ideal.ofBits .f32 0x00000000#32)
    + x0 (ix2 p j)

/-- What the body stores at `(p, q)`: row `p` before normalisation, normalised over its 64 channels, scaled by the
    gain row `x5` and shifted by the shift row `x6`. -/
theorem out_at (x0 x1 x2 : Vec Ideal S5000x64 .f32) (x3 : Vec Ideal S3x64x64 .f32) (x4 x5 x6 : Vec Ideal S1x64 .f32)
    (p : Fin 5000) (q : Fin 64) :
    out1_7 (F := Ideal) x0 x1 x2 x3 x4 x5 x6 (ix2 p q)
      = Cert.Cheb.normRow (blockRow x0 x1 x2 x3 x4 p) (fun j => x5 (ix2 (0 : Fin 1) j)) (fun j => x6 (ix2 (0 : Fin 1) j)) q := by
  unfold out1_7
  rw [View.canon_unit_zero zero_offsets]
  simp only [View.ld_unit_zero (S := S5000x64) zero_offsets, View.ld_unit_zero (S := S1x64) zero_offsets]
  have e0 : ∀ a b : Fin 64, View.ld x3 r1_1 (ix3 (0 : Fin 1) a b) = x3 (ix3 (0 : Fin 3) a b) :=
    fun a b => ld_slab x3 ![0, 0, 0] inb_S3x64x64_S1x64x64_0_0_0 0 rfl rfl rfl 0 a b
  have e1 : ∀ a b : Fin 64, View.ld x3 r1_2 (ix3 (0 : Fin 1) a b) = x3 (ix3 (1 : Fin 3) a b) :=
    fun a b => ld_slab x3 ![1, 0, 0] inb_S3x64x64_S1x64x64_1_0_0 1 rfl rfl rfl 0 a b
  have e2 : ∀ a b : Fin 64, View.ld x3 r1_3 (ix3 (0 : Fin 1) a b) = x3 (ix3 (2 : Fin 3) a b) :=
    fun a b => ld_slab x3 ![2, 0, 0] inb_S3x64x64_S1x64x64_2_0_0 2 rfl rfl rfl 0 a b
  have hrow : ∀ j : Fin 64, k1_pay2 (F := Ideal) x0 x1 x2 (View.ld x3 r1_1) (View.ld x3 r1_2) (View.ld x3 r1_3) x4 (ix2 p j)
      = blockRow x0 x1 x2 x3 x4 p j := fun j => by
    rw [pay2_at]; simp only [e0, e1, e2]; rfl
  rw [pay1_at]
  simp only [pay4_at, pay3_at, hrow]
  rfl

/-! ## From the blocks to the array -/

/-- The eight windows' index maps at each of the ten grid points: the three feature windows and the output move down
    the rows with the point, one block of 5000 rows per point; the weight, bias, gain and shift windows stay on their
    whole arrays. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 3) = 0 ∧ win1_3.index t (1 : Fin 3) = 0 ∧ win1_3.index t (2 : Fin 3) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p` of the block at point `t` is row `5000·t + p` of the array. -/
def rowOf (t : Fin cfg1.N) (p : Fin 5000) : Fin 50000 :=
  ⟨5000 * t.val + p.val, by have h : t.val < 10 := Nat.lt_of_lt_of_eq t.isLt N_1; have := p.isLt; omega⟩

section Region

variable (V : (c : Dev nD) → (b : Ref sig .tc) → Buf (Elt Ideal) ((c : Thread nD τ).loc b)) (c : Dev nD)

/-- The first feature block at point `t` is rows `5000·t …` of its array. -/
theorem read_t0 (t : Fin cfg1.N) (p : Fin 5000) (a : Fin 64) :
    (iblk1 V c 0 t : Vec Ideal S5000x64 .f32) (ix2 p a) = (V c main_v33 : S50000x64.Idx → EReal) (ix2 (rowOf t p) a) := by
  obtain ⟨e0, e1, -⟩ := idx_facts t
  show (V c main_v33 : S50000x64.Idx → EReal) (((cfg1.win 0).blk t).view.emb (ix2 p a)) = _
  refine congrArg _ (funext fun ax => Fin.ext ?_)
  match ax with
  | ⟨0, _⟩ => show win1_0.index t (0 : Fin 2) * 5000 + 1 * p.val = 5000 * t.val + p.val; omega
  | ⟨1, _⟩ => show win1_0.index t (1 : Fin 2) * 64 + 1 * a.val = a.val; omega

/-- The second feature block likewise. -/
theorem read_t1 (t : Fin cfg1.N) (p : Fin 5000) (a : Fin 64) :
    (iblk1 V c 1 t : Vec Ideal S5000x64 .f32) (ix2 p a) = (V c main_v46 : S50000x64.Idx → EReal) (ix2 (rowOf t p) a) := by
  obtain ⟨-, -, e0, e1, -⟩ := idx_facts t
  show (V c main_v46 : S50000x64.Idx → EReal) (((cfg1.win 1).blk t).view.emb (ix2 p a)) = _
  refine congrArg _ (funext fun ax => Fin.ext ?_)
  match ax with
  | ⟨0, _⟩ => show win1_1.index t (0 : Fin 2) * 5000 + 1 * p.val = 5000 * t.val + p.val; omega
  | ⟨1, _⟩ => show win1_1.index t (1 : Fin 2) * 64 + 1 * a.val = a.val; omega

/-- The third feature block likewise. -/
theorem read_t2 (t : Fin cfg1.N) (p : Fin 5000) (a : Fin 64) :
    (iblk1 V c 2 t : Vec Ideal S5000x64 .f32) (ix2 p a) = (V c main_v62 : S50000x64.Idx → EReal) (ix2 (rowOf t p) a) := by
  obtain ⟨-, -, -, -, e0, e1, -⟩ := idx_facts t
  show (V c main_v62 : S50000x64.Idx → EReal) (((cfg1.win 2).blk t).view.emb (ix2 p a)) = _
  refine congrArg _ (funext fun ax => Fin.ext ?_)
  match ax with
  | ⟨0, _⟩ => show win1_2.index t (0 : Fin 2) * 5000 + 1 * p.val = 5000 * t.val + p.val; omega
  | ⟨1, _⟩ => show win1_2.index t (1 : Fin 2) * 64 + 1 * a.val = a.val; omega

/-- The weight block at every point is the whole `[3, 64, 64]` array. -/
theorem read_w (t : Fin cfg1.N) (k : Fin 3) (a b : Fin 64) :
    (iblk1 V c 3 t : Vec Ideal S3x64x64 .f32) (ix3 k a b) = (V c main_v64 : S3x64x64.Idx → EReal) (ix3 k a b) := by
  obtain ⟨-, -, -, -, -, -, e0, e1, e2, -⟩ := idx_facts t
  show (V c main_v64 : S3x64x64.Idx → EReal) (((cfg1.win 3).blk t).view.emb (ix3 k a b)) = _
  refine congrArg _ (funext fun ax => Fin.ext ?_)
  match ax with
  | ⟨0, _⟩ => show win1_3.index t (0 : Fin 3) * 3 + 1 * k.val = k.val; omega
  | ⟨1, _⟩ => show win1_3.index t (1 : Fin 3) * 64 + 1 * a.val = a.val; omega
  | ⟨2, _⟩ => show win1_3.index t (2 : Fin 3) * 64 + 1 * b.val = b.val; omega

/-- The bias block at every point is the whole `[1, 64]` array. -/
theorem read_bias (t : Fin cfg1.N) (u : Fin 1) (j : Fin 64) :
    (iblk1 V c 4 t : Vec Ideal S1x64 .f32) (ix2 u j) = (V c main_v71 : S1x64.Idx → EReal) (ix2 u j) := by
  obtain ⟨-, -, -, -, -, -, -, -, -, e0, e1, -⟩ := idx_facts t
  show (V c main_v71 : S1x64.Idx → EReal) (((cfg1.win 4).blk t).view.emb (ix2 u j)) = _
  refine congrArg _ (funext fun ax => Fin.ext ?_)
  match ax with
  | ⟨0, _⟩ => show win1_4.index t (0 : Fin 2) * 1 + 1 * u.val = u.val; omega
  | ⟨1, _⟩ => show win1_4.index t (1 : Fin 2) * 64 + 1 * j.val = j.val; omega

/-- The gain block likewise. -/
theorem read_gain (t : Fin cfg1.N) (u : Fin 1) (j : Fin 64) :
    (iblk1 V c 5 t : Vec Ideal S1x64 .f32) (ix2 u j) = (V c main_v72 : S1x64.Idx → EReal) (ix2 u j) := by
  obtain ⟨-, -, -, -, -, -, -, -, -, -, -, e0, e1, -⟩ := idx_facts t
  show (V c main_v72 : S1x64.Idx → EReal) (((cfg1.win 5).blk t).view.emb (ix2 u j)) = _
  refine congrArg _ (funext fun ax => Fin.ext ?_)
  match ax with
  | ⟨0, _⟩ => show win1_5.index t (0 : Fin 2) * 1 + 1 * u.val = u.val; omega
  | ⟨1, _⟩ => show win1_5.index t (1 : Fin 2) * 64 + 1 * j.val = j.val; omega

/-- The shift block likewise. -/
theorem read_shift (t : Fin cfg1.N) (u : Fin 1) (j : Fin 64) :
    (iblk1 V c 6 t : Vec Ideal S1x64 .f32) (ix2 u j) = (V c main_v73 : S1x64.Idx → EReal) (ix2 u j) := by
  obtain ⟨-, -, -, -, -, -, -, -, -, -, -, -, -, e0, e1, -⟩ := idx_facts t
  show (V c main_v73 : S1x64.Idx → EReal) (((cfg1.win 6).blk t).view.emb (ix2 u j)) = _
  refine congrArg _ (funext fun ax => Fin.ext ?_)
  match ax with
  | ⟨0, _⟩ => show win1_6.index t (0 : Fin 2) * 1 + 1 * u.val = u.val; omega
  | ⟨1, _⟩ => show win1_6.index t (1 : Fin 2) * 64 + 1 * j.val = j.val; omega

end Region

/-! ## The block at a point as a read of the layer, the cover, and the array -/

/-- Over variables: if the seven input blocks are the rows `r` of the three feature arrays, layer `i`'s slabs of the
    weights and its rows of bias, gain and shift, then the stored value at `(p, q)` is layer `i` at `(r, q)`. -/
theorem block_at (i : Fin 3) (T0 T1 T2 : FVec Ideal ⟨2, ![50000, 64]⟩ .f32) (cW : FVec Ideal ⟨4, ![3, 3, 64, 64]⟩ .f32)
    (cb lg lb : FVec Ideal ⟨2, ![3, 64]⟩ .f32)
    (x0 x1 x2 : Vec Ideal S5000x64 .f32) (x3 : Vec Ideal S3x64x64 .f32) (x4 x5 x6 : Vec Ideal S1x64 .f32)
    (p : Fin 5000) (q : Fin 64) (r : Fin 50000) (R : (⟨2, ![50000, 64]⟩ : Shape).Idx) (hR : R = ix2 r q)
    (h0 : ∀ a : Fin 64, x0 (ix2 p a) = T0 (ix2 r a)) (h1 : ∀ a : Fin 64, x1 (ix2 p a) = T1 (ix2 r a))
    (h2 : ∀ a : Fin 64, x2 (ix2 p a) = T2 (ix2 r a))
    (h3 : ∀ (k : Fin 3) (a b : Fin 64), x3 (ix3 k a b) = cW (ix4 i k a b))
    (h4 : ∀ j : Fin 64, x4 (ix2 (0 : Fin 1) j) = cb (ix2 i j)) (h5 : ∀ j : Fin 64, x5 (ix2 (0 : Fin 1) j) = lg (ix2 i j))
    (h6 : ∀ j : Fin 64, x6 (ix2 (0 : Fin 1) j) = lb (ix2 i j)) :
    out1_7 (F := Ideal) x0 x1 x2 x3 x4 x5 x6 (ix2 p q) = Cert.Cheb.layerA i T0 T1 T2 cW cb lg lb R := by
  subst hR
  rw [out_at, Cert.Cheb.layerA_ix2]
  unfold Cert.Cheb.layer
  have hrow : blockRow x0 x1 x2 x3 x4 p = Cert.Cheb.combine i T0 T1 T2 cW cb r := funext fun j => by
    unfold blockRow Cert.Cheb.combine
    simp only [h0, h1, h2, h3, h4]
  rw [hrow]
  simp only [h5, h6]

section Region

variable (V : (c : Dev nD) → (b : Ref sig .tc) → Buf (Elt Ideal) ((c : Thread nD τ).loc b)) (c : Dev nD)
variable (i : Fin 3) (cW : FVec Ideal ⟨4, ![3, 3, 64, 64]⟩ .f32) (cb lg lb : FVec Ideal ⟨2, ![3, 64]⟩ .f32)

/-- WHAT POINT `t` WRITES BACK is block `t` — rows `5000·t … 5000·t + 4999` — of layer `i` of the three feature
    arrays as the region finds them. -/
theorem flushed_eq
    (hW : ∀ (k : Fin 3) (a b : Fin 64), (V c main_v64 : S3x64x64.Idx → EReal) (ix3 k a b) = cW (ix4 i k a b))
    (hcb : ∀ j : Fin 64, (V c main_v71 : S1x64.Idx → EReal) (ix2 (0 : Fin 1) j) = cb (ix2 i j))
    (hlg : ∀ j : Fin 64, (V c main_v72 : S1x64.Idx → EReal) (ix2 (0 : Fin 1) j) = lg (ix2 i j))
    (hlb : ∀ j : Fin 64, (V c main_v73 : S1x64.Idx → EReal) (ix2 (0 : Fin 1) j) = lb (ix2 i j))
    (t : Fin cfg1.N) :
    (dat1 (F := Ideal) V c).flushed 7 t
      = ((cfg1.win 7).blk t).view.read (Elt Ideal) (Cert.Cheb.layerA i (V c main_v33) (V c main_v46) (V c main_v62) cW cb lg lb) := by
  show (cfg1.win 7).cut (grid1.coords t) ((dat1 V c).after 7 t) = _
  rw [after1_7]
  funext y
  obtain ⟨p, q, rfl⟩ : ∃ (p : Fin 5000) (q : Fin 64), y = ix2 p q := ⟨y 0, y 1, eq_ix2 y⟩
  obtain ⟨-, -, -, -, -, -, -, -, -, -, -, -, -, -, -, e0, e1⟩ := idx_facts t
  refine block_at i (V c main_v33) (V c main_v46) (V c main_v62) cW cb lg lb
    (iblk1 V c 0 t) (iblk1 V c 1 t) (iblk1 V c 2 t) (iblk1 V c 3 t) (iblk1 V c 4 t) (iblk1 V c 5 t) (iblk1 V c 6 t)
    p q (rowOf t p) (((cfg1.win 7).blk t).view.emb (ix2 p q)) ?_
    (read_t0 V c t p) (read_t1 V c t p) (read_t2 V c t p)
    (fun k a b => (read_w V c t k a b).trans (hW k a b))
    (fun j => (read_bias V c t 0 j).trans (hcb j))
    (fun j => (read_gain V c t 0 j).trans (hlg j))
    (fun j => (read_shift V c t 0 j).trans (hlb j))
  funext ax
  apply Fin.ext
  match ax with
  | ⟨0, _⟩ => show win1_7.index t (0 : Fin 2) * 5000 + 1 * p.val = 5000 * t.val + p.val; omega
  | ⟨1, _⟩ => show win1_7.index t (1 : Fin 2) * 64 + 1 * q.val = q.val; omega

/-- An index of the array is in point `t`'s block iff each coordinate is in the block's range on its axis. -/
theorem mem_blk (t : Fin cfg1.N) (R : S50000x64.Idx) :
    R ∈ ((cfg1.win 7).blk t).view.set ↔ ∀ a : Fin 2, win1_7.index t a * S5000x64.size a ≤ (R a).val
      ∧ (R a).val < win1_7.index t a * S5000x64.size a + S5000x64.size a := by
  show R ∈ ((View.whole main_v74).slice (win1_7.rect t)).set ↔ _
  rw [View.set_slice_whole, Rect.mem_set_unit]
  exact Iff.rfl

/-- Every row is in some point's block: row `r` in the block of point `r / 5000`. -/
theorem cover (R : S50000x64.Idx) : ∃ t : Fin cfg1.N, (cfg1.win 7).flush t = true ∧ R ∈ ((cfg1.win 7).blk t).view.set := by
  have hr : (R 0).val < 50000 := idx2_lt0 R
  have hq : (R 1).val < 64 := idx2_lt1 R
  have hN : grid1.N = 10 := N_1
  refine ⟨⟨(R 0).val / 5000, by show (R 0).val / 5000 < grid1.N; omega⟩, flush1_7 _, ?_⟩
  rw [mem_blk]
  obtain ⟨-, -, -, -, -, -, -, -, -, -, -, -, -, -, -, e0, e1⟩ := idx_facts ⟨(R 0).val / 5000, by show (R 0).val / 5000 < grid1.N; omega⟩
  intro a
  match a with
  | ⟨0, _⟩ =>
    show win1_7.index _ (0 : Fin 2) * 5000 ≤ (R 0).val ∧ (R 0).val < win1_7.index _ (0 : Fin 2) * 5000 + 5000
    rw [e0]; show (R 0).val / 5000 * 5000 ≤ (R 0).val ∧ (R 0).val < (R 0).val / 5000 * 5000 + 5000; omega
  | ⟨1, _⟩ =>
    show win1_7.index _ (1 : Fin 2) * 64 ≤ (R 1).val ∧ (R 1).val < win1_7.index _ (1 : Fin 2) * 64 + 64
    rw [e1]; omega

/-- The array after the region: layer `i` of the three feature arrays as the region finds them, when the weight, bias,
    gain and shift buffers hold layer `i`'s slices of the stacked parameters. -/
theorem final
    (hW : ∀ (k : Fin 3) (a b : Fin 64), (V c main_v64 : S3x64x64.Idx → EReal) (ix3 k a b) = cW (ix4 i k a b))
    (hcb : ∀ j : Fin 64, (V c main_v71 : S1x64.Idx → EReal) (ix2 (0 : Fin 1) j) = cb (ix2 i j))
    (hlg : ∀ j : Fin 64, (V c main_v72 : S1x64.Idx → EReal) (ix2 (0 : Fin 1) j) = lg (ix2 i j))
    (hlb : ∀ j : Fin 64, (V c main_v73 : S1x64.Idx → EReal) (ix2 (0 : Fin 1) j) = lb (ix2 i j)) :
    ((dat1 (F := Ideal) V c).arrAt 7 cfg1.N : S50000x64.Idx → EReal)
      = Cert.Cheb.layerA i (V c main_v33) (V c main_v46) (V c main_v62) cW cb lg lb :=
  (dat1 (F := Ideal) V c).arrAt_eq_of_cover 7 (Cert.Cheb.layerA i (V c main_v33) (V c main_v46) (V c main_v62) cW cb lg lb)
    (fun t _ => flushed_eq V c i cW cb lg lb hW hcb hlg hlb t) (cover)

end Region

end Cert.KernelIdeal.Combine1

end
-- ==== Proof.CombineValue2.lean ====
/-
  The second Chebyshev-combine region as one function of whole arrays.

  The region runs over ten grid points; point `t` holds rows `5000·t … 5000·t + 4999` of the three feature arrays
  (main_v74, main_v87, main_v103), the whole `[3, 64, 64]` weight array (main_v105) and the `[1, 64]` bias, gain and shift rows
  (main_v112, main_v113, main_v114), and writes the same rows of the output (main_v115). For each row the body forms
  `max(t0·W0 + t1·W1 + t2·W2 + bias, 0) + t0` over the 64 channels, subtracts the row's mean, multiplies by
  `rsqrt(variance + eps)`, scales by the gain and shifts by the shift. Read at row `p`, channel `q` of a block this is
  `Cert.Cheb.normRow` of the block's row (`out_at`); with each input block read as rows of its array it is
  `Cert.Cheb.layerA` at row `5000·t + p` (`flushed_eq`); row `r` lies in the block of point `r / 5000` (`cover`), so the
  output array ends as `Cert.Cheb.layerA` of the three feature arrays (`final`). Every step is a rewriting: the order of
  the additions and multiplications is the specification's, and no float word is evaluated except the zero the
  products are accumulated from.
-/
import proofs.«120199_j53815940218921_1_alg».proof.Proof.Gen.KernelIdeal.Frame
import proofs.«120199_j53815940218921_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine2

open Cert.KernelIdeal Cert.KernelIdeal.Gen Idealize.ShloMosaic Idealize.ShloMosaic.ValueIdx Idealize.ShloMosaic.TcCoe
open Idealize.ShloMosaic.Pipeline (Dat)

/-! ## The operations that are not pointwise, each read at an index given by coordinates -/

/-- A vector of `a` entries cast to a column `[a, 1]` reads, at `(p, z)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast along the rows to `[a, b]` reads, at `(p, q)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index. -/
theorem rsqrt_apply {s : Shape} {φ : FTy} (x : FVec Ideal s φ) (i : s.Idx) :
    Idealize.ShloMosaic.rsqrt x i = Ideal.rsqrt (x i) := rfl

/-- The sum over the 64 channels of a block's row: the lane reduction into its neutral word, read at row `p`. -/
theorem rowSum_apply (src : FVec Ideal S5000x64 .f32) (acc : BitVec FTy.f32.bits) (hφ : FKind.Formats .f32)
    (hacc : acc = FKind.add.neutral .f32 hφ) (p : Fin 5000) :
    multiReduction (F := Ideal) .add [1] S5000 src acc reduces_S5000x64_S5000 hφ hacc (ix1 p)
      = ∑ k : Fin 64, src (ix2 p k) := by
  refine (Ideal.multiReduction_add_single src acc reduces_S5000x64_S5000 hφ hacc (ix1 p)).trans ?_
  refine Finset.sum_congr rfl fun k _ => congrArg src (funext fun ax => Fin.ext ?_)
  match ax with
  | ⟨0, _⟩ => rfl
  | ⟨1, _⟩ => rfl

/-- A block of 5000 rows against a 64×64 weight, accumulated from zero: at `(p, q)` the sum over the 64 input
    channels `a` of the row's entry at `a` times the weight at `(a, q)`. Rounding the operands to a narrower format
    is the identity on the extended reals, so it is stated for operands of any formats. -/
theorem matmul_at {φ₁ φ₂ : FTy} (x : FVec Ideal S5000x64 φ₁) (w : FVec Ideal S64x64 φ₂) (p : Fin 5000) (q : Fin 64) :
    FloatOps.matmul dot_S5000x64_S64x64_S5000x64_1_0_0_1_n_n none x w (constant (F := Ideal) S5000x64 .f32 0x00000000#32) (ix2 p q)
      = ∑ a : Fin 64, x (ix2 p a) * w (ix2 a q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (dot_S5000x64_S64x64_S5000x64_1_0_0_1_n_n.rhsIdx_val_of_single rfl (ix2 p q) _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]

/-! ## The body's four payloads, each read at row `p`, channel `q` of the block -/

/-- Before normalisation: the three Chebyshev terms against their weights, summed left to right, plus the bias,
    clamped below at zero, plus the residual (the first term's input). -/
theorem pay2_at (v0 v2 v4 : Vec Ideal S5000x64 .f32) (v6 v9 v12 : Vec Ideal S1x64x64 .f32) (v23 : Vec Ideal S1x64 .f32)
    (p : Fin 5000) (q : Fin 64) :
    k2_pay2 (F := Ideal) v0 v2 v4 v6 v9 v12 v23 (ix2 p q)
      = max ((((∑ a : Fin 64, v0 (ix2 p a) * v6 (ix3 (0 : Fin 1) a q)) + (∑ a : Fin 64, v2 (ix2 p a) * v9 (ix3 (0 : Fin 1) a q)))
          + (∑ a : Fin 64, v4 (ix2 p a) * v12 (ix3 (0 : Fin 1) a q))) + v23 (ix2 (0 : Fin 1) q)) (Ideal.ofBits .f32 0x00000000#32)
        + v0 (ix2 p q) := by
  unfold k2_pay2
  simp only [addf_apply, maximumf_apply, broadcast_apply, matmul, matmul_at, truncf_apply, shapeCast_self,
    shapeCast_1ab_ab_apply, broadcastTo_1b_ab_apply]
  rfl

/-- The row's mean: the sum of the 64 channels of the row before normalisation, divided by the float 64. -/
theorem pay3_at (v0 v2 v4 : Vec Ideal S5000x64 .f32) (v6 v9 v12 : Vec Ideal S1x64x64 .f32) (v23 : Vec Ideal S1x64 .f32)
    (p : Fin 5000) (z : Fin 1) :
    k2_pay3 (F := Ideal) v0 v2 v4 v6 v9 v12 v23 (ix2 p z)
      = Ideal.div (∑ k : Fin 64, k2_pay2 (F := Ideal) v0 v2 v4 v6 v9 v12 v23 (ix2 p k)) (Ideal.ofBits .f32 0x42800000#32) := by
  unfold k2_pay3
  simp only [divf_apply, broadcast_apply, shapeCast_a_a1_apply]
  exact congrArg (fun s => Ideal.div s (Ideal.ofBits .f32 0x42800000#32)) (rowSum_apply _ _ _ _ p)

/-- The row centred on its mean. -/
theorem pay4_at (v0 v2 v4 : Vec Ideal S5000x64 .f32) (v6 v9 v12 : Vec Ideal S1x64x64 .f32) (v23 : Vec Ideal S1x64 .f32)
    (p : Fin 5000) (q : Fin 64) :
    k2_pay4 (F := Ideal) v0 v2 v4 v6 v9 v12 v23 (ix2 p q)
      = k2_pay2 (F := Ideal) v0 v2 v4 v6 v9 v12 v23 (ix2 p q) - k2_pay3 (F := Ideal) v0 v2 v4 v6 v9 v12 v23 (ix2 p (0 : Fin 1)) := by
  unfold k2_pay4
  simp only [subf_apply, broadcastTo_a1_ab_apply]

/-- The stored value from the three before it (`f` the row before normalisation, `μ` its mean as a column, `d` the
    centred row): `(f - μ) · rsqrt(Σ d² / 64 + eps) · gain + shift`. -/
theorem pay1_at (f : FVec Ideal S5000x64 .f32) (μ : FVec Ideal S5000x1 .f32) (d : FVec Ideal S5000x64 .f32)
    (g b : Vec Ideal S1x64 .f32) (p : Fin 5000) (q : Fin 64) :
    k2_pay1 (F := Ideal) f μ d g b (ix2 p q)
      = (f (ix2 p q) - μ (ix2 p (0 : Fin 1)))
          * Ideal.rsqrt (Ideal.div (∑ k : Fin 64, d (ix2 p k) * d (ix2 p k)) (Ideal.ofBits .f32 0x42800000#32)
              + Ideal.ofBits .f32 0x3727C5AC#32)
          * g (ix2 (0 : Fin 1) q) + b (ix2 (0 : Fin 1) q) := by
  unfold k2_pay1
  simp only [addf_apply, mulf_apply, subf_apply, divf_apply, broadcast_apply, shapeCast_self, shapeCast_a_a1_apply,
    broadcastTo_a1_ab_apply, broadcastTo_1b_ab_apply, rsqrt_apply]
  exact congrArg (fun s => (f (ix2 p q) - μ (ix2 p (0 : Fin 1)))
      * Ideal.rsqrt (Ideal.div s (Ideal.ofBits .f32 0x42800000#32) + Ideal.ofBits .f32 0x3727C5AC#32)
      * g (ix2 (0 : Fin 1) q) + b (ix2 (0 : Fin 1) q)) (rowSum_apply (mulf d d) _ _ _ p)

/-! ## The body's output block at row `p`, channel `q`, from the input blocks -/

theorem zero_offsets : (![0, 0] : Fin 2 → Nat) = fun _ => 0 := funext fun a => by fin_cases a <;> rfl

/-- Slab `k` of the `[3, 64, 64]` weight block, loaded as a `[1, 64, 64]` vector from offsets `(k, 0, 0)`, reads
    the block at `(k, a, b)`. -/
theorem ld_slab (X : Vec Ideal S3x64x64 .f32) (off : Fin 3 → Nat) (inb : ∀ a, off a + S1x64x64.size a ≤ S3x64x64.size a)
    (k : Fin 3) (h0 : off 0 = k.val) (h1 : off 1 = 0) (h2 : off 2 = 0) (u : Fin 1) (a b : Fin 64) :
    View.ld X (Rect.unit (s := S3x64x64) off S1x64x64.size inb) (ix3 u a b) = X (ix3 k a b) := by
  refine congrArg X (funext fun ax => Fin.ext ?_)
  match ax with
  | ⟨0, _⟩ => show off 0 + 1 * u.val = k.val; omega
  | ⟨1, _⟩ => show off 1 + 1 * a.val = a.val; omega
  | ⟨2, _⟩ => show off 2 + 1 * b.val = b.val; omega

/-- Row `p` of a block before normalisation, channel by channel, from the three feature blocks `x0 x1 x2`, the
    weight block `x3` and the bias row `x4`. -/
def blockRow (x0 x1 x2 : Vec Ideal S5000x64 .f32) (x3 : Vec Ideal S3x64x64 .f32) (x4 : Vec Ideal S1x64 .f32)
    (p : Fin 5000) (j : Fin 64) : EReal :=
  max ((((∑ a : Fin 64, x0 (ix2 p a) * x3 (ix3 (0 : Fin 3) a j)) + (∑ a : Fin 64, x1 (ix2 p a) * x3 (ix3 (1 : Fin 3) a j)))
      + (∑ a : Fin 64, x2 (ix2 p a) * x3 (ix3 (2 : Fin 3) a j))) + x4 (ix2 (0 : Fin 1) j)) (Ideal.ofBits .f32 0x00000000#32)
    + x0 (ix2 p j)

/-- What the body stores at `(p, q)`: row `p` before normalisation, normalised over its 64 channels, scaled by the
    gain row `x5` and shifted by the shift row `x6`. -/
theorem out_at (x0 x1 x2 : Vec Ideal S5000x64 .f32) (x3 : Vec Ideal S3x64x64 .f32) (x4 x5 x6 : Vec Ideal S1x64 .f32)
    (p : Fin 5000) (q : Fin 64) :
    out2_7 (F := Ideal) x0 x1 x2 x3 x4 x5 x6 (ix2 p q)
      = Cert.Cheb.normRow (blockRow x0 x1 x2 x3 x4 p) (fun j => x5 (ix2 (0 : Fin 1) j)) (fun j => x6 (ix2 (0 : Fin 1) j)) q := by
  unfold out2_7
  rw [View.canon_unit_zero zero_offsets]
  simp only [View.ld_unit_zero (S := S5000x64) zero_offsets, View.ld_unit_zero (S := S1x64) zero_offsets]
  have e0 : ∀ a b : Fin 64, View.ld x3 r2_1 (ix3 (0 : Fin 1) a b) = x3 (ix3 (0 : Fin 3) a b) :=
    fun a b => ld_slab x3 ![0, 0, 0] inb_S3x64x64_S1x64x64_0_0_0 0 rfl rfl rfl 0 a b
  have e1 : ∀ a b : Fin 64, View.ld x3 r2_2 (ix3 (0 : Fin 1) a b) = x3 (ix3 (1 : Fin 3) a b) :=
    fun a b => ld_slab x3 ![1, 0, 0] inb_S3x64x64_S1x64x64_1_0_0 1 rfl rfl rfl 0 a b
  have e2 : ∀ a b : Fin 64, View.ld x3 r2_3 (ix3 (0 : Fin 1) a b) = x3 (ix3 (2 : Fin 3) a b) :=
    fun a b => ld_slab x3 ![2, 0, 0] inb_S3x64x64_S1x64x64_2_0_0 2 rfl rfl rfl 0 a b
  have hrow : ∀ j : Fin 64, k2_pay2 (F := Ideal) x0 x1 x2 (View.ld x3 r2_1) (View.ld x3 r2_2) (View.ld x3 r2_3) x4 (ix2 p j)
      = blockRow x0 x1 x2 x3 x4 p j := fun j => by
    rw [pay2_at]; simp only [e0, e1, e2]; rfl
  rw [pay1_at]
  simp only [pay4_at, pay3_at, hrow]
  rfl

/-! ## From the blocks to the array -/

/-- The eight windows' index maps at each of the ten grid points: the three feature windows and the output move down
    the rows with the point, one block of 5000 rows per point; the weight, bias, gain and shift windows stay on their
    whole arrays. -/
theorem idx_facts : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 3) = 0 ∧ win2_3.index t (1 : Fin 3) = 0 ∧ win2_3.index t (2 : Fin 3) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of the block at point `t` is row `5000·t + p` of the array. -/
def rowOf (t : Fin cfg2.N) (p : Fin 5000) : Fin 50000 :=
  ⟨5000 * t.val + p.val, by have h : t.val < 10 := Nat.lt_of_lt_of_eq t.isLt N_2; have := p.isLt; omega⟩

section Region

variable (V : (c : Dev nD) → (b : Ref sig .tc) → Buf (Elt Ideal) ((c : Thread nD τ).loc b)) (c : Dev nD)

/-- The first feature block at point `t` is rows `5000·t …` of its array. -/
theorem read_t0 (t : Fin cfg2.N) (p : Fin 5000) (a : Fin 64) :
    (iblk2 V c 0 t : Vec Ideal S5000x64 .f32) (ix2 p a) = (V c main_v74 : S50000x64.Idx → EReal) (ix2 (rowOf t p) a) := by
  obtain ⟨e0, e1, -⟩ := idx_facts t
  show (V c main_v74 : S50000x64.Idx → EReal) (((cfg2.win 0).blk t).view.emb (ix2 p a)) = _
  refine congrArg _ (funext fun ax => Fin.ext ?_)
  match ax with
  | ⟨0, _⟩ => show win2_0.index t (0 : Fin 2) * 5000 + 1 * p.val = 5000 * t.val + p.val; omega
  | ⟨1, _⟩ => show win2_0.index t (1 : Fin 2) * 64 + 1 * a.val = a.val; omega

/-- The second feature block likewise. -/
theorem read_t1 (t : Fin cfg2.N) (p : Fin 5000) (a : Fin 64) :
    (iblk2 V c 1 t : Vec Ideal S5000x64 .f32) (ix2 p a) = (V c main_v87 : S50000x64.Idx → EReal) (ix2 (rowOf t p) a) := by
  obtain ⟨-, -, e0, e1, -⟩ := idx_facts t
  show (V c main_v87 : S50000x64.Idx → EReal) (((cfg2.win 1).blk t).view.emb (ix2 p a)) = _
  refine congrArg _ (funext fun ax => Fin.ext ?_)
  match ax with
  | ⟨0, _⟩ => show win2_1.index t (0 : Fin 2) * 5000 + 1 * p.val = 5000 * t.val + p.val; omega
  | ⟨1, _⟩ => show win2_1.index t (1 : Fin 2) * 64 + 1 * a.val = a.val; omega

/-- The third feature block likewise. -/
theorem read_t2 (t : Fin cfg2.N) (p : Fin 5000) (a : Fin 64) :
    (iblk2 V c 2 t : Vec Ideal S5000x64 .f32) (ix2 p a) = (V c main_v103 : S50000x64.Idx → EReal) (ix2 (rowOf t p) a) := by
  obtain ⟨-, -, -, -, e0, e1, -⟩ := idx_facts t
  show (V c main_v103 : S50000x64.Idx → EReal) (((cfg2.win 2).blk t).view.emb (ix2 p a)) = _
  refine congrArg _ (funext fun ax => Fin.ext ?_)
  match ax with
  | ⟨0, _⟩ => show win2_2.index t (0 : Fin 2) * 5000 + 1 * p.val = 5000 * t.val + p.val; omega
  | ⟨1, _⟩ => show win2_2.index t (1 : Fin 2) * 64 + 1 * a.val = a.val; omega

/-- The weight block at every point is the whole `[3, 64, 64]` array. -/
theorem read_w (t : Fin cfg2.N) (k : Fin 3) (a b : Fin 64) :
    (iblk2 V c 3 t : Vec Ideal S3x64x64 .f32) (ix3 k a b) = (V c main_v105 : S3x64x64.Idx → EReal) (ix3 k a b) := by
  obtain ⟨-, -, -, -, -, -, e0, e1, e2, -⟩ := idx_facts t
  show (V c main_v105 : S3x64x64.Idx → EReal) (((cfg2.win 3).blk t).view.emb (ix3 k a b)) = _
  refine congrArg _ (funext fun ax => Fin.ext ?_)
  match ax with
  | ⟨0, _⟩ => show win2_3.index t (0 : Fin 3) * 3 + 1 * k.val = k.val; omega
  | ⟨1, _⟩ => show win2_3.index t (1 : Fin 3) * 64 + 1 * a.val = a.val; omega
  | ⟨2, _⟩ => show win2_3.index t (2 : Fin 3) * 64 + 1 * b.val = b.val; omega

/-- The bias block at every point is the whole `[1, 64]` array. -/
theorem read_bias (t : Fin cfg2.N) (u : Fin 1) (j : Fin 64) :
    (iblk2 V c 4 t : Vec Ideal S1x64 .f32) (ix2 u j) = (V c main_v112 : S1x64.Idx → EReal) (ix2 u j) := by
  obtain ⟨-, -, -, -, -, -, -, -, -, e0, e1, -⟩ := idx_facts t
  show (V c main_v112 : S1x64.Idx → EReal) (((cfg2.win 4).blk t).view.emb (ix2 u j)) = _
  refine congrArg _ (funext fun ax => Fin.ext ?_)
  match ax with
  | ⟨0, _⟩ => show win2_4.index t (0 : Fin 2) * 1 + 1 * u.val = u.val; omega
  | ⟨1, _⟩ => show win2_4.index t (1 : Fin 2) * 64 + 1 * j.val = j.val; omega

/-- The gain block likewise. -/
theorem read_gain (t : Fin cfg2.N) (u : Fin 1) (j : Fin 64) :
    (iblk2 V c 5 t : Vec Ideal S1x64 .f32) (ix2 u j) = (V c main_v113 : S1x64.Idx → EReal) (ix2 u j) := by
  obtain ⟨-, -, -, -, -, -, -, -, -, -, -, e0, e1, -⟩ := idx_facts t
  show (V c main_v113 : S1x64.Idx → EReal) (((cfg2.win 5).blk t).view.emb (ix2 u j)) = _
  refine congrArg _ (funext fun ax => Fin.ext ?_)
  match ax with
  | ⟨0, _⟩ => show win2_5.index t (0 : Fin 2) * 1 + 1 * u.val = u.val; omega
  | ⟨1, _⟩ => show win2_5.index t (1 : Fin 2) * 64 + 1 * j.val = j.val; omega

/-- The shift block likewise. -/
theorem read_shift (t : Fin cfg2.N) (u : Fin 1) (j : Fin 64) :
    (iblk2 V c 6 t : Vec Ideal S1x64 .f32) (ix2 u j) = (V c main_v114 : S1x64.Idx → EReal) (ix2 u j) := by
  obtain ⟨-, -, -, -, -, -, -, -, -, -, -, -, -, e0, e1, -⟩ := idx_facts t
  show (V c main_v114 : S1x64.Idx → EReal) (((cfg2.win 6).blk t).view.emb (ix2 u j)) = _
  refine congrArg _ (funext fun ax => Fin.ext ?_)
  match ax with
  | ⟨0, _⟩ => show win2_6.index t (0 : Fin 2) * 1 + 1 * u.val = u.val; omega
  | ⟨1, _⟩ => show win2_6.index t (1 : Fin 2) * 64 + 1 * j.val = j.val; omega

end Region

/-! ## The block at a point as a read of the layer, the cover, and the array -/

/-- Over variables: if the seven input blocks are the rows `r` of the three feature arrays, layer `i`'s slabs of the
    weights and its rows of bias, gain and shift, then the stored value at `(p, q)` is layer `i` at `(r, q)`. -/
theorem block_at (i : Fin 3) (T0 T1 T2 : FVec Ideal ⟨2, ![50000, 64]⟩ .f32) (cW : FVec Ideal ⟨4, ![3, 3, 64, 64]⟩ .f32)
    (cb lg lb : FVec Ideal ⟨2, ![3, 64]⟩ .f32)
    (x0 x1 x2 : Vec Ideal S5000x64 .f32) (x3 : Vec Ideal S3x64x64 .f32) (x4 x5 x6 : Vec Ideal S1x64 .f32)
    (p : Fin 5000) (q : Fin 64) (r : Fin 50000) (R : (⟨2, ![50000, 64]⟩ : Shape).Idx) (hR : R = ix2 r q)
    (h0 : ∀ a : Fin 64, x0 (ix2 p a) = T0 (ix2 r a)) (h1 : ∀ a : Fin 64, x1 (ix2 p a) = T1 (ix2 r a))
    (h2 : ∀ a : Fin 64, x2 (ix2 p a) = T2 (ix2 r a))
    (h3 : ∀ (k : Fin 3) (a b : Fin 64), x3 (ix3 k a b) = cW (ix4 i k a b))
    (h4 : ∀ j : Fin 64, x4 (ix2 (0 : Fin 1) j) = cb (ix2 i j)) (h5 : ∀ j : Fin 64, x5 (ix2 (0 : Fin 1) j) = lg (ix2 i j))
    (h6 : ∀ j : Fin 64, x6 (ix2 (0 : Fin 1) j) = lb (ix2 i j)) :
    out2_7 (F := Ideal) x0 x1 x2 x3 x4 x5 x6 (ix2 p q) = Cert.Cheb.layerA i T0 T1 T2 cW cb lg lb R := by
  subst hR
  rw [out_at, Cert.Cheb.layerA_ix2]
  unfold Cert.Cheb.layer
  have hrow : blockRow x0 x1 x2 x3 x4 p = Cert.Cheb.combine i T0 T1 T2 cW cb r := funext fun j => by
    unfold blockRow Cert.Cheb.combine
    simp only [h0, h1, h2, h3, h4]
  rw [hrow]
  simp only [h5, h6]

section Region

variable (V : (c : Dev nD) → (b : Ref sig .tc) → Buf (Elt Ideal) ((c : Thread nD τ).loc b)) (c : Dev nD)
variable (i : Fin 3) (cW : FVec Ideal ⟨4, ![3, 3, 64, 64]⟩ .f32) (cb lg lb : FVec Ideal ⟨2, ![3, 64]⟩ .f32)

/-- WHAT POINT `t` WRITES BACK is block `t` — rows `5000·t … 5000·t + 4999` — of layer `i` of the three feature
    arrays as the region finds them. -/
theorem flushed_eq
    (hW : ∀ (k : Fin 3) (a b : Fin 64), (V c main_v105 : S3x64x64.Idx → EReal) (ix3 k a b) = cW (ix4 i k a b))
    (hcb : ∀ j : Fin 64, (V c main_v112 : S1x64.Idx → EReal) (ix2 (0 : Fin 1) j) = cb (ix2 i j))
    (hlg : ∀ j : Fin 64, (V c main_v113 : S1x64.Idx → EReal) (ix2 (0 : Fin 1) j) = lg (ix2 i j))
    (hlb : ∀ j : Fin 64, (V c main_v114 : S1x64.Idx → EReal) (ix2 (0 : Fin 1) j) = lb (ix2 i j))
    (t : Fin cfg2.N) :
    (dat2 (F := Ideal) V c).flushed 7 t
      = ((cfg2.win 7).blk t).view.read (Elt Ideal) (Cert.Cheb.layerA i (V c main_v74) (V c main_v87) (V c main_v103) cW cb lg lb) := by
  show (cfg2.win 7).cut (grid2.coords t) ((dat2 V c).after 7 t) = _
  rw [after2_7]
  funext y
  obtain ⟨p, q, rfl⟩ : ∃ (p : Fin 5000) (q : Fin 64), y = ix2 p q := ⟨y 0, y 1, eq_ix2 y⟩
  obtain ⟨-, -, -, -, -, -, -, -, -, -, -, -, -, -, -, e0, e1⟩ := idx_facts t
  refine block_at i (V c main_v74) (V c main_v87) (V c main_v103) cW cb lg lb
    (iblk2 V c 0 t) (iblk2 V c 1 t) (iblk2 V c 2 t) (iblk2 V c 3 t) (iblk2 V c 4 t) (iblk2 V c 5 t) (iblk2 V c 6 t)
    p q (rowOf t p) (((cfg2.win 7).blk t).view.emb (ix2 p q)) ?_
    (read_t0 V c t p) (read_t1 V c t p) (read_t2 V c t p)
    (fun k a b => (read_w V c t k a b).trans (hW k a b))
    (fun j => (read_bias V c t 0 j).trans (hcb j))
    (fun j => (read_gain V c t 0 j).trans (hlg j))
    (fun j => (read_shift V c t 0 j).trans (hlb j))
  funext ax
  apply Fin.ext
  match ax with
  | ⟨0, _⟩ => show win2_7.index t (0 : Fin 2) * 5000 + 1 * p.val = 5000 * t.val + p.val; omega
  | ⟨1, _⟩ => show win2_7.index t (1 : Fin 2) * 64 + 1 * q.val = q.val; omega

/-- An index of the array is in point `t`'s block iff each coordinate is in the block's range on its axis. -/
theorem mem_blk (t : Fin cfg2.N) (R : S50000x64.Idx) :
    R ∈ ((cfg2.win 7).blk t).view.set ↔ ∀ a : Fin 2, win2_7.index t a * S5000x64.size a ≤ (R a).val
      ∧ (R a).val < win2_7.index t a * S5000x64.size a + S5000x64.size a := by
  show R ∈ ((View.whole main_v115).slice (win2_7.rect t)).set ↔ _
  rw [View.set_slice_whole, Rect.mem_set_unit]
  exact Iff.rfl

/-- Every row is in some point's block: row `r` in the block of point `r / 5000`. -/
theorem cover (R : S50000x64.Idx) : ∃ t : Fin cfg2.N, (cfg2.win 7).flush t = true ∧ R ∈ ((cfg2.win 7).blk t).view.set := by
  have hr : (R 0).val < 50000 := idx2_lt0 R
  have hq : (R 1).val < 64 := idx2_lt1 R
  have hN : grid2.N = 10 := N_2
  refine ⟨⟨(R 0).val / 5000, by show (R 0).val / 5000 < grid2.N; omega⟩, flush2_7 _, ?_⟩
  rw [mem_blk]
  obtain ⟨-, -, -, -, -, -, -, -, -, -, -, -, -, -, -, e0, e1⟩ := idx_facts ⟨(R 0).val / 5000, by show (R 0).val / 5000 < grid2.N; omega⟩
  intro a
  match a with
  | ⟨0, _⟩ =>
    show win2_7.index _ (0 : Fin 2) * 5000 ≤ (R 0).val ∧ (R 0).val < win2_7.index _ (0 : Fin 2) * 5000 + 5000
    rw [e0]; show (R 0).val / 5000 * 5000 ≤ (R 0).val ∧ (R 0).val < (R 0).val / 5000 * 5000 + 5000; omega
  | ⟨1, _⟩ =>
    show win2_7.index _ (1 : Fin 2) * 64 ≤ (R 1).val ∧ (R 1).val < win2_7.index _ (1 : Fin 2) * 64 + 64
    rw [e1]; omega

/-- The array after the region: layer `i` of the three feature arrays as the region finds them, when the weight, bias,
    gain and shift buffers hold layer `i`'s slices of the stacked parameters. -/
theorem final
    (hW : ∀ (k : Fin 3) (a b : Fin 64), (V c main_v105 : S3x64x64.Idx → EReal) (ix3 k a b) = cW (ix4 i k a b))
    (hcb : ∀ j : Fin 64, (V c main_v112 : S1x64.Idx → EReal) (ix2 (0 : Fin 1) j) = cb (ix2 i j))
    (hlg : ∀ j : Fin 64, (V c main_v113 : S1x64.Idx → EReal) (ix2 (0 : Fin 1) j) = lg (ix2 i j))
    (hlb : ∀ j : Fin 64, (V c main_v114 : S1x64.Idx → EReal) (ix2 (0 : Fin 1) j) = lb (ix2 i j)) :
    ((dat2 (F := Ideal) V c).arrAt 7 cfg2.N : S50000x64.Idx → EReal)
      = Cert.Cheb.layerA i (V c main_v74) (V c main_v87) (V c main_v103) cW cb lg lb :=
  (dat2 (F := Ideal) V c).arrAt_eq_of_cover 7 (Cert.Cheb.layerA i (V c main_v74) (V c main_v87) (V c main_v103) cW cb lg lb)
    (fun t _ => flushed_eq V c i cW cb lg lb hW hcb hlg hlb t) (cover)

end Region

end Cert.KernelIdeal.Combine2

end
-- ==== Proof.CombineValue3.lean ====
/-
  The third Chebyshev-combine region as one function of whole arrays.

  The region runs over ten grid points; point `t` holds rows `5000·t … 5000·t + 4999` of the three feature arrays
  (main_v115, main_v128, main_v144), the whole `[3, 64, 64]` weight array (main_v146) and the `[1, 64]` bias, gain and shift rows
  (main_v153, main_v154, main_v155), and writes the same rows of the output (main_v156). For each row the body forms
  `max(t0·W0 + t1·W1 + t2·W2 + bias, 0) + t0` over the 64 channels, subtracts the row's mean, multiplies by
  `rsqrt(variance + eps)`, scales by the gain and shifts by the shift. Read at row `p`, channel `q` of a block this is
  `Cert.Cheb.normRow` of the block's row (`out_at`); with each input block read as rows of its array it is
  `Cert.Cheb.layerA` at row `5000·t + p` (`flushed_eq`); row `r` lies in the block of point `r / 5000` (`cover`), so the
  output array ends as `Cert.Cheb.layerA` of the three feature arrays (`final`). Every step is a rewriting: the order of
  the additions and multiplications is the specification's, and no float word is evaluated except the zero the
  products are accumulated from.
-/
import proofs.«120199_j53815940218921_1_alg».proof.Proof.Gen.KernelIdeal.Frame
import proofs.«120199_j53815940218921_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Combine3

open Cert.KernelIdeal Cert.KernelIdeal.Gen Idealize.ShloMosaic Idealize.ShloMosaic.ValueIdx Idealize.ShloMosaic.TcCoe
open Idealize.ShloMosaic.Pipeline (Dat)

/-! ## The operations that are not pointwise, each read at an index given by coordinates -/

/-- A vector of `a` entries cast to a column `[a, 1]` reads, at `(p, z)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (z : Fin 1) :
    shapeCast ⟨2, ![a, 1]⟩ x h (ix2 p z) = x (ix1 p) :=
  shapeCast_apply x h _ _ (by
    have hz : z.val = 0 := by omega
    rw [Shape.rowMajor_val_two, Shape.rowMajor_val_one]
    show p.val = p.val * 1 + z.val
    rw [hz, Nat.mul_one, Nat.add_zero])

/-- A column `[a, 1]` broadcast along the rows to `[a, b]` reads, at `(p, q)`, the column at `(p, 0)`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The reciprocal square root of a vector, read at an index. -/
theorem rsqrt_apply {s : Shape} {φ : FTy} (x : FVec Ideal s φ) (i : s.Idx) :
    Idealize.ShloMosaic.rsqrt x i = Ideal.rsqrt (x i) := rfl

/-- The sum over the 64 channels of a block's row: the lane reduction into its neutral word, read at row `p`. -/
theorem rowSum_apply (src : FVec Ideal S5000x64 .f32) (acc : BitVec FTy.f32.bits) (hφ : FKind.Formats .f32)
    (hacc : acc = FKind.add.neutral .f32 hφ) (p : Fin 5000) :
    multiReduction (F := Ideal) .add [1] S5000 src acc reduces_S5000x64_S5000 hφ hacc (ix1 p)
      = ∑ k : Fin 64, src (ix2 p k) := by
  refine (Ideal.multiReduction_add_single src acc reduces_S5000x64_S5000 hφ hacc (ix1 p)).trans ?_
  refine Finset.sum_congr rfl fun k _ => congrArg src (funext fun ax => Fin.ext ?_)
  match ax with
  | ⟨0, _⟩ => rfl
  | ⟨1, _⟩ => rfl

/-- A block of 5000 rows against a 64×64 weight, accumulated from zero: at `(p, q)` the sum over the 64 input
    channels `a` of the row's entry at `a` times the weight at `(a, q)`. Rounding the operands to a narrower format
    is the identity on the extended reals, so it is stated for operands of any formats. -/
theorem matmul_at {φ₁ φ₂ : FTy} (x : FVec Ideal S5000x64 φ₁) (w : FVec Ideal S64x64 φ₂) (p : Fin 5000) (q : Fin 64) :
    FloatOps.matmul dot_S5000x64_S64x64_S5000x64_1_0_0_1_n_n none x w (constant (F := Ideal) S5000x64 .f32 0x00000000#32) (ix2 p q)
      = ∑ a : Fin 64, x (ix2 p a) * w (ix2 a q) := by
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 p q) ((contrEquiv1 dot_S5000x64_S64x64_S5000x64_1_0_0_1_n_n 64 rfl rfl).symm k) = ix2 p k :=
    funext fun ax => Fin.ext (by
      match ax with
      | ⟨0, _⟩ =>
        show (dot_S5000x64_S64x64_S5000x64_1_0_0_1_n_n.lhsIdx (ix2 p q) _ 0).val = p.val
        unfold DotDims.lhsIdx
        rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
        rfl
      | ⟨1, _⟩ => exact (dot_S5000x64_S64x64_S5000x64_1_0_0_1_n_n.lhsIdx_val_of_single rfl (ix2 p q) _).trans hk)
  have er : dot_S5000x64_S64x64_S5000x64_1_0_0_1_n_n.rhsIdx (ix2 p q) ((contrEquiv1 dot_S5000x64_S64x64_S5000x64_1_0_0_1_n_n 64 rfl rfl).symm k) = ix2 k q :=
    funext fun ax => Fin.ext (by
      match ax with
      | ⟨0, _⟩ => exact (dot_S5000x64_S64x64_S5000x64_1_0_0_1_n_n.rhsIdx_val_of_single rfl (ix2 p q) _).trans hk
      | ⟨1, _⟩ =>
        show (dot_S5000x64_S64x64_S5000x64_1_0_0_1_n_n.rhsIdx (ix2 p q) _ 1).val = q.val
        unfold DotDims.rhsIdx
        rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
        rfl)
  rw [el, er]

/-! ## The body's four payloads, each read at row `p`, channel `q` of the block -/

/-- Before normalisation: the three Chebyshev terms against their weights, summed left to right, plus the bias,
    clamped below at zero, plus the residual (the first term's input). -/
theorem pay2_at (v0 v2 v4 : Vec Ideal S5000x64 .f32) (v6 v9 v12 : Vec Ideal S1x64x64 .f32) (v23 : Vec Ideal S1x64 .f32)
    (p : Fin 5000) (q : Fin 64) :
    k3_pay2 (F := Ideal) v0 v2 v4 v6 v9 v12 v23 (ix2 p q)
      = max ((((∑ a : Fin 64, v0 (ix2 p a) * v6 (ix3 (0 : Fin 1) a q)) + (∑ a : Fin 64, v2 (ix2 p a) * v9 (ix3 (0 : Fin 1) a q)))
          + (∑ a : Fin 64, v4 (ix2 p a) * v12 (ix3 (0 : Fin 1) a q))) + v23 (ix2 (0 : Fin 1) q)) (Ideal.ofBits .f32 0x00000000#32)
        + v0 (ix2 p q) := by
  unfold k3_pay2
  simp only [addf_apply, maximumf_apply, broadcast_apply, matmul, matmul_at, truncf_apply, shapeCast_self,
    shapeCast_1ab_ab_apply, broadcastTo_1b_ab_apply]
  rfl

/-- The row's mean: the sum of the 64 channels of the row before normalisation, divided by the float 64. -/
theorem pay3_at (v0 v2 v4 : Vec Ideal S5000x64 .f32) (v6 v9 v12 : Vec Ideal S1x64x64 .f32) (v23 : Vec Ideal S1x64 .f32)
    (p : Fin 5000) (z : Fin 1) :
    k3_pay3 (F := Ideal) v0 v2 v4 v6 v9 v12 v23 (ix2 p z)
      = Ideal.div (∑ k : Fin 64, k3_pay2 (F := Ideal) v0 v2 v4 v6 v9 v12 v23 (ix2 p k)) (Ideal.ofBits .f32 0x42800000#32) := by
  unfold k3_pay3
  simp only [divf_apply, broadcast_apply, shapeCast_a_a1_apply]
  exact congrArg (fun s => Ideal.div s (Ideal.ofBits .f32 0x42800000#32)) (rowSum_apply _ _ _ _ p)

/-- The row centred on its mean. -/
theorem pay4_at (v0 v2 v4 : Vec Ideal S5000x64 .f32) (v6 v9 v12 : Vec Ideal S1x64x64 .f32) (v23 : Vec Ideal S1x64 .f32)
    (p : Fin 5000) (q : Fin 64) :
    k3_pay4 (F := Ideal) v0 v2 v4 v6 v9 v12 v23 (ix2 p q)
      = k3_pay2 (F := Ideal) v0 v2 v4 v6 v9 v12 v23 (ix2 p q) - k3_pay3 (F := Ideal) v0 v2 v4 v6 v9 v12 v23 (ix2 p (0 : Fin 1)) := by
  unfold k3_pay4
  simp only [subf_apply, broadcastTo_a1_ab_apply]

/-- The stored value from the three before it (`f` the row before normalisation, `μ` its mean as a column, `d` the
    centred row): `(f - μ) · rsqrt(Σ d² / 64 + eps) · gain + shift`. -/
theorem pay1_at (f : FVec Ideal S5000x64 .f32) (μ : FVec Ideal S5000x1 .f32) (d : FVec Ideal S5000x64 .f32)
    (g b : Vec Ideal S1x64 .f32) (p : Fin 5000) (q : Fin 64) :
    k3_pay1 (F := Ideal) f μ d g b (ix2 p q)
      = (f (ix2 p q) - μ (ix2 p (0 : Fin 1)))
          * Ideal.rsqrt (Ideal.div (∑ k : Fin 64, d (ix2 p k) * d (ix2 p k)) (Ideal.ofBits .f32 0x42800000#32)
              + Ideal.ofBits .f32 0x3727C5AC#32)
          * g (ix2 (0 : Fin 1) q) + b (ix2 (0 : Fin 1) q) := by
  unfold k3_pay1
  simp only [addf_apply, mulf_apply, subf_apply, divf_apply, broadcast_apply, shapeCast_self, shapeCast_a_a1_apply,
    broadcastTo_a1_ab_apply, broadcastTo_1b_ab_apply, rsqrt_apply]
  exact congrArg (fun s => (f (ix2 p q) - μ (ix2 p (0 : Fin 1)))
      * Ideal.rsqrt (Ideal.div s (Ideal.ofBits .f32 0x42800000#32) + Ideal.ofBits .f32 0x3727C5AC#32)
      * g (ix2 (0 : Fin 1) q) + b (ix2 (0 : Fin 1) q)) (rowSum_apply (mulf d d) _ _ _ p)

/-! ## The body's output block at row `p`, channel `q`, from the input blocks -/

theorem zero_offsets : (![0, 0] : Fin 2 → Nat) = fun _ => 0 := funext fun a => by fin_cases a <;> rfl

/-- Slab `k` of the `[3, 64, 64]` weight block, loaded as a `[1, 64, 64]` vector from offsets `(k, 0, 0)`, reads
    the block at `(k, a, b)`. -/
theorem ld_slab (X : Vec Ideal S3x64x64 .f32) (off : Fin 3 → Nat) (inb : ∀ a, off a + S1x64x64.size a ≤ S3x64x64.size a)
    (k : Fin 3) (h0 : off 0 = k.val) (h1 : off 1 = 0) (h2 : off 2 = 0) (u : Fin 1) (a b : Fin 64) :
    View.ld X (Rect.unit (s := S3x64x64) off S1x64x64.size inb) (ix3 u a b) = X (ix3 k a b) := by
  refine congrArg X (funext fun ax => Fin.ext ?_)
  match ax with
  | ⟨0, _⟩ => show off 0 + 1 * u.val = k.val; omega
  | ⟨1, _⟩ => show off 1 + 1 * a.val = a.val; omega
  | ⟨2, _⟩ => show off 2 + 1 * b.val = b.val; omega

/-- Row `p` of a block before normalisation, channel by channel, from the three feature blocks `x0 x1 x2`, the
    weight block `x3` and the bias row `x4`. -/
def blockRow (x0 x1 x2 : Vec Ideal S5000x64 .f32) (x3 : Vec Ideal S3x64x64 .f32) (x4 : Vec Ideal S1x64 .f32)
    (p : Fin 5000) (j : Fin 64) : EReal :=
  max ((((∑ a : Fin 64, x0 (ix2 p a) * x3 (ix3 (0 : Fin 3) a j)) + (∑ a : Fin 64, x1 (ix2 p a) * x3 (ix3 (1 : Fin 3) a j)))
      + (∑ a : Fin 64, x2 (ix2 p a) * x3 (ix3 (2 : Fin 3) a j))) + x4 (ix2 (0 : Fin 1) j)) (Ideal.ofBits .f32 0x00000000#32)
    + x0 (ix2 p j)

/-- What the body stores at `(p, q)`: row `p` before normalisation, normalised over its 64 channels, scaled by the
    gain row `x5` and shifted by the shift row `x6`. -/
theorem out_at (x0 x1 x2 : Vec Ideal S5000x64 .f32) (x3 : Vec Ideal S3x64x64 .f32) (x4 x5 x6 : Vec Ideal S1x64 .f32)
    (p : Fin 5000) (q : Fin 64) :
    out3_7 (F := Ideal) x0 x1 x2 x3 x4 x5 x6 (ix2 p q)
      = Cert.Cheb.normRow (blockRow x0 x1 x2 x3 x4 p) (fun j => x5 (ix2 (0 : Fin 1) j)) (fun j => x6 (ix2 (0 : Fin 1) j)) q := by
  unfold out3_7
  rw [View.canon_unit_zero zero_offsets]
  simp only [View.ld_unit_zero (S := S5000x64) zero_offsets, View.ld_unit_zero (S := S1x64) zero_offsets]
  have e0 : ∀ a b : Fin 64, View.ld x3 r3_1 (ix3 (0 : Fin 1) a b) = x3 (ix3 (0 : Fin 3) a b) :=
    fun a b => ld_slab x3 ![0, 0, 0] inb_S3x64x64_S1x64x64_0_0_0 0 rfl rfl rfl 0 a b
  have e1 : ∀ a b : Fin 64, View.ld x3 r3_2 (ix3 (0 : Fin 1) a b) = x3 (ix3 (1 : Fin 3) a b) :=
    fun a b => ld_slab x3 ![1, 0, 0] inb_S3x64x64_S1x64x64_1_0_0 1 rfl rfl rfl 0 a b
  have e2 : ∀ a b : Fin 64, View.ld x3 r3_3 (ix3 (0 : Fin 1) a b) = x3 (ix3 (2 : Fin 3) a b) :=
    fun a b => ld_slab x3 ![2, 0, 0] inb_S3x64x64_S1x64x64_2_0_0 2 rfl rfl rfl 0 a b
  have hrow : ∀ j : Fin 64, k3_pay2 (F := Ideal) x0 x1 x2 (View.ld x3 r3_1) (View.ld x3 r3_2) (View.ld x3 r3_3) x4 (ix2 p j)
      = blockRow x0 x1 x2 x3 x4 p j := fun j => by
    rw [pay2_at]; simp only [e0, e1, e2]; rfl
  rw [pay1_at]
  simp only [pay4_at, pay3_at, hrow]
  rfl

/-! ## From the blocks to the array -/

/-- The eight windows' index maps at each of the ten grid points: the three feature windows and the output move down
    the rows with the point, one block of 5000 rows per point; the weight, bias, gain and shift windows stay on their
    whole arrays. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 3) = 0 ∧ win3_3.index t (1 : Fin 3) = 0 ∧ win3_3.index t (2 : Fin 3) = 0
    ∧ win3_4.index t (0 : Fin 2) = 0 ∧ win3_4.index t (1 : Fin 2) = 0
    ∧ win3_5.index t (0 : Fin 2) = 0 ∧ win3_5.index t (1 : Fin 2) = 0
    ∧ win3_6.index t (0 : Fin 2) = 0 ∧ win3_6.index t (1 : Fin 2) = 0
    ∧ win3_7.index t (0 : Fin 2) = t.val ∧ win3_7.index t (1 : Fin 2) = 0 :=
  (by decide +kernel : ∀ t : Fin grid3.N, _)

/-- Row `p` of the block at point `t` is row `5000·t + p` of the array. -/
def rowOf (t : Fin cfg3.N) (p : Fin 5000) : Fin 50000 :=
  ⟨5000 * t.val + p.val, by have h : t.val < 10 := Nat.lt_of_lt_of_eq t.isLt N_3; have := p.isLt; omega⟩

section Region

variable (V : (c : Dev nD) → (b : Ref sig .tc) → Buf (Elt Ideal) ((c : Thread nD τ).loc b)) (c : Dev nD)

/-- The first feature block at point `t` is rows `5000·t …` of its array. -/
theorem read_t0 (t : Fin cfg3.N) (p : Fin 5000) (a : Fin 64) :
    (iblk3 V c 0 t : Vec Ideal S5000x64 .f32) (ix2 p a) = (V c main_v115 : S50000x64.Idx → EReal) (ix2 (rowOf t p) a) := by
  obtain ⟨e0, e1, -⟩ := idx_facts t
  show (V c main_v115 : S50000x64.Idx → EReal) (((cfg3.win 0).blk t).view.emb (ix2 p a)) = _
  refine congrArg _ (funext fun ax => Fin.ext ?_)
  match ax with
  | ⟨0, _⟩ => show win3_0.index t (0 : Fin 2) * 5000 + 1 * p.val = 5000 * t.val + p.val; omega
  | ⟨1, _⟩ => show win3_0.index t (1 : Fin 2) * 64 + 1 * a.val = a.val; omega

/-- The second feature block likewise. -/
theorem read_t1 (t : Fin cfg3.N) (p : Fin 5000) (a : Fin 64) :
    (iblk3 V c 1 t : Vec Ideal S5000x64 .f32) (ix2 p a) = (V c main_v128 : S50000x64.Idx → EReal) (ix2 (rowOf t p) a) := by
  obtain ⟨-, -, e0, e1, -⟩ := idx_facts t
  show (V c main_v128 : S50000x64.Idx → EReal) (((cfg3.win 1).blk t).view.emb (ix2 p a)) = _
  refine congrArg _ (funext fun ax => Fin.ext ?_)
  match ax with
  | ⟨0, _⟩ => show win3_1.index t (0 : Fin 2) * 5000 + 1 * p.val = 5000 * t.val + p.val; omega
  | ⟨1, _⟩ => show win3_1.index t (1 : Fin 2) * 64 + 1 * a.val = a.val; omega

/-- The third feature block likewise. -/
theorem read_t2 (t : Fin cfg3.N) (p : Fin 5000) (a : Fin 64) :
    (iblk3 V c 2 t : Vec Ideal S5000x64 .f32) (ix2 p a) = (V c main_v144 : S50000x64.Idx → EReal) (ix2 (rowOf t p) a) := by
  obtain ⟨-, -, -, -, e0, e1, -⟩ := idx_facts t
  show (V c main_v144 : S50000x64.Idx → EReal) (((cfg3.win 2).blk t).view.emb (ix2 p a)) = _
  refine congrArg _ (funext fun ax => Fin.ext ?_)
  match ax with
  | ⟨0, _⟩ => show win3_2.index t (0 : Fin 2) * 5000 + 1 * p.val = 5000 * t.val + p.val; omega
  | ⟨1, _⟩ => show win3_2.index t (1 : Fin 2) * 64 + 1 * a.val = a.val; omega

/-- The weight block at every point is the whole `[3, 64, 64]` array. -/
theorem read_w (t : Fin cfg3.N) (k : Fin 3) (a b : Fin 64) :
    (iblk3 V c 3 t : Vec Ideal S3x64x64 .f32) (ix3 k a b) = (V c main_v146 : S3x64x64.Idx → EReal) (ix3 k a b) := by
  obtain ⟨-, -, -, -, -, -, e0, e1, e2, -⟩ := idx_facts t
  show (V c main_v146 : S3x64x64.Idx → EReal) (((cfg3.win 3).blk t).view.emb (ix3 k a b)) = _
  refine congrArg _ (funext fun ax => Fin.ext ?_)
  match ax with
  | ⟨0, _⟩ => show win3_3.index t (0 : Fin 3) * 3 + 1 * k.val = k.val; omega
  | ⟨1, _⟩ => show win3_3.index t (1 : Fin 3) * 64 + 1 * a.val = a.val; omega
  | ⟨2, _⟩ => show win3_3.index t (2 : Fin 3) * 64 + 1 * b.val = b.val; omega

/-- The bias block at every point is the whole `[1, 64]` array. -/
theorem read_bias (t : Fin cfg3.N) (u : Fin 1) (j : Fin 64) :
    (iblk3 V c 4 t : Vec Ideal S1x64 .f32) (ix2 u j) = (V c main_v153 : S1x64.Idx → EReal) (ix2 u j) := by
  obtain ⟨-, -, -, -, -, -, -, -, -, e0, e1, -⟩ := idx_facts t
  show (V c main_v153 : S1x64.Idx → EReal) (((cfg3.win 4).blk t).view.emb (ix2 u j)) = _
  refine congrArg _ (funext fun ax => Fin.ext ?_)
  match ax with
  | ⟨0, _⟩ => show win3_4.index t (0 : Fin 2) * 1 + 1 * u.val = u.val; omega
  | ⟨1, _⟩ => show win3_4.index t (1 : Fin 2) * 64 + 1 * j.val = j.val; omega

/-- The gain block likewise. -/
theorem read_gain (t : Fin cfg3.N) (u : Fin 1) (j : Fin 64) :
    (iblk3 V c 5 t : Vec Ideal S1x64 .f32) (ix2 u j) = (V c main_v154 : S1x64.Idx → EReal) (ix2 u j) := by
  obtain ⟨-, -, -, -, -, -, -, -, -, -, -, e0, e1, -⟩ := idx_facts t
  show (V c main_v154 : S1x64.Idx → EReal) (((cfg3.win 5).blk t).view.emb (ix2 u j)) = _
  refine congrArg _ (funext fun ax => Fin.ext ?_)
  match ax with
  | ⟨0, _⟩ => show win3_5.index t (0 : Fin 2) * 1 + 1 * u.val = u.val; omega
  | ⟨1, _⟩ => show win3_5.index t (1 : Fin 2) * 64 + 1 * j.val = j.val; omega

/-- The shift block likewise. -/
theorem read_shift (t : Fin cfg3.N) (u : Fin 1) (j : Fin 64) :
    (iblk3 V c 6 t : Vec Ideal S1x64 .f32) (ix2 u j) = (V c main_v155 : S1x64.Idx → EReal) (ix2 u j) := by
  obtain ⟨-, -, -, -, -, -, -, -, -, -, -, -, -, e0, e1, -⟩ := idx_facts t
  show (V c main_v155 : S1x64.Idx → EReal) (((cfg3.win 6).blk t).view.emb (ix2 u j)) = _
  refine congrArg _ (funext fun ax => Fin.ext ?_)
  match ax with
  | ⟨0, _⟩ => show win3_6.index t (0 : Fin 2) * 1 + 1 * u.val = u.val; omega
  | ⟨1, _⟩ => show win3_6.index t (1 : Fin 2) * 64 + 1 * j.val = j.val; omega

end Region

/-! ## The block at a point as a read of the layer, the cover, and the array -/

/-- Over variables: if the seven input blocks are the rows `r` of the three feature arrays, layer `i`'s slabs of the
    weights and its rows of bias, gain and shift, then the stored value at `(p, q)` is layer `i` at `(r, q)`. -/
theorem block_at (i : Fin 3) (T0 T1 T2 : FVec Ideal ⟨2, ![50000, 64]⟩ .f32) (cW : FVec Ideal ⟨4, ![3, 3, 64, 64]⟩ .f32)
    (cb lg lb : FVec Ideal ⟨2, ![3, 64]⟩ .f32)
    (x0 x1 x2 : Vec Ideal S5000x64 .f32) (x3 : Vec Ideal S3x64x64 .f32) (x4 x5 x6 : Vec Ideal S1x64 .f32)
    (p : Fin 5000) (q : Fin 64) (r : Fin 50000) (R : (⟨2, ![50000, 64]⟩ : Shape).Idx) (hR : R = ix2 r q)
    (h0 : ∀ a : Fin 64, x0 (ix2 p a) = T0 (ix2 r a)) (h1 : ∀ a : Fin 64, x1 (ix2 p a) = T1 (ix2 r a))
    (h2 : ∀ a : Fin 64, x2 (ix2 p a) = T2 (ix2 r a))
    (h3 : ∀ (k : Fin 3) (a b : Fin 64), x3 (ix3 k a b) = cW (ix4 i k a b))
    (h4 : ∀ j : Fin 64, x4 (ix2 (0 : Fin 1) j) = cb (ix2 i j)) (h5 : ∀ j : Fin 64, x5 (ix2 (0 : Fin 1) j) = lg (ix2 i j))
    (h6 : ∀ j : Fin 64, x6 (ix2 (0 : Fin 1) j) = lb (ix2 i j)) :
    out3_7 (F := Ideal) x0 x1 x2 x3 x4 x5 x6 (ix2 p q) = Cert.Cheb.layerA i T0 T1 T2 cW cb lg lb R := by
  subst hR
  rw [out_at, Cert.Cheb.layerA_ix2]
  unfold Cert.Cheb.layer
  have hrow : blockRow x0 x1 x2 x3 x4 p = Cert.Cheb.combine i T0 T1 T2 cW cb r := funext fun j => by
    unfold blockRow Cert.Cheb.combine
    simp only [h0, h1, h2, h3, h4]
  rw [hrow]
  simp only [h5, h6]

section Region

variable (V : (c : Dev nD) → (b : Ref sig .tc) → Buf (Elt Ideal) ((c : Thread nD τ).loc b)) (c : Dev nD)
variable (i : Fin 3) (cW : FVec Ideal ⟨4, ![3, 3, 64, 64]⟩ .f32) (cb lg lb : FVec Ideal ⟨2, ![3, 64]⟩ .f32)

/-- WHAT POINT `t` WRITES BACK is block `t` — rows `5000·t … 5000·t + 4999` — of layer `i` of the three feature
    arrays as the region finds them. -/
theorem flushed_eq
    (hW : ∀ (k : Fin 3) (a b : Fin 64), (V c main_v146 : S3x64x64.Idx → EReal) (ix3 k a b) = cW (ix4 i k a b))
    (hcb : ∀ j : Fin 64, (V c main_v153 : S1x64.Idx → EReal) (ix2 (0 : Fin 1) j) = cb (ix2 i j))
    (hlg : ∀ j : Fin 64, (V c main_v154 : S1x64.Idx → EReal) (ix2 (0 : Fin 1) j) = lg (ix2 i j))
    (hlb : ∀ j : Fin 64, (V c main_v155 : S1x64.Idx → EReal) (ix2 (0 : Fin 1) j) = lb (ix2 i j))
    (t : Fin cfg3.N) :
    (dat3 (F := Ideal) V c).flushed 7 t
      = ((cfg3.win 7).blk t).view.read (Elt Ideal) (Cert.Cheb.layerA i (V c main_v115) (V c main_v128) (V c main_v144) cW cb lg lb) := by
  show (cfg3.win 7).cut (grid3.coords t) ((dat3 V c).after 7 t) = _
  rw [after3_7]
  funext y
  obtain ⟨p, q, rfl⟩ : ∃ (p : Fin 5000) (q : Fin 64), y = ix2 p q := ⟨y 0, y 1, eq_ix2 y⟩
  obtain ⟨-, -, -, -, -, -, -, -, -, -, -, -, -, -, -, e0, e1⟩ := idx_facts t
  refine block_at i (V c main_v115) (V c main_v128) (V c main_v144) cW cb lg lb
    (iblk3 V c 0 t) (iblk3 V c 1 t) (iblk3 V c 2 t) (iblk3 V c 3 t) (iblk3 V c 4 t) (iblk3 V c 5 t) (iblk3 V c 6 t)
    p q (rowOf t p) (((cfg3.win 7).blk t).view.emb (ix2 p q)) ?_
    (read_t0 V c t p) (read_t1 V c t p) (read_t2 V c t p)
    (fun k a b => (read_w V c t k a b).trans (hW k a b))
    (fun j => (read_bias V c t 0 j).trans (hcb j))
    (fun j => (read_gain V c t 0 j).trans (hlg j))
    (fun j => (read_shift V c t 0 j).trans (hlb j))
  funext ax
  apply Fin.ext
  match ax with
  | ⟨0, _⟩ => show win3_7.index t (0 : Fin 2) * 5000 + 1 * p.val = 5000 * t.val + p.val; omega
  | ⟨1, _⟩ => show win3_7.index t (1 : Fin 2) * 64 + 1 * q.val = q.val; omega

/-- An index of the array is in point `t`'s block iff each coordinate is in the block's range on its axis. -/
theorem mem_blk (t : Fin cfg3.N) (R : S50000x64.Idx) :
    R ∈ ((cfg3.win 7).blk t).view.set ↔ ∀ a : Fin 2, win3_7.index t a * S5000x64.size a ≤ (R a).val
      ∧ (R a).val < win3_7.index t a * S5000x64.size a + S5000x64.size a := by
  show R ∈ ((View.whole main_v156).slice (win3_7.rect t)).set ↔ _
  rw [View.set_slice_whole, Rect.mem_set_unit]
  exact Iff.rfl

/-- Every row is in some point's block: row `r` in the block of point `r / 5000`. -/
theorem cover (R : S50000x64.Idx) : ∃ t : Fin cfg3.N, (cfg3.win 7).flush t = true ∧ R ∈ ((cfg3.win 7).blk t).view.set := by
  have hr : (R 0).val < 50000 := idx2_lt0 R
  have hq : (R 1).val < 64 := idx2_lt1 R
  have hN : grid3.N = 10 := N_3
  refine ⟨⟨(R 0).val / 5000, by show (R 0).val / 5000 < grid3.N; omega⟩, flush3_7 _, ?_⟩
  rw [mem_blk]
  obtain ⟨-, -, -, -, -, -, -, -, -, -, -, -, -, -, -, e0, e1⟩ := idx_facts ⟨(R 0).val / 5000, by show (R 0).val / 5000 < grid3.N; omega⟩
  intro a
  match a with
  | ⟨0, _⟩ =>
    show win3_7.index _ (0 : Fin 2) * 5000 ≤ (R 0).val ∧ (R 0).val < win3_7.index _ (0 : Fin 2) * 5000 + 5000
    rw [e0]; show (R 0).val / 5000 * 5000 ≤ (R 0).val ∧ (R 0).val < (R 0).val / 5000 * 5000 + 5000; omega
  | ⟨1, _⟩ =>
    show win3_7.index _ (1 : Fin 2) * 64 ≤ (R 1).val ∧ (R 1).val < win3_7.index _ (1 : Fin 2) * 64 + 64
    rw [e1]; omega

/-- The array after the region: layer `i` of the three feature arrays as the region finds them, when the weight, bias,
    gain and shift buffers hold layer `i`'s slices of the stacked parameters. -/
theorem final
    (hW : ∀ (k : Fin 3) (a b : Fin 64), (V c main_v146 : S3x64x64.Idx → EReal) (ix3 k a b) = cW (ix4 i k a b))
    (hcb : ∀ j : Fin 64, (V c main_v153 : S1x64.Idx → EReal) (ix2 (0 : Fin 1) j) = cb (ix2 i j))
    (hlg : ∀ j : Fin 64, (V c main_v154 : S1x64.Idx → EReal) (ix2 (0 : Fin 1) j) = lg (ix2 i j))
    (hlb : ∀ j : Fin 64, (V c main_v155 : S1x64.Idx → EReal) (ix2 (0 : Fin 1) j) = lb (ix2 i j)) :
    ((dat3 (F := Ideal) V c).arrAt 7 cfg3.N : S50000x64.Idx → EReal)
      = Cert.Cheb.layerA i (V c main_v115) (V c main_v128) (V c main_v144) cW cb lg lb :=
  (dat3 (F := Ideal) V c).arrAt_eq_of_cover 7 (Cert.Cheb.layerA i (V c main_v115) (V c main_v128) (V c main_v144) cW cb lg lb)
    (fun t _ => flushed_eq V c i cW cb lg lb hW hcb hlg hlb t) (cover)

end Region

end Cert.KernelIdeal.Combine3

end
-- ==== Proof.NetDef.lean ====
/-
  The whole network as one function of the argument arrays.

  A layer step takes the previous features `h`, propagates them once and twice over the graph, and applies the
  Chebyshev layer to the three. The network is the input projection, three steps, and the output projection.
-/
import proofs.«120199_j53815940218921_1_alg».proof.Proof.Spec
import proofs.«120199_j53815940218921_1_alg».proof.Proof.Glue

noncomputable section

namespace Cert.Cheb

open Cert.KernelIdeal Idealize.ShloMosaic

/-- One layer: `h ↦ layer i (h, L̂ h, 2·L̂(L̂ h) − h)`. -/
def step (i : Fin 3) (e : (⟨S2x800000, .i32⟩ : BufTy).Contents (Elt Ideal))
    (cW : (⟨S3x3x64x64, .f32⟩ : BufTy).Contents (Elt Ideal)) (cb lg lb : (⟨S3x64, .f32⟩ : BufTy).Contents (Elt Ideal))
    (h : (⟨S50000x64, .f32⟩ : BufTy).Contents (Elt Ideal)) : (⟨S50000x64, .f32⟩ : BufTy).Contents (Elt Ideal) :=
  layerA i h (Glue.prop e h) (Glue.cheb2 e h (Glue.prop e h)) cW cb lg lb

/-- The network: project in, three layers, project out. -/
def net (x : (⟨S50000x16, .f32⟩ : BufTy).Contents (Elt Ideal)) (e : (⟨S2x800000, .i32⟩ : BufTy).Contents (Elt Ideal))
    (Win : (⟨S16x64, .f32⟩ : BufTy).Contents (Elt Ideal)) (bin : (⟨S64, .f32⟩ : BufTy).Contents (Elt Ideal))
    (cW : (⟨S3x3x64x64, .f32⟩ : BufTy).Contents (Elt Ideal)) (cb lg lb : (⟨S3x64, .f32⟩ : BufTy).Contents (Elt Ideal))
    (Wout : (⟨S64x4, .f32⟩ : BufTy).Contents (Elt Ideal)) (bout : (⟨S4, .f32⟩ : BufTy).Contents (Elt Ideal)) :
    (⟨S50000x4, .f32⟩ : BufTy).Contents (Elt Ideal) :=
  denseOutA (step 2 e cW cb lg lb (step 1 e cW cb lg lb (step 0 e cW cb lg lb (denseInA x Win bin)))) Wout bout

end Cert.Cheb

end
-- ==== Proof.KernelNet.lean ====
/-
  The idealized kernel's result is the network of its launch arguments.

  Walking @main's segments: region 0 leaves the input projection of the node features; each of the three middle
  regions leaves one layer step of what the region before it left (the host stretch in front of it supplies the two
  propagated terms and the layer's rows of the stacked weights); region 4 leaves the output projection. Composed,
  the result array at the last boundary is the network of the ten argument arrays as launched.
-/
import proofs.«120199_j53815940218921_1_alg».proof.Proof.KernelRun
import proofs.«120199_j53815940218921_1_alg».proof.Proof.FoldBase
import proofs.«120199_j53815940218921_1_alg».proof.Proof.FoldEnds
import proofs.«120199_j53815940218921_1_alg».proof.Proof.FoldStretch1
import proofs.«120199_j53815940218921_1_alg».proof.Proof.FoldStretch2
import proofs.«120199_j53815940218921_1_alg».proof.Proof.FoldStretch3
import proofs.«120199_j53815940218921_1_alg».proof.Proof.DenseValue0
import proofs.«120199_j53815940218921_1_alg».proof.Proof.DenseValue4
import proofs.«120199_j53815940218921_1_alg».proof.Proof.CombineValue1
import proofs.«120199_j53815940218921_1_alg».proof.Proof.CombineValue2
import proofs.«120199_j53815940218921_1_alg».proof.Proof.CombineValue3
import proofs.«120199_j53815940218921_1_alg».proof.Proof.NetDef

set_option maxRecDepth 16384

noncomputable section

namespace Cert.KernelIdeal.Net

open Cert.KernelIdeal Cert.KernelIdeal.Gen
open Idealize.ShloMosaic Idealize.ShloMosaic.TcCoe Idealize.ShloMosaic.StableHlo Idealize.ShloMosaic.ValueIdx Idealize.SL.Sem

variable (m : (ℓ : Loc nD τ sig) → Buf (Elt Ideal) ℓ) (ρ : Dev nD → PrngReg) (c : Dev nD)

/-- Region 0's output array after the region: the input projection of the launch arguments. -/
theorem layer_0 : W4 m ρ c (Proc.devRef .tc main_v33) = Cert.Cheb.denseInA (m ((c : Thread nD τ).loc main_arg0)) (m ((c : Thread nD τ).loc main_arg3)) (m ((c : Thread nD τ).loc main_arg4)) := by
  refine (W4_arr m ρ c 3).trans ?_
  refine (DenseIn.final (V3 m ρ) c).trans ?_
  show Cert.Cheb.denseInA (V3 m ρ c main_arg0) (V3 m ρ c main_arg3) (fun j => (V3 m ρ c main_v32 : S1x64.Idx → EReal) (ix2 (0 : Fin 1) (j 0))) = _
  rw [in_x m ρ c, in_w m ρ c]
  refine congrArg (Cert.Cheb.denseInA (m ((c : Thread nD τ).loc main_arg0)) (m ((c : Thread nD τ).loc main_arg3))) (funext fun j => ?_)
  refine (in_b m ρ c (j 0)).trans ?_
  exact congrArg _ (eq_ix1 j).symm

/-- Region 1's output array after the region: one layer step of what region 0 left. -/
theorem layer_1 : W6 m ρ c (Proc.devRef .tc main_v74)
    = Cert.Cheb.step (0 : Fin 3) (m ((c : Thread nD τ).loc main_arg1)) (m ((c : Thread nD τ).loc main_arg5)) (m ((c : Thread nD τ).loc main_arg6)) (m ((c : Thread nD τ).loc main_arg7)) (m ((c : Thread nD τ).loc main_arg8)) (W4 m ρ c (Proc.devRef .tc main_v33)) := by
  refine (W6_arr m ρ c 7).trans ?_
  refine (Combine1.final (V5 m ρ) c (0 : Fin 3) (m ((c : Thread nD τ).loc main_arg5)) (m ((c : Thread nD τ).loc main_arg6)) (m ((c : Thread nD τ).loc main_arg7)) (m ((c : Thread nD τ).loc main_arg8))
    (weights_1 m ρ c) (bias_1 m ρ c) (gain_1 m ρ c) (shift_1 m ρ c)).trans ?_
  rw [tx0_1 m ρ c, tx1_1 m ρ c, tx2_1 m ρ c]
  rfl

/-- Region 2's output array after the region: one layer step of what region 1 left. -/
theorem layer_2 : W8 m ρ c (Proc.devRef .tc main_v115)
    = Cert.Cheb.step (1 : Fin 3) (m ((c : Thread nD τ).loc main_arg1)) (m ((c : Thread nD τ).loc main_arg5)) (m ((c : Thread nD τ).loc main_arg6)) (m ((c : Thread nD τ).loc main_arg7)) (m ((c : Thread nD τ).loc main_arg8)) (W6 m ρ c (Proc.devRef .tc main_v74)) := by
  refine (W8_arr m ρ c 7).trans ?_
  refine (Combine2.final (V7 m ρ) c (1 : Fin 3) (m ((c : Thread nD τ).loc main_arg5)) (m ((c : Thread nD τ).loc main_arg6)) (m ((c : Thread nD τ).loc main_arg7)) (m ((c : Thread nD τ).loc main_arg8))
    (weights_2 m ρ c) (bias_2 m ρ c) (gain_2 m ρ c) (shift_2 m ρ c)).trans ?_
  rw [tx0_2 m ρ c, tx1_2 m ρ c, tx2_2 m ρ c]
  rfl

/-- Region 3's output array after the region: one layer step of what region 2 left. -/
theorem layer_3 : W10 m ρ c (Proc.devRef .tc main_v156)
    = Cert.Cheb.step (2 : Fin 3) (m ((c : Thread nD τ).loc main_arg1)) (m ((c : Thread nD τ).loc main_arg5)) (m ((c : Thread nD τ).loc main_arg6)) (m ((c : Thread nD τ).loc main_arg7)) (m ((c : Thread nD τ).loc main_arg8)) (W8 m ρ c (Proc.devRef .tc main_v115)) := by
  refine (W10_arr m ρ c 7).trans ?_
  refine (Combine3.final (V9 m ρ) c (2 : Fin 3) (m ((c : Thread nD τ).loc main_arg5)) (m ((c : Thread nD τ).loc main_arg6)) (m ((c : Thread nD τ).loc main_arg7)) (m ((c : Thread nD τ).loc main_arg8))
    (weights_3 m ρ c) (bias_3 m ρ c) (gain_3 m ρ c) (shift_3 m ρ c)).trans ?_
  rw [tx0_3 m ρ c, tx1_3 m ρ c, tx2_3 m ρ c]
  rfl

/-- Region 4's output array after the region: the output projection of what region 3 left. -/
theorem layer_4 : W12 m ρ c (Proc.devRef .tc main_v158)
    = Cert.Cheb.denseOutA (W10 m ρ c (Proc.devRef .tc main_v156)) (m ((c : Thread nD τ).loc main_arg9)) (m ((c : Thread nD τ).loc main_arg10)) := by
  refine (W12_arr m ρ c 3).trans ?_
  refine (DenseOut.final (V11 m ρ) c).trans ?_
  show Cert.Cheb.denseOutA (V11 m ρ c main_v156) (V11 m ρ c main_arg9) (fun j => (V11 m ρ c main_v157 : S1x4.Idx → EReal) (ix2 (0 : Fin 1) (j 0))) = _
  rw [out_h m ρ c, out_w m ρ c]
  refine congrArg (Cert.Cheb.denseOutA (W10 m ρ c (Proc.devRef .tc main_v156)) (m ((c : Thread nD τ).loc main_arg9))) (funext fun j => ?_)
  refine (out_b m ρ c (j 0)).trans ?_
  exact congrArg _ (eq_ix1 j).symm

/-- The result array at the last boundary is the network of the launch arguments. -/
theorem result_eq : W12 m ρ c (Proc.devRef .tc main_v158)
    = Cert.Cheb.net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [layer_4 m ρ c, layer_3 m ρ c, layer_2 m ρ c, layer_1 m ρ c, layer_0 m ρ c]
  rfl

/-- The idealized kernel's run: it terminates without a fault, its result array is the network of the launch
    arguments, and the arguments end as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v158)
        = Cert.Cheb.net (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (result_eq m ρ c), (h c).2⟩) (run_result m ρ)

end Cert.KernelIdeal.Net

end
-- ==== Proof.RefNet.lean ====
/-
  The idealized reference, read into the specification.

  The reference is a straight-line program: an input projection, three Chebyshev layers, an output projection.
  Each of its buffers is a function of the program's arguments, and the lemmas that read a buffer at an index
  from its operands at an index are imported. Here those lemmas are chained, one stage of the network at a time,
  until each stage is literally the scalar formula the specification writes for it at node `r`, channel `j`:

  * a weight block is a slice of the weight array reshaped to a matrix, so its entry `(a, j)` is the array's entry
    `(layer, term, a, j)`; a bias, gain or shift row is a slice of a 3×64 array broadcast over the nodes;
  * a matrix product is the sum over the contracted feature, in the order the specification writes it;
  * a row sum starts from the zero word, which adds nothing; mean and variance divide it by the word for 64;
  * the propagated arrays (the scatter results and what is built on them) are never opened: they stay the
    terms the specification's layer takes as its second and third argument.

  Nothing is computed and no algebra is done: both sides perform the same additions and multiplications in the
  same order, so after the index bookkeeping every equation closes by unfolding.
-/
import proofs.«120199_j53815940218921_1_alg».proof.Proof.ReadP
import proofs.«120199_j53815940218921_1_alg».proof.Proof.Spec

noncomputable section

namespace Cert.ReferenceIdeal.Net

open Cert.ReferenceIdeal Cert.ReferenceIdeal.ReadP Idealize.ShloMosaic Idealize.ShloMosaic.ValueIdx

variable (x0 : (⟨S50000x16, .f32⟩ : BufTy).Contents (Elt Ideal)) (x1 : (⟨S2x800000, .i32⟩ : BufTy).Contents (Elt Ideal))
  (x3 : (⟨S16x64, .f32⟩ : BufTy).Contents (Elt Ideal)) (x4 : (⟨S64, .f32⟩ : BufTy).Contents (Elt Ideal))
  (x5 : (⟨S3x3x64x64, .f32⟩ : BufTy).Contents (Elt Ideal)) (x6 x7 x8 : (⟨S3x64, .f32⟩ : BufTy).Contents (Elt Ideal))
  (x9 : (⟨S64x4, .f32⟩ : BufTy).Contents (Elt Ideal)) (x10 : (⟨S4, .f32⟩ : BufTy).Contents (Elt Ideal))

/-- The zero word, the initial value of every row sum, is the number zero. -/
theorem zero_word : (FloatOps.ofBits (F := Ideal) .f32 0x00000000#32) = 0 := Ideal.ofBits_zero_f32

/-! ### The input projection: buffers v32 to v35 -/

/-- The input features against the input weight: a sum over the 16 features. -/
theorem in_dot (r : Fin 50000) (j : Fin 64) :
    val_main_v32 (F := Ideal) x0 x3 (ix2 r j) = ∑ a : Fin 16, x0 (ix2 r a) * x3 (ix2 a j) := by
  rw [val_main_v32_apply]
  refine Finset.sum_congr rfl fun a _ => ?_
  rw [show lidx_main_v32 (ix2 r j) a = ix2 r a from funext fun d => Fin.ext (by match d with | ⟨0, _⟩ => rfl | ⟨1, _⟩ => rfl),
    show ridx_main_v32 (ix2 r j) a = ix2 a j from funext fun d => Fin.ext (by match d with | ⟨0, _⟩ => rfl | ⟨1, _⟩ => rfl)]

/-- The input projection of the reference is the specification's dense layer. -/
theorem dense_in : val_main_v35 (F := Ideal) x0 x3 x4 = Cert.Cheb.denseInA x0 x3 x4 := by
  funext y
  obtain ⟨r, j, rfl⟩ : ∃ (r : Fin 50000) (j : Fin 64), y = ix2 r j := ⟨y 0, y 1, eq_ix2 y⟩
  rw [Cert.Cheb.denseInA_ix2]
  unfold Cert.Cheb.denseIn
  rw [val_main_v35_apply, in_dot, val_main_v34_apply, val_main_v33_apply,
    show idx_main_v33 (idx_main_v34 (ix2 r j)) = ix1 j from funext fun d => Fin.ext (by match d with | ⟨0, _⟩ => rfl), Ideal.addf_def]

/-! ### Layer 0: buffers v36 to v110 -/

/-- The first weight block of layer 0, a slice of the weight array reshaped to 64×64, at row `a`, column `j`. -/
theorem l0_w0 (a j : Fin 64) : val_main_v37 (F := Ideal) x5 (ix2 a j) = x5 (ix4 (0 : Fin 3) (0 : Fin 3) a j) := by
  have ha := a.isLt
  have hj := j.isLt
  rw [val_main_v37_apply, val_main_v36_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The second weight block of layer 0 at row `a`, column `j`. -/
theorem l0_w1 (a j : Fin 64) : val_main_v53 (F := Ideal) x5 (ix2 a j) = x5 (ix4 (0 : Fin 3) (1 : Fin 3) a j) := by
  have ha := a.isLt
  have hj := j.isLt
  rw [val_main_v53_apply, val_main_v52_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The third weight block of layer 0 at row `a`, column `j`. -/
theorem l0_w2 (a j : Fin 64) : val_main_v73 (F := Ideal) x5 (ix2 a j) = x5 (ix4 (0 : Fin 3) (2 : Fin 3) a j) := by
  have ha := a.isLt
  have hj := j.isLt
  rw [val_main_v73_apply, val_main_v72_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The first Chebyshev term against its weight block: a sum over the 64 features. -/
theorem l0_dot0 (r : Fin 50000) (j : Fin 64) :
    val_main_v38 (F := Ideal) x0 x3 x4 x5 (ix2 r j) = ∑ a : Fin 64, (val_main_v35 (F := Ideal) x0 x3 x4) (ix2 r a) * x5 (ix4 (0 : Fin 3) (0 : Fin 3) a j) := by
  rw [val_main_v38_apply]
  refine Finset.sum_congr rfl fun a _ => ?_
  rw [show lidx_main_v38 (ix2 r j) a = ix2 r a from funext fun d => Fin.ext (by match d with | ⟨0, _⟩ => rfl | ⟨1, _⟩ => rfl),
    show ridx_main_v38 (ix2 r j) a = ix2 a j from funext fun d => Fin.ext (by match d with | ⟨0, _⟩ => rfl | ⟨1, _⟩ => rfl), l0_w0]

/-- The second Chebyshev term against its weight block. -/
theorem l0_dot1 (r : Fin 50000) (j : Fin 64) :
    val_main_v54 (F := Ideal) x0 x1 x3 x4 x5 (ix2 r j) = ∑ a : Fin 64, (val_main_v51 (F := Ideal) x0 x1 x3 x4) (ix2 r a) * x5 (ix4 (0 : Fin 3) (1 : Fin 3) a j) := by
  rw [val_main_v54_apply]
  refine Finset.sum_congr rfl fun a _ => ?_
  rw [show lidx_main_v54 (ix2 r j) a = ix2 r a from funext fun d => Fin.ext (by match d with | ⟨0, _⟩ => rfl | ⟨1, _⟩ => rfl),
    show ridx_main_v54 (ix2 r j) a = ix2 a j from funext fun d => Fin.ext (by match d with | ⟨0, _⟩ => rfl | ⟨1, _⟩ => rfl), l0_w1]

/-- The third Chebyshev term against its weight block. -/
theorem l0_dot2 (r : Fin 50000) (j : Fin 64) :
    val_main_v74 (F := Ideal) x0 x1 x3 x4 x5 (ix2 r j) = ∑ a : Fin 64, (val_main_v71 (F := Ideal) x0 x1 x3 x4) (ix2 r a) * x5 (ix4 (0 : Fin 3) (2 : Fin 3) a j) := by
  rw [val_main_v74_apply]
  refine Finset.sum_congr rfl fun a _ => ?_
  rw [show lidx_main_v74 (ix2 r j) a = ix2 r a from funext fun d => Fin.ext (by match d with | ⟨0, _⟩ => rfl | ⟨1, _⟩ => rfl),
    show ridx_main_v74 (ix2 r j) a = ix2 a j from funext fun d => Fin.ext (by match d with | ⟨0, _⟩ => rfl | ⟨1, _⟩ => rfl), l0_w2]

/-- The layer's bias row, broadcast over the nodes. -/
theorem l0_cb (r : Fin 50000) (j : Fin 64) : val_main_v79 (F := Ideal) x6 (ix2 r j) = x6 (ix2 (0 : Fin 3) j) := by
  have hj := j.isLt
  rw [val_main_v79_apply, val_main_v78_apply, val_main_v77_apply, val_main_v76_apply]
  exact congrArg x6 (funext fun d => Fin.ext (by
    match d with
    | ⟨0, _⟩ => rfl
    | ⟨1, _⟩ => show j.val % 64 = j.val; omega))

/-- The zero the clamp compares against. -/
theorem l0_zero (r : Fin 50000) (j : Fin 64) : val_main_call1_v0 (F := Ideal) (ix2 r j) = Ideal.ofBits .f32 0x00000000#32 := by
  rw [val_main_call1_v0_apply, val_main_call1_cst_apply]
  rfl

/-- The layer before normalisation is `combine`: the three terms summed left to right, the bias, the clamp, the residual. -/
theorem l0_pre (r : Fin 50000) (j : Fin 64) :
    val_main_v82 (F := Ideal) x0 x1 x3 x4 x5 x6 (ix2 r j) = Cert.Cheb.combine (0 : Fin 3) (val_main_v35 (F := Ideal) x0 x3 x4) (val_main_v51 (F := Ideal) x0 x1 x3 x4) (val_main_v71 (F := Ideal) x0 x1 x3 x4) x5 x6 r j := by
  unfold Cert.Cheb.combine
  rw [val_main_v82_apply, val_main_v81_apply, val_main_v80_apply, val_main_v75_apply, val_main_v55_apply,
    l0_dot0, l0_dot1, l0_dot2, l0_cb, l0_zero]
  rfl

/-- The row sum: it starts from the zero word, which adds nothing. -/
theorem l0_sum (r : Fin 50000) : val_main_v87 (F := Ideal) x0 x1 x3 x4 x5 x6 (ix1 r) = ∑ k : Fin 64, val_main_v82 (F := Ideal) x0 x1 x3 x4 x5 x6 (ix2 r k) := by
  rw [val_main_v87_apply, val_main_cst_15_apply, zero_word, zero_add]
  refine Finset.sum_congr rfl fun k _ => ?_
  rw [show idx_main_v87 (ix1 r) k = ix2 r k from funext fun d => Fin.ext (by match d with | ⟨0, _⟩ => rfl | ⟨1, _⟩ => rfl)]

/-- The row mean, kept as a one-column array. -/
theorem l0_mean (r : Fin 50000) (z : Fin 1) : val_main_v90 (F := Ideal) x0 x1 x3 x4 x5 x6 (ix2 r z) = Cert.Cheb.rowMean (fun j' : Fin 64 => val_main_v82 (F := Ideal) x0 x1 x3 x4 x5 x6 (ix2 r j')) := by
  unfold Cert.Cheb.rowMean
  rw [val_main_v90_apply, val_main_v88_apply, val_main_v89_apply, val_main_cst_16_apply,
    show idx_main_v88 (ix2 r z) = ix1 r from funext fun d => Fin.ext (by match d with | ⟨0, _⟩ => rfl), l0_sum]
  rfl

/-- The row centred on its mean (the copy that is squared). -/
theorem l0_cen (r : Fin 50000) (j : Fin 64) : val_main_v92 (F := Ideal) x0 x1 x3 x4 x5 x6 (ix2 r j) = Cert.Cheb.centred (fun j' : Fin 64 => val_main_v82 (F := Ideal) x0 x1 x3 x4 x5 x6 (ix2 r j')) j := by
  unfold Cert.Cheb.centred
  rw [val_main_v92_apply, val_main_v91_apply,
    show idx_main_v91 (ix2 r j) = ix2 r (⟨0, Nat.one_pos⟩ : Fin 1) from funext fun d => Fin.ext (by match d with | ⟨0, _⟩ => rfl | ⟨1, _⟩ => rfl), l0_mean]
  rfl

/-- The row centred on its mean (the copy that is normalised). -/
theorem l0_cen' (r : Fin 50000) (j : Fin 64) : val_main_v99 (F := Ideal) x0 x1 x3 x4 x5 x6 (ix2 r j) = Cert.Cheb.centred (fun j' : Fin 64 => val_main_v82 (F := Ideal) x0 x1 x3 x4 x5 x6 (ix2 r j')) j := by
  unfold Cert.Cheb.centred
  rw [val_main_v99_apply, val_main_v98_apply,
    show idx_main_v98 (ix2 r j) = ix2 r (⟨0, Nat.one_pos⟩ : Fin 1) from funext fun d => Fin.ext (by match d with | ⟨0, _⟩ => rfl | ⟨1, _⟩ => rfl), l0_mean]
  rfl

/-- The row variance: the mean of the squared centred row. -/
theorem l0_var (r : Fin 50000) (z : Fin 1) : val_main_v97 (F := Ideal) x0 x1 x3 x4 x5 x6 (ix2 r z) = Cert.Cheb.rowVar (fun j' : Fin 64 => val_main_v82 (F := Ideal) x0 x1 x3 x4 x5 x6 (ix2 r j')) := by
  unfold Cert.Cheb.rowVar Cert.Cheb.rowMean
  rw [val_main_v97_apply, val_main_v95_apply, val_main_v96_apply, val_main_cst_18_apply,
    show idx_main_v95 (ix2 r z) = ix1 r from funext fun d => Fin.ext (by match d with | ⟨0, _⟩ => rfl),
    val_main_v94_apply, val_main_cst_17_apply, zero_word, zero_add, Ideal.hostDivf_def]
  refine congrArg₂ Ideal.div (Finset.sum_congr rfl fun k _ => ?_) rfl
  rw [show idx_main_v94 (ix1 r) k = ix2 r k from funext fun d => Fin.ext (by match d with | ⟨0, _⟩ => rfl | ⟨1, _⟩ => rfl), val_main_v93_apply, l0_cen]
  rfl

/-- The layer's gain row, broadcast over the nodes. -/
theorem l0_gain (r : Fin 50000) (j : Fin 64) : val_main_v106 (F := Ideal) x7 (ix2 r j) = x7 (ix2 (0 : Fin 3) j) := by
  have hj := j.isLt
  rw [val_main_v106_apply, val_main_v105_apply, val_main_v84_apply, val_main_v83_apply]
  exact congrArg x7 (funext fun d => Fin.ext (by
    match d with
    | ⟨0, _⟩ => rfl
    | ⟨1, _⟩ => show j.val % 64 = j.val; omega))

/-- The layer's shift row, broadcast over the nodes. -/
theorem l0_shift (r : Fin 50000) (j : Fin 64) : val_main_v109 (F := Ideal) x8 (ix2 r j) = x8 (ix2 (0 : Fin 3) j) := by
  have hj := j.isLt
  rw [val_main_v109_apply, val_main_v108_apply, val_main_v86_apply, val_main_v85_apply]
  exact congrArg x8 (funext fun d => Fin.ext (by
    match d with
    | ⟨0, _⟩ => rfl
    | ⟨1, _⟩ => show j.val % 64 = j.val; omega))

/-- The normalised row: centred, times the reciprocal root of variance plus eps, times the gain, plus the shift. -/
theorem l0_out (r : Fin 50000) (j : Fin 64) :
    val_main_v110 (F := Ideal) x0 x1 x3 x4 x5 x6 x7 x8 (ix2 r j)
      = Cert.Cheb.normRow (fun j' : Fin 64 => val_main_v82 (F := Ideal) x0 x1 x3 x4 x5 x6 (ix2 r j')) (fun j' => x7 (ix2 (0 : Fin 3) j')) (fun j' => x8 (ix2 (0 : Fin 3) j')) j := by
  unfold Cert.Cheb.normRow
  rw [val_main_v110_apply, val_main_v107_apply, val_main_v104_apply, val_main_v103_apply, val_main_v102_apply, val_main_v101_apply,
    val_main_v100_apply, val_main_cst_19_apply,
    show idx_main_v103 (ix2 r j) = ix2 r (⟨0, Nat.one_pos⟩ : Fin 1) from funext fun d => Fin.ext (by match d with | ⟨0, _⟩ => rfl | ⟨1, _⟩ => rfl),
    l0_var, l0_cen', l0_gain, l0_shift]
  rfl

/-- Layer 0 of the reference is the specification's layer 0 of its three propagated arrays. -/
theorem layer0 :
    val_main_v110 (F := Ideal) x0 x1 x3 x4 x5 x6 x7 x8 = Cert.Cheb.layerA (0 : Fin 3) (val_main_v35 (F := Ideal) x0 x3 x4) (val_main_v51 (F := Ideal) x0 x1 x3 x4) (val_main_v71 (F := Ideal) x0 x1 x3 x4) x5 x6 x7 x8 := by
  funext y
  obtain ⟨r, j, rfl⟩ : ∃ (r : Fin 50000) (j : Fin 64), y = ix2 r j := ⟨y 0, y 1, eq_ix2 y⟩
  rw [Cert.Cheb.layerA_ix2, l0_out]
  unfold Cert.Cheb.layer
  rw [show (fun j' : Fin 64 => val_main_v82 (F := Ideal) x0 x1 x3 x4 x5 x6 (ix2 r j')) = Cert.Cheb.combine (0 : Fin 3) (val_main_v35 (F := Ideal) x0 x3 x4) (val_main_v51 (F := Ideal) x0 x1 x3 x4) (val_main_v71 (F := Ideal) x0 x1 x3 x4) x5 x6 r from
    funext fun j' => l0_pre x0 x1 x3 x4 x5 x6 r j']

/-! ### Layer 1: buffers v111 to v185 -/

/-- The first weight block of layer 1, a slice of the weight array reshaped to 64×64, at row `a`, column `j`. -/
theorem l1_w0 (a j : Fin 64) : val_main_v112 (F := Ideal) x5 (ix2 a j) = x5 (ix4 (1 : Fin 3) (0 : Fin 3) a j) := by
  have ha := a.isLt
  have hj := j.isLt
  rw [val_main_v112_apply, val_main_v111_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The second weight block of layer 1 at row `a`, column `j`. -/
theorem l1_w1 (a j : Fin 64) : val_main_v128 (F := Ideal) x5 (ix2 a j) = x5 (ix4 (1 : Fin 3) (1 : Fin 3) a j) := by
  have ha := a.isLt
  have hj := j.isLt
  rw [val_main_v128_apply, val_main_v127_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The third weight block of layer 1 at row `a`, column `j`. -/
theorem l1_w2 (a j : Fin 64) : val_main_v148 (F := Ideal) x5 (ix2 a j) = x5 (ix4 (1 : Fin 3) (2 : Fin 3) a j) := by
  have ha := a.isLt
  have hj := j.isLt
  rw [val_main_v148_apply, val_main_v147_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The first Chebyshev term against its weight block: a sum over the 64 features. -/
theorem l1_dot0 (r : Fin 50000) (j : Fin 64) :
    val_main_v113 (F := Ideal) x0 x1 x3 x4 x5 x6 x7 x8 (ix2 r j) = ∑ a : Fin 64, (val_main_v110 (F := Ideal) x0 x1 x3 x4 x5 x6 x7 x8) (ix2 r a) * x5 (ix4 (1 : Fin 3) (0 : Fin 3) a j) := by
  rw [val_main_v113_apply]
  refine Finset.sum_congr rfl fun a _ => ?_
  rw [show lidx_main_v113 (ix2 r j) a = ix2 r a from funext fun d => Fin.ext (by match d with | ⟨0, _⟩ => rfl | ⟨1, _⟩ => rfl),
    show ridx_main_v113 (ix2 r j) a = ix2 a j from funext fun d => Fin.ext (by match d with | ⟨0, _⟩ => rfl | ⟨1, _⟩ => rfl), l1_w0]

/-- The second Chebyshev term against its weight block. -/
theorem l1_dot1 (r : Fin 50000) (j : Fin 64) :
    val_main_v129 (F := Ideal) x0 x1 x3 x4 x5 x6 x7 x8 (ix2 r j) = ∑ a : Fin 64, (val_main_v126 (F := Ideal) x0 x1 x3 x4 x5 x6 x7 x8) (ix2 r a) * x5 (ix4 (1 : Fin 3) (1 : Fin 3) a j) := by
  rw [val_main_v129_apply]
  refine Finset.sum_congr rfl fun a _ => ?_
  rw [show lidx_main_v129 (ix2 r j) a = ix2 r a from funext fun d => Fin.ext (by match d with | ⟨0, _⟩ => rfl | ⟨1, _⟩ => rfl),
    show ridx_main_v129 (ix2 r j) a = ix2 a j from funext fun d => Fin.ext (by match d with | ⟨0, _⟩ => rfl | ⟨1, _⟩ => rfl), l1_w1]

/-- The third Chebyshev term against its weight block. -/
theorem l1_dot2 (r : Fin 50000) (j : Fin 64) :
    val_main_v149 (F := Ideal) x0 x1 x3 x4 x5 x6 x7 x8 (ix2 r j) = ∑ a : Fin 64, (val_main_v146 (F := Ideal) x0 x1 x3 x4 x5 x6 x7 x8) (ix2 r a) * x5 (ix4 (1 : Fin 3) (2 : Fin 3) a j) := by
  rw [val_main_v149_apply]
  refine Finset.sum_congr rfl fun a _ => ?_
  rw [show lidx_main_v149 (ix2 r j) a = ix2 r a from funext fun d => Fin.ext (by match d with | ⟨0, _⟩ => rfl | ⟨1, _⟩ => rfl),
    show ridx_main_v149 (ix2 r j) a = ix2 a j from funext fun d => Fin.ext (by match d with | ⟨0, _⟩ => rfl | ⟨1, _⟩ => rfl), l1_w2]

/-- The layer's bias row, broadcast over the nodes. -/
theorem l1_cb (r : Fin 50000) (j : Fin 64) : val_main_v154 (F := Ideal) x6 (ix2 r j) = x6 (ix2 (1 : Fin 3) j) := by
  have hj := j.isLt
  rw [val_main_v154_apply, val_main_v153_apply, val_main_v152_apply, val_main_v151_apply]
  exact congrArg x6 (funext fun d => Fin.ext (by
    match d with
    | ⟨0, _⟩ => rfl
    | ⟨1, _⟩ => show j.val % 64 = j.val; omega))

/-- The zero the clamp compares against. -/
theorem l1_zero (r : Fin 50000) (j : Fin 64) : val_main_call2_v0 (F := Ideal) (ix2 r j) = Ideal.ofBits .f32 0x00000000#32 := by
  rw [val_main_call2_v0_apply, val_main_call2_cst_apply]
  rfl

/-- The layer before normalisation is `combine`: the three terms summed left to right, the bias, the clamp, the residual. -/
theorem l1_pre (r : Fin 50000) (j : Fin 64) :
    val_main_v157 (F := Ideal) x0 x1 x3 x4 x5 x6 x7 x8 (ix2 r j) = Cert.Cheb.combine (1 : Fin 3) (val_main_v110 (F := Ideal) x0 x1 x3 x4 x5 x6 x7 x8) (val_main_v126 (F := Ideal) x0 x1 x3 x4 x5 x6 x7 x8) (val_main_v146 (F := Ideal) x0 x1 x3 x4 x5 x6 x7 x8) x5 x6 r j := by
  unfold Cert.Cheb.combine
  rw [val_main_v157_apply, val_main_v156_apply, val_main_v155_apply, val_main_v150_apply, val_main_v130_apply,
    l1_dot0, l1_dot1, l1_dot2, l1_cb, l1_zero]
  rfl

/-- The row sum: it starts from the zero word, which adds nothing. -/
theorem l1_sum (r : Fin 50000) : val_main_v162 (F := Ideal) x0 x1 x3 x4 x5 x6 x7 x8 (ix1 r) = ∑ k : Fin 64, val_main_v157 (F := Ideal) x0 x1 x3 x4 x5 x6 x7 x8 (ix2 r k) := by
  rw [val_main_v162_apply, val_main_cst_27_apply, zero_word, zero_add]
  refine Finset.sum_congr rfl fun k _ => ?_
  rw [show idx_main_v162 (ix1 r) k = ix2 r k from funext fun d => Fin.ext (by match d with | ⟨0, _⟩ => rfl | ⟨1, _⟩ => rfl)]

/-- The row mean, kept as a one-column array. -/
theorem l1_mean (r : Fin 50000) (z : Fin 1) : val_main_v165 (F := Ideal) x0 x1 x3 x4 x5 x6 x7 x8 (ix2 r z) = Cert.Cheb.rowMean (fun j' : Fin 64 => val_main_v157 (F := Ideal) x0 x1 x3 x4 x5 x6 x7 x8 (ix2 r j')) := by
  unfold Cert.Cheb.rowMean
  rw [val_main_v165_apply, val_main_v163_apply, val_main_v164_apply, val_main_cst_28_apply,
    show idx_main_v163 (ix2 r z) = ix1 r from funext fun d => Fin.ext (by match d with | ⟨0, _⟩ => rfl), l1_sum]
  rfl

/-- The row centred on its mean (the copy that is squared). -/
theorem l1_cen (r : Fin 50000) (j : Fin 64) : val_main_v167 (F := Ideal) x0 x1 x3 x4 x5 x6 x7 x8 (ix2 r j) = Cert.Cheb.centred (fun j' : Fin 64 => val_main_v157 (F := Ideal) x0 x1 x3 x4 x5 x6 x7 x8 (ix2 r j')) j := by
  unfold Cert.Cheb.centred
  rw [val_main_v167_apply, val_main_v166_apply,
    show idx_main_v166 (ix2 r j) = ix2 r (⟨0, Nat.one_pos⟩ : Fin 1) from funext fun d => Fin.ext (by match d with | ⟨0, _⟩ => rfl | ⟨1, _⟩ => rfl), l1_mean]
  rfl

/-- The row centred on its mean (the copy that is normalised). -/
theorem l1_cen' (r : Fin 50000) (j : Fin 64) : val_main_v174 (F := Ideal) x0 x1 x3 x4 x5 x6 x7 x8 (ix2 r j) = Cert.Cheb.centred (fun j' : Fin 64 => val_main_v157 (F := Ideal) x0 x1 x3 x4 x5 x6 x7 x8 (ix2 r j')) j := by
  unfold Cert.Cheb.centred
  rw [val_main_v174_apply, val_main_v173_apply,
    show idx_main_v173 (ix2 r j) = ix2 r (⟨0, Nat.one_pos⟩ : Fin 1) from funext fun d => Fin.ext (by match d with | ⟨0, _⟩ => rfl | ⟨1, _⟩ => rfl), l1_mean]
  rfl

/-- The row variance: the mean of the squared centred row. -/
theorem l1_var (r : Fin 50000) (z : Fin 1) : val_main_v172 (F := Ideal) x0 x1 x3 x4 x5 x6 x7 x8 (ix2 r z) = Cert.Cheb.rowVar (fun j' : Fin 64 => val_main_v157 (F := Ideal) x0 x1 x3 x4 x5 x6 x7 x8 (ix2 r j')) := by
  unfold Cert.Cheb.rowVar Cert.Cheb.rowMean
  rw [val_main_v172_apply, val_main_v170_apply, val_main_v171_apply, val_main_cst_30_apply,
    show idx_main_v170 (ix2 r z) = ix1 r from funext fun d => Fin.ext (by match d with | ⟨0, _⟩ => rfl),
    val_main_v169_apply, val_main_cst_29_apply, zero_word, zero_add, Ideal.hostDivf_def]
  refine congrArg₂ Ideal.div (Finset.sum_congr rfl fun k _ => ?_) rfl
  rw [show idx_main_v169 (ix1 r) k = ix2 r k from funext fun d => Fin.ext (by match d with | ⟨0, _⟩ => rfl | ⟨1, _⟩ => rfl), val_main_v168_apply, l1_cen]
  rfl

/-- The layer's gain row, broadcast over the nodes. -/
theorem l1_gain (r : Fin 50000) (j : Fin 64) : val_main_v181 (F := Ideal) x7 (ix2 r j) = x7 (ix2 (1 : Fin 3) j) := by
  have hj := j.isLt
  rw [val_main_v181_apply, val_main_v180_apply, val_main_v159_apply, val_main_v158_apply]
  exact congrArg x7 (funext fun d => Fin.ext (by
    match d with
    | ⟨0, _⟩ => rfl
    | ⟨1, _⟩ => show j.val % 64 = j.val; omega))

/-- The layer's shift row, broadcast over the nodes. -/
theorem l1_shift (r : Fin 50000) (j : Fin 64) : val_main_v184 (F := Ideal) x8 (ix2 r j) = x8 (ix2 (1 : Fin 3) j) := by
  have hj := j.isLt
  rw [val_main_v184_apply, val_main_v183_apply, val_main_v161_apply, val_main_v160_apply]
  exact congrArg x8 (funext fun d => Fin.ext (by
    match d with
    | ⟨0, _⟩ => rfl
    | ⟨1, _⟩ => show j.val % 64 = j.val; omega))

/-- The normalised row: centred, times the reciprocal root of variance plus eps, times the gain, plus the shift. -/
theorem l1_out (r : Fin 50000) (j : Fin 64) :
    val_main_v185 (F := Ideal) x0 x1 x3 x4 x5 x6 x7 x8 (ix2 r j)
      = Cert.Cheb.normRow (fun j' : Fin 64 => val_main_v157 (F := Ideal) x0 x1 x3 x4 x5 x6 x7 x8 (ix2 r j')) (fun j' => x7 (ix2 (1 : Fin 3) j')) (fun j' => x8 (ix2 (1 : Fin 3) j')) j := by
  unfold Cert.Cheb.normRow
  rw [val_main_v185_apply, val_main_v182_apply, val_main_v179_apply, val_main_v178_apply, val_main_v177_apply, val_main_v176_apply,
    val_main_v175_apply, val_main_cst_31_apply,
    show idx_main_v178 (ix2 r j) = ix2 r (⟨0, Nat.one_pos⟩ : Fin 1) from funext fun d => Fin.ext (by match d with | ⟨0, _⟩ => rfl | ⟨1, _⟩ => rfl),
    l1_var, l1_cen', l1_gain, l1_shift]
  rfl

/-- Layer 1 of the reference is the specification's layer 1 of its three propagated arrays. -/
theorem layer1 :
    val_main_v185 (F := Ideal) x0 x1 x3 x4 x5 x6 x7 x8 = Cert.Cheb.layerA (1 : Fin 3) (val_main_v110 (F := Ideal) x0 x1 x3 x4 x5 x6 x7 x8) (val_main_v126 (F := Ideal) x0 x1 x3 x4 x5 x6 x7 x8) (val_main_v146 (F := Ideal) x0 x1 x3 x4 x5 x6 x7 x8) x5 x6 x7 x8 := by
  funext y
  obtain ⟨r, j, rfl⟩ : ∃ (r : Fin 50000) (j : Fin 64), y = ix2 r j := ⟨y 0, y 1, eq_ix2 y⟩
  rw [Cert.Cheb.layerA_ix2, l1_out]
  unfold Cert.Cheb.layer
  rw [show (fun j' : Fin 64 => val_main_v157 (F := Ideal) x0 x1 x3 x4 x5 x6 x7 x8 (ix2 r j')) = Cert.Cheb.combine (1 : Fin 3) (val_main_v110 (F := Ideal) x0 x1 x3 x4 x5 x6 x7 x8) (val_main_v126 (F := Ideal) x0 x1 x3 x4 x5 x6 x7 x8) (val_main_v146 (F := Ideal) x0 x1 x3 x4 x5 x6 x7 x8) x5 x6 r from
    funext fun j' => l1_pre x0 x1 x3 x4 x5 x6 x7 x8 r j']

/-! ### Layer 2: buffers v186 to v260 -/

/-- The first weight block of layer 2, a slice of the weight array reshaped to 64×64, at row `a`, column `j`. -/
theorem l2_w0 (a j : Fin 64) : val_main_v187 (F := Ideal) x5 (ix2 a j) = x5 (ix4 (2 : Fin 3) (0 : Fin 3) a j) := by
  have ha := a.isLt
  have hj := j.isLt
  rw [val_main_v187_apply, val_main_v186_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The second weight block of layer 2 at row `a`, column `j`. -/
theorem l2_w1 (a j : Fin 64) : val_main_v203 (F := Ideal) x5 (ix2 a j) = x5 (ix4 (2 : Fin 3) (1 : Fin 3) a j) := by
  have ha := a.isLt
  have hj := j.isLt
  rw [val_main_v203_apply, val_main_v202_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The third weight block of layer 2 at row `a`, column `j`. -/
theorem l2_w2 (a j : Fin 64) : val_main_v223 (F := Ideal) x5 (ix2 a j) = x5 (ix4 (2 : Fin 3) (2 : Fin 3) a j) := by
  have ha := a.isLt
  have hj := j.isLt
  rw [val_main_v223_apply, val_main_v222_apply]
  exact congrArg x5 (funext fun d => Fin.ext (by
    match d with
    | ⟨0, _⟩ => rfl
    | ⟨1, _⟩ => rfl
    | ⟨2, _⟩ => show (a.val * 64 + j.val) / 64 % 64 = a.val; omega
    | ⟨3, _⟩ => show (a.val * 64 + j.val) % 64 = j.val; omega))

/-- The first Chebyshev term against its weight block: a sum over the 64 features. -/
theorem l2_dot0 (r : Fin 50000) (j : Fin 64) :
    val_main_v188 (F := Ideal) x0 x1 x3 x4 x5 x6 x7 x8 (ix2 r j) = ∑ a : Fin 64, (val_main_v185 (F := Ideal) x0 x1 x3 x4 x5 x6 x7 x8) (ix2 r a) * x5 (ix4 (2 : Fin 3) (0 : Fin 3) a j) := by
  rw [val_main_v188_apply]
  refine Finset.sum_congr rfl fun a _ => ?_
  rw [show lidx_main_v188 (ix2 r j) a = ix2 r a from funext fun d => Fin.ext (by match d with | ⟨0, _⟩ => rfl | ⟨1, _⟩ => rfl),
    show ridx_main_v188 (ix2 r j) a = ix2 a j from funext fun d => Fin.ext (by match d with | ⟨0, _⟩ => rfl | ⟨1, _⟩ => rfl), l2_w0]

/-- The second Chebyshev term against its weight block. -/
theorem l2_dot1 (r : Fin 50000) (j : Fin 64) :
    val_main_v204 (F := Ideal) x0 x1 x3 x4 x5 x6 x7 x8 (ix2 r j) = ∑ a : Fin 64, (val_main_v201 (F := Ideal) x0 x1 x3 x4 x5 x6 x7 x8) (ix2 r a) * x5 (ix4 (2 : Fin 3) (1 : Fin 3) a j) := by
  rw [val_main_v204_apply]
  refine Finset.sum_congr rfl fun a _ => ?_
  rw [show lidx_main_v204 (ix2 r j) a = ix2 r a from funext fun d => Fin.ext (by match d with | ⟨0, _⟩ => rfl | ⟨1, _⟩ => rfl),
    show ridx_main_v204 (ix2 r j) a = ix2 a j from funext fun d => Fin.ext (by match d with | ⟨0, _⟩ => rfl | ⟨1, _⟩ => rfl), l2_w1]

/-- The third Chebyshev term against its weight block. -/
theorem l2_dot2 (r : Fin 50000) (j : Fin 64) :
    val_main_v224 (F := Ideal) x0 x1 x3 x4 x5 x6 x7 x8 (ix2 r j) = ∑ a : Fin 64, (val_main_v221 (F := Ideal) x0 x1 x3 x4 x5 x6 x7 x8) (ix2 r a) * x5 (ix4 (2 : Fin 3) (2 : Fin 3) a j) := by
  rw [val_main_v224_apply]
  refine Finset.sum_congr rfl fun a _ => ?_
  rw [show lidx_main_v224 (ix2 r j) a = ix2 r a from funext fun d => Fin.ext (by match d with | ⟨0, _⟩ => rfl | ⟨1, _⟩ => rfl),
    show ridx_main_v224 (ix2 r j) a = ix2 a j from funext fun d => Fin.ext (by match d with | ⟨0, _⟩ => rfl | ⟨1, _⟩ => rfl), l2_w2]

/-- The layer's bias row, broadcast over the nodes. -/
theorem l2_cb (r : Fin 50000) (j : Fin 64) : val_main_v229 (F := Ideal) x6 (ix2 r j) = x6 (ix2 (2 : Fin 3) j) := by
  have hj := j.isLt
  rw [val_main_v229_apply, val_main_v228_apply, val_main_v227_apply, val_main_v226_apply]
  exact congrArg x6 (funext fun d => Fin.ext (by
    match d with
    | ⟨0, _⟩ => rfl
    | ⟨1, _⟩ => show j.val % 64 = j.val; omega))

/-- The zero the clamp compares against. -/
theorem l2_zero (r : Fin 50000) (j : Fin 64) : val_main_call3_v0 (F := Ideal) (ix2 r j) = Ideal.ofBits .f32 0x00000000#32 := by
  rw [val_main_call3_v0_apply, val_main_call3_cst_apply]
  rfl

/-- The layer before normalisation is `combine`: the three terms summed left to right, the bias, the clamp, the residual. -/
theorem l2_pre (r : Fin 50000) (j : Fin 64) :
    val_main_v232 (F := Ideal) x0 x1 x3 x4 x5 x6 x7 x8 (ix2 r j) = Cert.Cheb.combine (2 : Fin 3) (val_main_v185 (F := Ideal) x0 x1 x3 x4 x5 x6 x7 x8) (val_main_v201 (F := Ideal) x0 x1 x3 x4 x5 x6 x7 x8) (val_main_v221 (F := Ideal) x0 x1 x3 x4 x5 x6 x7 x8) x5 x6 r j := by
  unfold Cert.Cheb.combine
  rw [val_main_v232_apply, val_main_v231_apply, val_main_v230_apply, val_main_v225_apply, val_main_v205_apply,
    l2_dot0, l2_dot1, l2_dot2, l2_cb, l2_zero]
  rfl

/-- The row sum: it starts from the zero word, which adds nothing. -/
theorem l2_sum (r : Fin 50000) : val_main_v237 (F := Ideal) x0 x1 x3 x4 x5 x6 x7 x8 (ix1 r) = ∑ k : Fin 64, val_main_v232 (F := Ideal) x0 x1 x3 x4 x5 x6 x7 x8 (ix2 r k) := by
  rw [val_main_v237_apply, val_main_cst_39_apply, zero_word, zero_add]
  refine Finset.sum_congr rfl fun k _ => ?_
  rw [show idx_main_v237 (ix1 r) k = ix2 r k from funext fun d => Fin.ext (by match d with | ⟨0, _⟩ => rfl | ⟨1, _⟩ => rfl)]

/-- The row mean, kept as a one-column array. -/
theorem l2_mean (r : Fin 50000) (z : Fin 1) : val_main_v240 (F := Ideal) x0 x1 x3 x4 x5 x6 x7 x8 (ix2 r z) = Cert.Cheb.rowMean (fun j' : Fin 64 => val_main_v232 (F := Ideal) x0 x1 x3 x4 x5 x6 x7 x8 (ix2 r j')) := by
  unfold Cert.Cheb.rowMean
  rw [val_main_v240_apply, val_main_v238_apply, val_main_v239_apply, val_main_cst_40_apply,
    show idx_main_v238 (ix2 r z) = ix1 r from funext fun d => Fin.ext (by match d with | ⟨0, _⟩ => rfl), l2_sum]
  rfl

/-- The row centred on its mean (the copy that is squared). -/
theorem l2_cen (r : Fin 50000) (j : Fin 64) : val_main_v242 (F := Ideal) x0 x1 x3 x4 x5 x6 x7 x8 (ix2 r j) = Cert.Cheb.centred (fun j' : Fin 64 => val_main_v232 (F := Ideal) x0 x1 x3 x4 x5 x6 x7 x8 (ix2 r j')) j := by
  unfold Cert.Cheb.centred
  rw [val_main_v242_apply, val_main_v241_apply,
    show idx_main_v241 (ix2 r j) = ix2 r (⟨0, Nat.one_pos⟩ : Fin 1) from funext fun d => Fin.ext (by match d with | ⟨0, _⟩ => rfl | ⟨1, _⟩ => rfl), l2_mean]
  rfl

/-- The row centred on its mean (the copy that is normalised). -/
theorem l2_cen' (r : Fin 50000) (j : Fin 64) : val_main_v249 (F := Ideal) x0 x1 x3 x4 x5 x6 x7 x8 (ix2 r j) = Cert.Cheb.centred (fun j' : Fin 64 => val_main_v232 (F := Ideal) x0 x1 x3 x4 x5 x6 x7 x8 (ix2 r j')) j := by
  unfold Cert.Cheb.centred
  rw [val_main_v249_apply, val_main_v248_apply,
    show idx_main_v248 (ix2 r j) = ix2 r (⟨0, Nat.one_pos⟩ : Fin 1) from funext fun d => Fin.ext (by match d with | ⟨0, _⟩ => rfl | ⟨1, _⟩ => rfl), l2_mean]
  rfl

/-- The row variance: the mean of the squared centred row. -/
theorem l2_var (r : Fin 50000) (z : Fin 1) : val_main_v247 (F := Ideal) x0 x1 x3 x4 x5 x6 x7 x8 (ix2 r z) = Cert.Cheb.rowVar (fun j' : Fin 64 => val_main_v232 (F := Ideal) x0 x1 x3 x4 x5 x6 x7 x8 (ix2 r j')) := by
  unfold Cert.Cheb.rowVar Cert.Cheb.rowMean
  rw [val_main_v247_apply, val_main_v245_apply, val_main_v246_apply, val_main_cst_42_apply,
    show idx_main_v245 (ix2 r z) = ix1 r from funext fun d => Fin.ext (by match d with | ⟨0, _⟩ => rfl),
    val_main_v244_apply, val_main_cst_41_apply, zero_word, zero_add, Ideal.hostDivf_def]
  refine congrArg₂ Ideal.div (Finset.sum_congr rfl fun k _ => ?_) rfl
  rw [show idx_main_v244 (ix1 r) k = ix2 r k from funext fun d => Fin.ext (by match d with | ⟨0, _⟩ => rfl | ⟨1, _⟩ => rfl), val_main_v243_apply, l2_cen]
  rfl

/-- The layer's gain row, broadcast over the nodes. -/
theorem l2_gain (r : Fin 50000) (j : Fin 64) : val_main_v256 (F := Ideal) x7 (ix2 r j) = x7 (ix2 (2 : Fin 3) j) := by
  have hj := j.isLt
  rw [val_main_v256_apply, val_main_v255_apply, val_main_v234_apply, val_main_v233_apply]
  exact congrArg x7 (funext fun d => Fin.ext (by
    match d with
    | ⟨0, _⟩ => rfl
    | ⟨1, _⟩ => show j.val % 64 = j.val; omega))

/-- The layer's shift row, broadcast over the nodes. -/
theorem l2_shift (r : Fin 50000) (j : Fin 64) : val_main_v259 (F := Ideal) x8 (ix2 r j) = x8 (ix2 (2 : Fin 3) j) := by
  have hj := j.isLt
  rw [val_main_v259_apply, val_main_v258_apply, val_main_v236_apply, val_main_v235_apply]
  exact congrArg x8 (funext fun d => Fin.ext (by
    match d with
    | ⟨0, _⟩ => rfl
    | ⟨1, _⟩ => show j.val % 64 = j.val; omega))

/-- The normalised row: centred, times the reciprocal root of variance plus eps, times the gain, plus the shift. -/
theorem l2_out (r : Fin 50000) (j : Fin 64) :
    val_main_v260 (F := Ideal) x0 x1 x3 x4 x5 x6 x7 x8 (ix2 r j)
      = Cert.Cheb.normRow (fun j' : Fin 64 => val_main_v232 (F := Ideal) x0 x1 x3 x4 x5 x6 x7 x8 (ix2 r j')) (fun j' => x7 (ix2 (2 : Fin 3) j')) (fun j' => x8 (ix2 (2 : Fin 3) j')) j := by
  unfold Cert.Cheb.normRow
  rw [val_main_v260_apply, val_main_v257_apply, val_main_v254_apply, val_main_v253_apply, val_main_v252_apply, val_main_v251_apply,
    val_main_v250_apply, val_main_cst_43_apply,
    show idx_main_v253 (ix2 r j) = ix2 r (⟨0, Nat.one_pos⟩ : Fin 1) from funext fun d => Fin.ext (by match d with | ⟨0, _⟩ => rfl | ⟨1, _⟩ => rfl),
    l2_var, l2_cen', l2_gain, l2_shift]
  rfl

/-- Layer 2 of the reference is the specification's layer 2 of its three propagated arrays. -/
theorem layer2 :
    val_main_v260 (F := Ideal) x0 x1 x3 x4 x5 x6 x7 x8 = Cert.Cheb.layerA (2 : Fin 3) (val_main_v185 (F := Ideal) x0 x1 x3 x4 x5 x6 x7 x8) (val_main_v201 (F := Ideal) x0 x1 x3 x4 x5 x6 x7 x8) (val_main_v221 (F := Ideal) x0 x1 x3 x4 x5 x6 x7 x8) x5 x6 x7 x8 := by
  funext y
  obtain ⟨r, j, rfl⟩ : ∃ (r : Fin 50000) (j : Fin 64), y = ix2 r j := ⟨y 0, y 1, eq_ix2 y⟩
  rw [Cert.Cheb.layerA_ix2, l2_out]
  unfold Cert.Cheb.layer
  rw [show (fun j' : Fin 64 => val_main_v232 (F := Ideal) x0 x1 x3 x4 x5 x6 x7 x8 (ix2 r j')) = Cert.Cheb.combine (2 : Fin 3) (val_main_v185 (F := Ideal) x0 x1 x3 x4 x5 x6 x7 x8) (val_main_v201 (F := Ideal) x0 x1 x3 x4 x5 x6 x7 x8) (val_main_v221 (F := Ideal) x0 x1 x3 x4 x5 x6 x7 x8) x5 x6 r from
    funext fun j' => l2_pre x0 x1 x3 x4 x5 x6 x7 x8 r j']

/-! ### The output projection: buffers v261 to v264 -/

/-- The last hidden array against the output weight: a sum over the 64 features. -/
theorem out_dot (r : Fin 50000) (j : Fin 4) :
    val_main_v261 (F := Ideal) x0 x1 x3 x4 x5 x6 x7 x8 x9 (ix2 r j) = ∑ a : Fin 64, val_main_v260 (F := Ideal) x0 x1 x3 x4 x5 x6 x7 x8 (ix2 r a) * x9 (ix2 a j) := by
  rw [val_main_v261_apply]
  refine Finset.sum_congr rfl fun a _ => ?_
  rw [show lidx_main_v261 (ix2 r j) a = ix2 r a from funext fun d => Fin.ext (by match d with | ⟨0, _⟩ => rfl | ⟨1, _⟩ => rfl),
    show ridx_main_v261 (ix2 r j) a = ix2 a j from funext fun d => Fin.ext (by match d with | ⟨0, _⟩ => rfl | ⟨1, _⟩ => rfl)]

/-- The output projection of the reference is the specification's dense layer on the last hidden array. -/
theorem dense_out : val_main_v264 (F := Ideal) x0 x1 x3 x4 x5 x6 x7 x8 x9 x10 = Cert.Cheb.denseOutA (val_main_v260 (F := Ideal) x0 x1 x3 x4 x5 x6 x7 x8) x9 x10 := by
  funext y
  obtain ⟨r, j, rfl⟩ : ∃ (r : Fin 50000) (j : Fin 4), y = ix2 r j := ⟨y 0, y 1, eq_ix2 y⟩
  rw [Cert.Cheb.denseOutA_ix2]
  unfold Cert.Cheb.denseOut
  rw [val_main_v264_apply, out_dot, val_main_v263_apply, val_main_v262_apply,
    show idx_main_v262 (idx_main_v263 (ix2 r j)) = ix1 j from funext fun d => Fin.ext (by match d with | ⟨0, _⟩ => rfl), Ideal.addf_def]

end Cert.ReferenceIdeal.Net

end
-- ==== Proof.RefGlue.lean ====
/-
  The reference's graph side, identified with the shared graph functions.

  Everything the reference computes from the edge list alone — the source and destination rows, the out-degrees,
  `1/sqrt(max(deg, 1))` masked to the nodes that have an edge, the edge weights — and, in each layer, the two
  propagated arrays (the previous features pushed once along the edges, and twice the second push minus the
  features) is written, operation for operation, as the shared functions `src`, `dst`, `deg`, `hasEdge`,
  `invRoot`, `dinv`, `wrapCol`, `edgeW`, `prop`, `cheb2` are. Each lemma unfolds one stage of the reference,
  replaces what the earlier lemmas already identified, and unfolds the one shared function it meets; the two sides
  are then the same operations on the same arrays, spelt with two copies of the same shapes and index records.
  No gather or scatter is ever opened.
-/
import proofs.«120199_j53815940218921_1_alg».proof.Proof.ReadP
import proofs.«120199_j53815940218921_1_alg».proof.Proof.Glue

noncomputable section

namespace Cert.ReferenceIdeal.Net

open Cert.ReferenceIdeal Cert.ReferenceIdeal.ReadP Idealize.ShloMosaic

variable (x0 : (⟨S50000x16, .f32⟩ : BufTy).Contents (Elt Ideal)) (x1 : (⟨S2x800000, .i32⟩ : BufTy).Contents (Elt Ideal))
  (x3 : (⟨S16x64, .f32⟩ : BufTy).Contents (Elt Ideal)) (x4 : (⟨S64, .f32⟩ : BufTy).Contents (Elt Ideal))
  (x5 : (⟨S3x3x64x64, .f32⟩ : BufTy).Contents (Elt Ideal)) (x6 x7 x8 : (⟨S3x64, .f32⟩ : BufTy).Contents (Elt Ideal))

/-! ### The graph quantities: buffers v0 to v31 -/

/-- The source row of the edge list. -/
theorem g_src : val_main_v1 (F := Ideal) x1 = Cert.KernelIdeal.Glue.src (F := Ideal) x1 := by
  unfold val_main_v1 val_main_v0 Cert.KernelIdeal.Glue.src
  rfl

/-- The destination row of the edge list. -/
theorem g_dst : val_main_v3 (F := Ideal) x1 = Cert.KernelIdeal.Glue.dst (F := Ideal) x1 := by
  unfold val_main_v3 val_main_v2 Cert.KernelIdeal.Glue.dst
  rfl

/-- Every node's out-degree. -/
theorem g_deg : val_main_v7 (F := Ideal) x1 = Cert.KernelIdeal.Glue.deg (F := Ideal) x1 := by
  unfold val_main_v7 val_main_v5 val_main_cst_0 val_main_v6 val_main_v4 val_main_cst
  rw [g_src]
  unfold Cert.KernelIdeal.Glue.deg
  rfl

/-- Where the degree is positive. -/
theorem g_has : val_main_v9 (F := Ideal) x1 = Cert.KernelIdeal.Glue.hasEdge (F := Ideal) x1 := by
  unfold val_main_v9 val_main_v8 val_main_cst_1
  rw [g_deg]
  unfold Cert.KernelIdeal.Glue.hasEdge
  rfl

/-- The reciprocal root of the degree clamped below at one. -/
theorem g_inv : val_main_v14 (F := Ideal) x1 = Cert.KernelIdeal.Glue.invRoot (F := Ideal) x1 := by
  unfold val_main_v14 val_main_v13 val_main_cst_3 val_main_v12 val_main_v11 val_main_v10 val_main_cst_2
  rw [g_deg]
  unfold Cert.KernelIdeal.Glue.invRoot
  rfl

/-- The reciprocal root where the degree is positive, zero elsewhere. -/
theorem g_dinv : val_main_v15 (F := Ideal) x1 = Cert.KernelIdeal.Glue.dinv (F := Ideal) x1 := by
  unfold val_main_v15 val_main_call0_v1 val_main_call0_v0 val_main_cst_4
  rw [g_has, g_inv]
  unfold Cert.KernelIdeal.Glue.dinv Cert.KernelIdeal.Glue.zeroScalar
  rfl

/-- The sources as a wrapped index column (buffer v21). -/
theorem g_wrap_v21 : val_main_v21 (F := Ideal) x1 = Cert.KernelIdeal.Glue.wrapCol (F := Ideal) (Cert.KernelIdeal.Glue.src (F := Ideal) x1) := by
  unfold val_main_v21 val_main_v20 val_main_v19 val_main_v18 val_main_c_5 val_main_v17 val_main_v16 val_main_c
  rw [g_src]
  unfold Cert.KernelIdeal.Glue.wrapCol
  rfl

/-- The destinations as a wrapped index column (buffer v29). -/
theorem g_wrap_v29 : val_main_v29 (F := Ideal) x1 = Cert.KernelIdeal.Glue.wrapCol (F := Ideal) (Cert.KernelIdeal.Glue.dst (F := Ideal) x1) := by
  unfold val_main_v29 val_main_v28 val_main_v27 val_main_v26 val_main_c_7 val_main_v25 val_main_v24 val_main_c_6
  rw [g_dst]
  unfold Cert.KernelIdeal.Glue.wrapCol
  rfl

/-- An edge's weight. -/
theorem g_w : val_main_v31 (F := Ideal) x1 = Cert.KernelIdeal.Glue.edgeW (F := Ideal) x1 := by
  unfold val_main_v31 val_main_v23 val_main_v22 val_main_v30
  rw [g_dinv, g_wrap_v21, g_wrap_v29]
  unfold Cert.KernelIdeal.Glue.edgeW
  rfl

/-! ### The propagated arrays of layer 0: buffers v39 to v51 and v56 to v71 -/

/-- The sources as a wrapped index column (buffer v45). -/
theorem g_wrap_v45 : val_main_v45 (F := Ideal) x1 = Cert.KernelIdeal.Glue.wrapCol (F := Ideal) (Cert.KernelIdeal.Glue.src (F := Ideal) x1) := by
  unfold val_main_v45 val_main_v44 val_main_v43 val_main_v42 val_main_c_9 val_main_v41 val_main_v40 val_main_c_8
  rw [g_src]
  unfold Cert.KernelIdeal.Glue.wrapCol
  rfl

/-- The first propagation of layer 0: the previous features pushed once along the edges. -/
theorem g_p0 : val_main_v51 (F := Ideal) x0 x1 x3 x4 = Cert.KernelIdeal.Glue.prop (F := Ideal) x1 (val_main_v35 (F := Ideal) x0 x3 x4) := by
  unfold val_main_v51 val_main_v49 val_main_cst_10 val_main_v50 val_main_v48 val_main_v47 val_main_v39 val_main_v46
  rw [g_dst, g_w, g_wrap_v45]
  unfold Cert.KernelIdeal.Glue.prop
  rfl

/-- The sources as a wrapped index column (buffer v62). -/
theorem g_wrap_v62 : val_main_v62 (F := Ideal) x1 = Cert.KernelIdeal.Glue.wrapCol (F := Ideal) (Cert.KernelIdeal.Glue.src (F := Ideal) x1) := by
  unfold val_main_v62 val_main_v61 val_main_v60 val_main_v59 val_main_c_12 val_main_v58 val_main_v57 val_main_c_11
  rw [g_src]
  unfold Cert.KernelIdeal.Glue.wrapCol
  rfl

/-- The second Chebyshev term of layer 0: twice the propagation of the first term, minus the previous features. -/
theorem g_c0 : val_main_v71 (F := Ideal) x0 x1 x3 x4 = Cert.KernelIdeal.Glue.cheb2 (F := Ideal) x1 (val_main_v35 (F := Ideal) x0 x3 x4) (val_main_v51 (F := Ideal) x0 x1 x3 x4) := by
  unfold val_main_v71 val_main_v70 val_main_v69 val_main_cst_14 val_main_v68 val_main_v66 val_main_cst_13 val_main_v67 val_main_v65 val_main_v64 val_main_v56 val_main_v63
  rw [g_dst, g_w, g_wrap_v62]
  unfold Cert.KernelIdeal.Glue.cheb2 Cert.KernelIdeal.Glue.prop
  rfl

/-! ### The propagated arrays of layer 1: buffers v114 to v126 and v131 to v146 -/

/-- The sources as a wrapped index column (buffer v120). -/
theorem g_wrap_v120 : val_main_v120 (F := Ideal) x1 = Cert.KernelIdeal.Glue.wrapCol (F := Ideal) (Cert.KernelIdeal.Glue.src (F := Ideal) x1) := by
  unfold val_main_v120 val_main_v119 val_main_v118 val_main_v117 val_main_c_21 val_main_v116 val_main_v115 val_main_c_20
  rw [g_src]
  unfold Cert.KernelIdeal.Glue.wrapCol
  rfl

/-- The first propagation of layer 1: the previous features pushed once along the edges. -/
theorem g_p1 : val_main_v126 (F := Ideal) x0 x1 x3 x4 x5 x6 x7 x8 = Cert.KernelIdeal.Glue.prop (F := Ideal) x1 (val_main_v110 (F := Ideal) x0 x1 x3 x4 x5 x6 x7 x8) := by
  unfold val_main_v126 val_main_v124 val_main_cst_22 val_main_v125 val_main_v123 val_main_v122 val_main_v114 val_main_v121
  rw [g_dst, g_w, g_wrap_v120]
  unfold Cert.KernelIdeal.Glue.prop
  rfl

/-- The sources as a wrapped index column (buffer v137). -/
theorem g_wrap_v137 : val_main_v137 (F := Ideal) x1 = Cert.KernelIdeal.Glue.wrapCol (F := Ideal) (Cert.KernelIdeal.Glue.src (F := Ideal) x1) := by
  unfold val_main_v137 val_main_v136 val_main_v135 val_main_v134 val_main_c_24 val_main_v133 val_main_v132 val_main_c_23
  rw [g_src]
  unfold Cert.KernelIdeal.Glue.wrapCol
  rfl

/-- The second Chebyshev term of layer 1: twice the propagation of the first term, minus the previous features. -/
theorem g_c1 : val_main_v146 (F := Ideal) x0 x1 x3 x4 x5 x6 x7 x8 = Cert.KernelIdeal.Glue.cheb2 (F := Ideal) x1 (val_main_v110 (F := Ideal) x0 x1 x3 x4 x5 x6 x7 x8) (val_main_v126 (F := Ideal) x0 x1 x3 x4 x5 x6 x7 x8) := by
  unfold val_main_v146 val_main_v145 val_main_v144 val_main_cst_26 val_main_v143 val_main_v141 val_main_cst_25 val_main_v142 val_main_v140 val_main_v139 val_main_v131 val_main_v138
  rw [g_dst, g_w, g_wrap_v137]
  unfold Cert.KernelIdeal.Glue.cheb2 Cert.KernelIdeal.Glue.prop
  rfl

/-! ### The propagated arrays of layer 2: buffers v189 to v201 and v206 to v221 -/

/-- The sources as a wrapped index column (buffer v195). -/
theorem g_wrap_v195 : val_main_v195 (F := Ideal) x1 = Cert.KernelIdeal.Glue.wrapCol (F := Ideal) (Cert.KernelIdeal.Glue.src (F := Ideal) x1) := by
  unfold val_main_v195 val_main_v194 val_main_v193 val_main_v192 val_main_c_33 val_main_v191 val_main_v190 val_main_c_32
  rw [g_src]
  unfold Cert.KernelIdeal.Glue.wrapCol
  rfl

/-- The first propagation of layer 2: the previous features pushed once along the edges. -/
theorem g_p2 : val_main_v201 (F := Ideal) x0 x1 x3 x4 x5 x6 x7 x8 = Cert.KernelIdeal.Glue.prop (F := Ideal) x1 (val_main_v185 (F := Ideal) x0 x1 x3 x4 x5 x6 x7 x8) := by
  unfold val_main_v201 val_main_v199 val_main_cst_34 val_main_v200 val_main_v198 val_main_v197 val_main_v189 val_main_v196
  rw [g_dst, g_w, g_wrap_v195]
  unfold Cert.KernelIdeal.Glue.prop
  rfl

/-- The sources as a wrapped index column (buffer v212). -/
theorem g_wrap_v212 : val_main_v212 (F := Ideal) x1 = Cert.KernelIdeal.Glue.wrapCol (F := Ideal) (Cert.KernelIdeal.Glue.src (F := Ideal) x1) := by
  unfold val_main_v212 val_main_v211 val_main_v210 val_main_v209 val_main_c_36 val_main_v208 val_main_v207 val_main_c_35
  rw [g_src]
  unfold Cert.KernelIdeal.Glue.wrapCol
  rfl

/-- The second Chebyshev term of layer 2: twice the propagation of the first term, minus the previous features. -/
theorem g_c2 : val_main_v221 (F := Ideal) x0 x1 x3 x4 x5 x6 x7 x8 = Cert.KernelIdeal.Glue.cheb2 (F := Ideal) x1 (val_main_v185 (F := Ideal) x0 x1 x3 x4 x5 x6 x7 x8) (val_main_v201 (F := Ideal) x0 x1 x3 x4 x5 x6 x7 x8) := by
  unfold val_main_v221 val_main_v220 val_main_v219 val_main_cst_38 val_main_v218 val_main_v216 val_main_cst_37 val_main_v217 val_main_v215 val_main_v214 val_main_v206 val_main_v213
  rw [g_dst, g_w, g_wrap_v212]
  unfold Cert.KernelIdeal.Glue.cheb2 Cert.KernelIdeal.Glue.prop
  rfl

end Cert.ReferenceIdeal.Net

end
-- ==== Proof.RefResult.lean ====
/-
  The whole reference as the network.

  The five stages of the reference are the specification's dense layers and Chebyshev layers, and each layer's
  second and third argument is the shared propagation of its first. Substituting stage by stage from the result
  back to the arguments leaves exactly the network's definition.
-/
import proofs.«120199_j53815940218921_1_alg».proof.Proof.RefNet
import proofs.«120199_j53815940218921_1_alg».proof.Proof.RefGlue
import proofs.«120199_j53815940218921_1_alg».proof.Proof.NetDef

noncomputable section

namespace Cert.ReferenceIdeal.Net

open Cert.ReferenceIdeal Cert.ReferenceIdeal.ReadP Idealize.ShloMosaic

variable (x0 : (⟨S50000x16, .f32⟩ : BufTy).Contents (Elt Ideal)) (x1 : (⟨S2x800000, .i32⟩ : BufTy).Contents (Elt Ideal))
  (x3 : (⟨S16x64, .f32⟩ : BufTy).Contents (Elt Ideal)) (x4 : (⟨S64, .f32⟩ : BufTy).Contents (Elt Ideal))
  (x5 : (⟨S3x3x64x64, .f32⟩ : BufTy).Contents (Elt Ideal)) (x6 x7 x8 : (⟨S3x64, .f32⟩ : BufTy).Contents (Elt Ideal))
  (x9 : (⟨S64x4, .f32⟩ : BufTy).Contents (Elt Ideal)) (x10 : (⟨S4, .f32⟩ : BufTy).Contents (Elt Ideal))

/-- The reference's result is the network of the argument arrays: the five stages, with each layer's second and
    third argument written as the shared propagation of its first. -/
theorem result : val_main_v264 (F := Ideal) x0 x1 x3 x4 x5 x6 x7 x8 x9 x10 = Cert.Cheb.net x0 x1 x3 x4 x5 x6 x7 x8 x9 x10 := by
  rw [dense_out, layer2, g_c2, g_p2, layer1, g_c1, g_p1, layer0, g_c0, g_p0, dense_in]
  unfold Cert.Cheb.net Cert.Cheb.step
  rfl

end Cert.ReferenceIdeal.Net

end
-- ==== Proof.RefRun.lean ====
/-
  The reference's run, read back by stages.

  The reference's @main is a list of 319 host operations, and its run leaves every buffer at the fold of the
  operations' results over the launch contents. The list is cut into thirteen consecutive segments — the graph
  quantities, the selection inside a called function, the edge weights with the input projection, then for each
  layer the part up to the bias, the clamp inside a called function and the normalisation, and at last the output
  projection — and the fold of the whole list is the fold of the segments one after another.

  After each segment the few buffers a later segment still reads are identified: a buffer the segment computes is
  the reference's value of that buffer as a function of the launch contents of the arguments (the segment's
  operations evaluated over the previous boundary, whose buffers are already named terms, give literally the
  unfolded definition); a buffer the segment does not write is what it was. At the end the result buffer is the
  reference's result of the arguments, which is the network, and every argument is its launch contents.
-/
import proofs.«120199_j53815940218921_1_alg».proof.Proof.RunP
import proofs.«120199_j53815940218921_1_alg».proof.Proof.RefResult
import Idealize.ShloMosaic.Lib.StableHlo.Run

set_option maxRecDepth 16384

noncomputable section

namespace Cert.ReferenceIdeal.Net

open Cert.ReferenceIdeal Cert.ReferenceIdeal.Gen Cert.ReferenceIdeal.ReadP
open Idealize.ShloMosaic Idealize.ShloMosaic.TcCoe Idealize.ShloMosaic.StableHlo Idealize.SL.Sem

/-! ### The segments -/

section Segments

variable {F : FTy → Type} [FloatOps F]

/-- Operations 0 to 20 of the reference: the edge rows, the degrees, the degree test and the reciprocal root. -/
abbrev seg0 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_cst (constant S_ .f32 0x3F800000#32),
    unary main_cst main_v4 (broadcastInDim S800000 ![] bcast_S_S800000 : (⟨S_, .f32⟩ : BufTy).Contents (Elt F) → (⟨S800000, .f32⟩ : BufTy).Contents (Elt F)),
    nullary main_cst_0 (constant S_ .f32 0x00000000#32),
    unary main_cst_0 main_v5 (broadcastInDim S50000 ![] bcast_S_S50000 : (⟨S_, .f32⟩ : BufTy).Contents (Elt F) → (⟨S50000, .f32⟩ : BufTy).Contents (Elt F)),
    unary main_v1 main_v6 (broadcastInDim S800000x1 ![0] bcast_S800000_S800000x1_0 : (⟨S800000, .i32⟩ : BufTy).Contents (Elt F) → (⟨S800000x1, .i32⟩ : BufTy).Contents (Elt F)),
    ternary main_v5 main_v6 main_v4 main_v7 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_1 (constant S_ .f32 0x00000000#32),
    unary main_cst_1 main_v8 (broadcastInDim S50000 ![] bcast_S_S50000 : (⟨S_, .f32⟩ : BufTy).Contents (Elt F) → (⟨S50000, .f32⟩ : BufTy).Contents (Elt F)),
    binary main_v7 main_v8 main_v9 (cmpf .ogt : (⟨S50000, .f32⟩ : BufTy).Contents (Elt F) → (⟨S50000, .f32⟩ : BufTy).Contents (Elt F) → (⟨S50000, .i1⟩ : BufTy).Contents (Elt F)),
    nullary main_cst_2 (constant S_ .f32 0x3F800000#32),
    unary main_cst_2 main_v10 (broadcastInDim S50000 ![] bcast_S_S50000 : (⟨S_, .f32⟩ : BufTy).Contents (Elt F) → (⟨S50000, .f32⟩ : BufTy).Contents (Elt F)),
    binary main_v7 main_v10 main_v11 (maximumf : (⟨S50000, .f32⟩ : BufTy).Contents (Elt F) → (⟨S50000, .f32⟩ : BufTy).Contents (Elt F) → (⟨S50000, .f32⟩ : BufTy).Contents (Elt F)),
    unary main_v11 main_v12 (Host.sqrt : (⟨S50000, .f32⟩ : BufTy).Contents (Elt F) → (⟨S50000, .f32⟩ : BufTy).Contents (Elt F)),
    nullary main_cst_3 (constant S_ .f32 0x3F800000#32),
    unary main_cst_3 main_v13 (broadcastInDim S50000 ![] bcast_S_S50000 : (⟨S_, .f32⟩ : BufTy).Contents (Elt F) → (⟨S50000, .f32⟩ : BufTy).Contents (Elt F)),
    binary main_v13 main_v12 main_v14 (Host.divf : (⟨S50000, .f32⟩ : BufTy).Contents (Elt F) → (⟨S50000, .f32⟩ : BufTy).Contents (Elt F) → (⟨S50000, .f32⟩ : BufTy).Contents (Elt F)),
    nullary main_cst_4 (constant S_ .f32 0x00000000#32) ]

/-- Operations 21 to 23 of the reference: the selection between the reciprocal root and zero (a called function). -/
abbrev seg1 : List (HloOp τ sig (Elt F)) :=
  [ TRef.unary (TRef.of (T := ⟨S_, .f32⟩) main_cst_4) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v9) (TRef.of (T := ⟨S50000, .f32⟩) main_v14) (TRef.of (T := ⟨S50000, .f32⟩) main_call0_v1) (TRef.of (T := ⟨S50000, .f32⟩) main_v15) select ]

/-- Operations 24 to 47 of the reference: the edge weights and the input projection. -/
abbrev seg2 : List (HloOp τ sig (Elt F)) :=
  [ nullary main_c (constantI S_ 32 0#32),
    unary main_c main_v16 (broadcastInDim S800000 ![] bcast_S_S800000 : (⟨S_, .i32⟩ : BufTy).Contents (Elt F) → (⟨S800000, .i32⟩ : BufTy).Contents (Elt F)),
    binary main_v1 main_v16 main_v17 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v18 (broadcastInDim S800000 ![] bcast_S_S800000 : (⟨S_, .i32⟩ : BufTy).Contents (Elt F) → (⟨S800000, .i32⟩ : BufTy).Contents (Elt F)),
    binary main_v1 main_v18 main_v19 (addi : (⟨S800000, .i32⟩ : BufTy).Contents (Elt F) → (⟨S800000, .i32⟩ : BufTy).Contents (Elt F) → (⟨S800000, .i32⟩ : BufTy).Contents (Elt F)),
    ternary main_v17 main_v19 main_v1 main_v20 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v20 main_v21 (broadcastInDim S800000x1 ![0] bcast_S800000_S800000x1_0 : (⟨S800000, .i32⟩ : BufTy).Contents (Elt F) → (⟨S800000x1, .i32⟩ : BufTy).Contents (Elt F)),
    binary main_v15 main_v21 main_v22 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    unary main_v22 main_v23 (Host.negf : (⟨S800000, .f32⟩ : BufTy).Contents (Elt F) → (⟨S800000, .f32⟩ : BufTy).Contents (Elt F)),
    nullary main_c_6 (constantI S_ 32 0#32),
    unary main_c_6 main_v24 (broadcastInDim S800000 ![] bcast_S_S800000 : (⟨S_, .i32⟩ : BufTy).Contents (Elt F) → (⟨S800000, .i32⟩ : BufTy).Contents (Elt F)),
    binary main_v3 main_v24 main_v25 (cmpi .slt : (⟨S800000, .i32⟩ : BufTy).Contents (Elt F) → (⟨S800000, .i32⟩ : BufTy).Contents (Elt F) → (⟨S800000, .i1⟩ : BufTy).Contents (Elt F)),
    nullary main_c_7 (constantI S_ 32 50000#32),
    unary main_c_7 main_v26 (broadcastInDim S800000 ![] bcast_S_S800000 : (⟨S_, .i32⟩ : BufTy).Contents (Elt F) → (⟨S800000, .i32⟩ : BufTy).Contents (Elt F)),
    binary main_v3 main_v26 main_v27 (addi : (⟨S800000, .i32⟩ : BufTy).Contents (Elt F) → (⟨S800000, .i32⟩ : BufTy).Contents (Elt F) → (⟨S800000, .i32⟩ : BufTy).Contents (Elt F)),
    ternary main_v25 main_v27 main_v3 main_v28 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v28 main_v29 (broadcastInDim S800000x1 ![0] bcast_S800000_S800000x1_0 : (⟨S800000, .i32⟩ : BufTy).Contents (Elt F) → (⟨S800000x1, .i32⟩ : BufTy).Contents (Elt F)),
    binary main_v15 main_v29 main_v30 ((fun x i => Host.gather gather_S50000_S800000x1_S800000_n_0_n_n_0_1_1 x i) : (⟨S50000, .f32⟩ : BufTy).Contents (Elt F) → (⟨S800000x1, .i32⟩ : BufTy).Contents (Elt F) → (⟨S800000, .f32⟩ : BufTy).Contents (Elt F)),
    binary main_v23 main_v30 main_v31 (mulf : (⟨S800000, .f32⟩ : BufTy).Contents (Elt F) → (⟨S800000, .f32⟩ : BufTy).Contents (Elt F) → (⟨S800000, .f32⟩ : BufTy).Contents (Elt F)),
    binary main_arg0 main_arg3 main_v32 ((fun l r => Host.dotGeneral dot_S50000x16_S16x64_S50000x64_1_0_0_1_n_n none l r) : (⟨S50000x16, .f32⟩ : BufTy).Contents (Elt F) → (⟨S16x64, .f32⟩ : BufTy).Contents (Elt F) → (⟨S50000x64, .f32⟩ : BufTy).Contents (Elt F)),
    unary main_arg4 main_v33 (broadcastInDim S1x64 ![1] bcast_S64_S1x64_1 : (⟨S64, .f32⟩ : BufTy).Contents (Elt F) → (⟨S1x64, .f32⟩ : BufTy).Contents (Elt F)),
    unary main_v33 main_v34 (broadcastInDim S50000x64 ![0, 1] bcast_S1x64_S50000x64_0_1 : (⟨S1x64, .f32⟩ : BufTy).Contents (Elt F) → (⟨S50000x64, .f32⟩ : BufTy).Contents (Elt F)),
    binary main_v32 main_v34 main_v35 (addf : (⟨S50000x64, .f32⟩ : BufTy).Contents (Elt F) → (⟨S50000x64, .f32⟩ : BufTy).Contents (Elt F) → (⟨S50000x64, .f32⟩ : BufTy).Contents (Elt F)) ]

/-- Operations 48 to 99 of the reference: layer 0 up to the bias. -/
abbrev seg3 : List (HloOp τ sig (Elt F)) :=
  [ unary main_arg5 main_v36 ((extractStridedSlice S1x1x64x64 ![0, 0, 0, 0] · slices_S3x3x64x64_S1x1x64x64_0_0_0_0) : (⟨S3x3x64x64, .f32⟩ : BufTy).Contents (Elt F) → (⟨S1x1x64x64, .f32⟩ : BufTy).Contents (Elt F)),
    reshape main_v36 main_v37 rfl shapeCasts_S1x1x64x64_S64x64,
    binary main_v35 main_v37 main_v38 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v31 main_v39 (broadcastInDim S800000x1 ![0] bcast_S800000_S800000x1_0 : (⟨S800000, .f32⟩ : BufTy).Contents (Elt F) → (⟨S800000x1, .f32⟩ : BufTy).Contents (Elt F)),
    nullary main_c_8 (constantI S_ 32 0#32),
    unary main_c_8 main_v40 (broadcastInDim S800000 ![] bcast_S_S800000 : (⟨S_, .i32⟩ : BufTy).Contents (Elt F) → (⟨S800000, .i32⟩ : BufTy).Contents (Elt F)),
    binary main_v1 main_v40 main_v41 (cmpi .slt : (⟨S800000, .i32⟩ : BufTy).Contents (Elt F) → (⟨S800000, .i32⟩ : BufTy).Contents (Elt F) → (⟨S800000, .i1⟩ : BufTy).Contents (Elt F)),
    nullary main_c_9 (constantI S_ 32 50000#32),
    unary main_c_9 main_v42 (broadcastInDim S800000 ![] bcast_S_S800000 : (⟨S_, .i32⟩ : BufTy).Contents (Elt F) → (⟨S800000, .i32⟩ : BufTy).Contents (Elt F)),
    binary main_v1 main_v42 main_v43 (addi : (⟨S800000, .i32⟩ : BufTy).Contents (Elt F) → (⟨S800000, .i32⟩ : BufTy).Contents (Elt F) → (⟨S800000, .i32⟩ : BufTy).Contents (Elt F)),
    ternary main_v41 main_v43 main_v1 main_v44 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v44 main_v45 (broadcastInDim S800000x1 ![0] bcast_S800000_S800000x1_0 : (⟨S800000, .i32⟩ : BufTy).Contents (Elt F) → (⟨S800000x1, .i32⟩ : BufTy).Contents (Elt F)),
    binary main_v35 main_v45 main_v46 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v39 main_v47 (broadcastInDim S800000x64 ![0, 1] bcast_S800000x1_S800000x64_0_1 : (⟨S800000x1, .f32⟩ : BufTy).Contents (Elt F) → (⟨S800000x64, .f32⟩ : BufTy).Contents (Elt F)),
    binary main_v47 main_v46 main_v48 (mulf : (⟨S800000x64, .f32⟩ : BufTy).Contents (Elt F) → (⟨S800000x64, .f32⟩ : BufTy).Contents (Elt F) → (⟨S800000x64, .f32⟩ : BufTy).Contents (Elt F)),
    nullary main_cst_10 (constant S_ .f32 0x00000000#32),
    unary main_cst_10 main_v49 (broadcastInDim S50000x64 ![] bcast_S_S50000x64 : (⟨S_, .f32⟩ : BufTy).Contents (Elt F) → (⟨S50000x64, .f32⟩ : BufTy).Contents (Elt F)),
    unary main_v3 main_v50 (broadcastInDim S800000x1 ![0] bcast_S800000_S800000x1_0 : (⟨S800000, .i32⟩ : BufTy).Contents (Elt F) → (⟨S800000x1, .i32⟩ : BufTy).Contents (Elt F)),
    ternary main_v49 main_v50 main_v48 main_v51 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v52 ((extractStridedSlice S1x1x64x64 ![0, 1, 0, 0] · slices_S3x3x64x64_S1x1x64x64_0_1_0_0) : (⟨S3x3x64x64, .f32⟩ : BufTy).Contents (Elt F) → (⟨S1x1x64x64, .f32⟩ : BufTy).Contents (Elt F)),
    reshape main_v52 main_v53 rfl shapeCasts_S1x1x64x64_S64x64,
    binary main_v51 main_v53 main_v54 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v38 main_v54 main_v55 (addf : (⟨S50000x64, .f32⟩ : BufTy).Contents (Elt F) → (⟨S50000x64, .f32⟩ : BufTy).Contents (Elt F) → (⟨S50000x64, .f32⟩ : BufTy).Contents (Elt F)),
    unary main_v31 main_v56 (broadcastInDim S800000x1 ![0] bcast_S800000_S800000x1_0 : (⟨S800000, .f32⟩ : BufTy).Contents (Elt F) → (⟨S800000x1, .f32⟩ : BufTy).Contents (Elt F)),
    nullary main_c_11 (constantI S_ 32 0#32),
    unary main_c_11 main_v57 (broadcastInDim S800000 ![] bcast_S_S800000 : (⟨S_, .i32⟩ : BufTy).Contents (Elt F) → (⟨S800000, .i32⟩ : BufTy).Contents (Elt F)),
    binary main_v1 main_v57 main_v58 (cmpi .slt : (⟨S800000, .i32⟩ : BufTy).Contents (Elt F) → (⟨S800000, .i32⟩ : BufTy).Contents (Elt F) → (⟨S800000, .i1⟩ : BufTy).Contents (Elt F)),
    nullary main_c_12 (constantI S_ 32 50000#32),
    unary main_c_12 main_v59 (broadcastInDim S800000 ![] bcast_S_S800000 : (⟨S_, .i32⟩ : BufTy).Contents (Elt F) → (⟨S800000, .i32⟩ : BufTy).Contents (Elt F)),
    binary main_v1 main_v59 main_v60 (addi : (⟨S800000, .i32⟩ : BufTy).Contents (Elt F) → (⟨S800000, .i32⟩ : BufTy).Contents (Elt F) → (⟨S800000, .i32⟩ : BufTy).Contents (Elt F)),
    ternary main_v58 main_v60 main_v1 main_v61 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v61 main_v62 (broadcastInDim S800000x1 ![0] bcast_S800000_S800000x1_0 : (⟨S800000, .i32⟩ : BufTy).Contents (Elt F) → (⟨S800000x1, .i32⟩ : BufTy).Contents (Elt F)),
    binary main_v51 main_v62 main_v63 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v56 main_v64 (broadcastInDim S800000x64 ![0, 1] bcast_S800000x1_S800000x64_0_1 : (⟨S800000x1, .f32⟩ : BufTy).Contents (Elt F) → (⟨S800000x64, .f32⟩ : BufTy).Contents (Elt F)),
    binary main_v64 main_v63 main_v65 (mulf : (⟨S800000x64, .f32⟩ : BufTy).Contents (Elt F) → (⟨S800000x64, .f32⟩ : BufTy).Contents (Elt F) → (⟨S800000x64, .f32⟩ : BufTy).Contents (Elt F)),
    nullary main_cst_13 (constant S_ .f32 0x00000000#32),
    unary main_cst_13 main_v66 (broadcastInDim S50000x64 ![] bcast_S_S50000x64 : (⟨S_, .f32⟩ : BufTy).Contents (Elt F) → (⟨S50000x64, .f32⟩ : BufTy).Contents (Elt F)),
    unary main_v3 main_v67 (broadcastInDim S800000x1 ![0] bcast_S800000_S800000x1_0 : (⟨S800000, .i32⟩ : BufTy).Contents (Elt F) → (⟨S800000x1, .i32⟩ : BufTy).Contents (Elt F)),
    ternary main_v66 main_v67 main_v65 main_v68 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_14 (constant S_ .f32 0x40000000#32),
    unary main_cst_14 main_v69 (broadcastInDim S50000x64 ![] bcast_S_S50000x64 : (⟨S_, .f32⟩ : BufTy).Contents (Elt F) → (⟨S50000x64, .f32⟩ : BufTy).Contents (Elt F)),
    binary main_v69 main_v68 main_v70 (mulf : (⟨S50000x64, .f32⟩ : BufTy).Contents (Elt F) → (⟨S50000x64, .f32⟩ : BufTy).Contents (Elt F) → (⟨S50000x64, .f32⟩ : BufTy).Contents (Elt F)),
    binary main_v70 main_v35 main_v71 (subf : (⟨S50000x64, .f32⟩ : BufTy).Contents (Elt F) → (⟨S50000x64, .f32⟩ : BufTy).Contents (Elt F) → (⟨S50000x64, .f32⟩ : BufTy).Contents (Elt F)),
    unary main_arg5 main_v72 ((extractStridedSlice S1x1x64x64 ![0, 2, 0, 0] · slices_S3x3x64x64_S1x1x64x64_0_2_0_0) : (⟨S3x3x64x64, .f32⟩ : BufTy).Contents (Elt F) → (⟨S1x1x64x64, .f32⟩ : BufTy).Contents (Elt F)),
    reshape main_v72 main_v73 rfl shapeCasts_S1x1x64x64_S64x64,
    binary main_v71 main_v73 main_v74 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v55 main_v74 main_v75 (addf : (⟨S50000x64, .f32⟩ : BufTy).Contents (Elt F) → (⟨S50000x64, .f32⟩ : BufTy).Contents (Elt F) → (⟨S50000x64, .f32⟩ : BufTy).Contents (Elt F)),
    unary main_arg6 main_v76 ((extractStridedSlice S1x64 ![0, 0] · slices_S3x64_S1x64_0_0) : (⟨S3x64, .f32⟩ : BufTy).Contents (Elt F) → (⟨S1x64, .f32⟩ : BufTy).Contents (Elt F)),
    reshape main_v76 main_v77 rfl shapeCasts_S1x64_S64,
    unary main_v77 main_v78 (broadcastInDim S1x64 ![1] bcast_S64_S1x64_1 : (⟨S64, .f32⟩ : BufTy).Contents (Elt F) → (⟨S1x64, .f32⟩ : BufTy).Contents (Elt F)),
    unary main_v78 main_v79 (broadcastInDim S50000x64 ![0, 1] bcast_S1x64_S50000x64_0_1 : (⟨S1x64, .f32⟩ : BufTy).Contents (Elt F) → (⟨S50000x64, .f32⟩ : BufTy).Contents (Elt F)),
    binary main_v75 main_v79 main_v80 (addf : (⟨S50000x64, .f32⟩ : BufTy).Contents (Elt F) → (⟨S50000x64, .f32⟩ : BufTy).Contents (Elt F) → (⟨S50000x64, .f32⟩ : BufTy).Contents (Elt F)) ]

/-- Operations 100 to 102 of the reference: layer 0's clamp at zero (a called function). -/
abbrev seg4 : List (HloOp τ sig (Elt F)) :=
  [ TRef.nullary (TRef.of (T := ⟨S_, .f32⟩) main_call1_cst) (constant S_ .f32 0x00000000#32),
    TRef.unary (TRef.of (T := ⟨S_, .f32⟩) main_call1_cst) (TRef.of (T := ⟨S50000x64, .f32⟩) main_call1_v0) (broadcastInDim S50000x64 ![] bcast_S_S50000x64),
    TRef.binary (TRef.of (T := ⟨S50000x64, .f32⟩) main_v80) (TRef.of (T := ⟨S50000x64, .f32⟩) main_call1_v0) (TRef.of (T := ⟨S50000x64, .f32⟩) main_v81) maximumf ]

/-- Operations 103 to 136 of the reference: layer 0's residual and normalisation. -/
abbrev seg5 : List (HloOp τ sig (Elt F)) :=
  [ binary main_v81 main_v35 main_v82 (addf : (⟨S50000x64, .f32⟩ : BufTy).Contents (Elt F) → (⟨S50000x64, .f32⟩ : BufTy).Contents (Elt F) → (⟨S50000x64, .f32⟩ : BufTy).Contents (Elt F)),
    unary main_arg7 main_v83 ((extractStridedSlice S1x64 ![0, 0] · slices_S3x64_S1x64_0_0) : (⟨S3x64, .f32⟩ : BufTy).Contents (Elt F) → (⟨S1x64, .f32⟩ : BufTy).Contents (Elt F)),
    reshape main_v83 main_v84 rfl shapeCasts_S1x64_S64,
    unary main_arg8 main_v85 ((extractStridedSlice S1x64 ![0, 0] · slices_S3x64_S1x64_0_0) : (⟨S3x64, .f32⟩ : BufTy).Contents (Elt F) → (⟨S1x64, .f32⟩ : BufTy).Contents (Elt F)),
    reshape main_v85 main_v86 rfl shapeCasts_S1x64_S64,
    nullary main_cst_15 (constant S_ .f32 0x00000000#32),
    binary main_v82 main_cst_15 main_v87 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v87 main_v88 (broadcastInDim S50000x1 ![0] bcast_S50000_S50000x1_0 : (⟨S50000, .f32⟩ : BufTy).Contents (Elt F) → (⟨S50000x1, .f32⟩ : BufTy).Contents (Elt F)),
    nullary main_cst_16 (constant S_ .f32 0x42800000#32),
    unary main_cst_16 main_v89 (broadcastInDim S50000x1 ![] bcast_S_S50000x1 : (⟨S_, .f32⟩ : BufTy).Contents (Elt F) → (⟨S50000x1, .f32⟩ : BufTy).Contents (Elt F)),
    binary main_v88 main_v89 main_v90 (Host.divf : (⟨S50000x1, .f32⟩ : BufTy).Contents (Elt F) → (⟨S50000x1, .f32⟩ : BufTy).Contents (Elt F) → (⟨S50000x1, .f32⟩ : BufTy).Contents (Elt F)),
    unary main_v90 main_v91 (broadcastInDim S50000x64 ![0, 1] bcast_S50000x1_S50000x64_0_1 : (⟨S50000x1, .f32⟩ : BufTy).Contents (Elt F) → (⟨S50000x64, .f32⟩ : BufTy).Contents (Elt F)),
    binary main_v82 main_v91 main_v92 (subf : (⟨S50000x64, .f32⟩ : BufTy).Contents (Elt F) → (⟨S50000x64, .f32⟩ : BufTy).Contents (Elt F) → (⟨S50000x64, .f32⟩ : BufTy).Contents (Elt F)),
    binary main_v92 main_v92 main_v93 (mulf : (⟨S50000x64, .f32⟩ : BufTy).Contents (Elt F) → (⟨S50000x64, .f32⟩ : BufTy).Contents (Elt F) → (⟨S50000x64, .f32⟩ : BufTy).Contents (Elt F)),
    nullary main_cst_17 (constant S_ .f32 0x00000000#32),
    binary main_v93 main_cst_17 main_v94 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v94 main_v95 (broadcastInDim S50000x1 ![0] bcast_S50000_S50000x1_0 : (⟨S50000, .f32⟩ : BufTy).Contents (Elt F) → (⟨S50000x1, .f32⟩ : BufTy).Contents (Elt F)),
    nullary main_cst_18 (constant S_ .f32 0x42800000#32),
    unary main_cst_18 main_v96 (broadcastInDim S50000x1 ![] bcast_S_S50000x1 : (⟨S_, .f32⟩ : BufTy).Contents (Elt F) → (⟨S50000x1, .f32⟩ : BufTy).Contents (Elt F)),
    binary main_v95 main_v96 main_v97 (Host.divf : (⟨S50000x1, .f32⟩ : BufTy).Contents (Elt F) → (⟨S50000x1, .f32⟩ : BufTy).Contents (Elt F) → (⟨S50000x1, .f32⟩ : BufTy).Contents (Elt F)),
    unary main_v90 main_v98 (broadcastInDim S50000x64 ![0, 1] bcast_S50000x1_S50000x64_0_1 : (⟨S50000x1, .f32⟩ : BufTy).Contents (Elt F) → (⟨S50000x64, .f32⟩ : BufTy).Contents (Elt F)),
    binary main_v82 main_v98 main_v99 (subf : (⟨S50000x64, .f32⟩ : BufTy).Contents (Elt F) → (⟨S50000x64, .f32⟩ : BufTy).Contents (Elt F) → (⟨S50000x64, .f32⟩ : BufTy).Contents (Elt F)),
    nullary main_cst_19 (constant S_ .f32 0x3727C5AC#32),
    unary main_cst_19 main_v100 (broadcastInDim S50000x1 ![] bcast_S_S50000x1 : (⟨S_, .f32⟩ : BufTy).Contents (Elt F) → (⟨S50000x1, .f32⟩ : BufTy).Contents (Elt F)),
    binary main_v97 main_v100 main_v101 (addf : (⟨S50000x1, .f32⟩ : BufTy).Contents (Elt F) → (⟨S50000x1, .f32⟩ : BufTy).Contents (Elt F) → (⟨S50000x1, .f32⟩ : BufTy).Contents (Elt F)),
    unary main_v101 main_v102 (Host.rsqrt : (⟨S50000x1, .f32⟩ : BufTy).Contents (Elt F) → (⟨S50000x1, .f32⟩ : BufTy).Contents (Elt F)),
    unary main_v102 main_v103 (broadcastInDim S50000x64 ![0, 1] bcast_S50000x1_S50000x64_0_1 : (⟨S50000x1, .f32⟩ : BufTy).Contents (Elt F) → (⟨S50000x64, .f32⟩ : BufTy).Contents (Elt F)),
    binary main_v99 main_v103 main_v104 (mulf : (⟨S50000x64, .f32⟩ : BufTy).Contents (Elt F) → (⟨S50000x64, .f32⟩ : BufTy).Contents (Elt F) → (⟨S50000x64, .f32⟩ : BufTy).Contents (Elt F)),
    unary main_v84 main_v105 (broadcastInDim S1x64 ![1] bcast_S64_S1x64_1 : (⟨S64, .f32⟩ : BufTy).Contents (Elt F) → (⟨S1x64, .f32⟩ : BufTy).Contents (Elt F)),
    unary main_v105 main_v106 (broadcastInDim S50000x64 ![0, 1] bcast_S1x64_S50000x64_0_1 : (⟨S1x64, .f32⟩ : BufTy).Contents (Elt F) → (⟨S50000x64, .f32⟩ : BufTy).Contents (Elt F)),
    binary main_v104 main_v106 main_v107 (mulf : (⟨S50000x64, .f32⟩ : BufTy).Contents (Elt F) → (⟨S50000x64, .f32⟩ : BufTy).Contents (Elt F) → (⟨S50000x64, .f32⟩ : BufTy).Contents (Elt F)),
    unary main_v86 main_v108 (broadcastInDim S1x64 ![1] bcast_S64_S1x64_1 : (⟨S64, .f32⟩ : BufTy).Contents (Elt F) → (⟨S1x64, .f32⟩ : BufTy).Contents (Elt F)),
    unary main_v108 main_v109 (broadcastInDim S50000x64 ![0, 1] bcast_S1x64_S50000x64_0_1 : (⟨S1x64, .f32⟩ : BufTy).Contents (Elt F) → (⟨S50000x64, .f32⟩ : BufTy).Contents (Elt F)),
    binary main_v107 main_v109 main_v110 (addf : (⟨S50000x64, .f32⟩ : BufTy).Contents (Elt F) → (⟨S50000x64, .f32⟩ : BufTy).Contents (Elt F) → (⟨S50000x64, .f32⟩ : BufTy).Contents (Elt F)) ]

/-- Operations 137 to 188 of the reference: layer 1 up to the bias. -/
abbrev seg6 : List (HloOp τ sig (Elt F)) :=
  [ unary main_arg5 main_v111 ((extractStridedSlice S1x1x64x64 ![1, 0, 0, 0] · slices_S3x3x64x64_S1x1x64x64_1_0_0_0) : (⟨S3x3x64x64, .f32⟩ : BufTy).Contents (Elt F) → (⟨S1x1x64x64, .f32⟩ : BufTy).Contents (Elt F)),
    reshape main_v111 main_v112 rfl shapeCasts_S1x1x64x64_S64x64,
    binary main_v110 main_v112 main_v113 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v31 main_v114 (broadcastInDim S800000x1 ![0] bcast_S800000_S800000x1_0 : (⟨S800000, .f32⟩ : BufTy).Contents (Elt F) → (⟨S800000x1, .f32⟩ : BufTy).Contents (Elt F)),
    nullary main_c_20 (constantI S_ 32 0#32),
    unary main_c_20 main_v115 (broadcastInDim S800000 ![] bcast_S_S800000 : (⟨S_, .i32⟩ : BufTy).Contents (Elt F) → (⟨S800000, .i32⟩ : BufTy).Contents (Elt F)),
    binary main_v1 main_v115 main_v116 (cmpi .slt : (⟨S800000, .i32⟩ : BufTy).Contents (Elt F) → (⟨S800000, .i32⟩ : BufTy).Contents (Elt F) → (⟨S800000, .i1⟩ : BufTy).Contents (Elt F)),
    nullary main_c_21 (constantI S_ 32 50000#32),
    unary main_c_21 main_v117 (broadcastInDim S800000 ![] bcast_S_S800000 : (⟨S_, .i32⟩ : BufTy).Contents (Elt F) → (⟨S800000, .i32⟩ : BufTy).Contents (Elt F)),
    binary main_v1 main_v117 main_v118 (addi : (⟨S800000, .i32⟩ : BufTy).Contents (Elt F) → (⟨S800000, .i32⟩ : BufTy).Contents (Elt F) → (⟨S800000, .i32⟩ : BufTy).Contents (Elt F)),
    ternary main_v116 main_v118 main_v1 main_v119 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v119 main_v120 (broadcastInDim S800000x1 ![0] bcast_S800000_S800000x1_0 : (⟨S800000, .i32⟩ : BufTy).Contents (Elt F) → (⟨S800000x1, .i32⟩ : BufTy).Contents (Elt F)),
    binary main_v110 main_v120 main_v121 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v114 main_v122 (broadcastInDim S800000x64 ![0, 1] bcast_S800000x1_S800000x64_0_1 : (⟨S800000x1, .f32⟩ : BufTy).Contents (Elt F) → (⟨S800000x64, .f32⟩ : BufTy).Contents (Elt F)),
    binary main_v122 main_v121 main_v123 (mulf : (⟨S800000x64, .f32⟩ : BufTy).Contents (Elt F) → (⟨S800000x64, .f32⟩ : BufTy).Contents (Elt F) → (⟨S800000x64, .f32⟩ : BufTy).Contents (Elt F)),
    nullary main_cst_22 (constant S_ .f32 0x00000000#32),
    unary main_cst_22 main_v124 (broadcastInDim S50000x64 ![] bcast_S_S50000x64 : (⟨S_, .f32⟩ : BufTy).Contents (Elt F) → (⟨S50000x64, .f32⟩ : BufTy).Contents (Elt F)),
    unary main_v3 main_v125 (broadcastInDim S800000x1 ![0] bcast_S800000_S800000x1_0 : (⟨S800000, .i32⟩ : BufTy).Contents (Elt F) → (⟨S800000x1, .i32⟩ : BufTy).Contents (Elt F)),
    ternary main_v124 main_v125 main_v123 main_v126 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v127 ((extractStridedSlice S1x1x64x64 ![1, 1, 0, 0] · slices_S3x3x64x64_S1x1x64x64_1_1_0_0) : (⟨S3x3x64x64, .f32⟩ : BufTy).Contents (Elt F) → (⟨S1x1x64x64, .f32⟩ : BufTy).Contents (Elt F)),
    reshape main_v127 main_v128 rfl shapeCasts_S1x1x64x64_S64x64,
    binary main_v126 main_v128 main_v129 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v113 main_v129 main_v130 (addf : (⟨S50000x64, .f32⟩ : BufTy).Contents (Elt F) → (⟨S50000x64, .f32⟩ : BufTy).Contents (Elt F) → (⟨S50000x64, .f32⟩ : BufTy).Contents (Elt F)),
    unary main_v31 main_v131 (broadcastInDim S800000x1 ![0] bcast_S800000_S800000x1_0 : (⟨S800000, .f32⟩ : BufTy).Contents (Elt F) → (⟨S800000x1, .f32⟩ : BufTy).Contents (Elt F)),
    nullary main_c_23 (constantI S_ 32 0#32),
    unary main_c_23 main_v132 (broadcastInDim S800000 ![] bcast_S_S800000 : (⟨S_, .i32⟩ : BufTy).Contents (Elt F) → (⟨S800000, .i32⟩ : BufTy).Contents (Elt F)),
    binary main_v1 main_v132 main_v133 (cmpi .slt : (⟨S800000, .i32⟩ : BufTy).Contents (Elt F) → (⟨S800000, .i32⟩ : BufTy).Contents (Elt F) → (⟨S800000, .i1⟩ : BufTy).Contents (Elt F)),
    nullary main_c_24 (constantI S_ 32 50000#32),
    unary main_c_24 main_v134 (broadcastInDim S800000 ![] bcast_S_S800000 : (⟨S_, .i32⟩ : BufTy).Contents (Elt F) → (⟨S800000, .i32⟩ : BufTy).Contents (Elt F)),
    binary main_v1 main_v134 main_v135 (addi : (⟨S800000, .i32⟩ : BufTy).Contents (Elt F) → (⟨S800000, .i32⟩ : BufTy).Contents (Elt F) → (⟨S800000, .i32⟩ : BufTy).Contents (Elt F)),
    ternary main_v133 main_v135 main_v1 main_v136 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v136 main_v137 (broadcastInDim S800000x1 ![0] bcast_S800000_S800000x1_0 : (⟨S800000, .i32⟩ : BufTy).Contents (Elt F) → (⟨S800000x1, .i32⟩ : BufTy).Contents (Elt F)),
    binary main_v126 main_v137 main_v138 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v131 main_v139 (broadcastInDim S800000x64 ![0, 1] bcast_S800000x1_S800000x64_0_1 : (⟨S800000x1, .f32⟩ : BufTy).Contents (Elt F) → (⟨S800000x64, .f32⟩ : BufTy).Contents (Elt F)),
    binary main_v139 main_v138 main_v140 (mulf : (⟨S800000x64, .f32⟩ : BufTy).Contents (Elt F) → (⟨S800000x64, .f32⟩ : BufTy).Contents (Elt F) → (⟨S800000x64, .f32⟩ : BufTy).Contents (Elt F)),
    nullary main_cst_25 (constant S_ .f32 0x00000000#32),
    unary main_cst_25 main_v141 (broadcastInDim S50000x64 ![] bcast_S_S50000x64 : (⟨S_, .f32⟩ : BufTy).Contents (Elt F) → (⟨S50000x64, .f32⟩ : BufTy).Contents (Elt F)),
    unary main_v3 main_v142 (broadcastInDim S800000x1 ![0] bcast_S800000_S800000x1_0 : (⟨S800000, .i32⟩ : BufTy).Contents (Elt F) → (⟨S800000x1, .i32⟩ : BufTy).Contents (Elt F)),
    ternary main_v141 main_v142 main_v140 main_v143 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_26 (constant S_ .f32 0x40000000#32),
    unary main_cst_26 main_v144 (broadcastInDim S50000x64 ![] bcast_S_S50000x64 : (⟨S_, .f32⟩ : BufTy).Contents (Elt F) → (⟨S50000x64, .f32⟩ : BufTy).Contents (Elt F)),
    binary main_v144 main_v143 main_v145 (mulf : (⟨S50000x64, .f32⟩ : BufTy).Contents (Elt F) → (⟨S50000x64, .f32⟩ : BufTy).Contents (Elt F) → (⟨S50000x64, .f32⟩ : BufTy).Contents (Elt F)),
    binary main_v145 main_v110 main_v146 (subf : (⟨S50000x64, .f32⟩ : BufTy).Contents (Elt F) → (⟨S50000x64, .f32⟩ : BufTy).Contents (Elt F) → (⟨S50000x64, .f32⟩ : BufTy).Contents (Elt F)),
    unary main_arg5 main_v147 ((extractStridedSlice S1x1x64x64 ![1, 2, 0, 0] · slices_S3x3x64x64_S1x1x64x64_1_2_0_0) : (⟨S3x3x64x64, .f32⟩ : BufTy).Contents (Elt F) → (⟨S1x1x64x64, .f32⟩ : BufTy).Contents (Elt F)),
    reshape main_v147 main_v148 rfl shapeCasts_S1x1x64x64_S64x64,
    binary main_v146 main_v148 main_v149 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v130 main_v149 main_v150 (addf : (⟨S50000x64, .f32⟩ : BufTy).Contents (Elt F) → (⟨S50000x64, .f32⟩ : BufTy).Contents (Elt F) → (⟨S50000x64, .f32⟩ : BufTy).Contents (Elt F)),
    unary main_arg6 main_v151 ((extractStridedSlice S1x64 ![1, 0] · slices_S3x64_S1x64_1_0) : (⟨S3x64, .f32⟩ : BufTy).Contents (Elt F) → (⟨S1x64, .f32⟩ : BufTy).Contents (Elt F)),
    reshape main_v151 main_v152 rfl shapeCasts_S1x64_S64,
    unary main_v152 main_v153 (broadcastInDim S1x64 ![1] bcast_S64_S1x64_1 : (⟨S64, .f32⟩ : BufTy).Contents (Elt F) → (⟨S1x64, .f32⟩ : BufTy).Contents (Elt F)),
    unary main_v153 main_v154 (broadcastInDim S50000x64 ![0, 1] bcast_S1x64_S50000x64_0_1 : (⟨S1x64, .f32⟩ : BufTy).Contents (Elt F) → (⟨S50000x64, .f32⟩ : BufTy).Contents (Elt F)),
    binary main_v150 main_v154 main_v155 (addf : (⟨S50000x64, .f32⟩ : BufTy).Contents (Elt F) → (⟨S50000x64, .f32⟩ : BufTy).Contents (Elt F) → (⟨S50000x64, .f32⟩ : BufTy).Contents (Elt F)) ]

/-- Operations 189 to 191 of the reference: layer 1's clamp at zero (a called function). -/
abbrev seg7 : List (HloOp τ sig (Elt F)) :=
  [ TRef.nullary (TRef.of (T := ⟨S_, .f32⟩) main_call2_cst) (constant S_ .f32 0x00000000#32),
    TRef.unary (TRef.of (T := ⟨S_, .f32⟩) main_call2_cst) (TRef.of (T := ⟨S50000x64, .f32⟩) main_call2_v0) (broadcastInDim S50000x64 ![] bcast_S_S50000x64),
    TRef.binary (TRef.of (T := ⟨S50000x64, .f32⟩) main_v155) (TRef.of (T := ⟨S50000x64, .f32⟩) main_call2_v0) (TRef.of (T := ⟨S50000x64, .f32⟩) main_v156) maximumf ]

/-- Operations 192 to 225 of the reference: layer 1's residual and normalisation. -/
abbrev seg8 : List (HloOp τ sig (Elt F)) :=
  [ binary main_v156 main_v110 main_v157 (addf : (⟨S50000x64, .f32⟩ : BufTy).Contents (Elt F) → (⟨S50000x64, .f32⟩ : BufTy).Contents (Elt F) → (⟨S50000x64, .f32⟩ : BufTy).Contents (Elt F)),
    unary main_arg7 main_v158 ((extractStridedSlice S1x64 ![1, 0] · slices_S3x64_S1x64_1_0) : (⟨S3x64, .f32⟩ : BufTy).Contents (Elt F) → (⟨S1x64, .f32⟩ : BufTy).Contents (Elt F)),
    reshape main_v158 main_v159 rfl shapeCasts_S1x64_S64,
    unary main_arg8 main_v160 ((extractStridedSlice S1x64 ![1, 0] · slices_S3x64_S1x64_1_0) : (⟨S3x64, .f32⟩ : BufTy).Contents (Elt F) → (⟨S1x64, .f32⟩ : BufTy).Contents (Elt F)),
    reshape main_v160 main_v161 rfl shapeCasts_S1x64_S64,
    nullary main_cst_27 (constant S_ .f32 0x00000000#32),
    binary main_v157 main_cst_27 main_v162 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v162 main_v163 (broadcastInDim S50000x1 ![0] bcast_S50000_S50000x1_0 : (⟨S50000, .f32⟩ : BufTy).Contents (Elt F) → (⟨S50000x1, .f32⟩ : BufTy).Contents (Elt F)),
    nullary main_cst_28 (constant S_ .f32 0x42800000#32),
    unary main_cst_28 main_v164 (broadcastInDim S50000x1 ![] bcast_S_S50000x1 : (⟨S_, .f32⟩ : BufTy).Contents (Elt F) → (⟨S50000x1, .f32⟩ : BufTy).Contents (Elt F)),
    binary main_v163 main_v164 main_v165 (Host.divf : (⟨S50000x1, .f32⟩ : BufTy).Contents (Elt F) → (⟨S50000x1, .f32⟩ : BufTy).Contents (Elt F) → (⟨S50000x1, .f32⟩ : BufTy).Contents (Elt F)),
    unary main_v165 main_v166 (broadcastInDim S50000x64 ![0, 1] bcast_S50000x1_S50000x64_0_1 : (⟨S50000x1, .f32⟩ : BufTy).Contents (Elt F) → (⟨S50000x64, .f32⟩ : BufTy).Contents (Elt F)),
    binary main_v157 main_v166 main_v167 (subf : (⟨S50000x64, .f32⟩ : BufTy).Contents (Elt F) → (⟨S50000x64, .f32⟩ : BufTy).Contents (Elt F) → (⟨S50000x64, .f32⟩ : BufTy).Contents (Elt F)),
    binary main_v167 main_v167 main_v168 (mulf : (⟨S50000x64, .f32⟩ : BufTy).Contents (Elt F) → (⟨S50000x64, .f32⟩ : BufTy).Contents (Elt F) → (⟨S50000x64, .f32⟩ : BufTy).Contents (Elt F)),
    nullary main_cst_29 (constant S_ .f32 0x00000000#32),
    binary main_v168 main_cst_29 main_v169 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v169 main_v170 (broadcastInDim S50000x1 ![0] bcast_S50000_S50000x1_0 : (⟨S50000, .f32⟩ : BufTy).Contents (Elt F) → (⟨S50000x1, .f32⟩ : BufTy).Contents (Elt F)),
    nullary main_cst_30 (constant S_ .f32 0x42800000#32),
    unary main_cst_30 main_v171 (broadcastInDim S50000x1 ![] bcast_S_S50000x1 : (⟨S_, .f32⟩ : BufTy).Contents (Elt F) → (⟨S50000x1, .f32⟩ : BufTy).Contents (Elt F)),
    binary main_v170 main_v171 main_v172 (Host.divf : (⟨S50000x1, .f32⟩ : BufTy).Contents (Elt F) → (⟨S50000x1, .f32⟩ : BufTy).Contents (Elt F) → (⟨S50000x1, .f32⟩ : BufTy).Contents (Elt F)),
    unary main_v165 main_v173 (broadcastInDim S50000x64 ![0, 1] bcast_S50000x1_S50000x64_0_1 : (⟨S50000x1, .f32⟩ : BufTy).Contents (Elt F) → (⟨S50000x64, .f32⟩ : BufTy).Contents (Elt F)),
    binary main_v157 main_v173 main_v174 (subf : (⟨S50000x64, .f32⟩ : BufTy).Contents (Elt F) → (⟨S50000x64, .f32⟩ : BufTy).Contents (Elt F) → (⟨S50000x64, .f32⟩ : BufTy).Contents (Elt F)),
    nullary main_cst_31 (constant S_ .f32 0x3727C5AC#32),
    unary main_cst_31 main_v175 (broadcastInDim S50000x1 ![] bcast_S_S50000x1 : (⟨S_, .f32⟩ : BufTy).Contents (Elt F) → (⟨S50000x1, .f32⟩ : BufTy).Contents (Elt F)),
    binary main_v172 main_v175 main_v176 (addf : (⟨S50000x1, .f32⟩ : BufTy).Contents (Elt F) → (⟨S50000x1, .f32⟩ : BufTy).Contents (Elt F) → (⟨S50000x1, .f32⟩ : BufTy).Contents (Elt F)),
    unary main_v176 main_v177 (Host.rsqrt : (⟨S50000x1, .f32⟩ : BufTy).Contents (Elt F) → (⟨S50000x1, .f32⟩ : BufTy).Contents (Elt F)),
    unary main_v177 main_v178 (broadcastInDim S50000x64 ![0, 1] bcast_S50000x1_S50000x64_0_1 : (⟨S50000x1, .f32⟩ : BufTy).Contents (Elt F) → (⟨S50000x64, .f32⟩ : BufTy).Contents (Elt F)),
    binary main_v174 main_v178 main_v179 (mulf : (⟨S50000x64, .f32⟩ : BufTy).Contents (Elt F) → (⟨S50000x64, .f32⟩ : BufTy).Contents (Elt F) → (⟨S50000x64, .f32⟩ : BufTy).Contents (Elt F)),
    unary main_v159 main_v180 (broadcastInDim S1x64 ![1] bcast_S64_S1x64_1 : (⟨S64, .f32⟩ : BufTy).Contents (Elt F) → (⟨S1x64, .f32⟩ : BufTy).Contents (Elt F)),
    unary main_v180 main_v181 (broadcastInDim S50000x64 ![0, 1] bcast_S1x64_S50000x64_0_1 : (⟨S1x64, .f32⟩ : BufTy).Contents (Elt F) → (⟨S50000x64, .f32⟩ : BufTy).Contents (Elt F)),
    binary main_v179 main_v181 main_v182 (mulf : (⟨S50000x64, .f32⟩ : BufTy).Contents (Elt F) → (⟨S50000x64, .f32⟩ : BufTy).Contents (Elt F) → (⟨S50000x64, .f32⟩ : BufTy).Contents (Elt F)),
    unary main_v161 main_v183 (broadcastInDim S1x64 ![1] bcast_S64_S1x64_1 : (⟨S64, .f32⟩ : BufTy).Contents (Elt F) → (⟨S1x64, .f32⟩ : BufTy).Contents (Elt F)),
    unary main_v183 main_v184 (broadcastInDim S50000x64 ![0, 1] bcast_S1x64_S50000x64_0_1 : (⟨S1x64, .f32⟩ : BufTy).Contents (Elt F) → (⟨S50000x64, .f32⟩ : BufTy).Contents (Elt F)),
    binary main_v182 main_v184 main_v185 (addf : (⟨S50000x64, .f32⟩ : BufTy).Contents (Elt F) → (⟨S50000x64, .f32⟩ : BufTy).Contents (Elt F) → (⟨S50000x64, .f32⟩ : BufTy).Contents (Elt F)) ]

/-- Operations 226 to 277 of the reference: layer 2 up to the bias. -/
abbrev seg9 : List (HloOp τ sig (Elt F)) :=
  [ unary main_arg5 main_v186 ((extractStridedSlice S1x1x64x64 ![2, 0, 0, 0] · slices_S3x3x64x64_S1x1x64x64_2_0_0_0) : (⟨S3x3x64x64, .f32⟩ : BufTy).Contents (Elt F) → (⟨S1x1x64x64, .f32⟩ : BufTy).Contents (Elt F)),
    reshape main_v186 main_v187 rfl shapeCasts_S1x1x64x64_S64x64,
    binary main_v185 main_v187 main_v188 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_v31 main_v189 (broadcastInDim S800000x1 ![0] bcast_S800000_S800000x1_0 : (⟨S800000, .f32⟩ : BufTy).Contents (Elt F) → (⟨S800000x1, .f32⟩ : BufTy).Contents (Elt F)),
    nullary main_c_32 (constantI S_ 32 0#32),
    unary main_c_32 main_v190 (broadcastInDim S800000 ![] bcast_S_S800000 : (⟨S_, .i32⟩ : BufTy).Contents (Elt F) → (⟨S800000, .i32⟩ : BufTy).Contents (Elt F)),
    binary main_v1 main_v190 main_v191 (cmpi .slt : (⟨S800000, .i32⟩ : BufTy).Contents (Elt F) → (⟨S800000, .i32⟩ : BufTy).Contents (Elt F) → (⟨S800000, .i1⟩ : BufTy).Contents (Elt F)),
    nullary main_c_33 (constantI S_ 32 50000#32),
    unary main_c_33 main_v192 (broadcastInDim S800000 ![] bcast_S_S800000 : (⟨S_, .i32⟩ : BufTy).Contents (Elt F) → (⟨S800000, .i32⟩ : BufTy).Contents (Elt F)),
    binary main_v1 main_v192 main_v193 (addi : (⟨S800000, .i32⟩ : BufTy).Contents (Elt F) → (⟨S800000, .i32⟩ : BufTy).Contents (Elt F) → (⟨S800000, .i32⟩ : BufTy).Contents (Elt F)),
    ternary main_v191 main_v193 main_v1 main_v194 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v194 main_v195 (broadcastInDim S800000x1 ![0] bcast_S800000_S800000x1_0 : (⟨S800000, .i32⟩ : BufTy).Contents (Elt F) → (⟨S800000x1, .i32⟩ : BufTy).Contents (Elt F)),
    binary main_v185 main_v195 main_v196 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v189 main_v197 (broadcastInDim S800000x64 ![0, 1] bcast_S800000x1_S800000x64_0_1 : (⟨S800000x1, .f32⟩ : BufTy).Contents (Elt F) → (⟨S800000x64, .f32⟩ : BufTy).Contents (Elt F)),
    binary main_v197 main_v196 main_v198 (mulf : (⟨S800000x64, .f32⟩ : BufTy).Contents (Elt F) → (⟨S800000x64, .f32⟩ : BufTy).Contents (Elt F) → (⟨S800000x64, .f32⟩ : BufTy).Contents (Elt F)),
    nullary main_cst_34 (constant S_ .f32 0x00000000#32),
    unary main_cst_34 main_v199 (broadcastInDim S50000x64 ![] bcast_S_S50000x64 : (⟨S_, .f32⟩ : BufTy).Contents (Elt F) → (⟨S50000x64, .f32⟩ : BufTy).Contents (Elt F)),
    unary main_v3 main_v200 (broadcastInDim S800000x1 ![0] bcast_S800000_S800000x1_0 : (⟨S800000, .i32⟩ : BufTy).Contents (Elt F) → (⟨S800000x1, .i32⟩ : BufTy).Contents (Elt F)),
    ternary main_v199 main_v200 main_v198 main_v201 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    unary main_arg5 main_v202 ((extractStridedSlice S1x1x64x64 ![2, 1, 0, 0] · slices_S3x3x64x64_S1x1x64x64_2_1_0_0) : (⟨S3x3x64x64, .f32⟩ : BufTy).Contents (Elt F) → (⟨S1x1x64x64, .f32⟩ : BufTy).Contents (Elt F)),
    reshape main_v202 main_v203 rfl shapeCasts_S1x1x64x64_S64x64,
    binary main_v201 main_v203 main_v204 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v188 main_v204 main_v205 (addf : (⟨S50000x64, .f32⟩ : BufTy).Contents (Elt F) → (⟨S50000x64, .f32⟩ : BufTy).Contents (Elt F) → (⟨S50000x64, .f32⟩ : BufTy).Contents (Elt F)),
    unary main_v31 main_v206 (broadcastInDim S800000x1 ![0] bcast_S800000_S800000x1_0 : (⟨S800000, .f32⟩ : BufTy).Contents (Elt F) → (⟨S800000x1, .f32⟩ : BufTy).Contents (Elt F)),
    nullary main_c_35 (constantI S_ 32 0#32),
    unary main_c_35 main_v207 (broadcastInDim S800000 ![] bcast_S_S800000 : (⟨S_, .i32⟩ : BufTy).Contents (Elt F) → (⟨S800000, .i32⟩ : BufTy).Contents (Elt F)),
    binary main_v1 main_v207 main_v208 (cmpi .slt : (⟨S800000, .i32⟩ : BufTy).Contents (Elt F) → (⟨S800000, .i32⟩ : BufTy).Contents (Elt F) → (⟨S800000, .i1⟩ : BufTy).Contents (Elt F)),
    nullary main_c_36 (constantI S_ 32 50000#32),
    unary main_c_36 main_v209 (broadcastInDim S800000 ![] bcast_S_S800000 : (⟨S_, .i32⟩ : BufTy).Contents (Elt F) → (⟨S800000, .i32⟩ : BufTy).Contents (Elt F)),
    binary main_v1 main_v209 main_v210 (addi : (⟨S800000, .i32⟩ : BufTy).Contents (Elt F) → (⟨S800000, .i32⟩ : BufTy).Contents (Elt F) → (⟨S800000, .i32⟩ : BufTy).Contents (Elt F)),
    ternary main_v208 main_v210 main_v1 main_v211 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v211 main_v212 (broadcastInDim S800000x1 ![0] bcast_S800000_S800000x1_0 : (⟨S800000, .i32⟩ : BufTy).Contents (Elt F) → (⟨S800000x1, .i32⟩ : BufTy).Contents (Elt F)),
    binary main_v201 main_v212 main_v213 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    unary main_v206 main_v214 (broadcastInDim S800000x64 ![0, 1] bcast_S800000x1_S800000x64_0_1 : (⟨S800000x1, .f32⟩ : BufTy).Contents (Elt F) → (⟨S800000x64, .f32⟩ : BufTy).Contents (Elt F)),
    binary main_v214 main_v213 main_v215 (mulf : (⟨S800000x64, .f32⟩ : BufTy).Contents (Elt F) → (⟨S800000x64, .f32⟩ : BufTy).Contents (Elt F) → (⟨S800000x64, .f32⟩ : BufTy).Contents (Elt F)),
    nullary main_cst_37 (constant S_ .f32 0x00000000#32),
    unary main_cst_37 main_v216 (broadcastInDim S50000x64 ![] bcast_S_S50000x64 : (⟨S_, .f32⟩ : BufTy).Contents (Elt F) → (⟨S50000x64, .f32⟩ : BufTy).Contents (Elt F)),
    unary main_v3 main_v217 (broadcastInDim S800000x1 ![0] bcast_S800000_S800000x1_0 : (⟨S800000, .i32⟩ : BufTy).Contents (Elt F) → (⟨S800000x1, .i32⟩ : BufTy).Contents (Elt F)),
    ternary main_v216 main_v217 main_v215 main_v218 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_38 (constant S_ .f32 0x40000000#32),
    unary main_cst_38 main_v219 (broadcastInDim S50000x64 ![] bcast_S_S50000x64 : (⟨S_, .f32⟩ : BufTy).Contents (Elt F) → (⟨S50000x64, .f32⟩ : BufTy).Contents (Elt F)),
    binary main_v219 main_v218 main_v220 (mulf : (⟨S50000x64, .f32⟩ : BufTy).Contents (Elt F) → (⟨S50000x64, .f32⟩ : BufTy).Contents (Elt F) → (⟨S50000x64, .f32⟩ : BufTy).Contents (Elt F)),
    binary main_v220 main_v185 main_v221 (subf : (⟨S50000x64, .f32⟩ : BufTy).Contents (Elt F) → (⟨S50000x64, .f32⟩ : BufTy).Contents (Elt F) → (⟨S50000x64, .f32⟩ : BufTy).Contents (Elt F)),
    unary main_arg5 main_v222 ((extractStridedSlice S1x1x64x64 ![2, 2, 0, 0] · slices_S3x3x64x64_S1x1x64x64_2_2_0_0) : (⟨S3x3x64x64, .f32⟩ : BufTy).Contents (Elt F) → (⟨S1x1x64x64, .f32⟩ : BufTy).Contents (Elt F)),
    reshape main_v222 main_v223 rfl shapeCasts_S1x1x64x64_S64x64,
    binary main_v221 main_v223 main_v224 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v205 main_v224 main_v225 (addf : (⟨S50000x64, .f32⟩ : BufTy).Contents (Elt F) → (⟨S50000x64, .f32⟩ : BufTy).Contents (Elt F) → (⟨S50000x64, .f32⟩ : BufTy).Contents (Elt F)),
    unary main_arg6 main_v226 ((extractStridedSlice S1x64 ![2, 0] · slices_S3x64_S1x64_2_0) : (⟨S3x64, .f32⟩ : BufTy).Contents (Elt F) → (⟨S1x64, .f32⟩ : BufTy).Contents (Elt F)),
    reshape main_v226 main_v227 rfl shapeCasts_S1x64_S64,
    unary main_v227 main_v228 (broadcastInDim S1x64 ![1] bcast_S64_S1x64_1 : (⟨S64, .f32⟩ : BufTy).Contents (Elt F) → (⟨S1x64, .f32⟩ : BufTy).Contents (Elt F)),
    unary main_v228 main_v229 (broadcastInDim S50000x64 ![0, 1] bcast_S1x64_S50000x64_0_1 : (⟨S1x64, .f32⟩ : BufTy).Contents (Elt F) → (⟨S50000x64, .f32⟩ : BufTy).Contents (Elt F)),
    binary main_v225 main_v229 main_v230 (addf : (⟨S50000x64, .f32⟩ : BufTy).Contents (Elt F) → (⟨S50000x64, .f32⟩ : BufTy).Contents (Elt F) → (⟨S50000x64, .f32⟩ : BufTy).Contents (Elt F)) ]

/-- Operations 278 to 280 of the reference: layer 2's clamp at zero (a called function). -/
abbrev seg10 : List (HloOp τ sig (Elt F)) :=
  [ TRef.nullary (TRef.of (T := ⟨S_, .f32⟩) main_call3_cst) (constant S_ .f32 0x00000000#32),
    TRef.unary (TRef.of (T := ⟨S_, .f32⟩) main_call3_cst) (TRef.of (T := ⟨S50000x64, .f32⟩) main_call3_v0) (broadcastInDim S50000x64 ![] bcast_S_S50000x64),
    TRef.binary (TRef.of (T := ⟨S50000x64, .f32⟩) main_v230) (TRef.of (T := ⟨S50000x64, .f32⟩) main_call3_v0) (TRef.of (T := ⟨S50000x64, .f32⟩) main_v231) maximumf ]

/-- Operations 281 to 314 of the reference: layer 2's residual and normalisation. -/
abbrev seg11 : List (HloOp τ sig (Elt F)) :=
  [ binary main_v231 main_v185 main_v232 (addf : (⟨S50000x64, .f32⟩ : BufTy).Contents (Elt F) → (⟨S50000x64, .f32⟩ : BufTy).Contents (Elt F) → (⟨S50000x64, .f32⟩ : BufTy).Contents (Elt F)),
    unary main_arg7 main_v233 ((extractStridedSlice S1x64 ![2, 0] · slices_S3x64_S1x64_2_0) : (⟨S3x64, .f32⟩ : BufTy).Contents (Elt F) → (⟨S1x64, .f32⟩ : BufTy).Contents (Elt F)),
    reshape main_v233 main_v234 rfl shapeCasts_S1x64_S64,
    unary main_arg8 main_v235 ((extractStridedSlice S1x64 ![2, 0] · slices_S3x64_S1x64_2_0) : (⟨S3x64, .f32⟩ : BufTy).Contents (Elt F) → (⟨S1x64, .f32⟩ : BufTy).Contents (Elt F)),
    reshape main_v235 main_v236 rfl shapeCasts_S1x64_S64,
    nullary main_cst_39 (constant S_ .f32 0x00000000#32),
    binary main_v232 main_cst_39 main_v237 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v237 main_v238 (broadcastInDim S50000x1 ![0] bcast_S50000_S50000x1_0 : (⟨S50000, .f32⟩ : BufTy).Contents (Elt F) → (⟨S50000x1, .f32⟩ : BufTy).Contents (Elt F)),
    nullary main_cst_40 (constant S_ .f32 0x42800000#32),
    unary main_cst_40 main_v239 (broadcastInDim S50000x1 ![] bcast_S_S50000x1 : (⟨S_, .f32⟩ : BufTy).Contents (Elt F) → (⟨S50000x1, .f32⟩ : BufTy).Contents (Elt F)),
    binary main_v238 main_v239 main_v240 (Host.divf : (⟨S50000x1, .f32⟩ : BufTy).Contents (Elt F) → (⟨S50000x1, .f32⟩ : BufTy).Contents (Elt F) → (⟨S50000x1, .f32⟩ : BufTy).Contents (Elt F)),
    unary main_v240 main_v241 (broadcastInDim S50000x64 ![0, 1] bcast_S50000x1_S50000x64_0_1 : (⟨S50000x1, .f32⟩ : BufTy).Contents (Elt F) → (⟨S50000x64, .f32⟩ : BufTy).Contents (Elt F)),
    binary main_v232 main_v241 main_v242 (subf : (⟨S50000x64, .f32⟩ : BufTy).Contents (Elt F) → (⟨S50000x64, .f32⟩ : BufTy).Contents (Elt F) → (⟨S50000x64, .f32⟩ : BufTy).Contents (Elt F)),
    binary main_v242 main_v242 main_v243 (mulf : (⟨S50000x64, .f32⟩ : BufTy).Contents (Elt F) → (⟨S50000x64, .f32⟩ : BufTy).Contents (Elt F) → (⟨S50000x64, .f32⟩ : BufTy).Contents (Elt F)),
    nullary main_cst_41 (constant S_ .f32 0x00000000#32),
    binary main_v243 main_cst_41 main_v244 ((fun x v => Host.reduceAdd x v reducesTo_S50000x64_S50000_d1 h_S_) : (⟨S50000x64, .f32⟩ : BufTy).Contents (Elt F) → (⟨S_, .f32⟩ : BufTy).Contents (Elt F) → (⟨S50000, .f32⟩ : BufTy).Contents (Elt F)),
    unary main_v244 main_v245 (broadcastInDim S50000x1 ![0] bcast_S50000_S50000x1_0 : (⟨S50000, .f32⟩ : BufTy).Contents (Elt F) → (⟨S50000x1, .f32⟩ : BufTy).Contents (Elt F)),
    nullary main_cst_42 (constant S_ .f32 0x42800000#32),
    unary main_cst_42 main_v246 (broadcastInDim S50000x1 ![] bcast_S_S50000x1 : (⟨S_, .f32⟩ : BufTy).Contents (Elt F) → (⟨S50000x1, .f32⟩ : BufTy).Contents (Elt F)),
    binary main_v245 main_v246 main_v247 (Host.divf : (⟨S50000x1, .f32⟩ : BufTy).Contents (Elt F) → (⟨S50000x1, .f32⟩ : BufTy).Contents (Elt F) → (⟨S50000x1, .f32⟩ : BufTy).Contents (Elt F)),
    unary main_v240 main_v248 (broadcastInDim S50000x64 ![0, 1] bcast_S50000x1_S50000x64_0_1 : (⟨S50000x1, .f32⟩ : BufTy).Contents (Elt F) → (⟨S50000x64, .f32⟩ : BufTy).Contents (Elt F)),
    binary main_v232 main_v248 main_v249 (subf : (⟨S50000x64, .f32⟩ : BufTy).Contents (Elt F) → (⟨S50000x64, .f32⟩ : BufTy).Contents (Elt F) → (⟨S50000x64, .f32⟩ : BufTy).Contents (Elt F)),
    nullary main_cst_43 (constant S_ .f32 0x3727C5AC#32),
    unary main_cst_43 main_v250 (broadcastInDim S50000x1 ![] bcast_S_S50000x1 : (⟨S_, .f32⟩ : BufTy).Contents (Elt F) → (⟨S50000x1, .f32⟩ : BufTy).Contents (Elt F)),
    binary main_v247 main_v250 main_v251 (addf : (⟨S50000x1, .f32⟩ : BufTy).Contents (Elt F) → (⟨S50000x1, .f32⟩ : BufTy).Contents (Elt F) → (⟨S50000x1, .f32⟩ : BufTy).Contents (Elt F)),
    unary main_v251 main_v252 (Host.rsqrt : (⟨S50000x1, .f32⟩ : BufTy).Contents (Elt F) → (⟨S50000x1, .f32⟩ : BufTy).Contents (Elt F)),
    unary main_v252 main_v253 (broadcastInDim S50000x64 ![0, 1] bcast_S50000x1_S50000x64_0_1 : (⟨S50000x1, .f32⟩ : BufTy).Contents (Elt F) → (⟨S50000x64, .f32⟩ : BufTy).Contents (Elt F)),
    binary main_v249 main_v253 main_v254 (mulf : (⟨S50000x64, .f32⟩ : BufTy).Contents (Elt F) → (⟨S50000x64, .f32⟩ : BufTy).Contents (Elt F) → (⟨S50000x64, .f32⟩ : BufTy).Contents (Elt F)),
    unary main_v234 main_v255 (broadcastInDim S1x64 ![1] bcast_S64_S1x64_1 : (⟨S64, .f32⟩ : BufTy).Contents (Elt F) → (⟨S1x64, .f32⟩ : BufTy).Contents (Elt F)),
    unary main_v255 main_v256 (broadcastInDim S50000x64 ![0, 1] bcast_S1x64_S50000x64_0_1 : (⟨S1x64, .f32⟩ : BufTy).Contents (Elt F) → (⟨S50000x64, .f32⟩ : BufTy).Contents (Elt F)),
    binary main_v254 main_v256 main_v257 (mulf : (⟨S50000x64, .f32⟩ : BufTy).Contents (Elt F) → (⟨S50000x64, .f32⟩ : BufTy).Contents (Elt F) → (⟨S50000x64, .f32⟩ : BufTy).Contents (Elt F)),
    unary main_v236 main_v258 (broadcastInDim S1x64 ![1] bcast_S64_S1x64_1 : (⟨S64, .f32⟩ : BufTy).Contents (Elt F) → (⟨S1x64, .f32⟩ : BufTy).Contents (Elt F)),
    unary main_v258 main_v259 (broadcastInDim S50000x64 ![0, 1] bcast_S1x64_S50000x64_0_1 : (⟨S1x64, .f32⟩ : BufTy).Contents (Elt F) → (⟨S50000x64, .f32⟩ : BufTy).Contents (Elt F)),
    binary main_v257 main_v259 main_v260 (addf : (⟨S50000x64, .f32⟩ : BufTy).Contents (Elt F) → (⟨S50000x64, .f32⟩ : BufTy).Contents (Elt F) → (⟨S50000x64, .f32⟩ : BufTy).Contents (Elt F)) ]

/-- Operations 315 to 318 of the reference: the output projection. -/
abbrev seg12 : List (HloOp τ sig (Elt F)) :=
  [ binary main_v260 main_arg9 main_v261 ((fun l r => Host.dotGeneral dot_S50000x64_S64x4_S50000x4_1_0_0_1_n_n none l r) : (⟨S50000x64, .f32⟩ : BufTy).Contents (Elt F) → (⟨S64x4, .f32⟩ : BufTy).Contents (Elt F) → (⟨S50000x4, .f32⟩ : BufTy).Contents (Elt F)),
    unary main_arg10 main_v262 (broadcastInDim S1x4 ![1] bcast_S4_S1x4_1 : (⟨S4, .f32⟩ : BufTy).Contents (Elt F) → (⟨S1x4, .f32⟩ : BufTy).Contents (Elt F)),
    unary main_v262 main_v263 (broadcastInDim S50000x4 ![0, 1] bcast_S1x4_S50000x4_0_1 : (⟨S1x4, .f32⟩ : BufTy).Contents (Elt F) → (⟨S50000x4, .f32⟩ : BufTy).Contents (Elt F)),
    binary main_v261 main_v263 main_v264 (addf : (⟨S50000x4, .f32⟩ : BufTy).Contents (Elt F) → (⟨S50000x4, .f32⟩ : BufTy).Contents (Elt F) → (⟨S50000x4, .f32⟩ : BufTy).Contents (Elt F)) ]

/-- The buffers segment 0 writes. -/
abbrev seg0_W : List (Ref sig .tc) := [main_v0, main_v1, main_v2, main_v3, main_cst, main_v4, main_cst_0, main_v5, main_v6, main_v7, main_cst_1, main_v8, main_v9, main_cst_2, main_v10, main_v11, main_v12, main_cst_3, main_v13, main_v14, main_cst_4]
theorem seg0_writes : (seg0 : List (HloOp τ sig (Elt F))).Forall fun op => op.writes ⊆ (seg0_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 1 writes. -/
abbrev seg1_W : List (Ref sig .tc) := [main_call0_v0, main_call0_v1, main_v15]
theorem seg1_writes : (seg1 : List (HloOp τ sig (Elt F))).Forall fun op => op.writes ⊆ (seg1_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 2 writes. -/
abbrev seg2_W : List (Ref sig .tc) := [main_c, main_v16, main_v17, main_c_5, main_v18, main_v19, main_v20, main_v21, main_v22, main_v23, main_c_6, main_v24, main_v25, main_c_7, main_v26, main_v27, main_v28, main_v29, main_v30, main_v31, main_v32, main_v33, main_v34, main_v35]
theorem seg2_writes : (seg2 : List (HloOp τ sig (Elt F))).Forall fun op => op.writes ⊆ (seg2_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 3 writes. -/
abbrev seg3_W : List (Ref sig .tc) := [main_v36, main_v37, main_v38, main_v39, main_c_8, main_v40, main_v41, main_c_9, main_v42, main_v43, main_v44, main_v45, main_v46, main_v47, main_v48, main_cst_10, main_v49, main_v50, main_v51, main_v52, main_v53, main_v54, main_v55, main_v56, main_c_11, main_v57, main_v58, main_c_12, main_v59, main_v60, main_v61, main_v62, main_v63, main_v64, main_v65, main_cst_13, main_v66, main_v67, main_v68, main_cst_14, main_v69, main_v70, main_v71, main_v72, main_v73, main_v74, main_v75, main_v76, main_v77, main_v78, main_v79, main_v80]
theorem seg3_writes : (seg3 : List (HloOp τ sig (Elt F))).Forall fun op => op.writes ⊆ (seg3_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 4 writes. -/
abbrev seg4_W : List (Ref sig .tc) := [main_call1_cst, main_call1_v0, main_v81]
theorem seg4_writes : (seg4 : List (HloOp τ sig (Elt F))).Forall fun op => op.writes ⊆ (seg4_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 5 writes. -/
abbrev seg5_W : List (Ref sig .tc) := [main_v82, main_v83, main_v84, main_v85, main_v86, main_cst_15, main_v87, main_v88, main_cst_16, main_v89, main_v90, main_v91, main_v92, main_v93, main_cst_17, main_v94, main_v95, main_cst_18, main_v96, main_v97, main_v98, main_v99, main_cst_19, main_v100, main_v101, main_v102, main_v103, main_v104, main_v105, main_v106, main_v107, main_v108, main_v109, main_v110]
theorem seg5_writes : (seg5 : List (HloOp τ sig (Elt F))).Forall fun op => op.writes ⊆ (seg5_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 6 writes. -/
abbrev seg6_W : List (Ref sig .tc) := [main_v111, main_v112, main_v113, main_v114, main_c_20, main_v115, main_v116, main_c_21, main_v117, main_v118, main_v119, main_v120, main_v121, main_v122, main_v123, main_cst_22, main_v124, main_v125, main_v126, main_v127, main_v128, main_v129, main_v130, main_v131, main_c_23, main_v132, main_v133, main_c_24, main_v134, main_v135, main_v136, main_v137, main_v138, main_v139, main_v140, main_cst_25, main_v141, main_v142, main_v143, main_cst_26, main_v144, main_v145, main_v146, main_v147, main_v148, main_v149, main_v150, main_v151, main_v152, main_v153, main_v154, main_v155]
theorem seg6_writes : (seg6 : List (HloOp τ sig (Elt F))).Forall fun op => op.writes ⊆ (seg6_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 7 writes. -/
abbrev seg7_W : List (Ref sig .tc) := [main_call2_cst, main_call2_v0, main_v156]
theorem seg7_writes : (seg7 : List (HloOp τ sig (Elt F))).Forall fun op => op.writes ⊆ (seg7_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 8 writes. -/
abbrev seg8_W : List (Ref sig .tc) := [main_v157, main_v158, main_v159, main_v160, main_v161, main_cst_27, main_v162, main_v163, main_cst_28, main_v164, main_v165, main_v166, main_v167, main_v168, main_cst_29, main_v169, main_v170, main_cst_30, main_v171, main_v172, main_v173, main_v174, main_cst_31, main_v175, main_v176, main_v177, main_v178, main_v179, main_v180, main_v181, main_v182, main_v183, main_v184, main_v185]
theorem seg8_writes : (seg8 : List (HloOp τ sig (Elt F))).Forall fun op => op.writes ⊆ (seg8_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 9 writes. -/
abbrev seg9_W : List (Ref sig .tc) := [main_v186, main_v187, main_v188, main_v189, main_c_32, main_v190, main_v191, main_c_33, main_v192, main_v193, main_v194, main_v195, main_v196, main_v197, main_v198, main_cst_34, main_v199, main_v200, main_v201, main_v202, main_v203, main_v204, main_v205, main_v206, main_c_35, main_v207, main_v208, main_c_36, main_v209, main_v210, main_v211, main_v212, main_v213, main_v214, main_v215, main_cst_37, main_v216, main_v217, main_v218, main_cst_38, main_v219, main_v220, main_v221, main_v222, main_v223, main_v224, main_v225, main_v226, main_v227, main_v228, main_v229, main_v230]
theorem seg9_writes : (seg9 : List (HloOp τ sig (Elt F))).Forall fun op => op.writes ⊆ (seg9_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 10 writes. -/
abbrev seg10_W : List (Ref sig .tc) := [main_call3_cst, main_call3_v0, main_v231]
theorem seg10_writes : (seg10 : List (HloOp τ sig (Elt F))).Forall fun op => op.writes ⊆ (seg10_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 11 writes. -/
abbrev seg11_W : List (Ref sig .tc) := [main_v232, main_v233, main_v234, main_v235, main_v236, main_cst_39, main_v237, main_v238, main_cst_40, main_v239, main_v240, main_v241, main_v242, main_v243, main_cst_41, main_v244, main_v245, main_cst_42, main_v246, main_v247, main_v248, main_v249, main_cst_43, main_v250, main_v251, main_v252, main_v253, main_v254, main_v255, main_v256, main_v257, main_v258, main_v259, main_v260]
theorem seg11_writes : (seg11 : List (HloOp τ sig (Elt F))).Forall fun op => op.writes ⊆ (seg11_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The buffers segment 12 writes. -/
abbrev seg12_W : List (Ref sig .tc) := [main_v261, main_v262, main_v263, main_v264]
theorem seg12_writes : (seg12 : List (HloOp τ sig (Elt F))).Forall fun op => op.writes ⊆ (seg12_W.map (Proc.devRef (τ := τ) .tc)).toFinset := by
  simp only [List.Forall]
  exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- The fold over a concatenation is the fold over the second list of the fold over the first. -/
theorem after_append (a b : List (HloOp τ sig (Elt F))) (V : Valuation τ sig (Elt F)) :
    after (a ++ b) V = after b (after a V) := by
  induction a generalizing V with
  | nil => rfl
  | cons op a ih => simp only [List.cons_append, after_cons, ih]

end Segments

/-- A value carried along a type equality and back is itself. -/
theorem cast_cast_cancel {α β : Sort _} (h : α = β) (h' : β = α) (a : α) : cast h' (cast h a) = a := by
  subst h; rfl

/-- A value carried along a type equality is the value it is heterogeneously equal to. -/
theorem cast_eq_of_heq {α β : Sort _} (h : α = β) (a : α) (b : β) (hab : HEq a b) : cast h a = b :=
  eq_of_heq ((cast_heq h a).trans hab)

variable (m : (ℓ : Loc nD τ sig) → Buf (Elt Ideal) ℓ) (d : Dev nD)

/-! ### The launch contents -/

/-- The contents at launch. -/
def X0 : Valuation τ sig (Elt Ideal) := launchContents m d

theorem x0_arg0 : X0 m d (Proc.devRef .tc main_arg0) = (m ((d.tc : Thread nD τ).loc main_arg0)) := rfl
theorem x0_arg1 : X0 m d (Proc.devRef .tc main_arg1) = (m ((d.tc : Thread nD τ).loc main_arg1)) := rfl
theorem x0_arg2 : X0 m d (Proc.devRef .tc main_arg2) = (m ((d.tc : Thread nD τ).loc main_arg2)) := rfl
theorem x0_arg3 : X0 m d (Proc.devRef .tc main_arg3) = (m ((d.tc : Thread nD τ).loc main_arg3)) := rfl
theorem x0_arg4 : X0 m d (Proc.devRef .tc main_arg4) = (m ((d.tc : Thread nD τ).loc main_arg4)) := rfl
theorem x0_arg5 : X0 m d (Proc.devRef .tc main_arg5) = (m ((d.tc : Thread nD τ).loc main_arg5)) := rfl
theorem x0_arg6 : X0 m d (Proc.devRef .tc main_arg6) = (m ((d.tc : Thread nD τ).loc main_arg6)) := rfl
theorem x0_arg7 : X0 m d (Proc.devRef .tc main_arg7) = (m ((d.tc : Thread nD τ).loc main_arg7)) := rfl
theorem x0_arg8 : X0 m d (Proc.devRef .tc main_arg8) = (m ((d.tc : Thread nD τ).loc main_arg8)) := rfl
theorem x0_arg9 : X0 m d (Proc.devRef .tc main_arg9) = (m ((d.tc : Thread nD τ).loc main_arg9)) := rfl
theorem x0_arg10 : X0 m d (Proc.devRef .tc main_arg10) = (m ((d.tc : Thread nD τ).loc main_arg10)) := rfl

/-! ### After segment 0: the edge rows, the degrees, the degree test and the reciprocal root -/

/-- The contents after segments 0 to 0. -/
def X1 : Valuation τ sig (Elt Ideal) := after (seg0 (F := Ideal)) (X0 m d)

theorem X1_keep (r : Ref sig .tc) (h : r ∉ seg0_W) : X1 m d (Proc.devRef .tc r) = X0 m d (Proc.devRef .tc r) :=
  after_of_writes_sub (seg0 (F := Ideal)) _ seg0_writes h

theorem x1_arg0 : X1 m d (Proc.devRef .tc main_arg0) = (m ((d.tc : Thread nD τ).loc main_arg0)) :=
  (X1_keep m d main_arg0 (by decide)).trans (x0_arg0 m d)
theorem x1_arg1 : X1 m d (Proc.devRef .tc main_arg1) = (m ((d.tc : Thread nD τ).loc main_arg1)) :=
  (X1_keep m d main_arg1 (by decide)).trans (x0_arg1 m d)
theorem x1_arg2 : X1 m d (Proc.devRef .tc main_arg2) = (m ((d.tc : Thread nD τ).loc main_arg2)) :=
  (X1_keep m d main_arg2 (by decide)).trans (x0_arg2 m d)
theorem x1_arg3 : X1 m d (Proc.devRef .tc main_arg3) = (m ((d.tc : Thread nD τ).loc main_arg3)) :=
  (X1_keep m d main_arg3 (by decide)).trans (x0_arg3 m d)
theorem x1_arg4 : X1 m d (Proc.devRef .tc main_arg4) = (m ((d.tc : Thread nD τ).loc main_arg4)) :=
  (X1_keep m d main_arg4 (by decide)).trans (x0_arg4 m d)
theorem x1_arg5 : X1 m d (Proc.devRef .tc main_arg5) = (m ((d.tc : Thread nD τ).loc main_arg5)) :=
  (X1_keep m d main_arg5 (by decide)).trans (x0_arg5 m d)
theorem x1_arg6 : X1 m d (Proc.devRef .tc main_arg6) = (m ((d.tc : Thread nD τ).loc main_arg6)) :=
  (X1_keep m d main_arg6 (by decide)).trans (x0_arg6 m d)
theorem x1_arg7 : X1 m d (Proc.devRef .tc main_arg7) = (m ((d.tc : Thread nD τ).loc main_arg7)) :=
  (X1_keep m d main_arg7 (by decide)).trans (x0_arg7 m d)
theorem x1_arg8 : X1 m d (Proc.devRef .tc main_arg8) = (m ((d.tc : Thread nD τ).loc main_arg8)) :=
  (X1_keep m d main_arg8 (by decide)).trans (x0_arg8 m d)
theorem x1_arg9 : X1 m d (Proc.devRef .tc main_arg9) = (m ((d.tc : Thread nD τ).loc main_arg9)) :=
  (X1_keep m d main_arg9 (by decide)).trans (x0_arg9 m d)
theorem x1_arg10 : X1 m d (Proc.devRef .tc main_arg10) = (m ((d.tc : Thread nD τ).loc main_arg10)) :=
  (X1_keep m d main_arg10 (by decide)).trans (x0_arg10 m d)

/-- Buffer v1 after segment 0 is the reference's v1 of the launch contents. -/
theorem x1_v1 : X1 m d (Proc.devRef .tc main_v1) = val_main_v1 (F := Ideal) (m ((d.tc : Thread nD τ).loc main_arg1)) := by
  show after (seg0 (F := Ideal)) (X0 m d) (Proc.devRef .tc main_v1) = _
  simp only [seg0]
  after_results_simp
  rw [x0_arg1 m d]
  unfold val_main_v1 val_main_v0
  rfl

/-- Buffer v3 after segment 0 is the reference's v3 of the launch contents. -/
theorem x1_v3 : X1 m d (Proc.devRef .tc main_v3) = val_main_v3 (F := Ideal) (m ((d.tc : Thread nD τ).loc main_arg1)) := by
  show after (seg0 (F := Ideal)) (X0 m d) (Proc.devRef .tc main_v3) = _
  simp only [seg0]
  after_results_simp
  rw [x0_arg1 m d]
  unfold val_main_v3 val_main_v2
  rfl

/-- Buffer v9 after segment 0 is the reference's v9 of the launch contents. -/
theorem x1_v9 : X1 m d (Proc.devRef .tc main_v9) = val_main_v9 (F := Ideal) (m ((d.tc : Thread nD τ).loc main_arg1)) := by
  show after (seg0 (F := Ideal)) (X0 m d) (Proc.devRef .tc main_v9) = _
  simp only [seg0]
  after_results_simp
  rw [x0_arg1 m d]
  unfold val_main_v9 val_main_v8 val_main_cst_1 val_main_v7 val_main_v6 val_main_v5 val_main_cst_0 val_main_v4 val_main_cst val_main_v1 val_main_v0
  rfl

/-- Buffer v14 after segment 0 is the reference's v14 of the launch contents. -/
theorem x1_v14 : X1 m d (Proc.devRef .tc main_v14) = val_main_v14 (F := Ideal) (m ((d.tc : Thread nD τ).loc main_arg1)) := by
  show after (seg0 (F := Ideal)) (X0 m d) (Proc.devRef .tc main_v14) = _
  simp only [seg0]
  after_results_simp
  rw [x0_arg1 m d]
  unfold val_main_v14 val_main_v13 val_main_cst_3 val_main_v12 val_main_v11 val_main_v10 val_main_cst_2 val_main_v7 val_main_v6 val_main_v5 val_main_cst_0 val_main_v4 val_main_cst val_main_v1 val_main_v0
  rfl

/-- Buffer cst_4 after segment 0 is the reference's cst_4 of the launch contents. -/
theorem x1_cst_4 : X1 m d (Proc.devRef .tc main_cst_4) = val_main_cst_4 (F := Ideal) := by
  show after (seg0 (F := Ideal)) (X0 m d) (Proc.devRef .tc main_cst_4) = _
  simp only [seg0]
  after_results_simp
  unfold val_main_cst_4
  rfl

/-! ### After segment 1: the selection between the reciprocal root and zero (a called function) -/

/-- The contents after segments 0 to 1. -/
def X2 : Valuation τ sig (Elt Ideal) := after (seg1 (F := Ideal)) (X1 m d)

theorem X2_keep (r : Ref sig .tc) (h : r ∉ seg1_W) : X2 m d (Proc.devRef .tc r) = X1 m d (Proc.devRef .tc r) :=
  after_of_writes_sub (seg1 (F := Ideal)) _ seg1_writes h

theorem x2_arg0 : X2 m d (Proc.devRef .tc main_arg0) = (m ((d.tc : Thread nD τ).loc main_arg0)) :=
  (X2_keep m d main_arg0 (by decide)).trans (x1_arg0 m d)
theorem x2_arg1 : X2 m d (Proc.devRef .tc main_arg1) = (m ((d.tc : Thread nD τ).loc main_arg1)) :=
  (X2_keep m d main_arg1 (by decide)).trans (x1_arg1 m d)
theorem x2_arg2 : X2 m d (Proc.devRef .tc main_arg2) = (m ((d.tc : Thread nD τ).loc main_arg2)) :=
  (X2_keep m d main_arg2 (by decide)).trans (x1_arg2 m d)
theorem x2_arg3 : X2 m d (Proc.devRef .tc main_arg3) = (m ((d.tc : Thread nD τ).loc main_arg3)) :=
  (X2_keep m d main_arg3 (by decide)).trans (x1_arg3 m d)
theorem x2_arg4 : X2 m d (Proc.devRef .tc main_arg4) = (m ((d.tc : Thread nD τ).loc main_arg4)) :=
  (X2_keep m d main_arg4 (by decide)).trans (x1_arg4 m d)
theorem x2_arg5 : X2 m d (Proc.devRef .tc main_arg5) = (m ((d.tc : Thread nD τ).loc main_arg5)) :=
  (X2_keep m d main_arg5 (by decide)).trans (x1_arg5 m d)
theorem x2_arg6 : X2 m d (Proc.devRef .tc main_arg6) = (m ((d.tc : Thread nD τ).loc main_arg6)) :=
  (X2_keep m d main_arg6 (by decide)).trans (x1_arg6 m d)
theorem x2_arg7 : X2 m d (Proc.devRef .tc main_arg7) = (m ((d.tc : Thread nD τ).loc main_arg7)) :=
  (X2_keep m d main_arg7 (by decide)).trans (x1_arg7 m d)
theorem x2_arg8 : X2 m d (Proc.devRef .tc main_arg8) = (m ((d.tc : Thread nD τ).loc main_arg8)) :=
  (X2_keep m d main_arg8 (by decide)).trans (x1_arg8 m d)
theorem x2_arg9 : X2 m d (Proc.devRef .tc main_arg9) = (m ((d.tc : Thread nD τ).loc main_arg9)) :=
  (X2_keep m d main_arg9 (by decide)).trans (x1_arg9 m d)
theorem x2_arg10 : X2 m d (Proc.devRef .tc main_arg10) = (m ((d.tc : Thread nD τ).loc main_arg10)) :=
  (X2_keep m d main_arg10 (by decide)).trans (x1_arg10 m d)
theorem x2_v1 : X2 m d (Proc.devRef .tc main_v1) = val_main_v1 (F := Ideal) (m ((d.tc : Thread nD τ).loc main_arg1)) :=
  (X2_keep m d main_v1 (by decide)).trans (x1_v1 m d)
theorem x2_v3 : X2 m d (Proc.devRef .tc main_v3) = val_main_v3 (F := Ideal) (m ((d.tc : Thread nD τ).loc main_arg1)) :=
  (X2_keep m d main_v3 (by decide)).trans (x1_v3 m d)

/-- Buffer v15 after segment 1 is the reference's v15 of the launch contents. -/
theorem x2_v15 : X2 m d (Proc.devRef .tc main_v15) = val_main_v15 (F := Ideal) (m ((d.tc : Thread nD τ).loc main_arg1)) := by
  show after (seg1 (F := Ideal)) (X1 m d) (Proc.devRef .tc main_v15) = _
  simp only [seg1]
  after_results_simp
  rw [x1_v9 m d, x1_v14 m d, x1_cst_4 m d]
  unfold val_main_v15 val_main_call0_v1 val_main_call0_v0
  dsimp only [TRef.toBuf, TRef.ofBuf]
  refine cast_eq_of_heq _ _ _ (heq_of_eq ?_)
  rw [cast_cast_cancel, cast_cast_cancel, cast_eq_of_heq _ _ (val_main_v9 (F := Ideal) (m ((d.tc : Thread nD τ).loc main_arg1))) HEq.rfl, cast_eq_of_heq _ _ (val_main_v14 (F := Ideal) (m ((d.tc : Thread nD τ).loc main_arg1))) HEq.rfl, cast_eq_of_heq _ _ (val_main_cst_4 (F := Ideal)) HEq.rfl]

/-! ### After segment 2: the edge weights and the input projection -/

/-- The contents after segments 0 to 2. -/
def X3 : Valuation τ sig (Elt Ideal) := after (seg2 (F := Ideal)) (X2 m d)

theorem X3_keep (r : Ref sig .tc) (h : r ∉ seg2_W) : X3 m d (Proc.devRef .tc r) = X2 m d (Proc.devRef .tc r) :=
  after_of_writes_sub (seg2 (F := Ideal)) _ seg2_writes h

theorem x3_arg0 : X3 m d (Proc.devRef .tc main_arg0) = (m ((d.tc : Thread nD τ).loc main_arg0)) :=
  (X3_keep m d main_arg0 (by decide)).trans (x2_arg0 m d)
theorem x3_arg1 : X3 m d (Proc.devRef .tc main_arg1) = (m ((d.tc : Thread nD τ).loc main_arg1)) :=
  (X3_keep m d main_arg1 (by decide)).trans (x2_arg1 m d)
theorem x3_arg2 : X3 m d (Proc.devRef .tc main_arg2) = (m ((d.tc : Thread nD τ).loc main_arg2)) :=
  (X3_keep m d main_arg2 (by decide)).trans (x2_arg2 m d)
theorem x3_arg3 : X3 m d (Proc.devRef .tc main_arg3) = (m ((d.tc : Thread nD τ).loc main_arg3)) :=
  (X3_keep m d main_arg3 (by decide)).trans (x2_arg3 m d)
theorem x3_arg4 : X3 m d (Proc.devRef .tc main_arg4) = (m ((d.tc : Thread nD τ).loc main_arg4)) :=
  (X3_keep m d main_arg4 (by decide)).trans (x2_arg4 m d)
theorem x3_arg5 : X3 m d (Proc.devRef .tc main_arg5) = (m ((d.tc : Thread nD τ).loc main_arg5)) :=
  (X3_keep m d main_arg5 (by decide)).trans (x2_arg5 m d)
theorem x3_arg6 : X3 m d (Proc.devRef .tc main_arg6) = (m ((d.tc : Thread nD τ).loc main_arg6)) :=
  (X3_keep m d main_arg6 (by decide)).trans (x2_arg6 m d)
theorem x3_arg7 : X3 m d (Proc.devRef .tc main_arg7) = (m ((d.tc : Thread nD τ).loc main_arg7)) :=
  (X3_keep m d main_arg7 (by decide)).trans (x2_arg7 m d)
theorem x3_arg8 : X3 m d (Proc.devRef .tc main_arg8) = (m ((d.tc : Thread nD τ).loc main_arg8)) :=
  (X3_keep m d main_arg8 (by decide)).trans (x2_arg8 m d)
theorem x3_arg9 : X3 m d (Proc.devRef .tc main_arg9) = (m ((d.tc : Thread nD τ).loc main_arg9)) :=
  (X3_keep m d main_arg9 (by decide)).trans (x2_arg9 m d)
theorem x3_arg10 : X3 m d (Proc.devRef .tc main_arg10) = (m ((d.tc : Thread nD τ).loc main_arg10)) :=
  (X3_keep m d main_arg10 (by decide)).trans (x2_arg10 m d)
theorem x3_v1 : X3 m d (Proc.devRef .tc main_v1) = val_main_v1 (F := Ideal) (m ((d.tc : Thread nD τ).loc main_arg1)) :=
  (X3_keep m d main_v1 (by decide)).trans (x2_v1 m d)
theorem x3_v3 : X3 m d (Proc.devRef .tc main_v3) = val_main_v3 (F := Ideal) (m ((d.tc : Thread nD τ).loc main_arg1)) :=
  (X3_keep m d main_v3 (by decide)).trans (x2_v3 m d)

/-- Buffer v31 after segment 2 is the reference's v31 of the launch contents. -/
theorem x3_v31 : X3 m d (Proc.devRef .tc main_v31) = val_main_v31 (F := Ideal) (m ((d.tc : Thread nD τ).loc main_arg1)) := by
  show after (seg2 (F := Ideal)) (X2 m d) (Proc.devRef .tc main_v31) = _
  simp only [seg2]
  after_results_simp
  rw [x2_v15 m d, x2_v3 m d, x2_v1 m d]
  unfold val_main_v31 val_main_v30 val_main_v29 val_main_v28 val_main_v27 val_main_v26 val_main_c_7 val_main_v25 val_main_v24 val_main_c_6 val_main_v23 val_main_v22 val_main_v21 val_main_v20 val_main_v19 val_main_v18 val_main_c_5 val_main_v17 val_main_v16 val_main_c
  rfl

/-- Buffer v35 after segment 2 is the reference's v35 of the launch contents. -/
theorem x3_v35 : X3 m d (Proc.devRef .tc main_v35) = val_main_v35 (F := Ideal) (m ((d.tc : Thread nD τ).loc main_arg0)) (m ((d.tc : Thread nD τ).loc main_arg3)) (m ((d.tc : Thread nD τ).loc main_arg4)) := by
  show after (seg2 (F := Ideal)) (X2 m d) (Proc.devRef .tc main_v35) = _
  simp only [seg2]
  after_results_simp
  rw [x2_arg0 m d, x2_arg3 m d, x2_arg4 m d]
  unfold val_main_v35 val_main_v34 val_main_v33 val_main_v32
  rfl

/-! ### After segment 3: layer 0 up to the bias -/

/-- The contents after segments 0 to 3. -/
def X4 : Valuation τ sig (Elt Ideal) := after (seg3 (F := Ideal)) (X3 m d)

theorem X4_keep (r : Ref sig .tc) (h : r ∉ seg3_W) : X4 m d (Proc.devRef .tc r) = X3 m d (Proc.devRef .tc r) :=
  after_of_writes_sub (seg3 (F := Ideal)) _ seg3_writes h

theorem x4_arg0 : X4 m d (Proc.devRef .tc main_arg0) = (m ((d.tc : Thread nD τ).loc main_arg0)) :=
  (X4_keep m d main_arg0 (by decide)).trans (x3_arg0 m d)
theorem x4_arg1 : X4 m d (Proc.devRef .tc main_arg1) = (m ((d.tc : Thread nD τ).loc main_arg1)) :=
  (X4_keep m d main_arg1 (by decide)).trans (x3_arg1 m d)
theorem x4_arg2 : X4 m d (Proc.devRef .tc main_arg2) = (m ((d.tc : Thread nD τ).loc main_arg2)) :=
  (X4_keep m d main_arg2 (by decide)).trans (x3_arg2 m d)
theorem x4_arg3 : X4 m d (Proc.devRef .tc main_arg3) = (m ((d.tc : Thread nD τ).loc main_arg3)) :=
  (X4_keep m d main_arg3 (by decide)).trans (x3_arg3 m d)
theorem x4_arg4 : X4 m d (Proc.devRef .tc main_arg4) = (m ((d.tc : Thread nD τ).loc main_arg4)) :=
  (X4_keep m d main_arg4 (by decide)).trans (x3_arg4 m d)
theorem x4_arg5 : X4 m d (Proc.devRef .tc main_arg5) = (m ((d.tc : Thread nD τ).loc main_arg5)) :=
  (X4_keep m d main_arg5 (by decide)).trans (x3_arg5 m d)
theorem x4_arg6 : X4 m d (Proc.devRef .tc main_arg6) = (m ((d.tc : Thread nD τ).loc main_arg6)) :=
  (X4_keep m d main_arg6 (by decide)).trans (x3_arg6 m d)
theorem x4_arg7 : X4 m d (Proc.devRef .tc main_arg7) = (m ((d.tc : Thread nD τ).loc main_arg7)) :=
  (X4_keep m d main_arg7 (by decide)).trans (x3_arg7 m d)
theorem x4_arg8 : X4 m d (Proc.devRef .tc main_arg8) = (m ((d.tc : Thread nD τ).loc main_arg8)) :=
  (X4_keep m d main_arg8 (by decide)).trans (x3_arg8 m d)
theorem x4_arg9 : X4 m d (Proc.devRef .tc main_arg9) = (m ((d.tc : Thread nD τ).loc main_arg9)) :=
  (X4_keep m d main_arg9 (by decide)).trans (x3_arg9 m d)
theorem x4_arg10 : X4 m d (Proc.devRef .tc main_arg10) = (m ((d.tc : Thread nD τ).loc main_arg10)) :=
  (X4_keep m d main_arg10 (by decide)).trans (x3_arg10 m d)
theorem x4_v31 : X4 m d (Proc.devRef .tc main_v31) = val_main_v31 (F := Ideal) (m ((d.tc : Thread nD τ).loc main_arg1)) :=
  (X4_keep m d main_v31 (by decide)).trans (x3_v31 m d)
theorem x4_v1 : X4 m d (Proc.devRef .tc main_v1) = val_main_v1 (F := Ideal) (m ((d.tc : Thread nD τ).loc main_arg1)) :=
  (X4_keep m d main_v1 (by decide)).trans (x3_v1 m d)
theorem x4_v3 : X4 m d (Proc.devRef .tc main_v3) = val_main_v3 (F := Ideal) (m ((d.tc : Thread nD τ).loc main_arg1)) :=
  (X4_keep m d main_v3 (by decide)).trans (x3_v3 m d)
theorem x4_v35 : X4 m d (Proc.devRef .tc main_v35) = val_main_v35 (F := Ideal) (m ((d.tc : Thread nD τ).loc main_arg0)) (m ((d.tc : Thread nD τ).loc main_arg3)) (m ((d.tc : Thread nD τ).loc main_arg4)) :=
  (X4_keep m d main_v35 (by decide)).trans (x3_v35 m d)

/-- Buffer v80 after segment 3 is the reference's v80 of the launch contents. -/
theorem x4_v80 : X4 m d (Proc.devRef .tc main_v80) = val_main_v80 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) := by
  show after (seg3 (F := Ideal)) (X3 m d) (Proc.devRef .tc main_v80) = _
  simp only [seg3]
  after_results_simp
  rw [x3_v35 m d, x3_v1 m d, x3_v31 m d, x3_v3 m d, x3_arg5 m d, x3_arg6 m d]
  unfold val_main_v80 val_main_v79 val_main_v78 val_main_v77 val_main_v76 val_main_v75 val_main_v74 val_main_v73 val_main_v72 val_main_v71 val_main_v70 val_main_v69 val_main_cst_14 val_main_v68 val_main_v67 val_main_v66 val_main_cst_13 val_main_v65 val_main_v64 val_main_v63 val_main_v62 val_main_v61 val_main_v60 val_main_v59 val_main_c_12 val_main_v58 val_main_v57 val_main_c_11 val_main_v56 val_main_v55 val_main_v54 val_main_v53 val_main_v52 val_main_v51 val_main_v50 val_main_v49 val_main_cst_10 val_main_v48 val_main_v47 val_main_v46 val_main_v45 val_main_v44 val_main_v43 val_main_v42 val_main_c_9 val_main_v41 val_main_v40 val_main_c_8 val_main_v39 val_main_v38 val_main_v37 val_main_v36
  rfl

/-! ### After segment 4: layer 0's clamp at zero (a called function) -/

/-- The contents after segments 0 to 4. -/
def X5 : Valuation τ sig (Elt Ideal) := after (seg4 (F := Ideal)) (X4 m d)

theorem X5_keep (r : Ref sig .tc) (h : r ∉ seg4_W) : X5 m d (Proc.devRef .tc r) = X4 m d (Proc.devRef .tc r) :=
  after_of_writes_sub (seg4 (F := Ideal)) _ seg4_writes h

theorem x5_arg0 : X5 m d (Proc.devRef .tc main_arg0) = (m ((d.tc : Thread nD τ).loc main_arg0)) :=
  (X5_keep m d main_arg0 (by decide)).trans (x4_arg0 m d)
theorem x5_arg1 : X5 m d (Proc.devRef .tc main_arg1) = (m ((d.tc : Thread nD τ).loc main_arg1)) :=
  (X5_keep m d main_arg1 (by decide)).trans (x4_arg1 m d)
theorem x5_arg2 : X5 m d (Proc.devRef .tc main_arg2) = (m ((d.tc : Thread nD τ).loc main_arg2)) :=
  (X5_keep m d main_arg2 (by decide)).trans (x4_arg2 m d)
theorem x5_arg3 : X5 m d (Proc.devRef .tc main_arg3) = (m ((d.tc : Thread nD τ).loc main_arg3)) :=
  (X5_keep m d main_arg3 (by decide)).trans (x4_arg3 m d)
theorem x5_arg4 : X5 m d (Proc.devRef .tc main_arg4) = (m ((d.tc : Thread nD τ).loc main_arg4)) :=
  (X5_keep m d main_arg4 (by decide)).trans (x4_arg4 m d)
theorem x5_arg5 : X5 m d (Proc.devRef .tc main_arg5) = (m ((d.tc : Thread nD τ).loc main_arg5)) :=
  (X5_keep m d main_arg5 (by decide)).trans (x4_arg5 m d)
theorem x5_arg6 : X5 m d (Proc.devRef .tc main_arg6) = (m ((d.tc : Thread nD τ).loc main_arg6)) :=
  (X5_keep m d main_arg6 (by decide)).trans (x4_arg6 m d)
theorem x5_arg7 : X5 m d (Proc.devRef .tc main_arg7) = (m ((d.tc : Thread nD τ).loc main_arg7)) :=
  (X5_keep m d main_arg7 (by decide)).trans (x4_arg7 m d)
theorem x5_arg8 : X5 m d (Proc.devRef .tc main_arg8) = (m ((d.tc : Thread nD τ).loc main_arg8)) :=
  (X5_keep m d main_arg8 (by decide)).trans (x4_arg8 m d)
theorem x5_arg9 : X5 m d (Proc.devRef .tc main_arg9) = (m ((d.tc : Thread nD τ).loc main_arg9)) :=
  (X5_keep m d main_arg9 (by decide)).trans (x4_arg9 m d)
theorem x5_arg10 : X5 m d (Proc.devRef .tc main_arg10) = (m ((d.tc : Thread nD τ).loc main_arg10)) :=
  (X5_keep m d main_arg10 (by decide)).trans (x4_arg10 m d)
theorem x5_v31 : X5 m d (Proc.devRef .tc main_v31) = val_main_v31 (F := Ideal) (m ((d.tc : Thread nD τ).loc main_arg1)) :=
  (X5_keep m d main_v31 (by decide)).trans (x4_v31 m d)
theorem x5_v1 : X5 m d (Proc.devRef .tc main_v1) = val_main_v1 (F := Ideal) (m ((d.tc : Thread nD τ).loc main_arg1)) :=
  (X5_keep m d main_v1 (by decide)).trans (x4_v1 m d)
theorem x5_v3 : X5 m d (Proc.devRef .tc main_v3) = val_main_v3 (F := Ideal) (m ((d.tc : Thread nD τ).loc main_arg1)) :=
  (X5_keep m d main_v3 (by decide)).trans (x4_v3 m d)
theorem x5_v35 : X5 m d (Proc.devRef .tc main_v35) = val_main_v35 (F := Ideal) (m ((d.tc : Thread nD τ).loc main_arg0)) (m ((d.tc : Thread nD τ).loc main_arg3)) (m ((d.tc : Thread nD τ).loc main_arg4)) :=
  (X5_keep m d main_v35 (by decide)).trans (x4_v35 m d)

/-- Buffer v81 after segment 4 is the reference's v81 of the launch contents. -/
theorem x5_v81 : X5 m d (Proc.devRef .tc main_v81) = val_main_v81 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) := by
  show after (seg4 (F := Ideal)) (X4 m d) (Proc.devRef .tc main_v81) = _
  simp only [seg4]
  after_results_simp
  rw [x4_v80 m d]
  unfold val_main_v81 val_main_call1_v0 val_main_call1_cst
  dsimp only [TRef.toBuf, TRef.ofBuf]
  refine cast_eq_of_heq _ _ _ (heq_of_eq ?_)
  rw [cast_cast_cancel, cast_cast_cancel, cast_eq_of_heq _ _ (val_main_v80 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6))) HEq.rfl]

/-! ### After segment 5: layer 0's residual and normalisation -/

/-- The contents after segments 0 to 5. -/
def X6 : Valuation τ sig (Elt Ideal) := after (seg5 (F := Ideal)) (X5 m d)

theorem X6_keep (r : Ref sig .tc) (h : r ∉ seg5_W) : X6 m d (Proc.devRef .tc r) = X5 m d (Proc.devRef .tc r) :=
  after_of_writes_sub (seg5 (F := Ideal)) _ seg5_writes h

theorem x6_arg0 : X6 m d (Proc.devRef .tc main_arg0) = (m ((d.tc : Thread nD τ).loc main_arg0)) :=
  (X6_keep m d main_arg0 (by decide)).trans (x5_arg0 m d)
theorem x6_arg1 : X6 m d (Proc.devRef .tc main_arg1) = (m ((d.tc : Thread nD τ).loc main_arg1)) :=
  (X6_keep m d main_arg1 (by decide)).trans (x5_arg1 m d)
theorem x6_arg2 : X6 m d (Proc.devRef .tc main_arg2) = (m ((d.tc : Thread nD τ).loc main_arg2)) :=
  (X6_keep m d main_arg2 (by decide)).trans (x5_arg2 m d)
theorem x6_arg3 : X6 m d (Proc.devRef .tc main_arg3) = (m ((d.tc : Thread nD τ).loc main_arg3)) :=
  (X6_keep m d main_arg3 (by decide)).trans (x5_arg3 m d)
theorem x6_arg4 : X6 m d (Proc.devRef .tc main_arg4) = (m ((d.tc : Thread nD τ).loc main_arg4)) :=
  (X6_keep m d main_arg4 (by decide)).trans (x5_arg4 m d)
theorem x6_arg5 : X6 m d (Proc.devRef .tc main_arg5) = (m ((d.tc : Thread nD τ).loc main_arg5)) :=
  (X6_keep m d main_arg5 (by decide)).trans (x5_arg5 m d)
theorem x6_arg6 : X6 m d (Proc.devRef .tc main_arg6) = (m ((d.tc : Thread nD τ).loc main_arg6)) :=
  (X6_keep m d main_arg6 (by decide)).trans (x5_arg6 m d)
theorem x6_arg7 : X6 m d (Proc.devRef .tc main_arg7) = (m ((d.tc : Thread nD τ).loc main_arg7)) :=
  (X6_keep m d main_arg7 (by decide)).trans (x5_arg7 m d)
theorem x6_arg8 : X6 m d (Proc.devRef .tc main_arg8) = (m ((d.tc : Thread nD τ).loc main_arg8)) :=
  (X6_keep m d main_arg8 (by decide)).trans (x5_arg8 m d)
theorem x6_arg9 : X6 m d (Proc.devRef .tc main_arg9) = (m ((d.tc : Thread nD τ).loc main_arg9)) :=
  (X6_keep m d main_arg9 (by decide)).trans (x5_arg9 m d)
theorem x6_arg10 : X6 m d (Proc.devRef .tc main_arg10) = (m ((d.tc : Thread nD τ).loc main_arg10)) :=
  (X6_keep m d main_arg10 (by decide)).trans (x5_arg10 m d)
theorem x6_v31 : X6 m d (Proc.devRef .tc main_v31) = val_main_v31 (F := Ideal) (m ((d.tc : Thread nD τ).loc main_arg1)) :=
  (X6_keep m d main_v31 (by decide)).trans (x5_v31 m d)
theorem x6_v1 : X6 m d (Proc.devRef .tc main_v1) = val_main_v1 (F := Ideal) (m ((d.tc : Thread nD τ).loc main_arg1)) :=
  (X6_keep m d main_v1 (by decide)).trans (x5_v1 m d)
theorem x6_v3 : X6 m d (Proc.devRef .tc main_v3) = val_main_v3 (F := Ideal) (m ((d.tc : Thread nD τ).loc main_arg1)) :=
  (X6_keep m d main_v3 (by decide)).trans (x5_v3 m d)

/-- Buffer v110 after segment 5 is the reference's v110 of the launch contents. -/
theorem x6_v110 : X6 m d (Proc.devRef .tc main_v110) = val_main_v110 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg5 (F := Ideal)) (X5 m d) (Proc.devRef .tc main_v110) = _
  simp only [seg5]
  after_results_simp
  rw [x5_v81 m d, x5_v35 m d, x5_arg7 m d, x5_arg8 m d]
  unfold val_main_v110 val_main_v109 val_main_v108 val_main_v107 val_main_v106 val_main_v105 val_main_v104 val_main_v103 val_main_v102 val_main_v101 val_main_v100 val_main_cst_19 val_main_v99 val_main_v98 val_main_v97 val_main_v96 val_main_cst_18 val_main_v95 val_main_v94 val_main_cst_17 val_main_v93 val_main_v92 val_main_v91 val_main_v90 val_main_v89 val_main_cst_16 val_main_v88 val_main_v87 val_main_cst_15 val_main_v86 val_main_v85 val_main_v84 val_main_v83 val_main_v82
  rfl

/-! ### After segment 6: layer 1 up to the bias -/

/-- The contents after segments 0 to 6. -/
def X7 : Valuation τ sig (Elt Ideal) := after (seg6 (F := Ideal)) (X6 m d)

theorem X7_keep (r : Ref sig .tc) (h : r ∉ seg6_W) : X7 m d (Proc.devRef .tc r) = X6 m d (Proc.devRef .tc r) :=
  after_of_writes_sub (seg6 (F := Ideal)) _ seg6_writes h

theorem x7_arg0 : X7 m d (Proc.devRef .tc main_arg0) = (m ((d.tc : Thread nD τ).loc main_arg0)) :=
  (X7_keep m d main_arg0 (by decide)).trans (x6_arg0 m d)
theorem x7_arg1 : X7 m d (Proc.devRef .tc main_arg1) = (m ((d.tc : Thread nD τ).loc main_arg1)) :=
  (X7_keep m d main_arg1 (by decide)).trans (x6_arg1 m d)
theorem x7_arg2 : X7 m d (Proc.devRef .tc main_arg2) = (m ((d.tc : Thread nD τ).loc main_arg2)) :=
  (X7_keep m d main_arg2 (by decide)).trans (x6_arg2 m d)
theorem x7_arg3 : X7 m d (Proc.devRef .tc main_arg3) = (m ((d.tc : Thread nD τ).loc main_arg3)) :=
  (X7_keep m d main_arg3 (by decide)).trans (x6_arg3 m d)
theorem x7_arg4 : X7 m d (Proc.devRef .tc main_arg4) = (m ((d.tc : Thread nD τ).loc main_arg4)) :=
  (X7_keep m d main_arg4 (by decide)).trans (x6_arg4 m d)
theorem x7_arg5 : X7 m d (Proc.devRef .tc main_arg5) = (m ((d.tc : Thread nD τ).loc main_arg5)) :=
  (X7_keep m d main_arg5 (by decide)).trans (x6_arg5 m d)
theorem x7_arg6 : X7 m d (Proc.devRef .tc main_arg6) = (m ((d.tc : Thread nD τ).loc main_arg6)) :=
  (X7_keep m d main_arg6 (by decide)).trans (x6_arg6 m d)
theorem x7_arg7 : X7 m d (Proc.devRef .tc main_arg7) = (m ((d.tc : Thread nD τ).loc main_arg7)) :=
  (X7_keep m d main_arg7 (by decide)).trans (x6_arg7 m d)
theorem x7_arg8 : X7 m d (Proc.devRef .tc main_arg8) = (m ((d.tc : Thread nD τ).loc main_arg8)) :=
  (X7_keep m d main_arg8 (by decide)).trans (x6_arg8 m d)
theorem x7_arg9 : X7 m d (Proc.devRef .tc main_arg9) = (m ((d.tc : Thread nD τ).loc main_arg9)) :=
  (X7_keep m d main_arg9 (by decide)).trans (x6_arg9 m d)
theorem x7_arg10 : X7 m d (Proc.devRef .tc main_arg10) = (m ((d.tc : Thread nD τ).loc main_arg10)) :=
  (X7_keep m d main_arg10 (by decide)).trans (x6_arg10 m d)
theorem x7_v31 : X7 m d (Proc.devRef .tc main_v31) = val_main_v31 (F := Ideal) (m ((d.tc : Thread nD τ).loc main_arg1)) :=
  (X7_keep m d main_v31 (by decide)).trans (x6_v31 m d)
theorem x7_v1 : X7 m d (Proc.devRef .tc main_v1) = val_main_v1 (F := Ideal) (m ((d.tc : Thread nD τ).loc main_arg1)) :=
  (X7_keep m d main_v1 (by decide)).trans (x6_v1 m d)
theorem x7_v3 : X7 m d (Proc.devRef .tc main_v3) = val_main_v3 (F := Ideal) (m ((d.tc : Thread nD τ).loc main_arg1)) :=
  (X7_keep m d main_v3 (by decide)).trans (x6_v3 m d)
theorem x7_v110 : X7 m d (Proc.devRef .tc main_v110) = val_main_v110 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  (X7_keep m d main_v110 (by decide)).trans (x6_v110 m d)

/-- Buffer v155 after segment 6 is the reference's v155 of the launch contents. -/
theorem x7_v155 : X7 m d (Proc.devRef .tc main_v155) = val_main_v155 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg6 (F := Ideal)) (X6 m d) (Proc.devRef .tc main_v155) = _
  simp only [seg6]
  after_results_simp
  rw [x6_v110 m d, x6_v1 m d, x6_v31 m d, x6_v3 m d, x6_arg5 m d, x6_arg6 m d]
  unfold val_main_v155 val_main_v154 val_main_v153 val_main_v152 val_main_v151 val_main_v150 val_main_v149 val_main_v148 val_main_v147 val_main_v146 val_main_v145 val_main_v144 val_main_cst_26 val_main_v143 val_main_v142 val_main_v141 val_main_cst_25 val_main_v140 val_main_v139 val_main_v138 val_main_v137 val_main_v136 val_main_v135 val_main_v134 val_main_c_24 val_main_v133 val_main_v132 val_main_c_23 val_main_v131 val_main_v130 val_main_v129 val_main_v128 val_main_v127 val_main_v126 val_main_v125 val_main_v124 val_main_cst_22 val_main_v123 val_main_v122 val_main_v121 val_main_v120 val_main_v119 val_main_v118 val_main_v117 val_main_c_21 val_main_v116 val_main_v115 val_main_c_20 val_main_v114 val_main_v113 val_main_v112 val_main_v111
  rfl

/-! ### After segment 7: layer 1's clamp at zero (a called function) -/

/-- The contents after segments 0 to 7. -/
def X8 : Valuation τ sig (Elt Ideal) := after (seg7 (F := Ideal)) (X7 m d)

theorem X8_keep (r : Ref sig .tc) (h : r ∉ seg7_W) : X8 m d (Proc.devRef .tc r) = X7 m d (Proc.devRef .tc r) :=
  after_of_writes_sub (seg7 (F := Ideal)) _ seg7_writes h

theorem x8_arg0 : X8 m d (Proc.devRef .tc main_arg0) = (m ((d.tc : Thread nD τ).loc main_arg0)) :=
  (X8_keep m d main_arg0 (by decide)).trans (x7_arg0 m d)
theorem x8_arg1 : X8 m d (Proc.devRef .tc main_arg1) = (m ((d.tc : Thread nD τ).loc main_arg1)) :=
  (X8_keep m d main_arg1 (by decide)).trans (x7_arg1 m d)
theorem x8_arg2 : X8 m d (Proc.devRef .tc main_arg2) = (m ((d.tc : Thread nD τ).loc main_arg2)) :=
  (X8_keep m d main_arg2 (by decide)).trans (x7_arg2 m d)
theorem x8_arg3 : X8 m d (Proc.devRef .tc main_arg3) = (m ((d.tc : Thread nD τ).loc main_arg3)) :=
  (X8_keep m d main_arg3 (by decide)).trans (x7_arg3 m d)
theorem x8_arg4 : X8 m d (Proc.devRef .tc main_arg4) = (m ((d.tc : Thread nD τ).loc main_arg4)) :=
  (X8_keep m d main_arg4 (by decide)).trans (x7_arg4 m d)
theorem x8_arg5 : X8 m d (Proc.devRef .tc main_arg5) = (m ((d.tc : Thread nD τ).loc main_arg5)) :=
  (X8_keep m d main_arg5 (by decide)).trans (x7_arg5 m d)
theorem x8_arg6 : X8 m d (Proc.devRef .tc main_arg6) = (m ((d.tc : Thread nD τ).loc main_arg6)) :=
  (X8_keep m d main_arg6 (by decide)).trans (x7_arg6 m d)
theorem x8_arg7 : X8 m d (Proc.devRef .tc main_arg7) = (m ((d.tc : Thread nD τ).loc main_arg7)) :=
  (X8_keep m d main_arg7 (by decide)).trans (x7_arg7 m d)
theorem x8_arg8 : X8 m d (Proc.devRef .tc main_arg8) = (m ((d.tc : Thread nD τ).loc main_arg8)) :=
  (X8_keep m d main_arg8 (by decide)).trans (x7_arg8 m d)
theorem x8_arg9 : X8 m d (Proc.devRef .tc main_arg9) = (m ((d.tc : Thread nD τ).loc main_arg9)) :=
  (X8_keep m d main_arg9 (by decide)).trans (x7_arg9 m d)
theorem x8_arg10 : X8 m d (Proc.devRef .tc main_arg10) = (m ((d.tc : Thread nD τ).loc main_arg10)) :=
  (X8_keep m d main_arg10 (by decide)).trans (x7_arg10 m d)
theorem x8_v31 : X8 m d (Proc.devRef .tc main_v31) = val_main_v31 (F := Ideal) (m ((d.tc : Thread nD τ).loc main_arg1)) :=
  (X8_keep m d main_v31 (by decide)).trans (x7_v31 m d)
theorem x8_v1 : X8 m d (Proc.devRef .tc main_v1) = val_main_v1 (F := Ideal) (m ((d.tc : Thread nD τ).loc main_arg1)) :=
  (X8_keep m d main_v1 (by decide)).trans (x7_v1 m d)
theorem x8_v3 : X8 m d (Proc.devRef .tc main_v3) = val_main_v3 (F := Ideal) (m ((d.tc : Thread nD τ).loc main_arg1)) :=
  (X8_keep m d main_v3 (by decide)).trans (x7_v3 m d)
theorem x8_v110 : X8 m d (Proc.devRef .tc main_v110) = val_main_v110 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  (X8_keep m d main_v110 (by decide)).trans (x7_v110 m d)

/-- Buffer v156 after segment 7 is the reference's v156 of the launch contents. -/
theorem x8_v156 : X8 m d (Proc.devRef .tc main_v156) = val_main_v156 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg7 (F := Ideal)) (X7 m d) (Proc.devRef .tc main_v156) = _
  simp only [seg7]
  after_results_simp
  rw [x7_v155 m d]
  unfold val_main_v156 val_main_call2_v0 val_main_call2_cst
  dsimp only [TRef.toBuf, TRef.ofBuf]
  refine cast_eq_of_heq _ _ _ (heq_of_eq ?_)
  rw [cast_cast_cancel, cast_cast_cancel, cast_eq_of_heq _ _ (val_main_v155 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8))) HEq.rfl]

/-! ### After segment 8: layer 1's residual and normalisation -/

/-- The contents after segments 0 to 8. -/
def X9 : Valuation τ sig (Elt Ideal) := after (seg8 (F := Ideal)) (X8 m d)

theorem X9_keep (r : Ref sig .tc) (h : r ∉ seg8_W) : X9 m d (Proc.devRef .tc r) = X8 m d (Proc.devRef .tc r) :=
  after_of_writes_sub (seg8 (F := Ideal)) _ seg8_writes h

theorem x9_arg0 : X9 m d (Proc.devRef .tc main_arg0) = (m ((d.tc : Thread nD τ).loc main_arg0)) :=
  (X9_keep m d main_arg0 (by decide)).trans (x8_arg0 m d)
theorem x9_arg1 : X9 m d (Proc.devRef .tc main_arg1) = (m ((d.tc : Thread nD τ).loc main_arg1)) :=
  (X9_keep m d main_arg1 (by decide)).trans (x8_arg1 m d)
theorem x9_arg2 : X9 m d (Proc.devRef .tc main_arg2) = (m ((d.tc : Thread nD τ).loc main_arg2)) :=
  (X9_keep m d main_arg2 (by decide)).trans (x8_arg2 m d)
theorem x9_arg3 : X9 m d (Proc.devRef .tc main_arg3) = (m ((d.tc : Thread nD τ).loc main_arg3)) :=
  (X9_keep m d main_arg3 (by decide)).trans (x8_arg3 m d)
theorem x9_arg4 : X9 m d (Proc.devRef .tc main_arg4) = (m ((d.tc : Thread nD τ).loc main_arg4)) :=
  (X9_keep m d main_arg4 (by decide)).trans (x8_arg4 m d)
theorem x9_arg5 : X9 m d (Proc.devRef .tc main_arg5) = (m ((d.tc : Thread nD τ).loc main_arg5)) :=
  (X9_keep m d main_arg5 (by decide)).trans (x8_arg5 m d)
theorem x9_arg6 : X9 m d (Proc.devRef .tc main_arg6) = (m ((d.tc : Thread nD τ).loc main_arg6)) :=
  (X9_keep m d main_arg6 (by decide)).trans (x8_arg6 m d)
theorem x9_arg7 : X9 m d (Proc.devRef .tc main_arg7) = (m ((d.tc : Thread nD τ).loc main_arg7)) :=
  (X9_keep m d main_arg7 (by decide)).trans (x8_arg7 m d)
theorem x9_arg8 : X9 m d (Proc.devRef .tc main_arg8) = (m ((d.tc : Thread nD τ).loc main_arg8)) :=
  (X9_keep m d main_arg8 (by decide)).trans (x8_arg8 m d)
theorem x9_arg9 : X9 m d (Proc.devRef .tc main_arg9) = (m ((d.tc : Thread nD τ).loc main_arg9)) :=
  (X9_keep m d main_arg9 (by decide)).trans (x8_arg9 m d)
theorem x9_arg10 : X9 m d (Proc.devRef .tc main_arg10) = (m ((d.tc : Thread nD τ).loc main_arg10)) :=
  (X9_keep m d main_arg10 (by decide)).trans (x8_arg10 m d)
theorem x9_v31 : X9 m d (Proc.devRef .tc main_v31) = val_main_v31 (F := Ideal) (m ((d.tc : Thread nD τ).loc main_arg1)) :=
  (X9_keep m d main_v31 (by decide)).trans (x8_v31 m d)
theorem x9_v1 : X9 m d (Proc.devRef .tc main_v1) = val_main_v1 (F := Ideal) (m ((d.tc : Thread nD τ).loc main_arg1)) :=
  (X9_keep m d main_v1 (by decide)).trans (x8_v1 m d)
theorem x9_v3 : X9 m d (Proc.devRef .tc main_v3) = val_main_v3 (F := Ideal) (m ((d.tc : Thread nD τ).loc main_arg1)) :=
  (X9_keep m d main_v3 (by decide)).trans (x8_v3 m d)

/-- Buffer v185 after segment 8 is the reference's v185 of the launch contents. -/
theorem x9_v185 : X9 m d (Proc.devRef .tc main_v185) = val_main_v185 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg8 (F := Ideal)) (X8 m d) (Proc.devRef .tc main_v185) = _
  simp only [seg8]
  after_results_simp
  rw [x8_v156 m d, x8_v110 m d, x8_arg7 m d, x8_arg8 m d]
  unfold val_main_v185 val_main_v184 val_main_v183 val_main_v182 val_main_v181 val_main_v180 val_main_v179 val_main_v178 val_main_v177 val_main_v176 val_main_v175 val_main_cst_31 val_main_v174 val_main_v173 val_main_v172 val_main_v171 val_main_cst_30 val_main_v170 val_main_v169 val_main_cst_29 val_main_v168 val_main_v167 val_main_v166 val_main_v165 val_main_v164 val_main_cst_28 val_main_v163 val_main_v162 val_main_cst_27 val_main_v161 val_main_v160 val_main_v159 val_main_v158 val_main_v157
  rfl

/-! ### After segment 9: layer 2 up to the bias -/

/-- The contents after segments 0 to 9. -/
def X10 : Valuation τ sig (Elt Ideal) := after (seg9 (F := Ideal)) (X9 m d)

theorem X10_keep (r : Ref sig .tc) (h : r ∉ seg9_W) : X10 m d (Proc.devRef .tc r) = X9 m d (Proc.devRef .tc r) :=
  after_of_writes_sub (seg9 (F := Ideal)) _ seg9_writes h

theorem x10_arg0 : X10 m d (Proc.devRef .tc main_arg0) = (m ((d.tc : Thread nD τ).loc main_arg0)) :=
  (X10_keep m d main_arg0 (by decide)).trans (x9_arg0 m d)
theorem x10_arg1 : X10 m d (Proc.devRef .tc main_arg1) = (m ((d.tc : Thread nD τ).loc main_arg1)) :=
  (X10_keep m d main_arg1 (by decide)).trans (x9_arg1 m d)
theorem x10_arg2 : X10 m d (Proc.devRef .tc main_arg2) = (m ((d.tc : Thread nD τ).loc main_arg2)) :=
  (X10_keep m d main_arg2 (by decide)).trans (x9_arg2 m d)
theorem x10_arg3 : X10 m d (Proc.devRef .tc main_arg3) = (m ((d.tc : Thread nD τ).loc main_arg3)) :=
  (X10_keep m d main_arg3 (by decide)).trans (x9_arg3 m d)
theorem x10_arg4 : X10 m d (Proc.devRef .tc main_arg4) = (m ((d.tc : Thread nD τ).loc main_arg4)) :=
  (X10_keep m d main_arg4 (by decide)).trans (x9_arg4 m d)
theorem x10_arg5 : X10 m d (Proc.devRef .tc main_arg5) = (m ((d.tc : Thread nD τ).loc main_arg5)) :=
  (X10_keep m d main_arg5 (by decide)).trans (x9_arg5 m d)
theorem x10_arg6 : X10 m d (Proc.devRef .tc main_arg6) = (m ((d.tc : Thread nD τ).loc main_arg6)) :=
  (X10_keep m d main_arg6 (by decide)).trans (x9_arg6 m d)
theorem x10_arg7 : X10 m d (Proc.devRef .tc main_arg7) = (m ((d.tc : Thread nD τ).loc main_arg7)) :=
  (X10_keep m d main_arg7 (by decide)).trans (x9_arg7 m d)
theorem x10_arg8 : X10 m d (Proc.devRef .tc main_arg8) = (m ((d.tc : Thread nD τ).loc main_arg8)) :=
  (X10_keep m d main_arg8 (by decide)).trans (x9_arg8 m d)
theorem x10_arg9 : X10 m d (Proc.devRef .tc main_arg9) = (m ((d.tc : Thread nD τ).loc main_arg9)) :=
  (X10_keep m d main_arg9 (by decide)).trans (x9_arg9 m d)
theorem x10_arg10 : X10 m d (Proc.devRef .tc main_arg10) = (m ((d.tc : Thread nD τ).loc main_arg10)) :=
  (X10_keep m d main_arg10 (by decide)).trans (x9_arg10 m d)
theorem x10_v185 : X10 m d (Proc.devRef .tc main_v185) = val_main_v185 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  (X10_keep m d main_v185 (by decide)).trans (x9_v185 m d)

/-- Buffer v230 after segment 9 is the reference's v230 of the launch contents. -/
theorem x10_v230 : X10 m d (Proc.devRef .tc main_v230) = val_main_v230 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg9 (F := Ideal)) (X9 m d) (Proc.devRef .tc main_v230) = _
  simp only [seg9]
  after_results_simp
  rw [x9_v185 m d, x9_v1 m d, x9_v31 m d, x9_v3 m d, x9_arg5 m d, x9_arg6 m d]
  unfold val_main_v230 val_main_v229 val_main_v228 val_main_v227 val_main_v226 val_main_v225 val_main_v224 val_main_v223 val_main_v222 val_main_v221 val_main_v220 val_main_v219 val_main_cst_38 val_main_v218 val_main_v217 val_main_v216 val_main_cst_37 val_main_v215 val_main_v214 val_main_v213 val_main_v212 val_main_v211 val_main_v210 val_main_v209 val_main_c_36 val_main_v208 val_main_v207 val_main_c_35 val_main_v206 val_main_v205 val_main_v204 val_main_v203 val_main_v202 val_main_v201 val_main_v200 val_main_v199 val_main_cst_34 val_main_v198 val_main_v197 val_main_v196 val_main_v195 val_main_v194 val_main_v193 val_main_v192 val_main_c_33 val_main_v191 val_main_v190 val_main_c_32 val_main_v189 val_main_v188 val_main_v187 val_main_v186
  rfl

/-! ### After segment 10: layer 2's clamp at zero (a called function) -/

/-- The contents after segments 0 to 10. -/
def X11 : Valuation τ sig (Elt Ideal) := after (seg10 (F := Ideal)) (X10 m d)

theorem X11_keep (r : Ref sig .tc) (h : r ∉ seg10_W) : X11 m d (Proc.devRef .tc r) = X10 m d (Proc.devRef .tc r) :=
  after_of_writes_sub (seg10 (F := Ideal)) _ seg10_writes h

theorem x11_arg0 : X11 m d (Proc.devRef .tc main_arg0) = (m ((d.tc : Thread nD τ).loc main_arg0)) :=
  (X11_keep m d main_arg0 (by decide)).trans (x10_arg0 m d)
theorem x11_arg1 : X11 m d (Proc.devRef .tc main_arg1) = (m ((d.tc : Thread nD τ).loc main_arg1)) :=
  (X11_keep m d main_arg1 (by decide)).trans (x10_arg1 m d)
theorem x11_arg2 : X11 m d (Proc.devRef .tc main_arg2) = (m ((d.tc : Thread nD τ).loc main_arg2)) :=
  (X11_keep m d main_arg2 (by decide)).trans (x10_arg2 m d)
theorem x11_arg3 : X11 m d (Proc.devRef .tc main_arg3) = (m ((d.tc : Thread nD τ).loc main_arg3)) :=
  (X11_keep m d main_arg3 (by decide)).trans (x10_arg3 m d)
theorem x11_arg4 : X11 m d (Proc.devRef .tc main_arg4) = (m ((d.tc : Thread nD τ).loc main_arg4)) :=
  (X11_keep m d main_arg4 (by decide)).trans (x10_arg4 m d)
theorem x11_arg5 : X11 m d (Proc.devRef .tc main_arg5) = (m ((d.tc : Thread nD τ).loc main_arg5)) :=
  (X11_keep m d main_arg5 (by decide)).trans (x10_arg5 m d)
theorem x11_arg6 : X11 m d (Proc.devRef .tc main_arg6) = (m ((d.tc : Thread nD τ).loc main_arg6)) :=
  (X11_keep m d main_arg6 (by decide)).trans (x10_arg6 m d)
theorem x11_arg7 : X11 m d (Proc.devRef .tc main_arg7) = (m ((d.tc : Thread nD τ).loc main_arg7)) :=
  (X11_keep m d main_arg7 (by decide)).trans (x10_arg7 m d)
theorem x11_arg8 : X11 m d (Proc.devRef .tc main_arg8) = (m ((d.tc : Thread nD τ).loc main_arg8)) :=
  (X11_keep m d main_arg8 (by decide)).trans (x10_arg8 m d)
theorem x11_arg9 : X11 m d (Proc.devRef .tc main_arg9) = (m ((d.tc : Thread nD τ).loc main_arg9)) :=
  (X11_keep m d main_arg9 (by decide)).trans (x10_arg9 m d)
theorem x11_arg10 : X11 m d (Proc.devRef .tc main_arg10) = (m ((d.tc : Thread nD τ).loc main_arg10)) :=
  (X11_keep m d main_arg10 (by decide)).trans (x10_arg10 m d)
theorem x11_v185 : X11 m d (Proc.devRef .tc main_v185) = val_main_v185 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) :=
  (X11_keep m d main_v185 (by decide)).trans (x10_v185 m d)

/-- Buffer v231 after segment 10 is the reference's v231 of the launch contents. -/
theorem x11_v231 : X11 m d (Proc.devRef .tc main_v231) = val_main_v231 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg10 (F := Ideal)) (X10 m d) (Proc.devRef .tc main_v231) = _
  simp only [seg10]
  after_results_simp
  rw [x10_v230 m d]
  unfold val_main_v231 val_main_call3_v0 val_main_call3_cst
  dsimp only [TRef.toBuf, TRef.ofBuf]
  refine cast_eq_of_heq _ _ _ (heq_of_eq ?_)
  rw [cast_cast_cancel, cast_cast_cancel, cast_eq_of_heq _ _ (val_main_v230 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8))) HEq.rfl]

/-! ### After segment 11: layer 2's residual and normalisation -/

/-- The contents after segments 0 to 11. -/
def X12 : Valuation τ sig (Elt Ideal) := after (seg11 (F := Ideal)) (X11 m d)

theorem X12_keep (r : Ref sig .tc) (h : r ∉ seg11_W) : X12 m d (Proc.devRef .tc r) = X11 m d (Proc.devRef .tc r) :=
  after_of_writes_sub (seg11 (F := Ideal)) _ seg11_writes h

theorem x12_arg0 : X12 m d (Proc.devRef .tc main_arg0) = (m ((d.tc : Thread nD τ).loc main_arg0)) :=
  (X12_keep m d main_arg0 (by decide)).trans (x11_arg0 m d)
theorem x12_arg1 : X12 m d (Proc.devRef .tc main_arg1) = (m ((d.tc : Thread nD τ).loc main_arg1)) :=
  (X12_keep m d main_arg1 (by decide)).trans (x11_arg1 m d)
theorem x12_arg2 : X12 m d (Proc.devRef .tc main_arg2) = (m ((d.tc : Thread nD τ).loc main_arg2)) :=
  (X12_keep m d main_arg2 (by decide)).trans (x11_arg2 m d)
theorem x12_arg3 : X12 m d (Proc.devRef .tc main_arg3) = (m ((d.tc : Thread nD τ).loc main_arg3)) :=
  (X12_keep m d main_arg3 (by decide)).trans (x11_arg3 m d)
theorem x12_arg4 : X12 m d (Proc.devRef .tc main_arg4) = (m ((d.tc : Thread nD τ).loc main_arg4)) :=
  (X12_keep m d main_arg4 (by decide)).trans (x11_arg4 m d)
theorem x12_arg5 : X12 m d (Proc.devRef .tc main_arg5) = (m ((d.tc : Thread nD τ).loc main_arg5)) :=
  (X12_keep m d main_arg5 (by decide)).trans (x11_arg5 m d)
theorem x12_arg6 : X12 m d (Proc.devRef .tc main_arg6) = (m ((d.tc : Thread nD τ).loc main_arg6)) :=
  (X12_keep m d main_arg6 (by decide)).trans (x11_arg6 m d)
theorem x12_arg7 : X12 m d (Proc.devRef .tc main_arg7) = (m ((d.tc : Thread nD τ).loc main_arg7)) :=
  (X12_keep m d main_arg7 (by decide)).trans (x11_arg7 m d)
theorem x12_arg8 : X12 m d (Proc.devRef .tc main_arg8) = (m ((d.tc : Thread nD τ).loc main_arg8)) :=
  (X12_keep m d main_arg8 (by decide)).trans (x11_arg8 m d)
theorem x12_arg9 : X12 m d (Proc.devRef .tc main_arg9) = (m ((d.tc : Thread nD τ).loc main_arg9)) :=
  (X12_keep m d main_arg9 (by decide)).trans (x11_arg9 m d)
theorem x12_arg10 : X12 m d (Proc.devRef .tc main_arg10) = (m ((d.tc : Thread nD τ).loc main_arg10)) :=
  (X12_keep m d main_arg10 (by decide)).trans (x11_arg10 m d)

/-- Buffer v260 after segment 11 is the reference's v260 of the launch contents. -/
theorem x12_v260 : X12 m d (Proc.devRef .tc main_v260) = val_main_v260 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) := by
  show after (seg11 (F := Ideal)) (X11 m d) (Proc.devRef .tc main_v260) = _
  simp only [seg11]
  after_results_simp
  rw [x11_v231 m d, x11_v185 m d, x11_arg7 m d, x11_arg8 m d]
  unfold val_main_v260 val_main_v259 val_main_v258 val_main_v257 val_main_v256 val_main_v255 val_main_v254 val_main_v253 val_main_v252 val_main_v251 val_main_v250 val_main_cst_43 val_main_v249 val_main_v248 val_main_v247 val_main_v246 val_main_cst_42 val_main_v245 val_main_v244 val_main_cst_41 val_main_v243 val_main_v242 val_main_v241 val_main_v240 val_main_v239 val_main_cst_40 val_main_v238 val_main_v237 val_main_cst_39 val_main_v236 val_main_v235 val_main_v234 val_main_v233 val_main_v232
  rfl

/-! ### After segment 12: the output projection -/

/-- The contents after segments 0 to 12. -/
def X13 : Valuation τ sig (Elt Ideal) := after (seg12 (F := Ideal)) (X12 m d)

theorem X13_keep (r : Ref sig .tc) (h : r ∉ seg12_W) : X13 m d (Proc.devRef .tc r) = X12 m d (Proc.devRef .tc r) :=
  after_of_writes_sub (seg12 (F := Ideal)) _ seg12_writes h

theorem x13_arg0 : X13 m d (Proc.devRef .tc main_arg0) = (m ((d.tc : Thread nD τ).loc main_arg0)) :=
  (X13_keep m d main_arg0 (by decide)).trans (x12_arg0 m d)
theorem x13_arg1 : X13 m d (Proc.devRef .tc main_arg1) = (m ((d.tc : Thread nD τ).loc main_arg1)) :=
  (X13_keep m d main_arg1 (by decide)).trans (x12_arg1 m d)
theorem x13_arg2 : X13 m d (Proc.devRef .tc main_arg2) = (m ((d.tc : Thread nD τ).loc main_arg2)) :=
  (X13_keep m d main_arg2 (by decide)).trans (x12_arg2 m d)
theorem x13_arg3 : X13 m d (Proc.devRef .tc main_arg3) = (m ((d.tc : Thread nD τ).loc main_arg3)) :=
  (X13_keep m d main_arg3 (by decide)).trans (x12_arg3 m d)
theorem x13_arg4 : X13 m d (Proc.devRef .tc main_arg4) = (m ((d.tc : Thread nD τ).loc main_arg4)) :=
  (X13_keep m d main_arg4 (by decide)).trans (x12_arg4 m d)
theorem x13_arg5 : X13 m d (Proc.devRef .tc main_arg5) = (m ((d.tc : Thread nD τ).loc main_arg5)) :=
  (X13_keep m d main_arg5 (by decide)).trans (x12_arg5 m d)
theorem x13_arg6 : X13 m d (Proc.devRef .tc main_arg6) = (m ((d.tc : Thread nD τ).loc main_arg6)) :=
  (X13_keep m d main_arg6 (by decide)).trans (x12_arg6 m d)
theorem x13_arg7 : X13 m d (Proc.devRef .tc main_arg7) = (m ((d.tc : Thread nD τ).loc main_arg7)) :=
  (X13_keep m d main_arg7 (by decide)).trans (x12_arg7 m d)
theorem x13_arg8 : X13 m d (Proc.devRef .tc main_arg8) = (m ((d.tc : Thread nD τ).loc main_arg8)) :=
  (X13_keep m d main_arg8 (by decide)).trans (x12_arg8 m d)
theorem x13_arg9 : X13 m d (Proc.devRef .tc main_arg9) = (m ((d.tc : Thread nD τ).loc main_arg9)) :=
  (X13_keep m d main_arg9 (by decide)).trans (x12_arg9 m d)
theorem x13_arg10 : X13 m d (Proc.devRef .tc main_arg10) = (m ((d.tc : Thread nD τ).loc main_arg10)) :=
  (X13_keep m d main_arg10 (by decide)).trans (x12_arg10 m d)

/-- Buffer v264 after segment 12 is the reference's v264 of the launch contents. -/
theorem x13_v264 : X13 m d (Proc.devRef .tc main_v264) = val_main_v264 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  show after (seg12 (F := Ideal)) (X12 m d) (Proc.devRef .tc main_v264) = _
  simp only [seg12]
  after_results_simp
  rw [x12_v260 m d, x12_arg9 m d, x12_arg10 m d]
  unfold val_main_v264 val_main_v263 val_main_v262 val_main_v261
  rfl

/-! ### The whole list -/

/-- The reference's operations are the thirteen segments in order. -/
theorem ops_eq {F : FTy → Type} [FloatOps F] :
    (ValueP.ops (F := F)) = seg0 ++ (seg1 ++ (seg2 ++ (seg3 ++ (seg4 ++ (seg5 ++ (seg6 ++ (seg7 ++ (seg8 ++ (seg9 ++ (seg10 ++ (seg11 ++ seg12))))))))))) := rfl

/-- The fold of the whole list over the launch contents is the last boundary. -/
theorem after_ops : after (ValueP.ops (F := Ideal)) (launchContents m d) = X13 m d := by
  rw [ops_eq, after_append, after_append, after_append, after_append, after_append, after_append, after_append, after_append, after_append, after_append, after_append, after_append]
  unfold X13 X12 X11 X10 X9 X8 X7 X6 X5 X4 X3 X2 X1 X0
  rfl

/-- The result buffer at the end of the fold is the reference's result of the arguments' launch contents. -/
theorem fold_result :
    after (ValueP.ops (F := Ideal)) (launchContents m d) (Proc.devRef .tc main_v264) = val_main_v264 (F := Ideal) (m ((d.tc : Thread nD τ).loc main_arg0)) (m ((d.tc : Thread nD τ).loc main_arg1)) (m ((d.tc : Thread nD τ).loc main_arg3)) (m ((d.tc : Thread nD τ).loc main_arg4)) (m ((d.tc : Thread nD τ).loc main_arg5)) (m ((d.tc : Thread nD τ).loc main_arg6)) (m ((d.tc : Thread nD τ).loc main_arg7)) (m ((d.tc : Thread nD τ).loc main_arg8)) (m ((d.tc : Thread nD τ).loc main_arg9)) (m ((d.tc : Thread nD τ).loc main_arg10)) := by
  rw [after_ops]
  exact x13_v264 m d

/-- No operation writes argument 0. -/
theorem fold_arg0 :
    after (ValueP.ops (F := Ideal)) (launchContents m d) (Proc.devRef .tc main_arg0) = (m ((d.tc : Thread nD τ).loc main_arg0)) := by
  rw [after_ops]
  exact x13_arg0 m d

/-- No operation writes argument 1. -/
theorem fold_arg1 :
    after (ValueP.ops (F := Ideal)) (launchContents m d) (Proc.devRef .tc main_arg1) = (m ((d.tc : Thread nD τ).loc main_arg1)) := by
  rw [after_ops]
  exact x13_arg1 m d

/-- No operation writes argument 2. -/
theorem fold_arg2 :
    after (ValueP.ops (F := Ideal)) (launchContents m d) (Proc.devRef .tc main_arg2) = (m ((d.tc : Thread nD τ).loc main_arg2)) := by
  rw [after_ops]
  exact x13_arg2 m d

/-- No operation writes argument 3. -/
theorem fold_arg3 :
    after (ValueP.ops (F := Ideal)) (launchContents m d) (Proc.devRef .tc main_arg3) = (m ((d.tc : Thread nD τ).loc main_arg3)) := by
  rw [after_ops]
  exact x13_arg3 m d

/-- No operation writes argument 4. -/
theorem fold_arg4 :
    after (ValueP.ops (F := Ideal)) (launchContents m d) (Proc.devRef .tc main_arg4) = (m ((d.tc : Thread nD τ).loc main_arg4)) := by
  rw [after_ops]
  exact x13_arg4 m d

/-- No operation writes argument 5. -/
theorem fold_arg5 :
    after (ValueP.ops (F := Ideal)) (launchContents m d) (Proc.devRef .tc main_arg5) = (m ((d.tc : Thread nD τ).loc main_arg5)) := by
  rw [after_ops]
  exact x13_arg5 m d

/-- No operation writes argument 6. -/
theorem fold_arg6 :
    after (ValueP.ops (F := Ideal)) (launchContents m d) (Proc.devRef .tc main_arg6) = (m ((d.tc : Thread nD τ).loc main_arg6)) := by
  rw [after_ops]
  exact x13_arg6 m d

/-- No operation writes argument 7. -/
theorem fold_arg7 :
    after (ValueP.ops (F := Ideal)) (launchContents m d) (Proc.devRef .tc main_arg7) = (m ((d.tc : Thread nD τ).loc main_arg7)) := by
  rw [after_ops]
  exact x13_arg7 m d

/-- No operation writes argument 8. -/
theorem fold_arg8 :
    after (ValueP.ops (F := Ideal)) (launchContents m d) (Proc.devRef .tc main_arg8) = (m ((d.tc : Thread nD τ).loc main_arg8)) := by
  rw [after_ops]
  exact x13_arg8 m d

/-- No operation writes argument 9. -/
theorem fold_arg9 :
    after (ValueP.ops (F := Ideal)) (launchContents m d) (Proc.devRef .tc main_arg9) = (m ((d.tc : Thread nD τ).loc main_arg9)) := by
  rw [after_ops]
  exact x13_arg9 m d

/-- No operation writes argument 10. -/
theorem fold_arg10 :
    after (ValueP.ops (F := Ideal)) (launchContents m d) (Proc.devRef .tc main_arg10) = (m ((d.tc : Thread nD τ).loc main_arg10)) := by
  rw [after_ops]
  exact x13_arg10 m d

/-- Every weakly fair execution of the reference terminates, nothing faulting, with the result buffer holding the
    network of the arguments' launch contents and every argument unchanged. -/
theorem run (ρ : Dev nD → PrngReg) :
    θ_run (defs (F := Ideal)) (onTc (τ := τ) (main (F := Ideal))) ⟨m, fun _ => 0, ρ⟩ fun r => ∀ c : Dev nD,
      r.2.mem ((c.tc : Thread nD τ).loc main_v264) = Cert.Cheb.net (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run (defs (F := Ideal)) _ _).mono (fun r h c =>
    ⟨(h c main_v264).trans ((fold_result m c).trans (result _ _ _ _ _ _ _ _ _ _)),
      (h c main_arg0).trans (fold_arg0 m c),
      (h c main_arg1).trans (fold_arg1 m c),
      (h c main_arg2).trans (fold_arg2 m c),
      (h c main_arg3).trans (fold_arg3 m c),
      (h c main_arg4).trans (fold_arg4 m c),
      (h c main_arg5).trans (fold_arg5 m c),
      (h c main_arg6).trans (fold_arg6 m c),
      (h c main_arg7).trans (fold_arg7 m c),
      (h c main_arg8).trans (fold_arg8 m c),
      (h c main_arg9).trans (fold_arg9 m c),
      (h c main_arg10).trans (fold_arg10 m c)⟩) (ValueP.run_fold m ρ)

end Cert.ReferenceIdeal.Net

end
-- ==== Proof.lean ====
/-
  The proof of `Cert.Claim`: the three frames, the empty idealization ledger, and the equivalence of the idealized
  kernel and the idealized reference over the extended reals.

  Both programs compute one network of their ten argument arrays: an input projection, three Chebyshev graph layers
  (each propagates the previous features once and twice over the edge list, combines the three terms with the layer's
  weights, adds the bias, clamps at zero, adds the residual and layer-normalises each row), and an output projection.
  The kernel's run ends with its result array at that network of the launch arguments (Proof/KernelNet.lean, from the
  per-region arrays of Proof/DenseValue0, CombineValue1–3, DenseValue4 and the host stretches between them); the
  reference's run ends at the same network (Proof/RefRun.lean: its 319 host operations read back stage by stage, then Proof/RefNet.lean and
  Proof/RefGlue.lean, one operation at a time). The
  graph side — degrees, edge weights, propagation — is the same function on both sides and is never opened, so no
  finiteness is used: every step is the same sum or product in the same order.
-/
import proofs.«120199_j53815940218921_1_alg».proof.Defs
import proofs.«120199_j53815940218921_1_alg».proof.Proof.Gen.Kernel
import proofs.«120199_j53815940218921_1_alg».proof.Proof.Gen.Kernel.Skeleton
import proofs.«120199_j53815940218921_1_alg».proof.Proof.Gen.Kernel.Launch
import proofs.«120199_j53815940218921_1_alg».proof.Proof.Gen.Kernel.Points
import proofs.«120199_j53815940218921_1_alg».proof.Proof.Gen.Kernel.Frame
import proofs.«120199_j53815940218921_1_alg».proof.Proof.Gen.KernelIdeal
import proofs.«120199_j53815940218921_1_alg».proof.Proof.Gen.KernelIdeal.Skeleton
import proofs.«120199_j53815940218921_1_alg».proof.Proof.Gen.KernelIdeal.Launch
import proofs.«120199_j53815940218921_1_alg».proof.Proof.Gen.KernelIdeal.Points
import proofs.«120199_j53815940218921_1_alg».proof.Proof.Gen.KernelIdeal.Frame
import proofs.«120199_j53815940218921_1_alg».proof.Proof.Gen.ReferenceIdeal
import proofs.«120199_j53815940218921_1_alg».proof.Proof.Gen.Pre_finite_inputs
import proofs.«120199_j53815940218921_1_alg».proof.Proof.KernelNet
import proofs.«120199_j53815940218921_1_alg».proof.Proof.RefRun
import Idealize.ShloMosaic.Adequacy
import Idealize.ShloMosaic.Init

noncomputable section

namespace Cert.Proof

open Idealize.ShloMosaic Idealize.SL.Sem

/-- The word-level kernel runs and keeps its arguments. -/
theorem frame_kernel : @Cert.frame_Kernel Cert.Kernel.Gen.facts Cert.Pre_finite_inputs.Gen.facts :=
  fun m ρ _ => Cert.Kernel.Gen.frame m ρ

/-- The idealized kernel runs and keeps its arguments. -/
theorem frame_kernelIdeal : @Cert.frame_KernelIdeal Cert.KernelIdeal.Gen.facts Cert.Pre_finite_inputs.Gen.facts :=
  fun m ρ _ => Cert.KernelIdeal.Gen.frame m ρ

/-- The idealized reference runs and keeps its arguments: its run with the result dropped. -/
theorem frame_referenceIdeal : @Cert.frame_ReferenceIdeal Cert.ReferenceIdeal.Gen.facts Cert.Pre_finite_inputs.Gen.facts :=
  fun m ρ _ => (θ_run Cert.ReferenceIdeal.defs _ _).mono (fun _ h c => (h c).2)
    (Cert.ReferenceIdeal.Net.run m ρ)

/-- From memories agreeing on the arguments both idealized programs end with the network of those arguments. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.Net.run m' ρ')
  obtain ⟨h0, h1, h2, h3, h4, h5, h6, h7, h8, h9, h10⟩ := hagree c
  rw [h0, h1, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
